-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v24)) (v3 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S2048x20000 : Shape := ⟨2, ![2048, 20000]⟩
abbrev S20000x1024 : Shape := ⟨2, ![20000, 1024]⟩
abbrev S1024 : Shape := ⟨1, ![1024]⟩
abbrev S1024x512 : Shape := ⟨2, ![1024, 512]⟩
abbrev S512 : Shape := ⟨1, ![512]⟩
abbrev S512x1024 : Shape := ⟨2, ![512, 1024]⟩
abbrev S1024x20000 : Shape := ⟨2, ![1024, 20000]⟩
abbrev S20000 : Shape := ⟨1, ![20000]⟩
abbrev S_ : Shape := ⟨0, ![]⟩

class Facts : Prop where
  bcast_S_S2048x20000 : S_.BroadcastsInDim S2048x20000 (![] : Fin 0 → Fin S2048x20000.rank)
  reducesTo_S2048x20000_S_d0_1 : S2048x20000.ReducesTo [0, 1] S_
  h_S_ : 0 < S_.numel
  bcast_S_S20000x1024 : S_.BroadcastsInDim S20000x1024 (![] : Fin 0 → Fin S20000x1024.rank)
  reducesTo_S20000x1024_S_d0_1 : S20000x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024x20000 : S_.BroadcastsInDim S1024x20000 (![] : Fin 0 → Fin S1024x20000.rank)
  reducesTo_S1024x20000_S_d0_1 : S1024x20000.ReducesTo [0, 1] S_
  bcast_S_S20000 : S_.BroadcastsInDim S20000 (![] : Fin 0 → Fin S20000.rank)
  reducesTo_S20000_S_d0 : S20000.ReducesTo [0] S_

variable [Facts]

def fn_part3 {F : FTy → Type} [FloatOps F] (main_arg13 : FVec F S1024x20000 .f32) (main_arg14 : FVec F S20000 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x20000 .f32 := Host.absf main_arg13
  let main_cst_20 : FVec F S_ .f32 := constant S_ .f32 0x7F800000#32
  let main_v55 : FVec F S1024x20000 .f32 := broadcastInDim S1024x20000 ![] bcast_S_S1024x20000 main_cst_20
  let main_v56 : IVec S1024x20000 1 := cmpf .olt main_v54 main_v55
  let main_c_21 : IVec S_ 1 := constantI S_ 1 1#1
  let main_v57 : IVec S_ 1 := (fun x v => Host.reduce IntOp.andi x v reducesTo_S1024x20000_S_d0_1 h_S_) main_v56 main_c_21
  let main_v58 : IVec S_ 1 := andi main_v53 main_v57
  let main_v59 : FVec F S20000 .f32 := Host.absf main_arg14
  let main_cst_22 : FVec F S_ .f32 := constant S_ .f32 0x7F800000#32
  let main_v60 : FVec F S20000 .f32 := broadcastInDim S20000 ![] bcast_S_S20000 main_cst_22
  let main_v61 : IVec S20000 1 := cmpf .olt main_v59 main_v60
  let main_c_23 : IVec S_ 1 := constantI S_ 1 1#1
  let main_v62 : IVec S_ 1 := (fun x v => Host.reduce IntOp.andi x v reducesTo_S20000_S_d0 h_S_) main_v61 main_c_23
  let main_v63 : IVec S_ 1 := andi main_v58 main_v62
  main_v63

def fn_part2 {F : FTy → Type} [FloatOps F] (main_arg9 : FVec F S1024x20000 .f32) (main_arg10 : FVec F S20000 .f32) (main_arg11 : FVec F S512x1024 .f32) (main_arg12 : FVec F S1024 .f32) (main_arg13 : FVec F S1024x20000 .f32) (main_arg14 : FVec F S20000 .f32) (main_v33 : IVec S_ 1) : IVec S_ 1 :=
  let main_v34 : FVec F S1024x20000 .f32 := Host.absf main_arg9
  let main_cst_12 : FVec F S_ .f32 := constant S_ .f32 0x7F800000#32
  let main_v35 : FVec F S1024x20000 .f32 := broadcastInDim S1024x20000 ![] bcast_S_S1024x20000 main_cst_12
  let main_v36 : IVec S1024x20000 1 := cmpf .olt main_v34 main_v35
  let main_c_13 : IVec S_ 1 := constantI S_ 1 1#1
  let main_v37 : IVec S_ 1 := (fun x v => Host.reduce IntOp.andi x v reducesTo_S1024x20000_S_d0_1 h_S_) main_v36 main_c_13
  let main_v38 : IVec S_ 1 := andi main_v33 main_v37
  let main_v39 : FVec F S20000 .f32 := Host.absf main_arg10
  let main_cst_14 : FVec F S_ .f32 := constant S_ .f32 0x7F800000#32
  let main_v40 : FVec F S20000 .f32 := broadcastInDim S20000 ![] bcast_S_S20000 main_cst_14
  let main_v41 : IVec S20000 1 := cmpf .olt main_v39 main_v40
  let main_c_15 : IVec S_ 1 := constantI S_ 1 1#1
  let main_v42 : IVec S_ 1 := (fun x v => Host.reduce IntOp.andi x v reducesTo_S20000_S_d0 h_S_) main_v41 main_c_15
  let main_v43 : IVec S_ 1 := andi main_v38 main_v42
  let main_v44 : FVec F S512x1024 .f32 := Host.absf main_arg11
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S1024 .f32 := Host.absf main_arg12
  let main_cst_18 : FVec F S_ .f32 := constant S_ .f32 0x7F800000#32
  let main_v50 : FVec F S1024 .f32 := broadcastInDim S1024 ![] bcast_S_S1024 main_cst_18
  fn_part3 (F := F) main_arg13 main_arg14 main_v48 main_v49 main_v50

def fn_part1 {F : FTy → Type} [FloatOps F] (main_arg6 : FVec F S512 .f32) (main_arg7 : FVec F S512x1024 .f32) (main_arg8 : FVec F S1024 .f32) (main_arg9 : FVec F S1024x20000 .f32) (main_arg10 : FVec F S20000 .f32) (main_arg11 : FVec F S512x1024 .f32) (main_arg12 : FVec F S1024 .f32) (main_arg13 : FVec F S1024x20000 .f32) (main_arg14 : FVec F S20000 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg7
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : IVec S2048 32) (main_arg1 : FVec F S2048x20000 .f32) (main_arg2 : IVec S2048x20000 1) (main_arg3 : FVec F S20000x1024 .f32) (main_arg4 : FVec F S1024 .f32) (main_arg5 : FVec F S1024x512 .f32) (main_arg6 : FVec F S512 .f32) (main_arg7 : FVec F S512x1024 .f32) (main_arg8 : FVec F S1024 .f32) (main_arg9 : FVec F S1024x20000 .f32) (main_arg10 : FVec F S20000 .f32) (main_arg11 : FVec F S512x1024 .f32) (main_arg12 : FVec F S1024 .f32) (main_arg13 : FVec F S1024x20000 .f32) (main_arg14 : FVec F S20000 .f32) : IVec S_ 1 :=
  let main_v0 : FVec F S2048x20000 .f32 := Host.absf main_arg1
  let main_cst : FVec F S_ .f32 := constant S_ .f32 0x7F800000#32
  let main_v1 : FVec F S2048x20000 .f32 := broadcastInDim S2048x20000 ![] bcast_S_S2048x20000 main_cst
  let main_v2 : IVec S2048x20000 1 := cmpf .olt main_v0 main_v1
  let main_c : IVec S_ 1 := constantI S_ 1 1#1
  let main_v3 : IVec S_ 1 := (fun x v => Host.reduce IntOp.andi x v reducesTo_S2048x20000_S_d0_1 h_S_) main_v2 main_c
  let main_v4 : FVec F S20000x1024 .f32 := Host.absf main_arg3
  let main_cst_0 : FVec F S_ .f32 := constant S_ .f32 0x7F800000#32
  let main_v5 : FVec F S20000x1024 .f32 := broadcastInDim S20000x1024 ![] bcast_S_S20000x1024 main_cst_0
  let main_v6 : IVec S20000x1024 1 := cmpf .olt main_v4 main_v5
  let main_c_1 : IVec S_ 1 := constantI S_ 1 1#1
  let main_v7 : IVec S_ 1 := (fun x v => Host.reduce IntOp.andi x v reducesTo_S20000x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x512 .f32 := Host.absf main_arg5
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg6 main_arg7 main_arg8 main_arg9 main_arg10 main_arg11 main_arg12 main_arg13 main_arg14 main_v13 main_v16
-- ==== Kernel.lean ====
abbrev S2048 : Shape := ⟨1, ![2048]⟩
abbrev S2048x20000 : Shape := ⟨2, ![2048, 20000]⟩
abbrev S20000x1024 : Shape := ⟨2, ![20000, 1024]⟩
abbrev S1024 : Shape := ⟨1, ![1024]⟩
abbrev S1024x512 : Shape := ⟨2, ![1024, 512]⟩
abbrev S512 : Shape := ⟨1, ![512]⟩
abbrev S512x1024 : Shape := ⟨2, ![512, 1024]⟩
abbrev S1024x20000 : Shape := ⟨2, ![1024, 20000]⟩
abbrev S20000 : Shape := ⟨1, ![20000]⟩
abbrev S_ : Shape := ⟨0, ![]⟩
abbrev S2048x20480 : Shape := ⟨2, ![2048, 20480]⟩
abbrev S20480x1024 : Shape := ⟨2, ![20480, 1024]⟩
abbrev S1x1024 : Shape := ⟨2, ![1, 1024]⟩
abbrev S1x512 : Shape := ⟨2, ![1, 512]⟩
abbrev S2048x512 : Shape := ⟨2, ![2048, 512]⟩
abbrev S512x2048 : Shape := ⟨2, ![512, 2048]⟩
abbrev S2048x1024 : Shape := ⟨2, ![2048, 1024]⟩
abbrev S512x512 : Shape := ⟨2, ![512, 512]⟩
abbrev S1024x20480 : Shape := ⟨2, ![1024, 20480]⟩
abbrev S1x20000 : Shape := ⟨2, ![1, 20000]⟩
abbrev S1x20480 : Shape := ⟨2, ![1, 20480]⟩
abbrev S1024x2048 : Shape := ⟨2, ![1024, 2048]⟩
abbrev S1x2048 : Shape := ⟨2, ![1, 2048]⟩
abbrev S2048x2048 : Shape := ⟨2, ![2048, 2048]⟩
abbrev S512x1 : Shape := ⟨2, ![512, 1]⟩

abbrev nBuf : Space → Nat
  | .hbm => 58
  | .vmem => 45
  | .smem => 0
  | _ => 0

abbrev bufTy : (tb : Table) → Fin (tcTables nBuf tb) → BufTy
  | .hbm, ⟨0, _⟩ => ⟨S2048, .i32⟩
  | .hbm, ⟨1, _⟩ => ⟨S2048x20000, .f32⟩
  | .hbm, ⟨2, _⟩ => ⟨S2048x20000, .i1⟩
  | .hbm, ⟨3, _⟩ => ⟨S20000x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x1024, .f32⟩
  | .hbm, ⟨8, _⟩ => ⟨S1024, .f32⟩
  | .hbm, ⟨9, _⟩ => ⟨S1024x20000, .f32⟩
  | .hbm, ⟨10, _⟩ => ⟨S20000, .f32⟩
  | .hbm, ⟨11, _⟩ => ⟨S512x1024, .f32⟩
  | .hbm, ⟨12, _⟩ => ⟨S1024, .f32⟩
  | .hbm, ⟨13, _⟩ => ⟨S1024x20000, .f32⟩
  | .hbm, ⟨14, _⟩ => ⟨S20000, .f32⟩
  | .hbm, ⟨15, _⟩ => ⟨S2048x20000, .f32⟩
  | .hbm, ⟨16, _⟩ => ⟨S_, .i32⟩
  | .hbm, ⟨17, _⟩ => ⟨S_, .f32⟩
  | .hbm, ⟨18, _⟩ => ⟨S2048x20480, .f32⟩
  | .hbm, ⟨19, _⟩ => ⟨S_, .i32⟩
  | .hbm, ⟨20, _⟩ => ⟨S_, .f32⟩
  | .hbm, ⟨21, _⟩ => ⟨S2048x20480, .f32⟩
  | .hbm, ⟨22, _⟩ => ⟨S_, .i32⟩
  | .hbm, ⟨23, _⟩ => ⟨S_, .f32⟩
  | .hbm, ⟨24, _⟩ => ⟨S20480x1024, .f32⟩
  | .hbm, ⟨25, _⟩ => ⟨S20480x1024, .bf16⟩
  | .hbm, ⟨26, _⟩ => ⟨S1024x512, .bf16⟩
  | .hbm, ⟨27, _⟩ => ⟨S1x1024, .f32⟩
  | .hbm, ⟨28, _⟩ => ⟨S1x512, .f32⟩
  | .hbm, ⟨29, _⟩ => ⟨S2048x512, .f32⟩
  | .hbm, ⟨30, _⟩ => ⟨S512x1024, .bf16⟩
  | .hbm, ⟨31, _⟩ => ⟨S_, .i32⟩
  | .hbm, ⟨32, _⟩ => ⟨S_, .f32⟩
  | .hbm, ⟨33, _⟩ => ⟨S1024x20480, .f32⟩
  | .hbm, ⟨34, _⟩ => ⟨S1024x20480, .bf16⟩
  | .hbm, ⟨35, _⟩ => ⟨S1x1024, .f32⟩
  | .hbm, ⟨36, _⟩ => ⟨S1x20000, .f32⟩
  | .hbm, ⟨37, _⟩ => ⟨S_, .i32⟩
  | .hbm, ⟨38, _⟩ => ⟨S_, .f32⟩
  | .hbm, ⟨39, _⟩ => ⟨S1x20480, .f32⟩
  | .hbm, ⟨40, _⟩ => ⟨S2048x20480, .f32⟩
  | .hbm, ⟨41, _⟩ => ⟨S2048x20000, .f32⟩
  | .hbm, ⟨42, _⟩ => ⟨S512x1024, .bf16⟩
  | .hbm, ⟨43, _⟩ => ⟨S_, .i32⟩
  | .hbm, ⟨44, _⟩ => ⟨S_, .f32⟩
  | .hbm, ⟨45, _⟩ => ⟨S1024x20480, .f32⟩
  | .hbm, ⟨46, _⟩ => ⟨S1024x20480, .bf16⟩
  | .hbm, ⟨47, _⟩ => ⟨S1x1024, .f32⟩
  | .hbm, ⟨48, _⟩ => ⟨S1x20000, .f32⟩
  | .hbm, ⟨49, _⟩ => ⟨S_, .i32⟩
  | .hbm, ⟨50, _⟩ => ⟨S_, .f32⟩
  | .hbm, ⟨51, _⟩ => ⟨S1x20480, .f32⟩
  | .hbm, ⟨52, _⟩ => ⟨S2048x20480, .f32⟩
  | .hbm, ⟨53, _⟩ => ⟨S2048x20000, .f32⟩
  | .hbm, ⟨54, _⟩ => ⟨S2048x2048, .f32⟩
  | .hbm, ⟨55, _⟩ => ⟨S1x20480, .f32⟩
  | .hbm, ⟨56, _⟩ => ⟨S1x20000, .f32⟩
  | .hbm, ⟨57, _⟩ => ⟨S20000, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2048x1024, .bf16⟩
  | .local _ .vmem, ⟨5, _⟩ => ⟨S2048x1024, .bf16⟩
  | .local _ .vmem, ⟨6, _⟩ => ⟨S1x1024, .f32⟩
  | .local _ .vmem, ⟨7, _⟩ => ⟨S1024x512, .bf16⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x1024, .f32⟩
  | .local _ .vmem, ⟨12, _⟩ => ⟨S512x512, .f32⟩
  | .local _ .vmem, ⟨13, _⟩ => ⟨S512x512, .f32⟩
  | .local _ .vmem, ⟨14, _⟩ => ⟨S512x1024, .bf16⟩
  | .local _ .vmem, ⟨15, _⟩ => ⟨S1x1024, .f32⟩
  | .local _ .vmem, ⟨16, _⟩ => ⟨S1024x2048, .bf16⟩
  | .local _ .vmem, ⟨17, _⟩ => ⟨S1024x2048, .bf16⟩
  | .local _ .vmem, ⟨18, _⟩ => ⟨S1x2048, .f32⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S512x1024, .bf16⟩
  | .local _ .vmem, ⟨23, _⟩ => ⟨S512x512, .f32⟩
  | .local _ .vmem, ⟨24, _⟩ => ⟨S512x512, .f32⟩
  | .local _ .vmem, ⟨25, _⟩ => ⟨S512x1024, .bf16⟩
  | .local _ .vmem, ⟨26, _⟩ => ⟨S1x1024, .f32⟩
  | .local _ .vmem, ⟨27, _⟩ => ⟨S1024x2048, .bf16⟩
  | .local _ .vmem, ⟨28, _⟩ => ⟨S1024x2048, .bf16⟩
  | .local _ .vmem, ⟨29, _⟩ => ⟨S1x2048, .f32⟩
  | .local _ .vmem, ⟨30, _⟩ => ⟨S1x2048, .f32⟩
  | .local _ .vmem, ⟨31, _⟩ => ⟨S512x2048, .f32⟩
  | .local _ .vmem, ⟨32, _⟩ => ⟨S512x2048, .f32⟩
  | .local _ .vmem, ⟨33, _⟩ => ⟨S512x1024, .bf16⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x512, .f32⟩
  | .local _ .vmem, ⟨39, _⟩ => ⟨S512x512, .f32⟩
  | .local _ .vmem, ⟨40, _⟩ => ⟨S512x2048, .f32⟩
  | .local _ .vmem, ⟨41, _⟩ => ⟨S512x2048, .f32⟩
  | .local _ .vmem, ⟨42, _⟩ => ⟨S1x2048, .f32⟩
  | .local _ .vmem, ⟨43, _⟩ => ⟨S1x2048, .f32⟩
  | .local _ .vmem, ⟨44, _⟩ => ⟨S1x2048, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_c_0 : Ref sig .tc := ⟨.hbm, 19, rfl⟩
abbrev main_call1_v0 : Ref sig .tc := ⟨.hbm, 20, rfl⟩
abbrev main_v2 : Ref sig .tc := ⟨.hbm, 21, rfl⟩
abbrev main_c_1 : Ref sig .tc := ⟨.hbm, 22, rfl⟩
abbrev main_call2_v0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_2 : Ref sig .tc := ⟨.hbm, 31, rfl⟩
abbrev main_call3_v0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_3 : Ref sig .tc := ⟨.hbm, 37, rfl⟩
abbrev main_call4_v0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_4 : Ref sig .tc := ⟨.hbm, 43, rfl⟩
abbrev main_call5_v0 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_5 : Ref sig .tc := ⟨.hbm, 49, rfl⟩
abbrev main_call6_v0 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_scratch0 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_scratch0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc4_sem0_0 : DmaSem sig := 37
abbrev cc4_sem0_1 : DmaSem sig := 38
abbrev cc4_sem1_0 : DmaSem sig := 39
abbrev cc4_sem1_1 : DmaSem sig := 40

abbrev nD : Nat := 1
abbrev τ : Topo := Topo.v7x

variable {F : FTy → Type} [FloatOps F]

abbrev grid0 : Pipeline.Grid := ⟨2, ![4, 10], ![false, false]⟩

def k0_cond2 (i : grid0.Coords) : BitVec 1 :=
  let arg1 : BitVec 32 := BitVec.ofNat 32 (i 1).val
  let c9_i32 : BitVec 32 := 9#32
  let v19 : BitVec 1 := Scalar.cmpi .eq arg1 c9_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![4, 10], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S512x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![4, 10], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S512x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![10, 4], ![false, false]⟩

def k4_cond2 (i : grid4.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_6 : BitVec 32 := 0#32
  let v14 : BitVec 1 := Scalar.cmpi .ne v13 c0_i32_6
  v14

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S512x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

class Facts₀ : Prop where
  pads_S2048x20000_S2048x20480_000_04800 : S2048x20000.Pads (![0, 0] : Fin 2 → Nat) ![0, 480] ![0, 0] S2048x20480
  h_S_ : 0 < S_.numel
  pads_S20000x1024_S20480x1024_04800_000 : S20000x1024.Pads (![0, 0] : Fin 2 → Nat) ![480, 0] ![0, 0] S20480x1024
  bitsLt_bf16_f32 : FTy.bits .bf16 < FTy.bits .f32
  shapeCasts_S1024_S1x1024 : S1024.ShapeCasts S1x1024
  shapeCasts_S512_S1x512 : S512.ShapeCasts S1x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  pads_S1024x20000_S1024x20480_000_04800 : S1024x20000.Pads (![0, 0] : Fin 2 → Nat) ![0, 480] ![0, 0] S1024x20480
  shapeCasts_S20000_S1x20000 : S20000.ShapeCasts S1x20000
  pads_S1x20000_S1x20480_000_04800 : S1x20000.Pads (![0, 0] : Fin 2 → Nat) ![0, 480] ![0, 0] S1x20480
  shapeCasts_S512x512_S512x512 : S512x512.ShapeCasts S512x512
  packedbf16_S512x1024_S512x1024_0_0 : (Rect.unit (s := S512x1024) ![0, 0] S512x1024.size inb_S512x1024_S512x1024_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S2048x20480_S2048x20000_0_0 : S2048x20480.Slices ![0, 0] S2048x20000
  reduces_S512x512_S512 : S512x512.Reduces [1] S512
  shapeCasts_S512_S512x1 : S512.ShapeCasts S512x1
  broadcasts_S512x1_S512x512 : S512x1.Broadcasts S512x512
  transposes_S512x512_p1_0_S512x512 : S512x512.Transposes [1, 0] S512x512
  reduces_S512x2048_S2048 : S512x2048.Reduces [0] S2048
  shapeCasts_S2048_S1x2048 : S2048.ShapeCasts S1x2048
  slices_S1x20480_S1x20000_0_0 : S1x20480.Slices ![0, 0] S1x20000
  shapeCasts_S1x20000_S20000 : S1x20000.ShapeCasts S20000
  dot_S512x2048_S2048x1024_S512x1024_1_0_0_1_n_n_wf : DotDims.WF S512x2048 S2048x1024 S512x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  dot_S512x1024_S1024x2048_S512x2048_1_0_0_1_n_n_wf : DotDims.WF S512x1024 S1024x2048 S512x2048 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x20480.size a
  hwx0_0 : ∀ i : grid0.Coords, EltTy.bits .f32 = 32 ∨ (Rect.block (s := S2048x20480) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x20480.size a
  hwx0_1 : ∀ i : grid0.Coords, EltTy.bits .f32 = 32 ∨ (Rect.block (s := S2048x20480) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S20480x1024.size a
  hwx0_2 : ∀ i : grid0.Coords, EltTy.bits .bf16 = 32 ∨ (Rect.block (s := S20480x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S2048x512.size a
  hwx0_6 : ∀ i : grid0.Coords, EltTy.bits .f32 = 32 ∨ (Rect.block (s := S2048x512) S512x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S2048x512.size a
  hwx1_0 : ∀ i : grid1.Coords, EltTy.bits .f32 = 32 ∨ (Rect.block (s := S2048x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S512x1024.size a
  hwx1_1 : ∀ i : grid1.Coords, EltTy.bits .bf16 = 32 ∨ (Rect.block (s := S512x1024) S512x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S1024x20480.size a
  hwx1_3 : ∀ i : grid1.Coords, EltTy.bits .bf16 = 32 ∨ (Rect.block (s := S1024x20480) S1024x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x20480.size a
  hwx1_4 : ∀ i : grid1.Coords, EltTy.bits .f32 = 32 ∨ (Rect.block (s := S1x20480) S1x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x2048.size a ≤ S2048x20480.size a
  hwx1_5 : ∀ i : grid1.Coords, EltTy.bits .f32 = 32 ∨ (Rect.block (s := S2048x20480) S512x2048.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S2048x512.size a
  hwx2_0 : ∀ i : grid2.Coords, EltTy.bits .f32 = 32 ∨ (Rect.block (s := S2048x512) S512x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S512x1024.size a
  hwx2_1 : ∀ i : grid2.Coords, EltTy.bits .bf16 = 32 ∨ (Rect.block (s := S512x1024) S512x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x2048.size a ≤ S1024x20480.size a
  hwx2_3 : ∀ i : grid2.Coords, EltTy.bits .bf16 = 32 ∨ (Rect.block (s := S1024x20480) S1024x2048.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x20480.size a
  hwx2_4 : ∀ i : grid2.Coords, EltTy.bits .f32 = 32 ∨ (Rect.block (s := S1x20480) S1x2048.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x2048.size a ≤ S2048x20480.size a
  hwx2_5 : ∀ i : grid2.Coords, EltTy.bits .f32 = 32 ∨ (Rect.block (s := S2048x20480) S512x2048.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S2048x512.size a
  hwx3_0 : ∀ i : grid3.Coords, EltTy.bits .f32 = 32 ∨ (Rect.block (s := S2048x512) S512x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S2048x512.size a
  hwx3_1 : ∀ i : grid3.Coords, EltTy.bits .f32 = 32 ∨ (Rect.block (s := S2048x512) S512x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S2048x2048.size a
  hwx3_2 : ∀ i : grid3.Coords, EltTy.bits .f32 = 32 ∨ (Rect.block (s := S2048x2048) S512x512.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2048.size a ≤ S2048x20480.size a
  hwx4_0 : ∀ i : grid4.Coords, EltTy.bits .f32 = 32 ∨ (Rect.block (s := S2048x20480) S512x2048.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x2048.size a ≤ S1x20480.size a
  hwx4_1 : ∀ i : grid4.Coords, EltTy.bits .f32 = 32 ∨ (Rect.block (s := S1x20480) S1x2048.size (cc4_transform_1 i) (hinb4_1 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v8) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S512x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1024x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15) S512x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v8) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S512x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1024x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v23) S512x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v8) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S512x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S512x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v1) S512x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S1x2048.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev idle4 : Fin 2 → grid4.Coords → Bool := fun | 0 => fun _ => false | 1 => fun i => !(k4_cond2 i == 1#1) | ⟨_ + 2, h⟩ => absurd h (Nat.not_lt.2 (Nat.le_add_left _ _))

class Facts : Prop extends Facts₀ where

variable [Facts]
-- ==== ReferenceIdeal.lean ====
abbrev S2048 : Shape := ⟨1, ![2048]⟩
abbrev S2048x20000 : Shape := ⟨2, ![2048, 20000]⟩
abbrev S20000x1024 : Shape := ⟨2, ![20000, 1024]⟩
abbrev S1024 : Shape := ⟨1, ![1024]⟩
abbrev S1024x512 : Shape := ⟨2, ![1024, 512]⟩
abbrev S512 : Shape := ⟨1, ![512]⟩
abbrev S512x1024 : Shape := ⟨2, ![512, 1024]⟩
abbrev S1024x20000 : Shape := ⟨2, ![1024, 20000]⟩
abbrev S20000 : Shape := ⟨1, ![20000]⟩
abbrev S_ : Shape := ⟨0, ![]⟩
abbrev S2048x1024 : Shape := ⟨2, ![2048, 1024]⟩
abbrev S1x1024 : Shape := ⟨2, ![1, 1024]⟩
abbrev S2048x512 : Shape := ⟨2, ![2048, 512]⟩
abbrev S1x512 : Shape := ⟨2, ![1, 512]⟩
abbrev S1x20000 : Shape := ⟨2, ![1, 20000]⟩
abbrev S2048x1 : Shape := ⟨2, ![2048, 1]⟩
abbrev S512x2048 : Shape := ⟨2, ![512, 2048]⟩
abbrev S2048x2048 : Shape := ⟨2, ![2048, 2048]⟩

abbrev nBuf : Space → Nat
  | .hbm => 89
  | .vmem => 0
  | .smem => 0
  | _ => 0

abbrev bufTy : (tb : Table) → Fin (tcTables nBuf tb) → BufTy
  | .hbm, ⟨0, _⟩ => ⟨S2048, .i32⟩
  | .hbm, ⟨1, _⟩ => ⟨S2048x20000, .f32⟩
  | .hbm, ⟨2, _⟩ => ⟨S2048x20000, .i1⟩
  | .hbm, ⟨3, _⟩ => ⟨S20000x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x1024, .f32⟩
  | .hbm, ⟨8, _⟩ => ⟨S1024, .f32⟩
  | .hbm, ⟨9, _⟩ => ⟨S1024x20000, .f32⟩
  | .hbm, ⟨10, _⟩ => ⟨S20000, .f32⟩
  | .hbm, ⟨11, _⟩ => ⟨S512x1024, .f32⟩
  | .hbm, ⟨12, _⟩ => ⟨S1024, .f32⟩
  | .hbm, ⟨13, _⟩ => ⟨S1024x20000, .f32⟩
  | .hbm, ⟨14, _⟩ => ⟨S20000, .f32⟩
  | .hbm, ⟨15, _⟩ => ⟨S_, .f32⟩
  | .hbm, ⟨16, _⟩ => ⟨S_, .f32⟩
  | .hbm, ⟨17, _⟩ => ⟨S2048x20000, .f32⟩
  | .hbm, ⟨18, _⟩ => ⟨S2048x20000, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x512, .f32⟩
  | .hbm, ⟨27, _⟩ => ⟨S1x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x20000, .f32⟩
  | .hbm, ⟨41, _⟩ => ⟨S1x20000, .f32⟩
  | .hbm, ⟨42, _⟩ => ⟨S2048x20000, .f32⟩
  | .hbm, ⟨43, _⟩ => ⟨S2048x20000, .f32⟩
  | .hbm, ⟨44, _⟩ => ⟨S2048x20000, .f32⟩
  | .hbm, ⟨45, _⟩ => ⟨S2048x20000, .f32⟩
  | .hbm, ⟨46, _⟩ => ⟨S_, .f32⟩
  | .hbm, ⟨47, _⟩ => ⟨S2048x20000, .f32⟩
  | .hbm, ⟨48, _⟩ => ⟨S2048x20000, .f32⟩
  | .hbm, ⟨49, _⟩ => ⟨S_, .f32⟩
  | .hbm, ⟨50, _⟩ => ⟨S2048x20000, .f32⟩
  | .hbm, ⟨51, _⟩ => ⟨S2048x20000, .f32⟩
  | .hbm, ⟨52, _⟩ => ⟨S2048x1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S2048x1024, .f32⟩
  | .hbm, ⟨58, _⟩ => ⟨S2048x1024, .f32⟩
  | .hbm, ⟨59, _⟩ => ⟨S2048x20000, .f32⟩
  | .hbm, ⟨60, _⟩ => ⟨S1x20000, .f32⟩
  | .hbm, ⟨61, _⟩ => ⟨S2048x20000, .f32⟩
  | .hbm, ⟨62, _⟩ => ⟨S2048x20000, .f32⟩
  | .hbm, ⟨63, _⟩ => ⟨S2048x20000, .f32⟩
  | .hbm, ⟨64, _⟩ => ⟨S2048x20000, .f32⟩
  | .hbm, ⟨65, _⟩ => ⟨S_, .f32⟩
  | .hbm, ⟨66, _⟩ => ⟨S2048x20000, .f32⟩
  | .hbm, ⟨67, _⟩ => ⟨S2048x20000, .f32⟩
  | .hbm, ⟨68, _⟩ => ⟨S_, .f32⟩
  | .hbm, ⟨69, _⟩ => ⟨S2048x20000, .f32⟩
  | .hbm, ⟨70, _⟩ => ⟨S2048x20000, .f32⟩
  | .hbm, ⟨71, _⟩ => ⟨S2048x512, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S2048x1, .f32⟩
  | .hbm, ⟨79, _⟩ => ⟨S2048x512, .f32⟩
  | .hbm, ⟨80, _⟩ => ⟨S2048x512, .f32⟩
  | .hbm, ⟨81, _⟩ => ⟨S512x2048, .f32⟩
  | .hbm, ⟨82, _⟩ => ⟨S2048x2048, .f32⟩
  | .hbm, ⟨83, _⟩ => ⟨S2048x2048, .f32⟩
  | .hbm, ⟨84, _⟩ => ⟨S_, .f32⟩
  | .hbm, ⟨85, _⟩ => ⟨S20000, .f32⟩
  | .hbm, ⟨86, _⟩ => ⟨S_, .f32⟩
  | .hbm, ⟨87, _⟩ => ⟨S20000, .f32⟩
  | .hbm, ⟨88, _⟩ => ⟨S20000, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call1_cst : Ref sig .tc := ⟨.hbm, 23, rfl⟩
abbrev main_call1_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_call2_cst : Ref sig .tc := ⟨.hbm, 30, rfl⟩
abbrev main_call2_v0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_call3_cst : Ref sig .tc := ⟨.hbm, 37, rfl⟩
abbrev main_call3_v0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_0 : Ref sig .tc := ⟨.hbm, 46, rfl⟩
abbrev main_v22 : Ref sig .tc := ⟨.hbm, 47, rfl⟩
abbrev main_v23 : Ref sig .tc := ⟨.hbm, 48, rfl⟩
abbrev main_cst_1 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call4_cst : Ref sig .tc := ⟨.hbm, 56, rfl⟩
abbrev main_call4_v0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_2 : Ref sig .tc := ⟨.hbm, 65, rfl⟩
abbrev main_v37 : Ref sig .tc := ⟨.hbm, 66, rfl⟩
abbrev main_v38 : Ref sig .tc := ⟨.hbm, 67, rfl⟩
abbrev main_cst_3 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_4 : Ref sig .tc := ⟨.hbm, 72, rfl⟩
abbrev main_v42 : Ref sig .tc := ⟨.hbm, 73, rfl⟩
abbrev main_v43 : Ref sig .tc := ⟨.hbm, 74, rfl⟩
abbrev main_cst_5 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_6 : Ref sig .tc := ⟨.hbm, 84, rfl⟩
abbrev main_v52 : Ref sig .tc := ⟨.hbm, 85, rfl⟩
abbrev main_cst_7 : Ref sig .tc := ⟨.hbm, 86, rfl⟩
abbrev main_v53 : Ref sig .tc := ⟨.hbm, 87, rfl⟩
abbrev main_v54 : Ref sig .tc := ⟨.hbm, 88, rfl⟩

abbrev nD : Nat := 1
abbrev τ : Topo := Topo.v7x

variable {F : FTy → Type} [FloatOps F]

class Facts₀ : Prop where
  bcast_S_S2048x20000 : S_.BroadcastsInDim S2048x20000 (![] : Fin 0 → Fin S2048x20000.rank)
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  bcast_S_S2048x1024 : S_.BroadcastsInDim S2048x1024 (![] : Fin 0 → Fin S2048x1024.rank)
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  bcast_S20000_S1x20000_1 : S20000.BroadcastsInDim S1x20000 (![1] : Fin 1 → Fin S1x20000.rank)
  bcast_S1x20000_S2048x20000_0_1 : S1x20000.BroadcastsInDim S2048x20000 (![0, 1] : Fin 2 → Fin S2048x20000.rank)
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x512_0_1 : S2048x1.BroadcastsInDim S2048x512 (![0, 1] : Fin 2 → Fin S2048x512.rank)
  transposes_S2048x512_S512x2048_1_0 : S2048x512.Transposes [1, 0] S512x2048
  reducesTo_S2048x20000_S20000_d0 : S2048x20000.ReducesTo [0] S20000
  bcast_S_S20000 : S_.BroadcastsInDim S20000 (![] : Fin 0 → Fin S20000.rank)
  dot_S2048x20000_S20000x1024_S2048x1024_1_0_0_1_n_n_wf : DotDims.WF S2048x20000 S20000x1024 S2048x1024 [1] [0] [0] [1] [] []
  dot_S2048x1024_S1024x512_S2048x512_1_0_0_1_n_n_wf : DotDims.WF S2048x1024 S1024x512 S2048x512 [1] [0] [0] [1] [] []
  dot_S2048x512_S512x1024_S2048x1024_1_0_0_1_n_n_wf : DotDims.WF S2048x512 S512x1024 S2048x1024 [1] [0] [0] [1] [] []
  dot_S2048x1024_S1024x20000_S2048x20000_1_0_0_1_n_n_wf : DotDims.WF S2048x1024 S1024x20000 S2048x20000 [1] [0] [0] [1] [] []
  dot_S2048x512_S512x2048_S2048x2048_1_0_0_1_n_n_wf : DotDims.WF S2048x512 S512x2048 S2048x2048 [1] [0] [0] [1] [] []

variable [Facts₀]

def dot_S2048x20000_S20000x1024_S2048x1024_1_0_0_1_n_n : DotDims S2048x20000 S20000x1024 S2048x1024 where
  lhsContracting := [1]
  rhsContracting := [0]
  lhsNonContracting := [0]
  rhsNonContracting := [1]
  lhsBatch := []
  rhsBatch := []
  wf := dot_S2048x20000_S20000x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x1024_S1024x20000_S2048x20000_1_0_0_1_n_n : DotDims S2048x1024 S1024x20000 S2048x20000 where
  lhsContracting := [1]
  rhsContracting := [0]
  lhsNonContracting := [0]
  rhsNonContracting := [1]
  lhsBatch := []
  rhsBatch := []
  wf := dot_S2048x1024_S1024x20000_S2048x20000_1_0_0_1_n_n_wf
def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf

class Facts : Prop extends Facts₀ where

variable [Facts]
-- ==== Proof.K.Reg0.Runs.lean ====
import proofs.«175587_j47510928228669_1_alg».proof.Proof.Gen.Kernel.Launch
import proofs.«175587_j47510928228669_1_alg».proof.Proof.Gen.Kernel.Skeleton
import proofs.«175587_j47510928228669_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (the encoder kernel on the 4×10 grid): what its three control cases share -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- The first conditional: the second grid coordinate is 0 (the accumulator is reset). -/
abbrev cond0_0 (i : grid0.Coords) : Prop := (Scalar.cmpi .ne (Scalar.extui (Scalar.cmpi .eq (BitVec.ofNat 32 (i 1).val) 0#32)) 0#32) = 1#1
/-- It holds exactly at the points ≡ 0 (mod 10). -/
theorem hcond0_0 : ∀ t : Fin cfg0.N, cond0_0 (grid0.coords t) ↔ t.val % 10 = 0 :=
  (by decide +kernel : ∀ t : Fin grid0.N, cond0_0 (grid0.coords t) ↔ t.val % 10 = 0)

/-- The second conditional: the second grid coordinate is 9 (the output block is computed and stored). -/
abbrev cond0_1 (i : grid0.Coords) : Prop := k0_cond2 i = 1#1
/-- It holds exactly at the points ≡ 9 (mod 10). -/
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

/-- The six inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
/-- Where the second conditional fails the output window 6 is idle and is not written back; where it holds the window is live. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel

/-! ## The memrefs the body is called with -/

/-- One staging buffer of the output window 6, through which its contents are stated (the choice does not matter). -/
abbrev VO0_6 : View sig .tc .vmem S512x512 .f32 := (Memref.whole cc0_stg6_0 : Memref sig .tc .vmem S512x512 .f32).view
/-- Each window's current staging memref at point `t`, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
/-- The accumulator: a whole scoped buffer of the kernel's own, carried from point to point. -/
abbrev scM0_0 : Memref sig .tc .vmem S512x1024 .f32 := Memref.whole cc0_scratch0
/-- The same as a view: what the accumulator holds is stated through it. -/
abbrev VS0_0 : View sig .tc .vmem S512x1024 .f32 := scM0_0.view

/-- The other scoped buffers of the core (neither a staging buffer of this region nor its accumulator), each at some
    contents: carried through the region unopened. -/
abbrev restBut0 (c : Dev nD) : sProp 𝕄 :=
  Pipeline.scopedRestBut (Ix := Unit) (Name := ℕ) (U := UR sig nD τ) (Lvl := ℕ) (Val := Elt F) spec0 c [cc0_scratch0]

/-- The invariant the region is entered with, the accumulator split out as a memref owned at some contents. -/
theorem PhiA0_eq (c : Dev nD) :
    (Pipeline.ΦA spec0 c : sProp 𝕄)
      = iprop(iprop(iprop((∃ d, owns (c : Thread nD τ) scM0_0 fullShare d)) ∗ restBut0 (F := F) c) ∗ (∃ r, prngReg c r)) := by
  unfold Pipeline.ΦA; rw [scopedRest0_split]; simp only [scM0_0, owns_whole]; try rfl

end Cert.Kernel.Hand

end
-- ==== Proof.K.Reg0.RunA.lean ====
import proofs.«175587_j47510928228669_1_alg».proof.Proof.K.Reg0.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the run's proof term is large: the definition's epilogue walks it past the default budget
set_option maxHeartbeats 1000000 in
/-- CASE A (second grid coordinate 0: the accumulator is reset, then added to; no output stored). The pieces the body's
    stores leave in the accumulator (last first), with the body's triple: on whole memrefs, the six inputs at their
    contents, the output's buffer at contents handed back untouched, the accumulator at anything, the body runs to a
    continuation holding the inputs and the output's buffer as they were and the accumulator with the pieces written. -/
noncomputable def kernelRun0_A (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : cond0_0 i) (hc1 : ¬cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) :
    Σ' (L6 : List (View.Piece (Elt F) S512x512 .f32)), { LS0 : List (View.Piece (Elt F) S512x1024 .f32) //
      ∀ (xi6 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9) K } := by
  refine ⟨[], ?_, fun xi6 E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Reg0.RunB.lean ====
import proofs.«175587_j47510928228669_1_alg».proof.Proof.K.Reg0.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the run's proof term is large: the definition's epilogue walks it past the default budget
set_option maxHeartbeats 1000000 in
/-- CASE B (second grid coordinate 1..8: the accumulator is added to; no output stored). The pieces the body's store
    leaves in the accumulator, with the body's triple: on whole memrefs, the six inputs at their contents, the output's
    buffer at contents handed back untouched, the accumulator at what the point before left (`xs0`), the body runs to a
    continuation holding the inputs and the output's buffer as they were and the accumulator with the piece written. -/
noncomputable def kernelRun0_B (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : ¬cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) :
    Σ' (L6 : List (View.Piece (Elt F) S512x512 .f32)), { LS0 : List (View.Piece (Elt F) S512x1024 .f32) //
      ∀ (xi6 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9) K } := by
  refine ⟨[], ?_, fun xi6 E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.Reg0.RunC.lean ====
import proofs.«175587_j47510928228669_1_alg».proof.Proof.K.Reg0.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the run's proof term is large: the definition's epilogue walks it past the default budget
set_option maxHeartbeats 1000000 in
/-- CASE C (second grid coordinate 9: the accumulator is added to, then the output block is computed from it and stored).
    The pieces the body's stores leave in the output's buffer and in the accumulator, with the body's triple: on whole
    memrefs, the six inputs at their contents, the output's buffer at anything, the accumulator at what the point before
    left (`xs0`), the body runs to a continuation holding the inputs as they were and both with their pieces written. -/
noncomputable def kernelRun0_C (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) :
    Σ' (L6 : List (View.Piece (Elt F) S512x512 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9) K } := by
  refine ⟨?_, ?_, fun E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.K.Reg0.lean ====
import proofs.«175587_j47510928228669_1_alg».proof.Proof.K.Reg0.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the proof data of the encoder kernel's pipeline at the entry contents `V`, and its body obligation -/

/-! ## What each case leaves -/

/-- Case A stores nothing into the output window (idle at its points and not written back there): no pieces, a
    placeholder nothing consults. -/
def out0_A_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : cond0_0 i) (hc1 : ¬cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) : Vec F S512x512 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4 x5).1)

/-- Case A's stores into the accumulator tile it, so they cover it. -/
theorem scover0_A_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : cond0_0 i) (hc1 : ¬cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (y : S512x1024.Idx) :
    ∃ pc ∈ (kernelRun0_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4 x5).2.1 S512x1024.size (by sl_kernel_rfl) y

/-- What case A leaves in the accumulator: its pieces read back. -/
def sout0_A_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : cond0_0 i) (hc1 : ¬cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) : Vec F S512x1024 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4 x5).2.1)

/-- Case B stores nothing into the output window (idle at its points and not written back there): no pieces, a
    placeholder nothing consults. -/
def out0_B_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : ¬cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) : Vec F S512x512 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 x5 xs0).1)

/-- Case B's stores into the accumulator tile it, so they cover it. -/
theorem scover0_B_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : ¬cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) (y : S512x1024.Idx) :
    ∃ pc ∈ (kernelRun0_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 xs0).2.1 S512x1024.size (by sl_kernel_rfl) y

/-- What case B leaves in the accumulator: its pieces read back. -/
def sout0_B_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : ¬cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) : Vec F S512x1024 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 x5 xs0).2.1)

/-- Case C's one store into the output's buffer tiles its block, so it covers it. -/
theorem cover0_C_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) (y : S512x512.Idx) :
    ∃ pc ∈ (kernelRun0_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).1 S512x512.size (by sl_kernel_rfl) y

/-- What case C leaves in the output's staging buffer: its pieces read back. -/
def out0_C_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) : Vec F S512x512 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 x5 xs0).1)

/-- Case C's stores into the accumulator tile it, so they cover it. -/
theorem scover0_C_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) (y : S512x1024.Idx) :
    ∃ pc ∈ (kernelRun0_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).2.1 S512x1024.size (by sl_kernel_rfl) y

/-- What case C leaves in the accumulator: its pieces read back. -/
def sout0_C_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) : Vec F S512x1024 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 x5 xs0).2.1)

/-! ## What the output's buffer and the accumulator hold after each point -/

/-- THE ACCUMULATION. What the output's staging buffer and the accumulator hold after the body at position `n` (a pair):
    the case the closed forms select at `n`, run at the point's memrefs and input blocks, over what the accumulator
    held after position `n - 1`. No point meets both conditions. -/
def outsAt0 (c : Dev nD) : (n : ℕ) → n < cfg0.N → Vec F S512x512 .f32 × Vec F S512x1024 .f32
  | 0, hn =>
      (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
       sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 10 = 0 then
      if h1 : (n + 1) % 10 = 9 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
       sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 10 = 9 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)

/-- `outsAt0` at a point of case A: that case's contents. -/
theorem outsAt0_A (c : Dev nD) (t : Fin cfg0.N) (h0 : t.val % 10 = 0) (h1 : ¬t.val % 10 = 9) :
    outsAt0 V c t.val t.isLt =
      (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
       sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 10 = 0) (h1 : ¬t.val % 10 = 9) :
    outsAt0 V c t.val t.isLt =
      (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2,
       sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 10 = 0) (h1 : t.val % 10 = 9) :
    outsAt0 V c t.val t.isLt =
      (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2,
       sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, carrying the accumulator -/

/-- The invariant before position `n`: before the first point what the region is entered with (every scoped buffer that
    is no staging buffer at anything, the generator register at some state); afterwards the accumulator at what the point
    before left in it, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restBut0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ restBut0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restBut0 (F := F) c) ∗ (∃ r, prngReg c r)) := by
  cases n with
  | zero => exact absurd rfl hz
  | succ n => rfl

/-! ## The pipeline's proof data -/

/-- The proof data of pipeline 0 on core `c`: the arrays as the region finds them (`V`); after the body at point `t` each
    input's buffer at its block and the output's at `outsAt0`'s first component; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- Each input's buffer is handed back at its block (no input is ever idle). -/
theorem leaves0_0 (c : Dev nD) (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) :
    (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]
theorem leaves0_3 (c : Dev nD) (t : Fin cfg0.N) :
    (dat0 V c).leavesExact 3 t = owns (c : Thread nD τ) (ms0_3 t) fullShare (iblk0 V c 3 t) := by
  rw [show (dat0 V c).leavesExact 3 t = owns (c : Thread nD τ) (ms0_3 t) fullShare ((dat0 V c).after 3 t) from by
    unfold Dat.leavesExact; rw [liveAt0_3 t], after0_3]
theorem leaves0_4 (c : Dev nD) (t : Fin cfg0.N) :
    (dat0 V c).leavesExact 4 t = owns (c : Thread nD τ) (ms0_4 t) fullShare (iblk0 V c 4 t) := by
  rw [show (dat0 V c).leavesExact 4 t = owns (c : Thread nD τ) (ms0_4 t) fullShare ((dat0 V c).after 4 t) from by
    unfold Dat.leavesExact; rw [liveAt0_4 t], after0_4]
theorem leaves0_5 (c : Dev nD) (t : Fin cfg0.N) :
    (dat0 V c).leavesExact 5 t = owns (c : Thread nD τ) (ms0_5 t) fullShare (iblk0 V c 5 t) := by
  rw [show (dat0 V c).leavesExact 5 t = owns (c : Thread nD τ) (ms0_5 t) fullShare ((dat0 V c).after 5 t) from by
    unfold Dat.leavesExact; rw [liveAt0_5 t], after0_5]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' memrefs hold their blocks; the closed forms say which case the point is in; that
    case's run applies. The invariant hands the body the accumulator at what the point before left (at anything at the
    first point), the other scoped buffers and the generator register, and takes the accumulator back at this point's
    contents, the rest untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5]
  have hN : t.val < 40 := lt_of_lt_of_eq t.isLt (show cfg0.N = 40 from N_0)
  by_cases h0 : t.val % 10 = 0
  · by_cases h1 : t.val % 10 = 9
    · exfalso; omega
    · rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS0_castSucc V c t, PhiS0_pos V c _ _ hz]
        iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 10 = 9
    · rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold out0_C_6 sout0_C_0; (try dsimp only)
      have hz : t.val ≠ 0 := by omega
      rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _)
    · rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold sout0_B_0; (try dsimp only)
      have hz : t.val ≠ 0 := by omega
      rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the entry invariant back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrb⟩, Hg⟩
  isplitl [HS0 Hrb]
  · isplitl [HS0]
    · iexists _; iexact HS0
    iexact Hrb
  iexact Hg

/-- The same after the last point. -/
theorem hout0 (c : Dev nD) : (dat0 V c).Φ (Fin.last cfg0.N) ⊢ Pipeline.ΦA spec0 c :=
  Phi_out0 V c _ (by rw [Fin.val_last]; have : cfg0.N = 40 := N_0; omega)

end Cert.Kernel.Hand

end
-- ==== Proof.K.Reg1.Runs.lean ====
import proofs.«175587_j47510928228669_1_alg».proof.Proof.Gen.Kernel.Launch
import proofs.«175587_j47510928228669_1_alg».proof.Proof.Gen.Kernel.Skeleton
import proofs.«175587_j47510928228669_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the head kernel on pipeline 1, at the entry contents `V`

## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, whether the pipeline
    fetched it there or not (an unfetched input's block index has not moved), for any proof data whose array
    is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, whether the pipeline
    fetched it there or not (an unfetched input's block index has not moved), for any proof data whose array
    is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, whether the pipeline
    fetched it there or not (an unfetched input's block index has not moved), for any proof data whose array
    is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, whether the pipeline
    fetched it there or not (an unfetched input's block index has not moved), for any proof data whose array
    is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block at every point, whether the pipeline
    fetched it there or not (an unfetched input's block index has not moved), for any proof data whose array
    is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional, from the grid coordinates: the second coordinate is zero. -/
abbrev cond1_0 (i : grid1.Coords) : Prop := (Scalar.cmpi .ne (Scalar.extui (Scalar.cmpi .eq (BitVec.ofNat 32 (i 1).val) 0#32)) 0#32) = 1#1
/-- It holds exactly at the points ≡ 0 (mod 10): decided over the grid. -/
theorem hcond1_0 : ∀ t : Fin cfg1.N, cond1_0 (grid1.coords t) ↔ t.val % 10 = 0 :=
  (by decide +kernel : ∀ t : Fin grid1.N, cond1_0 (grid1.coords t) ↔ t.val % 10 = 0)

/-! ## The staging and scratch memrefs -/

/-- One staging buffer of output window 5, through which its contents are stated (the choice does not matter:
    the pieces cover the shape). -/
abbrev VO1_5 : View sig .tc .vmem S512x2048 .f32 := (Memref.whole cc1_stg5_0 : Memref sig .tc .vmem S512x2048 .f32).view
/-- Each window's current staging memref at point `t`, as the pipeline passes it to the body, and its wholeness. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x2048 .f32 := win1_5.stage (cfg1.slots t 5)
abbrev hs1_5 (t : Fin cfg1.N) : (ms1_5 t).IsWhole := hstage1_5 ((cfg1.slots t 5).cast nbuf1_5)
/-- The scratch operand: a whole scoped buffer of the kernel's own, passed beside the windows. -/
abbrev scM1_0 : Memref sig .tc .vmem S512x1024 .bf16 := Memref.whole cc1_scratch0
/-- The scratch the kernel carries between points, as a view: what it holds is stated through it. -/
abbrev VS1_0 : View sig .tc .vmem S512x1024 .bf16 := scM1_0.view

/-- The other scoped buffers of the core (neither a staging buffer of this pipeline nor its scratch), each at
    some contents: carried along unopened. -/
abbrev restBut1 (c : Dev nD) : sProp 𝕄 :=
  Pipeline.scopedRestBut (Ix := Unit) (Name := ℕ) (U := UR sig nD τ) (Lvl := ℕ) (Val := Elt F) spec1 c [cc1_scratch0]

/-- The class invariant with the scratch operand split out as a memref owned at some contents. -/
theorem PhiA1_eq (c : Dev nD) :
    (Pipeline.ΦA spec1 c : sProp 𝕄)
      = iprop(iprop(iprop((∃ d, owns (c : Thread nD τ) scM1_0 fullShare d)) ∗ restBut1 c) ∗ (∃ r, prngReg c r)) := by
  unfold Pipeline.ΦA; rw [scopedRest1_split]; simp only [scM1_0, owns_whole]; try rfl

end Cert.Kernel.Hand

end
-- ==== Proof.K.Reg1.RunA.lean ====
import proofs.«175587_j47510928228669_1_alg».proof.Proof.K.Reg1.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run IN CASE A (the conditional taken: the second grid coordinate is zero). On whole staging
    memrefs — the inputs' at their contents, the output's and the scratch at anything — the body runs to the
    continuation holding the inputs' as they were, the scratch with the hidden layer's one store written and the
    output's buffer with its one store written; the pieces each ends with are the witnesses the run finds. The
    scratch is covered by the case's own store before it is read. -/
noncomputable def kernelRun1_A (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond1_0 i)
    (x0 : Vec F S512x512 .f32) (x1 : Vec F S512x1024 .bf16) (x2 : Vec F S1x1024 .f32) (x3 : Vec F S1024x2048 .bf16) (x4 : Vec F S1x2048 .f32) :
    Σ' (L5 : List (View.Piece (Elt F) S512x2048 .f32)), { LS0 : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__head_kernel i arg2 harg2 arg3 harg3 arg4 harg4 arg5 harg5 arg6 harg6 arg7 harg7 arg8 harg8) K } := by
  refine ⟨?_, ?_, fun E K => ?run⟩
  case run =>
    simp only [cc1__head_kernel_eq_skeleton]; unfold cc1__head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.K.Reg1.RunB.lean ====
import proofs.«175587_j47510928228669_1_alg».proof.Proof.K.Reg1.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run IN CASE B (the conditional not taken: the second grid coordinate is not zero). On whole
    staging memrefs — the inputs' at their contents, the output's at anything, the scratch at the contents `xs0`
    the point before left — the body runs to the continuation holding the inputs' and the scratch as they were
    (nothing is stored into the scratch) and the output's buffer with its one store written; the pieces it ends
    with are the witness the run finds. -/
noncomputable def kernelRun1_B (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : ¬cond1_0 i)
    (x0 : Vec F S512x512 .f32) (x1 : Vec F S512x1024 .bf16) (x2 : Vec F S1x1024 .f32) (x3 : Vec F S1024x2048 .bf16) (x4 : Vec F S1x2048 .f32) (xs0 : Vec F S512x1024 .bf16) :
    { L5 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0) -∗ K ⟨⟩))
          ⊢ wp frame (wpE (defs₀ (F := F)) Variants.none c none) E (cc1__head_kernel i arg2 harg2 arg3 harg3 arg4 harg4 arg5 harg5 arg6 harg6 arg7 harg7 arg8 harg8) K } := by
  refine ⟨?_, fun E K => ?run⟩
  case run =>
    simp only [cc1__head_kernel_eq_skeleton]; unfold cc1__head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

end Cert.Kernel.Hand

end
-- ==== Proof.K.Reg1.lean ====
import proofs.«175587_j47510928228669_1_alg».proof.Proof.K.Reg1.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what the output and the carried scratch hold, the proof data, the body obligation

## Per case -/

/-- Case A's pieces for output 5 tile its block (one store of the whole block), so they cover it. -/
theorem cover1_A_5 (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond1_0 i)
    (x0 : Vec F S512x512 .f32) (x1 : Vec F S512x1024 .bf16) (x2 : Vec F S1x1024 .f32) (x3 : Vec F S1024x2048 .bf16) (x4 : Vec F S1x2048 .f32) (y : S512x2048.Idx) :
    ∃ pc ∈ (kernelRun1_A c i arg2 harg2 arg3 harg3 arg4 harg4 arg5 harg5 arg6 harg6 arg7 harg7 arg8 harg8 hc0 x0 x1 x2 x3 x4).1, y ∈ pc.1.set :=
  View.cover_of_tiledL (kernelRun1_A c i arg2 harg2 arg3 harg3 arg4 harg4 arg5 harg5 arg6 harg6 arg7 harg7 arg8 harg8 hc0 x0 x1 x2 x3 x4).1 S512x2048.size (by sl_kernel_rfl) y

/-- What case A leaves in output 5's staging buffer: its pieces read back over junk. -/
def out1_A_5 (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond1_0 i)
    (x0 : Vec F S512x512 .f32) (x1 : Vec F S512x1024 .bf16) (x2 : Vec F S1x1024 .f32) (x3 : Vec F S1024x2048 .bf16) (x4 : Vec F S1x2048 .f32) : Vec F S512x2048 .f32 :=
  VO1_5.read (Elt F) (VO1_5.writes (Elt F) VO1_5.junk (kernelRun1_A c i arg2 harg2 arg3 harg3 arg4 harg4 arg5 harg5 arg6 harg6 arg7 harg7 arg8 harg8 hc0 x0 x1 x2 x3 x4).1)

/-- Case A's pieces for the scratch tile it (one store of the whole buffer), so they cover it. -/
theorem scover1_A_0 (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond1_0 i)
    (x0 : Vec F S512x512 .f32) (x1 : Vec F S512x1024 .bf16) (x2 : Vec F S1x1024 .f32) (x3 : Vec F S1024x2048 .bf16) (x4 : Vec F S1x2048 .f32) (y : S512x1024.Idx) :
    ∃ pc ∈ (kernelRun1_A c i arg2 harg2 arg3 harg3 arg4 harg4 arg5 harg5 arg6 harg6 arg7 harg7 arg8 harg8 hc0 x0 x1 x2 x3 x4).2.1, y ∈ pc.1.set :=
  View.cover_of_tiledL (kernelRun1_A c i arg2 harg2 arg3 harg3 arg4 harg4 arg5 harg5 arg6 harg6 arg7 harg7 arg8 harg8 hc0 x0 x1 x2 x3 x4).2.1 S512x1024.size (by sl_kernel_rfl) y

/-- What case A leaves in the scratch: its pieces read back over junk. -/
def sout1_A_0 (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond1_0 i)
    (x0 : Vec F S512x512 .f32) (x1 : Vec F S512x1024 .bf16) (x2 : Vec F S1x1024 .f32) (x3 : Vec F S1024x2048 .bf16) (x4 : Vec F S1x2048 .f32) : Vec F S512x1024 .bf16 :=
  VS1_0.read (Elt F) (VS1_0.writes (Elt F) VS1_0.junk (kernelRun1_A c i arg2 harg2 arg3 harg3 arg4 harg4 arg5 harg5 arg6 harg6 arg7 harg7 arg8 harg8 hc0 x0 x1 x2 x3 x4).2.1)

/-- Case B's pieces for output 5 tile its block (one store of the whole block), so they cover it. -/
theorem cover1_B_5 (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : ¬cond1_0 i)
    (x0 : Vec F S512x512 .f32) (x1 : Vec F S512x1024 .bf16) (x2 : Vec F S1x1024 .f32) (x3 : Vec F S1024x2048 .bf16) (x4 : Vec F S1x2048 .f32) (xs0 : Vec F S512x1024 .bf16) (y : S512x2048.Idx) :
    ∃ pc ∈ (kernelRun1_B c i arg2 harg2 arg3 harg3 arg4 harg4 arg5 harg5 arg6 harg6 arg7 harg7 arg8 harg8 hc0 x0 x1 x2 x3 x4 xs0).1, y ∈ pc.1.set :=
  View.cover_of_tiledL (kernelRun1_B c i arg2 harg2 arg3 harg3 arg4 harg4 arg5 harg5 arg6 harg6 arg7 harg7 arg8 harg8 hc0 x0 x1 x2 x3 x4 xs0).1 S512x2048.size (by sl_kernel_rfl) y

/-- What case B leaves in output 5's staging buffer: its pieces read back over junk. The scratch it leaves as
    it found it. -/
def out1_B_5 (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : ¬cond1_0 i)
    (x0 : Vec F S512x512 .f32) (x1 : Vec F S512x1024 .bf16) (x2 : Vec F S1x1024 .f32) (x3 : Vec F S1024x2048 .bf16) (x4 : Vec F S1x2048 .f32) (xs0 : Vec F S512x1024 .bf16) : Vec F S512x2048 .f32 :=
  VO1_5.read (Elt F) (VO1_5.writes (Elt F) VO1_5.junk (kernelRun1_B c i arg2 harg2 arg3 harg3 arg4 harg4 arg5 harg5 arg6 harg6 arg7 harg7 arg8 harg8 hc0 x0 x1 x2 x3 x4 xs0).1)

/-! ## What the output and the scratch hold after each point -/

/-- What output 5's staging buffer and the carried scratch hold after the body at position `n` (a pair: the
    output, then the scratch): at the points ≡ 0 (mod 10) case A's contents, from the point's input blocks alone;
    at the others case B's output over the scratch the point before left, and that scratch unchanged. -/
def outsAt1 (c : Dev nD) : (n : ℕ) → n < cfg1.N → Vec F S512x2048 .f32 × Vec F S512x1024 .bf16
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 10 = 0 then
      (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, (outsAt1 c n (Nat.lt_of_succ_lt hn)).2)

/-- `outsAt1` at a point of case A: that case's contents. -/
theorem outsAt1_A (c : Dev nD) (t : Fin cfg1.N) (h0 : t.val % 10 = 0) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans rfl

/-- `outsAt1` at a point of case B: that case's output over what the point before left in the scratch, and the
    scratch as the point before left it. -/
theorem outsAt1_B (c : Dev nD) (t : Fin cfg1.N) (h0 : ¬t.val % 10 = 0) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region invariant -/

/-- The region invariant before position `n`: before the first point the class's (every scoped buffer that is no
    staging buffer at some contents, the generator register at some state); afterwards the same with the carried
    scratch at what the point before left in it. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ restBut1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop(iprop(owns (c : Thread nD τ) scM1_0 fullShare ((outsAt1 V c n hn).2)) ∗ restBut1 c) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ restBut1 c) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4800000 in
/-- The body at any point: the inputs' memrefs hold their blocks; the closed form of the condition says which case
    the point is in, and that case's run applies. The invariant hands the body the scratch — at anything where the
    case covers it before reading it (A), at what the point before left where it reads it first (B; never the
    first point) — and takes it back at this point's contents; the other scoped buffers, the generator register
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5]
  have hN : t.val < 40 := lt_of_lt_of_eq t.isLt (show cfg1.N = 40 from N_1)
  by_cases h0 : t.val % 10 = 0
  · rw [outsAt1_A V c t h0]
    unfold out1_A_5 sout1_A_0; (try dsimp only)
    have hrun := (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t) (iblk1 V c 3 t) (iblk1 V c 4 t)).2.2 Set.univ
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply (hrun _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _ _)
    · rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply (hrun _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _ _)
  · rw [outsAt1_B V c t h0]
    unfold out1_B_5; (try dsimp only)
    have hz : t.val ≠ 0 := fun hz => h0 (by rw [hz])
    rw [PhiS1_castSucc V c t, PhiS1_pos V c _ _ hz]
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (iblk1 V c 0 t) (iblk1 V c 1 t) (iblk1 V c 2 t) (iblk1 V c 3 t) (iblk1 V c 4 t) _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0 Hrest Hg]
    · isplitl [HS0 Hrest]
      · isplitl [HS0]; · iexact HS0
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_B_5 c _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the carried scratch's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 40 := N_1; omega)

end Cert.Kernel.Hand

end
-- ==== Proof.K.Reg2.Runs.lean ====
import proofs.«175587_j47510928228669_1_alg».proof.Proof.Gen.Kernel.Launch
import proofs.«175587_j47510928228669_1_alg».proof.Proof.Gen.Kernel.Skeleton
import proofs.«175587_j47510928228669_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the head kernel on pipeline 2, at the entry contents `V`

## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, whether the pipeline
    fetched it there or not (an unfetched input's block index has not moved), for any proof data whose array
    is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, whether the pipeline
    fetched it there or not (an unfetched input's block index has not moved), for any proof data whose array
    is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, whether the pipeline
    fetched it there or not (an unfetched input's block index has not moved), for any proof data whose array
    is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds the window's block at every point, whether the pipeline
    fetched it there or not (an unfetched input's block index has not moved), for any proof data whose array
    is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds the window's block at every point, whether the pipeline
    fetched it there or not (an unfetched input's block index has not moved), for any proof data whose array
    is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch condition -/

/-- The condition of the body's one conditional, from the grid coordinates: the second coordinate is zero. -/
abbrev cond2_0 (i : grid2.Coords) : Prop := (Scalar.cmpi .ne (Scalar.extui (Scalar.cmpi .eq (BitVec.ofNat 32 (i 1).val) 0#32)) 0#32) = 1#1
/-- It holds exactly at the points ≡ 0 (mod 10): decided over the grid. -/
theorem hcond2_0 : ∀ t : Fin cfg2.N, cond2_0 (grid2.coords t) ↔ t.val % 10 = 0 :=
  (by decide +kernel : ∀ t : Fin grid2.N, cond2_0 (grid2.coords t) ↔ t.val % 10 = 0)

/-! ## The staging and scratch memrefs -/

/-- One staging buffer of output window 5, through which its contents are stated (the choice does not matter:
    the pieces cover the shape). -/
abbrev VO2_5 : View sig .tc .vmem S512x2048 .f32 := (Memref.whole cc2_stg5_0 : Memref sig .tc .vmem S512x2048 .f32).view
/-- Each window's current staging memref at point `t`, as the pipeline passes it to the body, and its wholeness. -/
abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x2048 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x2048 .f32 := win2_5.stage (cfg2.slots t 5)
abbrev hs2_5 (t : Fin cfg2.N) : (ms2_5 t).IsWhole := hstage2_5 ((cfg2.slots t 5).cast nbuf2_5)
/-- The scratch operand: a whole scoped buffer of the kernel's own, passed beside the windows. -/
abbrev scM2_0 : Memref sig .tc .vmem S512x1024 .bf16 := Memref.whole cc2_scratch0
/-- The scratch the kernel carries between points, as a view: what it holds is stated through it. -/
abbrev VS2_0 : View sig .tc .vmem S512x1024 .bf16 := scM2_0.view

/-- The other scoped buffers of the core (neither a staging buffer of this pipeline nor its scratch), each at
    some contents: carried along unopened. -/
abbrev restBut2 (c : Dev nD) : sProp 𝕄 :=
  Pipeline.scopedRestBut (Ix := Unit) (Name := ℕ) (U := UR sig nD τ) (Lvl := ℕ) (Val := Elt F) spec2 c [cc2_scratch0]

/-- The class invariant with the scratch operand split out as a memref owned at some contents. -/
theorem PhiA2_eq (c : Dev nD) :
    (Pipeline.ΦA spec2 c : sProp 𝕄)
      = iprop(iprop(iprop((∃ d, owns (c : Thread nD τ) scM2_0 fullShare d)) ∗ restBut2 c) ∗ (∃ r, prngReg c r)) := by
  unfold Pipeline.ΦA; rw [scopedRest2_split]; simp only [scM2_0, owns_whole]; try rfl

end Cert.Kernel.Hand

end
-- ==== Proof.K.Reg2.RunA.lean ====
import proofs.«175587_j47510928228669_1_alg».proof.Proof.K.Reg2.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run IN CASE A (the conditional taken: the second grid coordinate is zero). On whole staging
    memrefs — the inputs' at their contents, the output's and the scratch at anything — the body runs to the
    continuation holding the inputs' as they were, the scratch with the hidden layer's one store written and the
    output's buffer with its one store written; the pieces each ends with are the witnesses the run finds. The
    scratch is covered by the case's own store before it is read. -/
noncomputable def kernelRun2_A (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond2_0 i)
    (x0 : Vec F S512x512 .f32) (x1 : Vec F S512x1024 .bf16) (x2 : Vec F S1x1024 .f32) (x3 : Vec F S1024x2048 .bf16) (x4 : Vec F S1x2048 .f32) :
    Σ' (L5 : List (View.Piece (Elt F) S512x2048 .f32)), { LS0 : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2__head_kernel i arg2 harg2 arg3 harg3 arg4 harg4 arg5 harg5 arg6 harg6 arg7 harg7 arg8 harg8) K } := by
  refine ⟨?_, ?_, fun E K => ?run⟩
  case run =>
    simp only [cc2__head_kernel_eq_skeleton]; unfold cc2__head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.K.Reg2.RunB.lean ====
import proofs.«175587_j47510928228669_1_alg».proof.Proof.K.Reg2.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run IN CASE B (the conditional not taken: the second grid coordinate is not zero). On whole
    staging memrefs — the inputs' at their contents, the output's at anything, the scratch at the contents `xs0`
    the point before left — the body runs to the continuation holding the inputs' and the scratch as they were
    (nothing is stored into the scratch) and the output's buffer with its one store written; the pieces it ends
    with are the witness the run finds. -/
noncomputable def kernelRun2_B (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : ¬cond2_0 i)
    (x0 : Vec F S512x512 .f32) (x1 : Vec F S512x1024 .bf16) (x2 : Vec F S1x1024 .f32) (x3 : Vec F S1024x2048 .bf16) (x4 : Vec F S1x2048 .f32) (xs0 : Vec F S512x1024 .bf16) :
    { L5 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0) -∗ K ⟨⟩))
          ⊢ wp frame (wpE (defs₀ (F := F)) Variants.none c none) E (cc2__head_kernel i arg2 harg2 arg3 harg3 arg4 harg4 arg5 harg5 arg6 harg6 arg7 harg7 arg8 harg8) K } := by
  refine ⟨?_, fun E K => ?run⟩
  case run =>
    simp only [cc2__head_kernel_eq_skeleton]; unfold cc2__head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

end Cert.Kernel.Hand

end
-- ==== Proof.K.Reg2.lean ====
import proofs.«175587_j47510928228669_1_alg».proof.Proof.K.Reg2.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: what the output and the carried scratch hold, the proof data, the body obligation

## Per case -/

/-- Case A's pieces for output 5 tile its block (one store of the whole block), so they cover it. -/
theorem cover2_A_5 (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond2_0 i)
    (x0 : Vec F S512x512 .f32) (x1 : Vec F S512x1024 .bf16) (x2 : Vec F S1x1024 .f32) (x3 : Vec F S1024x2048 .bf16) (x4 : Vec F S1x2048 .f32) (y : S512x2048.Idx) :
    ∃ pc ∈ (kernelRun2_A c i arg2 harg2 arg3 harg3 arg4 harg4 arg5 harg5 arg6 harg6 arg7 harg7 arg8 harg8 hc0 x0 x1 x2 x3 x4).1, y ∈ pc.1.set :=
  View.cover_of_tiledL (kernelRun2_A c i arg2 harg2 arg3 harg3 arg4 harg4 arg5 harg5 arg6 harg6 arg7 harg7 arg8 harg8 hc0 x0 x1 x2 x3 x4).1 S512x2048.size (by sl_kernel_rfl) y

/-- What case A leaves in output 5's staging buffer: its pieces read back over junk. -/
def out2_A_5 (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond2_0 i)
    (x0 : Vec F S512x512 .f32) (x1 : Vec F S512x1024 .bf16) (x2 : Vec F S1x1024 .f32) (x3 : Vec F S1024x2048 .bf16) (x4 : Vec F S1x2048 .f32) : Vec F S512x2048 .f32 :=
  VO2_5.read (Elt F) (VO2_5.writes (Elt F) VO2_5.junk (kernelRun2_A c i arg2 harg2 arg3 harg3 arg4 harg4 arg5 harg5 arg6 harg6 arg7 harg7 arg8 harg8 hc0 x0 x1 x2 x3 x4).1)

/-- Case A's pieces for the scratch tile it (one store of the whole buffer), so they cover it. -/
theorem scover2_A_0 (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond2_0 i)
    (x0 : Vec F S512x512 .f32) (x1 : Vec F S512x1024 .bf16) (x2 : Vec F S1x1024 .f32) (x3 : Vec F S1024x2048 .bf16) (x4 : Vec F S1x2048 .f32) (y : S512x1024.Idx) :
    ∃ pc ∈ (kernelRun2_A c i arg2 harg2 arg3 harg3 arg4 harg4 arg5 harg5 arg6 harg6 arg7 harg7 arg8 harg8 hc0 x0 x1 x2 x3 x4).2.1, y ∈ pc.1.set :=
  View.cover_of_tiledL (kernelRun2_A c i arg2 harg2 arg3 harg3 arg4 harg4 arg5 harg5 arg6 harg6 arg7 harg7 arg8 harg8 hc0 x0 x1 x2 x3 x4).2.1 S512x1024.size (by sl_kernel_rfl) y

/-- What case A leaves in the scratch: its pieces read back over junk. -/
def sout2_A_0 (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond2_0 i)
    (x0 : Vec F S512x512 .f32) (x1 : Vec F S512x1024 .bf16) (x2 : Vec F S1x1024 .f32) (x3 : Vec F S1024x2048 .bf16) (x4 : Vec F S1x2048 .f32) : Vec F S512x1024 .bf16 :=
  VS2_0.read (Elt F) (VS2_0.writes (Elt F) VS2_0.junk (kernelRun2_A c i arg2 harg2 arg3 harg3 arg4 harg4 arg5 harg5 arg6 harg6 arg7 harg7 arg8 harg8 hc0 x0 x1 x2 x3 x4).2.1)

/-- Case B's pieces for output 5 tile its block (one store of the whole block), so they cover it. -/
theorem cover2_B_5 (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : ¬cond2_0 i)
    (x0 : Vec F S512x512 .f32) (x1 : Vec F S512x1024 .bf16) (x2 : Vec F S1x1024 .f32) (x3 : Vec F S1024x2048 .bf16) (x4 : Vec F S1x2048 .f32) (xs0 : Vec F S512x1024 .bf16) (y : S512x2048.Idx) :
    ∃ pc ∈ (kernelRun2_B c i arg2 harg2 arg3 harg3 arg4 harg4 arg5 harg5 arg6 harg6 arg7 harg7 arg8 harg8 hc0 x0 x1 x2 x3 x4 xs0).1, y ∈ pc.1.set :=
  View.cover_of_tiledL (kernelRun2_B c i arg2 harg2 arg3 harg3 arg4 harg4 arg5 harg5 arg6 harg6 arg7 harg7 arg8 harg8 hc0 x0 x1 x2 x3 x4 xs0).1 S512x2048.size (by sl_kernel_rfl) y

/-- What case B leaves in output 5's staging buffer: its pieces read back over junk. The scratch it leaves as
    it found it. -/
def out2_B_5 (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : ¬cond2_0 i)
    (x0 : Vec F S512x512 .f32) (x1 : Vec F S512x1024 .bf16) (x2 : Vec F S1x1024 .f32) (x3 : Vec F S1024x2048 .bf16) (x4 : Vec F S1x2048 .f32) (xs0 : Vec F S512x1024 .bf16) : Vec F S512x2048 .f32 :=
  VO2_5.read (Elt F) (VO2_5.writes (Elt F) VO2_5.junk (kernelRun2_B c i arg2 harg2 arg3 harg3 arg4 harg4 arg5 harg5 arg6 harg6 arg7 harg7 arg8 harg8 hc0 x0 x1 x2 x3 x4 xs0).1)

/-! ## What the output and the scratch hold after each point -/

/-- What output 5's staging buffer and the carried scratch hold after the body at position `n` (a pair: the
    output, then the scratch): at the points ≡ 0 (mod 10) case A's contents, from the point's input blocks alone;
    at the others case B's output over the scratch the point before left, and that scratch unchanged. -/
def outsAt2 (c : Dev nD) : (n : ℕ) → n < cfg2.N → Vec F S512x2048 .f32 × Vec F S512x1024 .bf16
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 10 = 0 then
      (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, (outsAt2 c n (Nat.lt_of_succ_lt hn)).2)

/-- `outsAt2` at a point of case A: that case's contents. -/
theorem outsAt2_A (c : Dev nD) (t : Fin cfg2.N) (h0 : t.val % 10 = 0) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans rfl

/-- `outsAt2` at a point of case B: that case's output over what the point before left in the scratch, and the
    scratch as the point before left it. -/
theorem outsAt2_B (c : Dev nD) (t : Fin cfg2.N) (h0 : ¬t.val % 10 = 0) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region invariant -/

/-- The region invariant before position `n`: before the first point the class's (every scoped buffer that is no
    staging buffer at some contents, the generator register at some state); afterwards the same with the carried
    scratch at what the point before left in it. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ restBut2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop(iprop(owns (c : Thread nD τ) scM2_0 fullShare ((outsAt2 V c n hn).2)) ∗ restBut2 c) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ restBut2 c) ∗ (∃ r, prngReg c r)) := by
  cases n with
  | zero => exact absurd rfl hz
  | succ n => rfl

/-! ## The pipeline's proof data -/

/-- The proof data of pipeline 2 on core `c`: the arrays as the region finds them (`V`); after the body at point
    `t` each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 4800000 in
/-- The body at any point: the inputs' memrefs hold their blocks; the closed form of the condition says which case
    the point is in, and that case's run applies. The invariant hands the body the scratch — at anything where the
    case covers it before reading it (A), at what the point before left where it reads it first (B; never the
    first point) — and takes it back at this point's contents; the other scoped buffers, the generator register
    and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5]
  have hN : t.val < 40 := lt_of_lt_of_eq t.isLt (show cfg2.N = 40 from N_2)
  by_cases h0 : t.val % 10 = 0
  · rw [outsAt2_A V c t h0]
    unfold out2_A_5 sout2_A_0; (try dsimp only)
    have hrun := (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (iblk2 V c 0 t) (iblk2 V c 1 t) (iblk2 V c 2 t) (iblk2 V c 3 t) (iblk2 V c 4 t)).2.2 Set.univ
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply (hrun _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_A_5 c _ _ _ _ _ _ _ _ _ _ _ _ _ _ _ _ _ _ _ _ _)
    · rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply (hrun _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_A_5 c _ _ _ _ _ _ _ _ _ _ _ _ _ _ _ _ _ _ _ _ _)
  · rw [outsAt2_B V c t h0]
    unfold out2_B_5; (try dsimp only)
    have hz : t.val ≠ 0 := fun hz => h0 (by rw [hz])
    rw [PhiS2_castSucc V c t, PhiS2_pos V c _ _ hz]
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (iblk2 V c 0 t) (iblk2 V c 1 t) (iblk2 V c 2 t) (iblk2 V c 3 t) (iblk2 V c 4 t) _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0 Hrest Hg]
    · isplitl [HS0 Hrest]
      · isplitl [HS0]; · iexact HS0
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover2_B_5 c _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (the class invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the carried scratch's named
    contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 40 := N_2; omega)

end Cert.Kernel.Hand

end
-- ==== Proof.K.Reg3.lean ====
import proofs.«175587_j47510928228669_1_alg».proof.Proof.Gen.Kernel.Launch
import proofs.«175587_j47510928228669_1_alg».proof.Proof.Gen.Kernel.Skeleton
import proofs.«175587_j47510928228669_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The similarity kernel's region (pipeline 3), at the contents `V` its arrays hold when it is entered

Grid 4 × 4. Windows 0 and 1 read row blocks of one array (the first by the outer coordinate, the second by the
inner one); window 2 is the output, one 512 × 512 block per point, written back at every point. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place. The window is fetched only when the outer coordinate moves;
    in between its block index stands still, so the buffer still holds the right block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point (it is fetched at every point). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The one rectangle the body loads and stores through: a whole 512 × 512 buffer. -/
abbrev r3_0 : Rect S512x512 := Rect.unit (s := S512x512) ![0, 0] S512x512.size inb_S512x512_S512x512_0_0

/-! ## What the body leaves in the output window's buffer -/

/-- Window 2's staging buffer after the body, from the two input blocks: its single store. The payload scales each
    row of either block by the reciprocal square root of its sum of squares (floored at about 1e-12), rounds both to
    bf16, multiplies the first by the transpose of the second accumulating in f32 from zero, and subtracts the
    product from zero. -/
def out3_2 (x0 x1 : Vec F S512x512 .f32) : Vec F S512x512 .f32 :=
  View.canon [⟨r3_0, k3_pay1 (View.ld x0 r3_0) (View.ld x1 r3_0)⟩]

/-- The store covers the buffer. -/
theorem cover3_2 (p0 : Vec F S512x512 .f32) (y : S512x512.Idx) :
    ∃ pc ∈ ([⟨r3_0, p0⟩] : List (View.Piece (Elt F) S512x512 .f32)), y ∈ pc.1.set :=
  View.cover_of_tiled [⟨r3_0, p0⟩] S512x512.size (by rfl) y

/-! ## The body's triple -/

set_option maxHeartbeats 1000000 in
/-- The kernel body on whole staging memrefs, the inputs' reading `x0`, `x1` and the output's anything, runs to the
    continuation holding the inputs' as they were and the output's at `out3_2 x0 x1`. -/
theorem sound_kernel3 (c : Dev nD) (E : Set ℕ) (i : grid3.Coords)
    (arg2 : Memref sig .tc .vmem S512x512 .f32) (harg2 : arg2.IsWhole)
    (arg3 : Memref sig .tc .vmem S512x512 .f32) (harg3 : arg3.IsWhole)
    (arg4 : Memref sig .tc .vmem S512x512 .f32) (harg4 : arg4.IsWhole)
    (x0 x1 : Vec F S512x512 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__sim_kernel i arg2 harg2 arg3 harg3 arg4 harg4) K := by
  simp only [cc3__sim_kernel_eq_skeleton]; unfold cc3__sim_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them; after the body at point `t`
    each input's buffer still at its block and the output's at `out3_2` of the two input blocks; the invariant is
    the scoped rest and the generator register, untouched; nothing owed. The two input windows read one array: each
    holds it at one half of the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg3Seg.lean ====
import proofs.«175587_j47510928228669_1_alg».proof.Proof.Gen.Kernel.Launch
import proofs.«175587_j47510928228669_1_alg».proof.Proof.Gen.Kernel.Skeleton
import proofs.«175587_j47510928228669_1_alg».proof.Proof.Gen.Kernel.Points
import proofs.«175587_j47510928228669_1_alg».proof.Proof.K.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The similarity kernel's region among the core's unscoped buffers

Windows 0 and 1 of pipeline 3 read ONE array, `main_v8`; window 2 writes `main_v25`. The core holds every unscoped
buffer whole at the full share. Entering the region, `main_v8`'s points-to is split along the share into its left
and right halves, one per input window; leaving it, the halves (both still at the entry contents: an input
window's array never changes) are joined back. -/

/-- The buffers behind pipeline 3's arrays: two, not three. -/
theorem arrImage3 : Finset.univ.image (Pipeline.arrRef spec3) = ([main_v8, main_v25] : List (Ref sig .tc)).toFinset := by decide

/-- The buffers behind the arrays, one by one. -/
theorem arrBufs3_eq (c : Dev nD) (Vc : (b : Ref sig .tc) → Buf (Elt F) ((c : Thread nD τ).loc b)) :
    (Pipeline.arrBufs spec3 c Vc : sProp 𝕄)
      = iprop((((c : Thread nD τ).loc main_v8) ↦{fullShare} Vc main_v8) ∗ (((c : Thread nD τ).loc main_v25) ↦{fullShare} Vc main_v25)) := by
  unfold Pipeline.arrBufs
  exact bigSep_eq_bigSepL_of_eq [main_v8, main_v25] arrImage3 (by decide) _

/-- The proof data's arrays, window by window: the two input windows hold `main_v8` at the two halves of the full
    share, the output window `main_v25` outright. -/
theorem arrays3_eq (c : Dev nD) (A : (w : Fin cfg3.W) → Buf (Elt F) ((cfg3.win w).arr.view.loc (c : Thread nD τ))) :
    ((dat3 V c).arrays A : sProp 𝕄)
      = iprop((((c : Thread nD τ).loc main_v8) ↦{fullShare.left} A 0) ∗ (((c : Thread nD τ).loc main_v8) ↦{fullShare.right} A 1)
          ∗ (((c : Thread nD τ).loc main_v25) ↦{fullShare} A 2)) := by
  unfold Dat.arrays
  rw [bigSep_W3]
  have s0 : (cfg3.win 0).arr.view.set = Finset.univ := (arr_whole3 0).set_eq_univ
  have s2 : (cfg3.win 2).arr.view.set = Finset.univ := (arr_whole3 2).set_eq_univ
  have q0 : (dat3 V c).share 0 = fullShare.left := rfl
  have q1 : (dat3 V c).share 1 = fullShare.right := rfl
  have q2 : (dat3 V c).share 2 = fullShare := rfl
  rw [s0, s2, q0, q1, q2]

/-- The core's unscoped buffers read at the TensorCore's references. -/
abbrev Vr3 (W : Dev nD → Valuation τ sig (Elt F)) : (c : Dev nD) → (b : Ref sig .tc) → Buf (Elt F) ((c : Thread nD τ).loc b) :=
  fun c b => W c (Proc.devRef .tc b)

/-- The core's unscoped buffers that are no array of pipeline 3, each whole at `W`'s contents. -/
def Z3 (W : Dev nD → Valuation τ sig (Elt F)) (c : Dev nD) : sProp 𝕄 :=
  Pipeline.unscopedRest (Ix := Unit) (Name := ℕ) (U := UR sig nD τ) (Lvl := ℕ) spec3 c (Vr3 W c)

/-- The core's unscoped buffers are the two buffers behind pipeline 3's arrays and the rest. -/
theorem unscopedBufs3_split (c : Dev nD) (Vc : (b : Ref sig .tc) → Buf (Elt F) ((c : Thread nD τ).loc b)) :
    (unscopedBufs c Vc : sProp 𝕄)
      = iprop(iprop((((c : Thread nD τ).loc main_v8) ↦{fullShare} Vc main_v8) ∗ (((c : Thread nD τ).loc main_v25) ↦{fullShare} Vc main_v25))
          ∗ Pipeline.unscopedRest spec3 c Vc) := by
  have h := Pipeline.unscopedBufs_split₀ (nD := nD) (τ := τ) (Val := Elt F) (Ix := Unit) (Name := ℕ) (U := UR sig nD τ) (Lvl := ℕ)
    (fun _ : Unit => cfg3) () winFacts₀3.arr_unscoped c Vc
  rw [← arrBufs3_eq]
  exact h

/-- ENTRY: every unscoped buffer held at `W c` gives pipeline 3's arrays at the proof data's entry contents —
    `main_v8` split into the two halves of its share, one per input window — beside the rest. -/
theorem entry3 (W : Dev nD → Valuation τ sig (Elt F)) (c : Dev nD) :
    StableHlo.held (c : Thread nD τ) (Pipeline.ucRefs τ sig) (W c)
      ⊢ (iprop((dat3 (Vr3 W) c).arrays ((dat3 (Vr3 W) c).arrAt · 0) ∗ Z3 W c) : sProp 𝕄) := by
  rw [← Pipeline.unscopedBufs_held (Ix := Unit) (Name := ℕ) (U := UR sig nD τ) (Lvl := ℕ) c (W c)]
  rw [unscopedBufs3_split c (Vr3 W c), arrays3_eq]
  unfold Z3
  iintro ⟨⟨H8, H25⟩, Hrest⟩
  ihave H8' := (pointsTo_share (PosShare.mem_left_op_right fullShare)).1 $$ H8
  icases H8' with ⟨H8l, H8r⟩
  isplitr [Hrest]
  · isplitl [H8l]; · iexact H8l
    isplitl [H8r]; · iexact H8r
    iexact H25
  iexact Hrest

/-- EXIT: pipeline 3's arrays at what the pipeline leaves — the two halves of `main_v8` still at the entry
    contents, `main_v25` at its write-backs folded — and the rest make every unscoped buffer held at `W c`
    updated at `main_v25`. -/
theorem exit3 (W : Dev nD → Valuation τ sig (Elt F)) (c : Dev nD) :
    (iprop((dat3 (Vr3 W) c).arrays ((dat3 (Vr3 W) c).arrAt · cfg3.N) ∗ Z3 W c) : sProp 𝕄)
      ⊢ StableHlo.held (c : Thread nD τ) (Pipeline.ucRefs τ sig)
          (Function.update (W c) main_v25 ((dat3 (Vr3 W) c).arrAt 2 cfg3.N)) := by
  have e0 : (dat3 (Vr3 W) c).arrAt 0 cfg3.N = Vr3 W c main_v8 :=
    ((dat3 (Vr3 W) c).arrAt_in 0 rfl _).trans (A_eq3 (Vr3 W) c 0)
  have e1 : (dat3 (Vr3 W) c).arrAt 1 cfg3.N = Vr3 W c main_v8 :=
    ((dat3 (Vr3 W) c).arrAt_in 1 rfl _).trans (A_eq3 (Vr3 W) c 1)
  generalize hY : (dat3 (Vr3 W) c).arrAt 2 cfg3.N = Y
  have h8 : Function.update (W c) main_v25 Y (Proc.devRef .tc main_v8) = W c (Proc.devRef .tc main_v8) :=
    Function.update_of_ne (StableHlo.devRef_ne_of_ne (by decide)) _ _
  have h25 : Function.update (W c) main_v25 Y (Proc.devRef .tc main_v25) = Y := Function.update_self _ _ _
  have hrest : (Pipeline.unscopedRest spec3 c (fun b => Function.update (W c) main_v25 Y (Proc.devRef .tc b)) : sProp 𝕄)
      = Pipeline.unscopedRest spec3 c (Vr3 W c) := by
    unfold Pipeline.unscopedRest
    refine bigSep_congr fun b hb => ?_
    have hb' : b ≠ main_v25 := fun e => (Finset.mem_sdiff.mp hb).2 (by rw [e, arrImage3]; decide)
    beta_reduce
    rw [Function.update_of_ne (StableHlo.devRef_ne_of_ne hb')]
  rw [← Pipeline.unscopedBufs_held (Ix := Unit) (Name := ℕ) (U := UR sig nD τ) (Lvl := ℕ) c (Function.update (W c) main_v25 Y)]
  rw [unscopedBufs3_split c (fun b => Function.update (W c) main_v25 Y (Proc.devRef .tc b)), arrays3_eq, hrest]
  unfold Z3
  beta_reduce
  rw [e0, e1, hY, h8, h25]
  iintro ⟨⟨H8l, H8r, H25⟩, Hrest⟩
  isplitr [Hrest]
  · isplitr [H25]
    · iapply (pointsTo_share (PosShare.mem_left_op_right fullShare)).2
      isplitl [H8l]; · iexact H8l
      iexact H8r
    iexact H25
  iexact Hrest

/-- What the region's record reads off the proof data by unfolding: nothing owed at any point, and the shares. -/
theorem owed3 (c : Dev nD) (t : Fin (cfg3.N + 1)) : (dat3 V c).owed t = 0 := rfl
theorem share3_0 (c : Dev nD) : (dat3 V c).share 0 = fullShare.left := rfl
theorem share3_1 (c : Dev nD) : (dat3 V c).share 1 = fullShare.right := rfl
theorem share3_2 (c : Dev nD) : (dat3 V c).share 2 = fullShare := rfl

end Cert.Kernel.Hand

end
-- ==== Proof.K.Reg4.Runs.lean ====
/- The column-mean kernel (pipeline 4, grid 10 × 4): what its three control cases share. A grid point is
   (column block, row block); the scratch row accumulates the column sums of the row blocks of one column block:
   it is zeroed at the first row block, added to at every row block, and at the last row block scaled into the
   output row. Here: the windows' blocks, the two branch conditions in closed form over the linear point index,
   where the output window is idle, and the staging and scratch memrefs. -/
import proofs.«175587_j47510928228669_1_alg».proof.Proof.Gen.Kernel.Launch
import proofs.«175587_j47510928228669_1_alg».proof.Proof.Gen.Kernel.Skeleton
import proofs.«175587_j47510928228669_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is
    `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- "This is the first row block": the condition of the zeroing branch, from the grid coordinates. -/
abbrev cond4_0 (i : grid4.Coords) : Prop := (Scalar.cmpi .ne (Scalar.extui (Scalar.cmpi .eq (BitVec.ofNat 32 (i 1).val) 0#32)) 0#32) = 1#1
/-- It holds at the points ≡ 0 (mod 4). -/
theorem hcond4_0 : ∀ t : Fin cfg4.N, cond4_0 (grid4.coords t) ↔ t.val % 4 = 0 :=
  (by decide +kernel : ∀ t : Fin grid4.N, cond4_0 (grid4.coords t) ↔ t.val % 4 = 0)

/-- "This is the last row block": the condition of the scaling branch. -/
abbrev cond4_1 (i : grid4.Coords) : Prop := k4_cond2 i = 1#1
/-- It holds at the points ≡ 3 (mod 4). -/
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

theorem liveAt4_0 : ∀ t : Fin cfg4.N, cfg4.idle 0 (grid4.coords t) = false := by decide +kernel
theorem idleAt4_1_A : ∀ t : Fin cfg4.N, cond4_0 (grid4.coords t) → ¬cond4_1 (grid4.coords t) → cfg4.idle 1 (grid4.coords t) = true := by decide +kernel
theorem noFlush4_1_A : ∀ t : Fin cfg4.N, cond4_0 (grid4.coords t) → ¬cond4_1 (grid4.coords t) → (cfg4.win 1).flush t = false := by decide +kernel
theorem idleAt4_1_B : ∀ t : Fin cfg4.N, ¬cond4_0 (grid4.coords t) → ¬cond4_1 (grid4.coords t) → cfg4.idle 1 (grid4.coords t) = true := by decide +kernel
theorem noFlush4_1_B : ∀ t : Fin cfg4.N, ¬cond4_0 (grid4.coords t) → ¬cond4_1 (grid4.coords t) → (cfg4.win 1).flush t = false := by decide +kernel
theorem liveAt4_1_C : ∀ t : Fin cfg4.N, ¬cond4_0 (grid4.coords t) → cond4_1 (grid4.coords t) → cfg4.idle 1 (grid4.coords t) = false := by decide +kernel

/-! ## The memrefs the body is called on -/

/-- One staging buffer of the output window, through which its contents are stated. -/
abbrev VO4_1 : View sig .tc .vmem S1x2048 .f32 := (Memref.whole cc4_stg1_0 : Memref sig .tc .vmem S1x2048 .f32).view
abbrev ms4_0 (t : Fin cfg4.N) : Memref sig .tc .vmem S512x2048 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x2048 .f32 := win4_1.stage (cfg4.slots t 1)
abbrev hs4_1 (t : Fin cfg4.N) : (ms4_1 t).IsWhole := hstage4_1 ((cfg4.slots t 1).cast nbuf4_1)
/-- The accumulator row: a whole scoped buffer of the kernel's own. -/
abbrev scM4_0 : Memref sig .tc .vmem S1x2048 .f32 := Memref.whole cc4_scratch0
abbrev VS4_0 : View sig .tc .vmem S1x2048 .f32 := scM4_0.view

/-- The scoped buffers that are neither a staging buffer of this pipeline nor its accumulator: carried along unopened. -/
abbrev rest4 (c : Dev nD) : sProp 𝕄 :=
  Pipeline.scopedRestBut (Ix := Unit) (Name := ℕ) (U := UR sig nD τ) (Lvl := ℕ) (Val := Elt F) spec4 c [cc4_scratch0]

/-- The class's region invariant with the accumulator as a memref owned at some contents. -/
theorem PhiA4_eq (c : Dev nD) :
    (Pipeline.ΦA spec4 c : sProp 𝕄)
      = iprop(iprop(iprop((∃ d, owns (c : Thread nD τ) scM4_0 fullShare d)) ∗ rest4 c) ∗ (∃ r, prngReg c r)) := by
  unfold Pipeline.ΦA; rw [scopedRest4_split]; simp only [scM4_0, owns_whole]; try rfl

end Cert.Kernel.Hand

end
-- ==== Proof.K.Reg4.RunA.lean ====
/- The column-mean kernel at a FIRST row block (the zeroing branch taken, the scaling branch not): the accumulator is
   zeroed and the block's column sums added; the output row is not touched. -/
import proofs.«175587_j47510928228669_1_alg».proof.Proof.K.Reg4.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run at a first row block: the input block and the idle output row handed back as they were, the
    accumulator (entered at anything) left with the pieces the two stores wrote, found by the symbolic run. -/
noncomputable def kernelRun4_A (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : cond4_0 i) (hc1 : ¬cond4_1 i)
    (x0 : Vec F S512x2048 .f32) :
    Σ' (L1 : List (View.Piece (Elt F) S1x2048 .f32)), { LS0 : List (View.Piece (Elt F) S1x2048 .f32) //
      ∀ (xi1 : Vec F S1x2048 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc4__popular_kernel i arg2 harg2 arg3 harg3 arg4 harg4) K } := by
  refine ⟨[], ?_, fun xi1 E K => ?run⟩
  case run =>
    simp only [cc4__popular_kernel_eq_skeleton]; unfold cc4__popular_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.K.Reg4.RunB.lean ====
/- The column-mean kernel at a MIDDLE row block (neither branch taken): the block's column sums are added to the
   accumulator; the output row is not touched. -/
import proofs.«175587_j47510928228669_1_alg».proof.Proof.K.Reg4.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run at a middle row block: the accumulator entered at the contents `xs0` the point before left. -/
noncomputable def kernelRun4_B (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : ¬cond4_1 i)
    (x0 : Vec F S512x2048 .f32) (xs0 : Vec F S1x2048 .f32) :
    Σ' (L1 : List (View.Piece (Elt F) S1x2048 .f32)), { LS0 : List (View.Piece (Elt F) S1x2048 .f32) //
      ∀ (xi1 : Vec F S1x2048 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc4__popular_kernel i arg2 harg2 arg3 harg3 arg4 harg4) K } := by
  refine ⟨[], ?_, fun xi1 E K => ?run⟩
  case run =>
    simp only [cc4__popular_kernel_eq_skeleton]; unfold cc4__popular_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.K.Reg4.RunC.lean ====
/- The column-mean kernel at a LAST row block (the scaling branch taken, the zeroing branch not): the block's column
   sums are added to the accumulator, and the accumulator times the reciprocal of the row count is stored into the
   output row. -/
import proofs.«175587_j47510928228669_1_alg».proof.Proof.K.Reg4.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run at a last row block: the output row (entered at anything) and the accumulator (entered at `xs0`) each
    left with the pieces the stores wrote. -/
noncomputable def kernelRun4_C (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : cond4_1 i)
    (x0 : Vec F S512x2048 .f32) (xs0 : Vec F S1x2048 .f32) :
    Σ' (L1 : List (View.Piece (Elt F) S1x2048 .f32)), { LS0 : List (View.Piece (Elt F) S1x2048 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc4__popular_kernel i arg2 harg2 arg3 harg3 arg4 harg4) K } := by
  refine ⟨?_, ?_, fun E K => ?run⟩
  case run =>
    simp only [cc4__popular_kernel_eq_skeleton]; unfold cc4__popular_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.Kernel.Hand

end
-- ==== Proof.K.Reg4.lean ====
/- The column-mean kernel (pipeline 4): what its output row and its accumulator hold point by point, the pipeline's
   proof data at the entry contents `V`, and the body obligation. The accumulator after a row block is the
   accumulator before it plus the block's column sums (zero before the first row block of a column block); the output
   row is stored at the last row block only, as the accumulator times the reciprocal of the row count. -/
import proofs.«175587_j47510928228669_1_alg».proof.Proof.K.Reg4.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first row block stores nothing into the output row: a placeholder nothing consults. -/
def out4_A_1 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : cond4_0 i) (hc1 : ¬cond4_1 i)
    (x0 : Vec F S512x2048 .f32) : Vec F S1x2048 .f32 :=
  VO4_1.read (Elt F) (VO4_1.writes (Elt F) VO4_1.junk (kernelRun4_A c i arg2 harg2 arg3 harg3 arg4 harg4 hc0 hc1 x0).1)

/-- At a first row block the stores into the accumulator cover it. -/
theorem scover4_A_0 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : cond4_0 i) (hc1 : ¬cond4_1 i)
    (x0 : Vec F S512x2048 .f32) (y : S1x2048.Idx) :
    ∃ pc ∈ (kernelRun4_A c i arg2 harg2 arg3 harg3 arg4 harg4 hc0 hc1 x0).2.1, y ∈ pc.1.set :=
  View.cover_of_tiledL (kernelRun4_A c i arg2 harg2 arg3 harg3 arg4 harg4 hc0 hc1 x0).2.1 S1x2048.size (by sl_kernel_rfl) y

/-- What a first row block leaves in the accumulator. -/
def sout4_A_0 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : cond4_0 i) (hc1 : ¬cond4_1 i)
    (x0 : Vec F S512x2048 .f32) : Vec F S1x2048 .f32 :=
  VS4_0.read (Elt F) (VS4_0.writes (Elt F) VS4_0.junk (kernelRun4_A c i arg2 harg2 arg3 harg3 arg4 harg4 hc0 hc1 x0).2.1)

/-- A middle row block stores nothing into the output row: a placeholder nothing consults. -/
def out4_B_1 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : ¬cond4_1 i)
    (x0 : Vec F S512x2048 .f32) (xs0 : Vec F S1x2048 .f32) : Vec F S1x2048 .f32 :=
  VO4_1.read (Elt F) (VO4_1.writes (Elt F) VO4_1.junk (kernelRun4_B c i arg2 harg2 arg3 harg3 arg4 harg4 hc0 hc1 x0 xs0).1)

theorem scover4_B_0 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : ¬cond4_1 i)
    (x0 : Vec F S512x2048 .f32) (xs0 : Vec F S1x2048 .f32) (y : S1x2048.Idx) :
    ∃ pc ∈ (kernelRun4_B c i arg2 harg2 arg3 harg3 arg4 harg4 hc0 hc1 x0 xs0).2.1, y ∈ pc.1.set :=
  View.cover_of_tiledL (kernelRun4_B c i arg2 harg2 arg3 harg3 arg4 harg4 hc0 hc1 x0 xs0).2.1 S1x2048.size (by sl_kernel_rfl) y

/-- What a middle row block leaves in the accumulator. -/
def sout4_B_0 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : ¬cond4_1 i)
    (x0 : Vec F S512x2048 .f32) (xs0 : Vec F S1x2048 .f32) : Vec F S1x2048 .f32 :=
  VS4_0.read (Elt F) (VS4_0.writes (Elt F) VS4_0.junk (kernelRun4_B c i arg2 harg2 arg3 harg3 arg4 harg4 hc0 hc1 x0 xs0).2.1)

/-- At a last row block the one store into the output row covers it. -/
theorem cover4_C_1 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : cond4_1 i)
    (x0 : Vec F S512x2048 .f32) (xs0 : Vec F S1x2048 .f32) (y : S1x2048.Idx) :
    ∃ pc ∈ (kernelRun4_C c i arg2 harg2 arg3 harg3 arg4 harg4 hc0 hc1 x0 xs0).1, y ∈ pc.1.set :=
  View.cover_of_tiledL (kernelRun4_C c i arg2 harg2 arg3 harg3 arg4 harg4 hc0 hc1 x0 xs0).1 S1x2048.size (by sl_kernel_rfl) y

/-- What a last row block leaves in the output row. -/
def out4_C_1 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : cond4_1 i)
    (x0 : Vec F S512x2048 .f32) (xs0 : Vec F S1x2048 .f32) : Vec F S1x2048 .f32 :=
  VO4_1.read (Elt F) (VO4_1.writes (Elt F) VO4_1.junk (kernelRun4_C c i arg2 harg2 arg3 harg3 arg4 harg4 hc0 hc1 x0 xs0).1)

theorem scover4_C_0 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : cond4_1 i)
    (x0 : Vec F S512x2048 .f32) (xs0 : Vec F S1x2048 .f32) (y : S1x2048.Idx) :
    ∃ pc ∈ (kernelRun4_C c i arg2 harg2 arg3 harg3 arg4 harg4 hc0 hc1 x0 xs0).2.1, y ∈ pc.1.set :=
  View.cover_of_tiledL (kernelRun4_C c i arg2 harg2 arg3 harg3 arg4 harg4 hc0 hc1 x0 xs0).2.1 S1x2048.size (by sl_kernel_rfl) y

/-- What a last row block leaves in the accumulator. -/
def sout4_C_0 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : cond4_1 i)
    (x0 : Vec F S512x2048 .f32) (xs0 : Vec F S1x2048 .f32) : Vec F S1x2048 .f32 :=
  VS4_0.read (Elt F) (VS4_0.writes (Elt F) VS4_0.junk (kernelRun4_C c i arg2 harg2 arg3 harg3 arg4 harg4 hc0 hc1 x0 xs0).2.1)

/-! ## What the output row and the accumulator hold after each point -/

/-- After the body at position `n`: (the output row's staging buffer, the accumulator) — the case the closed forms select
    at `n`, run on the point's input block, the accumulator entered at what position `n - 1` left. -/
def outsAt4 (c : Dev nD) : (n : ℕ) → n < cfg4.N → Vec F S1x2048 .f32 × Vec F S1x2048 .f32
  | 0, hn => (out4_A_1 c (grid4.coords ⟨0, hn⟩) (ms4_0 ⟨0, hn⟩) (hs4_0 ⟨0, hn⟩) (ms4_1 ⟨0, hn⟩) (hs4_1 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩), sout4_A_0 c (grid4.coords ⟨0, hn⟩) (ms4_0 ⟨0, hn⟩) (hs4_0 ⟨0, hn⟩) (ms4_1 ⟨0, hn⟩) (hs4_1 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩))
  | n + 1, hn =>
    if h0 : (n + 1) % 4 = 0 then
      if h1 : (n + 1) % 4 = 3 then
        False.elim (by omega)
      else
        (out4_A_1 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩))
    else
      if h1 : (n + 1) % 4 = 3 then
        (out4_C_1 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (outsAt4 c n (Nat.lt_of_succ_lt hn)).2)
      else
        (out4_B_1 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (outsAt4 c n (Nat.lt_of_succ_lt hn)).2)

/-- At a first row block. -/
theorem outsAt4_A (c : Dev nD) (t : Fin cfg4.N) (h0 : t.val % 4 = 0) (h1 : ¬t.val % 4 = 3) :
    outsAt4 V c t.val t.isLt = (out4_A_1 c (grid4.coords t) (ms4_0 t) (hs4_0 t) (ms4_1 t) (hs4_1 t) scM4_0 (Memref.isWhole_whole _) ((hcond4_0 t).mpr h0) (fun h => h1 ((hcond4_1 t).mp h)) (iblk4 V c 0 t), sout4_A_0 c (grid4.coords t) (ms4_0 t) (hs4_0 t) (ms4_1 t) (hs4_1 t) scM4_0 (Memref.isWhole_whole _) ((hcond4_0 t).mpr h0) (fun h => h1 ((hcond4_1 t).mp h)) (iblk4 V c 0 t)) := by
  obtain ⟨n, hn⟩ := t
  cases n with
  | zero => exact rfl
  | succ n => exact (dif_pos h0).trans ((dif_neg h1).trans rfl)

/-- At a middle row block: over what the point before left. -/
theorem outsAt4_B (c : Dev nD) (t : Fin cfg4.N) (h0 : ¬t.val % 4 = 0) (h1 : ¬t.val % 4 = 3) :
    outsAt4 V c t.val t.isLt = (out4_B_1 c (grid4.coords t) (ms4_0 t) (hs4_0 t) (ms4_1 t) (hs4_1 t) scM4_0 (Memref.isWhole_whole _) (fun h => h0 ((hcond4_0 t).mp h)) (fun h => h1 ((hcond4_1 t).mp h)) (iblk4 V c 0 t) (outsAt4 V c (t.val - 1) (Nat.lt_of_le_of_lt (Nat.sub_le _ _) t.isLt)).2, sout4_B_0 c (grid4.coords t) (ms4_0 t) (hs4_0 t) (ms4_1 t) (hs4_1 t) scM4_0 (Memref.isWhole_whole _) (fun h => h0 ((hcond4_0 t).mp h)) (fun h => h1 ((hcond4_1 t).mp h)) (iblk4 V c 0 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last row block: over what the point before left. -/
theorem outsAt4_C (c : Dev nD) (t : Fin cfg4.N) (h0 : ¬t.val % 4 = 0) (h1 : t.val % 4 = 3) :
    outsAt4 V c t.val t.isLt = (out4_C_1 c (grid4.coords t) (ms4_0 t) (hs4_0 t) (ms4_1 t) (hs4_1 t) scM4_0 (Memref.isWhole_whole _) (fun h => h0 ((hcond4_0 t).mp h)) ((hcond4_1 t).mpr h1) (iblk4 V c 0 t) (outsAt4 V c (t.val - 1) (Nat.lt_of_le_of_lt (Nat.sub_le _ _) t.isLt)).2, sout4_C_0 c (grid4.coords t) (ms4_0 t) (hs4_0 t) (ms4_1 t) (hs4_1 t) scM4_0 (Memref.isWhole_whole _) (fun h => h0 ((hcond4_0 t).mp h)) ((hcond4_1 t).mpr h1) (iblk4 V c 0 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the class's invariant (the accumulator at anything); afterwards the accumulator
    at what the point before left, the other scoped buffers unopened, the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ rest4 c) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ rest4 c) ∗ (∃ r, prngReg c r)) := by
  cases n with
  | zero => exact absurd rfl hz
  | succ n => rfl

/-! ## The pipeline's proof data -/

/-- The proof data of pipeline 4 on core `c`: the arrays as the region finds them; after the body at point `t` the input's
    buffer at its block and the output row's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t)

set_option maxHeartbeats 4800000 in
/-- The body at any point: the closed forms say which case the point is in; the invariant hands the body the accumulator at
    what the point before left (at anything at the first point) and takes it back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) t.isLt from rfl, PhiS4_succ]
  have hN : t.val < 40 := lt_of_lt_of_eq t.isLt (show cfg4.N = 40 from N_4)
  by_cases h0 : t.val % 4 = 0
  · by_cases h1 : t.val % 4 = 3
    · exfalso; omega
    · rw [show (dat4 V c).leavesExact 0 t = owns (c : Thread nD τ) (ms4_0 t) fullShare ((dat4 V c).after 0 t) from by
      unfold Dat.leavesExact; rw [liveAt4_0 t], after4_0]
      rw [Dat.leavesExact_idle (dat4 V c) 1 t (idleAt4_1_A t ((hcond4_0 t).mpr h0) (fun h => h1 ((hcond4_1 t).mp h))) (noFlush4_1_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, Hr⟩, Hg⟩, Ho, ⟨%d0, H0⟩, ⟨%d1, H1⟩⟩
        iapply ((kernelRun4_A c (grid4.coords t) _ _ _ _ _ _ ((hcond4_0 t).mpr h0) (fun h => h1 ((hcond4_1 t).mp h)) (iblk4 V c 0 t)).2.2 _ Set.univ _)
        isplitl [H0]; · iexact H0
        isplitl [H1]; · iexact H1
        isplitl [HS0]; · iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _)
            iexact Hr
          iexact Hg
        isplitl [Ho]; · iexact Ho
        isplitl [H0]; · iexact H0
        iexists _; iexact H1
      · rw [PhiS4_castSucc V c t, PhiS4_pos V c _ _ hz]
        iintro ⟨⟨⟨HS0, Hr⟩, Hg⟩, Ho, ⟨%d0, H0⟩, ⟨%d1, H1⟩⟩
        iapply ((kernelRun4_A c (grid4.coords t) _ _ _ _ _ _ ((hcond4_0 t).mpr h0) (fun h => h1 ((hcond4_1 t).mp h)) (iblk4 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _)
            iexact Hr
          iexact Hg
        isplitl [Ho]; · iexact Ho
        isplitl [H0]; · iexact H0
        iexists _; iexact H1
  · by_cases h1 : t.val % 4 = 3
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1_C t (fun h => h0 ((hcond4_0 t).mp h)) ((hcond4_1 t).mpr h1)], after4_1]
      rw [outsAt4_C V c t h0 h1]
      unfold out4_C_1 sout4_C_0; (try dsimp only)
      by_cases hz : t.val = 0
      · exfalso; omega
      · rw [PhiS4_castSucc V c t, PhiS4_pos V c _ _ hz]
        iintro ⟨⟨⟨HS0, Hr⟩, Hg⟩, Ho, ⟨%d0, H0⟩, ⟨%d1, H1⟩⟩
        iapply ((kernelRun4_C c (grid4.coords t) _ _ _ _ _ _ (fun h => h0 ((hcond4_0 t).mp h)) ((hcond4_1 t).mpr h1) (iblk4 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_C_0 c _ _ _ _ _ _ _ _ _ _ _)
            iexact Hr
          iexact Hg
        isplitl [Ho]; · iexact Ho
        isplitl [H0]; · iexact H0
        unfold owns; iexists _; isplitr
        swap; · iexact H1
        ipureintro; exact View.read_writes_of_cover _ _ _ _ _ (cover4_C_1 c _ _ _ _ _ _ _ _ _ _ _)
    · rw [show (dat4 V c).leavesExact 0 t = owns (c : Thread nD τ) (ms4_0 t) fullShare ((dat4 V c).after 0 t) from by
      unfold Dat.leavesExact; rw [liveAt4_0 t], after4_0]
      rw [Dat.leavesExact_idle (dat4 V c) 1 t (idleAt4_1_B t (fun h => h0 ((hcond4_0 t).mp h)) (fun h => h1 ((hcond4_1 t).mp h))) (noFlush4_1_B t (fun h => h0 ((hcond4_0 t).mp h)) (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨⟨HS0, Hr⟩, Hg⟩, Ho, ⟨%d0, H0⟩, ⟨%d1, H1⟩⟩
        iapply ((kernelRun4_B c (grid4.coords t) _ _ _ _ _ _ (fun h => h0 ((hcond4_0 t).mp h)) (fun h => h1 ((hcond4_1 t).mp h)) (iblk4 V c 0 t) _).2.2 _ Set.univ _)
        isplitl [H0]; · iexact H0
        isplitl [H1]; · iexact H1
        isplitl [HS0]; · iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_B_0 c _ _ _ _ _ _ _ _ _ _ _)
            iexact Hr
          iexact Hg
        isplitl [Ho]; · iexact Ho
        isplitl [H0]; · iexact H0
        iexists _; iexact H1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

theorem hout4 (c : Dev nD) : (dat4 V c).Φ (Fin.last cfg4.N) ⊢ Pipeline.ΦA spec4 c :=
  Phi_out4 V c _ (by rw [Fin.val_last]; have : cfg4.N = 40 := N_4; omega)

end Cert.Kernel.Hand

end
-- ==== Proof.K.Main.lean ====
/- The whole program as a list of segments: a host segment per stretch of host operations and a region per kernel, over the
   thread state "every unscoped buffer at the boundary's contents, the generator register at some state, nothing owed".
   The boundary contents `W0 … W22` are a fold from the launch memory: a host stretch applies its operations, a region
   replaces its output array by what its write-backs leave. The run: every weakly fair execution terminates with every
   unscoped buffer at `W22`; the frame claim and the results are read off it. -/
import proofs.«175587_j47510928228669_1_alg».proof.Proof.Gen.Kernel.Regions
import proofs.«175587_j47510928228669_1_alg».proof.Proof.K.Reg0
import proofs.«175587_j47510928228669_1_alg».proof.Proof.K.Reg1
import proofs.«175587_j47510928228669_1_alg».proof.Proof.K.Reg2
import proofs.«175587_j47510928228669_1_alg».proof.Proof.K.Reg3Seg
import proofs.«175587_j47510928228669_1_alg».proof.Proof.K.Reg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the TensorCore's references: what a region's proof data take. -/
abbrev Vr (W : Dev nD → Valuation τ sig (Elt F)) : (c : Dev nD) → (b : Ref sig .tc) → Buf (Elt F) ((c : Thread nD τ).loc b) := fun c b => W c b

/-! ## The buffers' contents between segments -/

/-- Core `c`'s unscoped buffers at launch. -/
abbrev W0 (c : Dev nD) : Valuation τ sig (Elt F) := fun b => m (c, b)
/-- After the host stretch `hostOps0`. -/
abbrev W1 (c : Dev nD) : Valuation τ sig (Elt F) := StableHlo.after hostOps0 (W0 m c)
/-- After the host stretch `hostOps0_1`. -/
abbrev W2 (c : Dev nD) : Valuation τ sig (Elt F) := StableHlo.after hostOps0_1 (W1 m c)
/-- After the host stretch `hostOps0_2`. -/
abbrev W3 (c : Dev nD) : Valuation τ sig (Elt F) := StableHlo.after hostOps0_2 (W2 m c)
/-- After the host stretch `hostOps0_3`. -/
abbrev W4 (c : Dev nD) : Valuation τ sig (Elt F) := StableHlo.after hostOps0_3 (W3 m c)
/-- After the host stretch `hostOps0_4`. -/
abbrev W5 (c : Dev nD) : Valuation τ sig (Elt F) := StableHlo.after hostOps0_4 (W4 m c)
/-- After the host stretch `hostOps0_5`. -/
abbrev W6 (c : Dev nD) : Valuation τ sig (Elt F) := StableHlo.after hostOps0_5 (W5 m c)
/-- After the host stretch `hostOps0_6`. -/
abbrev W7 (c : Dev nD) : Valuation τ sig (Elt F) := StableHlo.after hostOps0_6 (W6 m c)
/-- After region 0: its output array `main_v8` at what the pipeline's write-backs leave (the proof data's `arrAt` at the last point), every other buffer as the region was entered. -/
def W8 (c : Dev nD) : Valuation τ sig (Elt F) := Function.update (W7 m c) main_v8 ((dat0 (Vr (W7 m)) c).arrAt 6 cfg0.N)
/-- After the host stretch `hostOps1`. -/
abbrev W9 (c : Dev nD) : Valuation τ sig (Elt F) := StableHlo.after hostOps1 (W8 m c)
/-- After the host stretch `hostOps1_1`. -/
abbrev W10 (c : Dev nD) : Valuation τ sig (Elt F) := StableHlo.after hostOps1_1 (W9 m c)
/-- After the host stretch `hostOps1_2`. -/
abbrev W11 (c : Dev nD) : Valuation τ sig (Elt F) := StableHlo.after hostOps1_2 (W10 m c)
/-- After the host stretch `hostOps1_3`. -/
abbrev W12 (c : Dev nD) : Valuation τ sig (Elt F) := StableHlo.after hostOps1_3 (W11 m c)
/-- After region 1: its output array `main_v15` at what the pipeline's write-backs leave (the proof data's `arrAt` at the last point), every other buffer as the region was entered. -/
def W13 (c : Dev nD) : Valuation τ sig (Elt F) := Function.update (W12 m c) main_v15 ((dat1 (Vr (W12 m)) c).arrAt 5 cfg1.N)
/-- After the host stretch `hostOps2`. -/
abbrev W14 (c : Dev nD) : Valuation τ sig (Elt F) := StableHlo.after hostOps2 (W13 m c)
/-- After the host stretch `hostOps2_1`. -/
abbrev W15 (c : Dev nD) : Valuation τ sig (Elt F) := StableHlo.after hostOps2_1 (W14 m c)
/-- After the host stretch `hostOps2_2`. -/
abbrev W16 (c : Dev nD) : Valuation τ sig (Elt F) := StableHlo.after hostOps2_2 (W15 m c)
/-- After the host stretch `hostOps2_3`. -/
abbrev W17 (c : Dev nD) : Valuation τ sig (Elt F) := StableHlo.after hostOps2_3 (W16 m c)
/-- After region 2: its output array `main_v23` at what the pipeline's write-backs leave (the proof data's `arrAt` at the last point), every other buffer as the region was entered. -/
def W18 (c : Dev nD) : Valuation τ sig (Elt F) := Function.update (W17 m c) main_v23 ((dat2 (Vr (W17 m)) c).arrAt 5 cfg2.N)
/-- After the host stretch `hostOps3`. -/
abbrev W19 (c : Dev nD) : Valuation τ sig (Elt F) := StableHlo.after hostOps3 (W18 m c)
/-- After region 3: its output array `main_v25` at what the pipeline's write-backs leave (the proof data's `arrAt` at the last point), every other buffer as the region was entered. -/
def W20 (c : Dev nD) : Valuation τ sig (Elt F) := Function.update (W19 m c) main_v25 ((dat3 (Vr3 (W19 m)) c).arrAt 2 cfg3.N)
/-- After region 4: its output array `main_v26` at what the pipeline's write-backs leave (the proof data's `arrAt` at the last point), every other buffer as the region was entered. -/
def W21 (c : Dev nD) : Valuation τ sig (Elt F) := Function.update (W20 m c) main_v26 ((dat4 (Vr (W20 m)) c).arrAt 1 cfg4.N)
/-- After the host stretch `hostOps5`. -/
abbrev W22 (c : Dev nD) : Valuation τ sig (Elt F) := StableHlo.after hostOps5 (W21 m c)

/-- Region 0 changes `main_v8` only. -/
theorem W8_of_ne (c : Dev nD) (b : Ref sig .tc) (h : b ≠ main_v8) : W8 m c b = W7 m c b := by
  unfold W8; exact Function.update_of_ne (StableHlo.devRef_ne_of_ne h) _ _
theorem W8_out (c : Dev nD) : W8 m c main_v8 = (dat0 (Vr (W7 m)) c).arrAt 6 cfg0.N := by
  unfold W8; exact Function.update_self _ _ _

/-- Region 1 changes `main_v15` only. -/
theorem W13_of_ne (c : Dev nD) (b : Ref sig .tc) (h : b ≠ main_v15) : W13 m c b = W12 m c b := by
  unfold W13; exact Function.update_of_ne (StableHlo.devRef_ne_of_ne h) _ _
theorem W13_out (c : Dev nD) : W13 m c main_v15 = (dat1 (Vr (W12 m)) c).arrAt 5 cfg1.N := by
  unfold W13; exact Function.update_self _ _ _

/-- Region 2 changes `main_v23` only. -/
theorem W18_of_ne (c : Dev nD) (b : Ref sig .tc) (h : b ≠ main_v23) : W18 m c b = W17 m c b := by
  unfold W18; exact Function.update_of_ne (StableHlo.devRef_ne_of_ne h) _ _
theorem W18_out (c : Dev nD) : W18 m c main_v23 = (dat2 (Vr (W17 m)) c).arrAt 5 cfg2.N := by
  unfold W18; exact Function.update_self _ _ _

/-- Region 3 changes `main_v25` only. -/
theorem W20_of_ne (c : Dev nD) (b : Ref sig .tc) (h : b ≠ main_v25) : W20 m c b = W19 m c b := by
  unfold W20; exact Function.update_of_ne (StableHlo.devRef_ne_of_ne h) _ _
theorem W20_out (c : Dev nD) : W20 m c main_v25 = (dat3 (Vr3 (W19 m)) c).arrAt 2 cfg3.N := by
  unfold W20; exact Function.update_self _ _ _

/-- Region 4 changes `main_v26` only. -/
theorem W21_of_ne (c : Dev nD) (b : Ref sig .tc) (h : b ≠ main_v26) : W21 m c b = W20 m c b := by
  unfold W21; exact Function.update_of_ne (StableHlo.devRef_ne_of_ne h) _ _
theorem W21_out (c : Dev nD) : W21 m c main_v26 = (dat4 (Vr (W20 m)) c).arrAt 1 cfg4.N := by
  unfold W21; exact Function.update_self _ _ _

/-! ## The proof data family and the thread state -/

/-- Every pipeline's proof data, each at its region's entry contents. -/
def pdats : (p : Fin 5) → (c : Dev nD) → Dat τ (Elt F) Unit ℕ (UR sig nD τ) ℕ (Pipeline.pin (pcfgs (F := F)) Gen.adm p) c
  | ⟨0, _⟩ => fun c => dat0 (Vr (W7 m)) c
  | ⟨1, _⟩ => fun c => dat1 (Vr (W12 m)) c
  | ⟨2, _⟩ => fun c => dat2 (Vr (W17 m)) c
  | ⟨3, _⟩ => fun c => dat3 (Vr3 (W19 m)) c
  | ⟨4, _⟩ => fun c => dat4 (Vr (W20 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W22 m c) ∗ ∃ r, prngReg c r)

/-! ## Region 0 -/

/-- At region 0's exit each of its arrays holds what the pipeline leaves: the output `main_v8` its write-backs folded, an
    input its entry contents (an input window's array is never written). -/
theorem hF0 (c : Dev nD) (w : Fin cfg0.W) : (dat0 (Vr (W7 m)) c).arrAt w cfg0.N = Vr (W8 m) c (Pipeline.arrRef spec0 w) := by
  match w with
  | ⟨0, _⟩ => exact ((dat0 (Vr (W7 m)) c).arrAt_in ⟨0, by decide⟩ rfl _).trans ((A_eq0 (Vr (W7 m)) c ⟨0, by decide⟩).trans (W8_of_ne m c _ (by decide)).symm)
  | ⟨1, _⟩ => exact ((dat0 (Vr (W7 m)) c).arrAt_in ⟨1, by decide⟩ rfl _).trans ((A_eq0 (Vr (W7 m)) c ⟨1, by decide⟩).trans (W8_of_ne m c _ (by decide)).symm)
  | ⟨2, _⟩ => exact ((dat0 (Vr (W7 m)) c).arrAt_in ⟨2, by decide⟩ rfl _).trans ((A_eq0 (Vr (W7 m)) c ⟨2, by decide⟩).trans (W8_of_ne m c _ (by decide)).symm)
  | ⟨3, _⟩ => exact ((dat0 (Vr (W7 m)) c).arrAt_in ⟨3, by decide⟩ rfl _).trans ((A_eq0 (Vr (W7 m)) c ⟨3, by decide⟩).trans (W8_of_ne m c _ (by decide)).symm)
  | ⟨4, _⟩ => exact ((dat0 (Vr (W7 m)) c).arrAt_in ⟨4, by decide⟩ rfl _).trans ((A_eq0 (Vr (W7 m)) c ⟨4, by decide⟩).trans (W8_of_ne m c _ (by decide)).symm)
  | ⟨5, _⟩ => exact ((dat0 (Vr (W7 m)) c).arrAt_in ⟨5, by decide⟩ rfl _).trans ((A_eq0 (Vr (W7 m)) c ⟨5, by decide⟩).trans (W8_of_ne m c _ (by decide)).symm)
  | ⟨6, _⟩ => exact (W8_out m c).symm
/-- Every other buffer holds what it held at entry. -/
theorem hrest0 (c : Dev nD) : ∀ b, b ∉ Finset.univ.image (Pipeline.arrRef spec0) → Vr (W8 m) c b = Vr (W7 m) c b :=
  fun b hb => W8_of_ne m c b fun e => hb (Finset.mem_image.mpr ⟨⟨6, by decide⟩, Finset.mem_univ _, (by rw [e])⟩)

set_option backward.isDefEq.respectTransparency.types false in
/-- Region 0 over the thread state: entered from every unscoped buffer at `W7`, left at `W8`. Its arrays are split out of
    the unscoped buffers and put back at the exit contents; the generator register goes into the region invariant and comes
    back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr (W7 m)) c).loose
  hwaits := Pipeline.hwaits_of_owed_zero _ _ _ _ L lv 0 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (Vr (W7 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vr (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m 0 c).Φ 0 := hin0 (Vr (W7 m)) c
    iintro ⟨Hp, -, Hr⟩
    iapply h
    unfold Pipeline.ΦA
    isplitl [Hr]; · iexact Hr
    iexact Hp
  hout c := by
    rw [Pipeline.ownSems0_none]
    have h : (pdats m 0 c).Φ (Fin.last (Pipeline.pin (pcfgs (F := F)) Gen.adm 0).N) ⊢ (Pipeline.ΦA spec0 c : sProp 𝕄) := hout0 (Vr (W7 m)) c
    iintro H
    ihave H2 := h $$ H
    unfold Pipeline.ΦA
    icases H2 with ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vr (W7 m) c) (Vr (W8 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the pipeline leaves: the output `main_v15` its write-backs folded, an
    input its entry contents (an input window's array is never written). -/
theorem hF1 (c : Dev nD) (w : Fin cfg1.W) : (dat1 (Vr (W12 m)) c).arrAt w cfg1.N = Vr (W13 m) c (Pipeline.arrRef spec1 w) := by
  match w with
  | ⟨0, _⟩ => exact ((dat1 (Vr (W12 m)) c).arrAt_in ⟨0, by decide⟩ rfl _).trans ((A_eq1 (Vr (W12 m)) c ⟨0, by decide⟩).trans (W13_of_ne m c _ (by decide)).symm)
  | ⟨1, _⟩ => exact ((dat1 (Vr (W12 m)) c).arrAt_in ⟨1, by decide⟩ rfl _).trans ((A_eq1 (Vr (W12 m)) c ⟨1, by decide⟩).trans (W13_of_ne m c _ (by decide)).symm)
  | ⟨2, _⟩ => exact ((dat1 (Vr (W12 m)) c).arrAt_in ⟨2, by decide⟩ rfl _).trans ((A_eq1 (Vr (W12 m)) c ⟨2, by decide⟩).trans (W13_of_ne m c _ (by decide)).symm)
  | ⟨3, _⟩ => exact ((dat1 (Vr (W12 m)) c).arrAt_in ⟨3, by decide⟩ rfl _).trans ((A_eq1 (Vr (W12 m)) c ⟨3, by decide⟩).trans (W13_of_ne m c _ (by decide)).symm)
  | ⟨4, _⟩ => exact ((dat1 (Vr (W12 m)) c).arrAt_in ⟨4, by decide⟩ rfl _).trans ((A_eq1 (Vr (W12 m)) c ⟨4, by decide⟩).trans (W13_of_ne m c _ (by decide)).symm)
  | ⟨5, _⟩ => exact (W13_out m c).symm
/-- Every other buffer holds what it held at entry. -/
theorem hrest1 (c : Dev nD) : ∀ b, b ∉ Finset.univ.image (Pipeline.arrRef spec1) → Vr (W13 m) c b = Vr (W12 m) c b :=
  fun b hb => W13_of_ne m c b fun e => hb (Finset.mem_image.mpr ⟨⟨5, by decide⟩, Finset.mem_univ _, (by rw [e])⟩)

set_option backward.isDefEq.respectTransparency.types false in
/-- Region 1 over the thread state: entered from every unscoped buffer at `W12`, left at `W13`. Its arrays are split out of
    the unscoped buffers and put back at the exit contents; the generator register goes into the region invariant and comes
    back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr (W12 m)) c).loose
  hwaits := Pipeline.hwaits_of_owed_zero _ _ _ _ L lv 1 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec1 c (Vr (W12 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vr (W12 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m 1 c).Φ 0 := hin1 (Vr (W12 m)) c
    iintro ⟨Hp, -, Hr⟩
    iapply h
    unfold Pipeline.ΦA
    isplitl [Hr]; · iexact Hr
    iexact Hp
  hout c := by
    rw [Pipeline.ownSems0_none]
    have h : (pdats m 1 c).Φ (Fin.last (Pipeline.pin (pcfgs (F := F)) Gen.adm 1).N) ⊢ (Pipeline.ΦA spec1 c : sProp 𝕄) := hout1 (Vr (W12 m)) c
    iintro H
    ihave H2 := h $$ H
    unfold Pipeline.ΦA
    icases H2 with ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vr (W12 m) c) (Vr (W13 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At region 2's exit each of its arrays holds what the pipeline leaves: the output `main_v23` its write-backs folded, an
    input its entry contents (an input window's array is never written). -/
theorem hF2 (c : Dev nD) (w : Fin cfg2.W) : (dat2 (Vr (W17 m)) c).arrAt w cfg2.N = Vr (W18 m) c (Pipeline.arrRef spec2 w) := by
  match w with
  | ⟨0, _⟩ => exact ((dat2 (Vr (W17 m)) c).arrAt_in ⟨0, by decide⟩ rfl _).trans ((A_eq2 (Vr (W17 m)) c ⟨0, by decide⟩).trans (W18_of_ne m c _ (by decide)).symm)
  | ⟨1, _⟩ => exact ((dat2 (Vr (W17 m)) c).arrAt_in ⟨1, by decide⟩ rfl _).trans ((A_eq2 (Vr (W17 m)) c ⟨1, by decide⟩).trans (W18_of_ne m c _ (by decide)).symm)
  | ⟨2, _⟩ => exact ((dat2 (Vr (W17 m)) c).arrAt_in ⟨2, by decide⟩ rfl _).trans ((A_eq2 (Vr (W17 m)) c ⟨2, by decide⟩).trans (W18_of_ne m c _ (by decide)).symm)
  | ⟨3, _⟩ => exact ((dat2 (Vr (W17 m)) c).arrAt_in ⟨3, by decide⟩ rfl _).trans ((A_eq2 (Vr (W17 m)) c ⟨3, by decide⟩).trans (W18_of_ne m c _ (by decide)).symm)
  | ⟨4, _⟩ => exact ((dat2 (Vr (W17 m)) c).arrAt_in ⟨4, by decide⟩ rfl _).trans ((A_eq2 (Vr (W17 m)) c ⟨4, by decide⟩).trans (W18_of_ne m c _ (by decide)).symm)
  | ⟨5, _⟩ => exact (W18_out m c).symm
/-- Every other buffer holds what it held at entry. -/
theorem hrest2 (c : Dev nD) : ∀ b, b ∉ Finset.univ.image (Pipeline.arrRef spec2) → Vr (W18 m) c b = Vr (W17 m) c b :=
  fun b hb => W18_of_ne m c b fun e => hb (Finset.mem_image.mpr ⟨⟨5, by decide⟩, Finset.mem_univ _, (by rw [e])⟩)

set_option backward.isDefEq.respectTransparency.types false in
/-- Region 2 over the thread state: entered from every unscoped buffer at `W17`, left at `W18`. Its arrays are split out of
    the unscoped buffers and put back at the exit contents; the generator register goes into the region invariant and comes
    back; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr (W17 m)) c).loose
  hwaits := Pipeline.hwaits_of_owed_zero _ _ _ _ L lv 2 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec2 c (Vr (W17 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Vr (W17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec2 c : sProp 𝕄) ⊢ (pdats m 2 c).Φ 0 := hin2 (Vr (W17 m)) c
    iintro ⟨Hp, -, Hr⟩
    iapply h
    unfold Pipeline.ΦA
    isplitl [Hr]; · iexact Hr
    iexact Hp
  hout c := by
    rw [Pipeline.ownSems0_none]
    have h : (pdats m 2 c).Φ (Fin.last (Pipeline.pin (pcfgs (F := F)) Gen.adm 2).N) ⊢ (Pipeline.ΦA spec2 c : sProp 𝕄) := hout2 (Vr (W17 m)) c
    iintro H
    ihave H2 := h $$ H
    unfold Pipeline.ΦA
    icases H2 with ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Vr (W17 m) c) (Vr (W18 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- At region 4's exit each of its arrays holds what the pipeline leaves: the output `main_v26` its write-backs folded, an
    input its entry contents (an input window's array is never written). -/
theorem hF4 (c : Dev nD) (w : Fin cfg4.W) : (dat4 (Vr (W20 m)) c).arrAt w cfg4.N = Vr (W21 m) c (Pipeline.arrRef spec4 w) := by
  match w with
  | ⟨0, _⟩ => exact ((dat4 (Vr (W20 m)) c).arrAt_in ⟨0, by decide⟩ rfl _).trans ((A_eq4 (Vr (W20 m)) c ⟨0, by decide⟩).trans (W21_of_ne m c _ (by decide)).symm)
  | ⟨1, _⟩ => exact (W21_out m c).symm
/-- Every other buffer holds what it held at entry. -/
theorem hrest4 (c : Dev nD) : ∀ b, b ∉ Finset.univ.image (Pipeline.arrRef spec4) → Vr (W21 m) c b = Vr (W20 m) c b :=
  fun b hb => W21_of_ne m c b fun e => hb (Finset.mem_image.mpr ⟨⟨1, by decide⟩, Finset.mem_univ _, (by rw [e])⟩)

set_option backward.isDefEq.respectTransparency.types false in
/-- Region 4 over the thread state: entered from every unscoped buffer at `W20`, left at `W21`. Its arrays are split out of
    the unscoped buffers and put back at the exit contents; the generator register goes into the region invariant and comes
    back; nothing is owed; the kernel has no semaphore of its own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vr (W20 m)) c).loose
  hwaits := Pipeline.hwaits_of_owed_zero _ _ _ _ L lv 4 fun _ _ => rfl
  pre c := iprop(StableHlo.held (c : Thread nD τ) (Pipeline.ucRefs τ sig) (W20 m c) ∗ R c)
  post c := iprop(StableHlo.held (c : Thread nD τ) (Pipeline.ucRefs τ sig) (W21 m c) ∗ R c)
  X c := iprop(∃ r, prngReg c r)
  Y c := iprop(∃ r, prngReg c r)
  Z c := Pipeline.unscopedRest (Ix := Unit) (Name := ℕ) (U := UR sig nD τ) (Lvl := ℕ) spec4 c (Vr (W20 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (Vr (W20 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec4 c : sProp 𝕄) ⊢ (pdats m 4 c).Φ 0 := hin4 (Vr (W20 m)) c
    iintro ⟨Hp, -, Hr⟩
    iapply h
    unfold Pipeline.ΦA
    isplitl [Hr]; · iexact Hr
    iexact Hp
  hout c := by
    rw [Pipeline.ownSems0_none]
    have h : (pdats m 4 c).Φ (Fin.last (Pipeline.pin (pcfgs (F := F)) Gen.adm 4).N) ⊢ (Pipeline.ΦA spec4 c : sProp 𝕄) := hout4 (Vr (W20 m)) c
    iintro H
    ihave H2 := h $$ H
    unfold Pipeline.ΦA
    icases H2 with ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (Vr (W20 m) c) (Vr (W21 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 (two windows on one array) -/

set_option backward.isDefEq.respectTransparency.types false in
/-- Region 3 over the thread state: entered from `W19`, left at `W20`. Its two input windows read ONE array, each holding
    half of its share; the split of the unscoped buffers and its inverse are `entry3` / `exit3`. -/
def reg3 : Pipeline.RegionSeg (pcfgs (F := F)) Gen.adm (pdats m) () defs₀ 𝒱₀ L lv 3 where
  win := winFacts₀3
  block_pos := block_pos3
  stage_whole := stage_whole3
  K := PEmpty
  osem k := k.elim
  ho := Pipeline.OwnSemFacts.none _
  hbody c := (body_obligation3 (Vr3 (W19 m)) c).loose
  hwaits := Pipeline.hwaits_of_owed_zero _ _ _ _ L lv 3 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Z3 (W19 m) c
  hentry c := by
    rw [Pipeline.ownSems0_none]
    iintro ⟨⟨Hub, Hp, HO⟩, -, -⟩
    ihave H := (entry3 (W19 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    change (Pipeline.ΦA spec3 c : sProp 𝕄) ⊢ _
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · unfold W20
      iapply (exit3 (W19 m) c)
      isplitl [Ha]
      · iexact Ha
      iexact Hrest
    isplitl [HY]; · iexact HY
    unfold Pipeline.Dat.owesAt Pipeline.owesWithin
    icases HO with ⟨%W, -, HO⟩; iexists W; iexact HO

/-! ## The program as segments, and the run -/

/-- The program's 22 segments in order. -/
abbrev psegs : List (Pipeline.Seg (pcfgs (F := F)) Gen.adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .region (reg0 m),
    .host (hseg hostOps1 hostOps1_sub hostOps1_fresh (W8 m)),
    .host (hseg hostOps1_1 hostOps1_1_sub hostOps1_1_fresh (W9 m)),
    .host (hseg hostOps1_2 hostOps1_2_sub hostOps1_2_fresh (W10 m)),
    .host (hseg hostOps1_3 hostOps1_3_sub hostOps1_3_fresh (W11 m)),
    .region (reg1 m),
    .host (hseg hostOps2 hostOps2_sub hostOps2_fresh (W13 m)),
    .host (hseg hostOps2_1 hostOps2_1_sub hostOps2_1_fresh (W14 m)),
    .host (hseg hostOps2_2 hostOps2_2_sub hostOps2_2_fresh (W15 m)),
    .host (hseg hostOps2_3 hostOps2_3_sub hostOps2_3_fresh (W16 m)),
    .region (reg2 m),
    .host (hseg hostOps3 hostOps3_sub hostOps3_fresh (W18 m)),
    .region (reg3 m),
    .region (reg4 m),
    .host (hseg hostOps5 hostOps5_sub hostOps5_fresh (W21 m)) ]

/-- The program IS the run of the segments. -/
theorem main_run (c : Dev nD) : main (F := F) c = Pipeline.Seg.run (psegs m) := (main_chain c).trans (by chain_rfl)

set_option backward.isDefEq.respectTransparency.types false in
/-- THE RUN: from any memory with zero counters, every weakly fair execution of the program on the TensorCores terminates,
    nothing faulting, and in every final state every unscoped buffer holds the last boundary's contents `W22`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W22 m c b) :=
  Pipeline.θ_run_regions_kit (pcfgs (F := F)) Gen.adm (pdats m) () cellOf_inj emb₁ defs₀ 𝒱₀ L lv m ρ main (psegs m)
    (fun c Q => by rw [main_run m c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W22 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m c b)
    (hfin := fun c s' => by
      iintro ⟨⟨Hh, -⟩, HSI⟩
      unfold StableHlo.held
      imodintro
      iapply (pointsTo_read_all (Pipeline.ucRefs τ sig) (fun b => (((c : Thread nD τ)).1, b)) (W22 m c) s')
      isplitl [Hh] <;> iassumption)
    (hQ := fun s h c => h c)

/-! ## What no segment writes ends as launched -/

/-- A buffer that no host stretch writes and that is no region's output holds its launch contents at the end. -/
theorem W22_keep (c : Dev nD) (b : Ref sig .tc) (h0 : b ∉ hostOps0_W) (h1 : b ∉ hostOps0_1_W) (h2 : b ∉ hostOps0_2_W) (h3 : b ∉ hostOps0_3_W) (h4 : b ∉ hostOps0_4_W) (h5 : b ∉ hostOps0_5_W) (h6 : b ∉ hostOps0_6_W) (h8 : b ∉ hostOps1_W) (h9 : b ∉ hostOps1_1_W) (h10 : b ∉ hostOps1_2_W) (h11 : b ∉ hostOps1_3_W) (h13 : b ∉ hostOps2_W) (h14 : b ∉ hostOps2_1_W) (h15 : b ∉ hostOps2_2_W) (h16 : b ∉ hostOps2_3_W) (h18 : b ∉ hostOps3_W) (h21 : b ∉ hostOps5_W) (r0 : b ≠ main_v8) (r1 : b ≠ main_v15) (r2 : b ≠ main_v23) (r3 : b ≠ main_v25) (r4 : b ≠ main_v26) :
    W22 m c b = m ((c : Thread nD τ).loc b) :=
  (StableHlo.after_of_writes_sub hostOps5 _ hostOps5_writes h21).trans <|
  (W21_of_ne m c b r4).trans <|
  (W20_of_ne m c b r3).trans <|
  (StableHlo.after_of_writes_sub hostOps3 _ hostOps3_writes h18).trans <|
  (W18_of_ne m c b r2).trans <|
  (StableHlo.after_of_writes_sub hostOps2_3 _ hostOps2_3_writes h16).trans <|
  (StableHlo.after_of_writes_sub hostOps2_2 _ hostOps2_2_writes h15).trans <|
  (StableHlo.after_of_writes_sub hostOps2_1 _ hostOps2_1_writes h14).trans <|
  (StableHlo.after_of_writes_sub hostOps2 _ hostOps2_writes h13).trans <|
  (W13_of_ne m c b r1).trans <|
  (StableHlo.after_of_writes_sub hostOps1_3 _ hostOps1_3_writes h11).trans <|
  (StableHlo.after_of_writes_sub hostOps1_2 _ hostOps1_2_writes h10).trans <|
  (StableHlo.after_of_writes_sub hostOps1_1 _ hostOps1_1_writes h9).trans <|
  (StableHlo.after_of_writes_sub hostOps1 _ hostOps1_writes h8).trans <|
  (W8_of_ne m c b r0).trans <|
  (StableHlo.after_of_writes_sub hostOps0_6 _ hostOps0_6_writes h6).trans <|
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans <|
  rfl

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_arg0 (by decide))).trans (W22_keep m c main_arg0 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg1 (by decide))).trans (W22_keep m c main_arg1 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg2 (by decide))).trans (W22_keep m c main_arg2 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg3 (by decide))).trans (W22_keep m c main_arg3 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg4 (by decide))).trans (W22_keep m c main_arg4 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg5 (by decide))).trans (W22_keep m c main_arg5 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg6 (by decide))).trans (W22_keep m c main_arg6 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg7 (by decide))).trans (W22_keep m c main_arg7 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg8 (by decide))).trans (W22_keep m c main_arg8 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg9 (by decide))).trans (W22_keep m c main_arg9 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg10 (by decide))).trans (W22_keep m c main_arg10 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg11 (by decide))).trans (W22_keep m c main_arg11 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg12 (by decide))).trans (W22_keep m c main_arg12 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg13 (by decide))).trans (W22_keep m c main_arg13 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg14 (by decide))).trans (W22_keep m c main_arg14 (by decide) (by decide) (by decide) (by decide) (by decide) (by decide) (by decide) (by decide) (by decide) (by decide) (by decide) (by decide) (by decide) (by decide) (by decide) (by decide) (by decide) (by decide) (by decide) (by decide) (by decide) (by decide))⟩) (run_all m ρ)

end Cert.Kernel.Hand

end
-- ==== Proof.KI.Reg0.Runs.lean ====
import proofs.«175587_j47510928228669_1_alg».proof.Proof.Gen.KernelIdeal.Launch
import proofs.«175587_j47510928228669_1_alg».proof.Proof.Gen.KernelIdeal.Skeleton
import proofs.«175587_j47510928228669_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (the encoder kernel on the 4×10 grid): what its three control cases share -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- The first conditional: the second grid coordinate is 0 (the accumulator is reset). -/
abbrev cond0_0 (i : grid0.Coords) : Prop := (Scalar.cmpi .ne (Scalar.extui (Scalar.cmpi .eq (BitVec.ofNat 32 (i 1).val) 0#32)) 0#32) = 1#1
/-- It holds exactly at the points ≡ 0 (mod 10). -/
theorem hcond0_0 : ∀ t : Fin cfg0.N, cond0_0 (grid0.coords t) ↔ t.val % 10 = 0 :=
  (by decide +kernel : ∀ t : Fin grid0.N, cond0_0 (grid0.coords t) ↔ t.val % 10 = 0)

/-- The second conditional: the second grid coordinate is 9 (the output block is computed and stored). -/
abbrev cond0_1 (i : grid0.Coords) : Prop := k0_cond2 i = 1#1
/-- It holds exactly at the points ≡ 9 (mod 10). -/
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

/-- The six inputs are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
/-- Where the second conditional fails the output window 6 is idle and is not written back; where it holds the window is live. -/
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel

/-! ## The memrefs the body is called with -/

/-- One staging buffer of the output window 6, through which its contents are stated (the choice does not matter). -/
abbrev VO0_6 : View sig .tc .vmem S512x512 .f32 := (Memref.whole cc0_stg6_0 : Memref sig .tc .vmem S512x512 .f32).view
/-- Each window's current staging memref at point `t`, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
/-- The accumulator: a whole scoped buffer of the kernel's own, carried from point to point. -/
abbrev scM0_0 : Memref sig .tc .vmem S512x1024 .f32 := Memref.whole cc0_scratch0
/-- The same as a view: what the accumulator holds is stated through it. -/
abbrev VS0_0 : View sig .tc .vmem S512x1024 .f32 := scM0_0.view

/-- The other scoped buffers of the core (neither a staging buffer of this region nor its accumulator), each at some
    contents: carried through the region unopened. -/
abbrev restBut0 (c : Dev nD) : sProp 𝕄 :=
  Pipeline.scopedRestBut (Ix := Unit) (Name := ℕ) (U := UR sig nD τ) (Lvl := ℕ) (Val := Elt F) spec0 c [cc0_scratch0]

/-- The invariant the region is entered with, the accumulator split out as a memref owned at some contents. -/
theorem PhiA0_eq (c : Dev nD) :
    (Pipeline.ΦA spec0 c : sProp 𝕄)
      = iprop(iprop(iprop((∃ d, owns (c : Thread nD τ) scM0_0 fullShare d)) ∗ restBut0 (F := F) c) ∗ (∃ r, prngReg c r)) := by
  unfold Pipeline.ΦA; rw [scopedRest0_split]; simp only [scM0_0, owns_whole]; try rfl

end Cert.KernelIdeal.Hand

end
-- ==== Proof.KI.Reg0.RunA.lean ====
import proofs.«175587_j47510928228669_1_alg».proof.Proof.KI.Reg0.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the run's proof term is large: the definition's epilogue walks it past the default budget
set_option maxHeartbeats 1000000 in
/-- CASE A (second grid coordinate 0: the accumulator is reset, then added to; no output stored). The pieces the body's
    stores leave in the accumulator (last first), with the body's triple: on whole memrefs, the six inputs at their
    contents, the output's buffer at contents handed back untouched, the accumulator at anything, the body runs to a
    continuation holding the inputs and the output's buffer as they were and the accumulator with the pieces written. -/
noncomputable def kernelRun0_A (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : cond0_0 i) (hc1 : ¬cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) :
    Σ' (L6 : List (View.Piece (Elt F) S512x512 .f32)), { LS0 : List (View.Piece (Elt F) S512x1024 .f32) //
      ∀ (xi6 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9) K } := by
  refine ⟨[], ?_, fun xi6 E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Reg0.RunB.lean ====
import proofs.«175587_j47510928228669_1_alg».proof.Proof.KI.Reg0.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the run's proof term is large: the definition's epilogue walks it past the default budget
set_option maxHeartbeats 1000000 in
/-- CASE B (second grid coordinate 1..8: the accumulator is added to; no output stored). The pieces the body's store
    leaves in the accumulator, with the body's triple: on whole memrefs, the six inputs at their contents, the output's
    buffer at contents handed back untouched, the accumulator at what the point before left (`xs0`), the body runs to a
    continuation holding the inputs and the output's buffer as they were and the accumulator with the piece written. -/
noncomputable def kernelRun0_B (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : ¬cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) :
    Σ' (L6 : List (View.Piece (Elt F) S512x512 .f32)), { LS0 : List (View.Piece (Elt F) S512x1024 .f32) //
      ∀ (xi6 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9) K } := by
  refine ⟨[], ?_, fun xi6 E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.Reg0.RunC.lean ====
import proofs.«175587_j47510928228669_1_alg».proof.Proof.KI.Reg0.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the run's proof term is large: the definition's epilogue walks it past the default budget
set_option maxHeartbeats 1000000 in
/-- CASE C (second grid coordinate 9: the accumulator is added to, then the output block is computed from it and stored).
    The pieces the body's stores leave in the output's buffer and in the accumulator, with the body's triple: on whole
    memrefs, the six inputs at their contents, the output's buffer at anything, the accumulator at what the point before
    left (`xs0`), the body runs to a continuation holding the inputs as they were and both with their pieces written. -/
noncomputable def kernelRun0_C (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) :
    Σ' (L6 : List (View.Piece (Elt F) S512x512 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9) K } := by
  refine ⟨?_, ?_, fun E K => ?run⟩
  case run =>
    simp only [cc0__encoder_kernel_eq_skeleton]; unfold cc0__encoder_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.Reg0.lean ====
import proofs.«175587_j47510928228669_1_alg».proof.Proof.KI.Reg0.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the proof data of the encoder kernel's pipeline at the entry contents `V`, and its body obligation -/

/-! ## What each case leaves -/

/-- Case A stores nothing into the output window (idle at its points and not written back there): no pieces, a
    placeholder nothing consults. -/
def out0_A_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : cond0_0 i) (hc1 : ¬cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) : Vec F S512x512 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4 x5).1)

/-- Case A's stores into the accumulator tile it, so they cover it. -/
theorem scover0_A_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : cond0_0 i) (hc1 : ¬cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (y : S512x1024.Idx) :
    ∃ pc ∈ (kernelRun0_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4 x5).2.1 S512x1024.size (by sl_kernel_rfl) y

/-- What case A leaves in the accumulator: its pieces read back. -/
def sout0_A_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : cond0_0 i) (hc1 : ¬cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) : Vec F S512x1024 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4 x5).2.1)

/-- Case B stores nothing into the output window (idle at its points and not written back there): no pieces, a
    placeholder nothing consults. -/
def out0_B_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : ¬cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) : Vec F S512x512 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 x5 xs0).1)

/-- Case B's stores into the accumulator tile it, so they cover it. -/
theorem scover0_B_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : ¬cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) (y : S512x1024.Idx) :
    ∃ pc ∈ (kernelRun0_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 xs0).2.1 S512x1024.size (by sl_kernel_rfl) y

/-- What case B leaves in the accumulator: its pieces read back. -/
def sout0_B_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : ¬cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) : Vec F S512x1024 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 x5 xs0).2.1)

/-- Case C's one store into the output's buffer tiles its block, so it covers it. -/
theorem cover0_C_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) (y : S512x512.Idx) :
    ∃ pc ∈ (kernelRun0_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).1 S512x512.size (by sl_kernel_rfl) y

/-- What case C leaves in the output's staging buffer: its pieces read back. -/
def out0_C_6 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) : Vec F S512x512 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 x0 x1 x2 x3 x4 x5 xs0).1)

/-- Case C's stores into the accumulator tile it, so they cover it. -/
theorem scover0_C_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) (y : S512x1024.Idx) :
    ∃ pc ∈ (kernelRun0_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 x5 xs0).2.1 S512x1024.size (by sl_kernel_rfl) y

/-- What case C leaves in the accumulator: its pieces read back. -/
def sout0_C_0 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) : Vec F S512x1024 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 x5 xs0).2.1)

/-! ## What the output's buffer and the accumulator hold after each point -/

/-- THE ACCUMULATION. What the output's staging buffer and the accumulator hold after the body at position `n` (a pair):
    the case the closed forms select at `n`, run at the point's memrefs and input blocks, over what the accumulator
    held after position `n - 1`. No point meets both conditions. -/
def outsAt0 (c : Dev nD) : (n : ℕ) → n < cfg0.N → Vec F S512x512 .f32 × Vec F S512x1024 .f32
  | 0, hn =>
      (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
       sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 10 = 0 then
      if h1 : (n + 1) % 10 = 9 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
       sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 10 = 9 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2)

/-- `outsAt0` at a point of case A: that case's contents. -/
theorem outsAt0_A (c : Dev nD) (t : Fin cfg0.N) (h0 : t.val % 10 = 0) (h1 : ¬t.val % 10 = 9) :
    outsAt0 V c t.val t.isLt =
      (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
       sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 10 = 0) (h1 : ¬t.val % 10 = 9) :
    outsAt0 V c t.val t.isLt =
      (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2,
       sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 10 = 0) (h1 : t.val % 10 = 9) :
    outsAt0 V c t.val t.isLt =
      (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2,
       sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, carrying the accumulator -/

/-- The invariant before position `n`: before the first point what the region is entered with (every scoped buffer that
    is no staging buffer at anything, the generator register at some state); afterwards the accumulator at what the point
    before left in it, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restBut0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ restBut0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restBut0 (F := F) c) ∗ (∃ r, prngReg c r)) := by
  cases n with
  | zero => exact absurd rfl hz
  | succ n => rfl

/-! ## The pipeline's proof data -/

/-- The proof data of pipeline 0 on core `c`: the arrays as the region finds them (`V`); after the body at point `t` each
    input's buffer at its block and the output's at `outsAt0`'s first component; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- Each input's buffer is handed back at its block (no input is ever idle). -/
theorem leaves0_0 (c : Dev nD) (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
theorem leaves0_2 (c : Dev nD) (t : Fin cfg0.N) :
    (dat0 V c).leavesExact 2 t = owns (c : Thread nD τ) (ms0_2 t) fullShare (iblk0 V c 2 t) := by
  rw [show (dat0 V c).leavesExact 2 t = owns (c : Thread nD τ) (ms0_2 t) fullShare ((dat0 V c).after 2 t) from by
    unfold Dat.leavesExact; rw [liveAt0_2 t], after0_2]
theorem leaves0_3 (c : Dev nD) (t : Fin cfg0.N) :
    (dat0 V c).leavesExact 3 t = owns (c : Thread nD τ) (ms0_3 t) fullShare (iblk0 V c 3 t) := by
  rw [show (dat0 V c).leavesExact 3 t = owns (c : Thread nD τ) (ms0_3 t) fullShare ((dat0 V c).after 3 t) from by
    unfold Dat.leavesExact; rw [liveAt0_3 t], after0_3]
theorem leaves0_4 (c : Dev nD) (t : Fin cfg0.N) :
    (dat0 V c).leavesExact 4 t = owns (c : Thread nD τ) (ms0_4 t) fullShare (iblk0 V c 4 t) := by
  rw [show (dat0 V c).leavesExact 4 t = owns (c : Thread nD τ) (ms0_4 t) fullShare ((dat0 V c).after 4 t) from by
    unfold Dat.leavesExact; rw [liveAt0_4 t], after0_4]
theorem leaves0_5 (c : Dev nD) (t : Fin cfg0.N) :
    (dat0 V c).leavesExact 5 t = owns (c : Thread nD τ) (ms0_5 t) fullShare (iblk0 V c 5 t) := by
  rw [show (dat0 V c).leavesExact 5 t = owns (c : Thread nD τ) (ms0_5 t) fullShare ((dat0 V c).after 5 t) from by
    unfold Dat.leavesExact; rw [liveAt0_5 t], after0_5]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' memrefs hold their blocks; the closed forms say which case the point is in; that
    case's run applies. The invariant hands the body the accumulator at what the point before left (at anything at the
    first point), the other scoped buffers and the generator register, and takes the accumulator back at this point's
    contents, the rest untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, leaves0_5]
  have hN : t.val < 40 := lt_of_lt_of_eq t.isLt (show cfg0.N = 40 from N_0)
  by_cases h0 : t.val % 10 = 0
  · by_cases h1 : t.val % 10 = 9
    · exfalso; omega
    · rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS0_castSucc V c t, PhiS0_pos V c _ _ hz]
        iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hrb Hg]
        · isplitl [HS0 Hrb]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 10 = 9
    · rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [outsAt0_C V c t h0 h1]
      unfold out0_C_6 sout0_C_0; (try dsimp only)
      have hz : t.val ≠ 0 := by omega
      rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C_6 c _ _ _ _ _ _ _ _ _ _ _ _ _ _ _ _ _ _ _ _ _ _ _ _ _ _)
    · rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [outsAt0_B V c t h0 h1]
      unfold sout0_B_0; (try dsimp only)
      have hz : t.val ≠ 0 := by omega
      rw [PhiS0_castSucc V c t, PhiS0_pos V c _ _ hz]
      iintro ⟨⟨⟨HS0, Hrb⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrb Hg]
      · isplitl [HS0 Hrb]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          iexact Hrb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the entry invariant back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrb⟩, Hg⟩
  isplitl [HS0 Hrb]
  · isplitl [HS0]
    · iexists _; iexact HS0
    iexact Hrb
  iexact Hg

/-- The same after the last point. -/
theorem hout0 (c : Dev nD) : (dat0 V c).Φ (Fin.last cfg0.N) ⊢ Pipeline.ΦA spec0 c :=
  Phi_out0 V c _ (by rw [Fin.val_last]; have : cfg0.N = 40 := N_0; omega)

end Cert.KernelIdeal.Hand

end
-- ==== Proof.KI.Reg1.Runs.lean ====
import proofs.«175587_j47510928228669_1_alg».proof.Proof.Gen.KernelIdeal.Launch
import proofs.«175587_j47510928228669_1_alg».proof.Proof.Gen.KernelIdeal.Skeleton
import proofs.«175587_j47510928228669_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the head kernel on pipeline 1, at the entry contents `V`

## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds the window's block at every point, whether the pipeline
    fetched it there or not (an unfetched input's block index has not moved), for any proof data whose array
    is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds the window's block at every point, whether the pipeline
    fetched it there or not (an unfetched input's block index has not moved), for any proof data whose array
    is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds the window's block at every point, whether the pipeline
    fetched it there or not (an unfetched input's block index has not moved), for any proof data whose array
    is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds the window's block at every point, whether the pipeline
    fetched it there or not (an unfetched input's block index has not moved), for any proof data whose array
    is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds the window's block at every point, whether the pipeline
    fetched it there or not (an unfetched input's block index has not moved), for any proof data whose array
    is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's one conditional, from the grid coordinates: the second coordinate is zero. -/
abbrev cond1_0 (i : grid1.Coords) : Prop := (Scalar.cmpi .ne (Scalar.extui (Scalar.cmpi .eq (BitVec.ofNat 32 (i 1).val) 0#32)) 0#32) = 1#1
/-- It holds exactly at the points ≡ 0 (mod 10): decided over the grid. -/
theorem hcond1_0 : ∀ t : Fin cfg1.N, cond1_0 (grid1.coords t) ↔ t.val % 10 = 0 :=
  (by decide +kernel : ∀ t : Fin grid1.N, cond1_0 (grid1.coords t) ↔ t.val % 10 = 0)

/-! ## The staging and scratch memrefs -/

/-- One staging buffer of output window 5, through which its contents are stated (the choice does not matter:
    the pieces cover the shape). -/
abbrev VO1_5 : View sig .tc .vmem S512x2048 .f32 := (Memref.whole cc1_stg5_0 : Memref sig .tc .vmem S512x2048 .f32).view
/-- Each window's current staging memref at point `t`, as the pipeline passes it to the body, and its wholeness. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2048 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x2048 .f32 := win1_5.stage (cfg1.slots t 5)
abbrev hs1_5 (t : Fin cfg1.N) : (ms1_5 t).IsWhole := hstage1_5 ((cfg1.slots t 5).cast nbuf1_5)
/-- The scratch operand: a whole scoped buffer of the kernel's own, passed beside the windows. -/
abbrev scM1_0 : Memref sig .tc .vmem S512x1024 .bf16 := Memref.whole cc1_scratch0
/-- The scratch the kernel carries between points, as a view: what it holds is stated through it. -/
abbrev VS1_0 : View sig .tc .vmem S512x1024 .bf16 := scM1_0.view

/-- The other scoped buffers of the core (neither a staging buffer of this pipeline nor its scratch), each at
    some contents: carried along unopened. -/
abbrev restBut1 (c : Dev nD) : sProp 𝕄 :=
  Pipeline.scopedRestBut (Ix := Unit) (Name := ℕ) (U := UR sig nD τ) (Lvl := ℕ) (Val := Elt F) spec1 c [cc1_scratch0]

/-- The class invariant with the scratch operand split out as a memref owned at some contents. -/
theorem PhiA1_eq (c : Dev nD) :
    (Pipeline.ΦA spec1 c : sProp 𝕄)
      = iprop(iprop(iprop((∃ d, owns (c : Thread nD τ) scM1_0 fullShare d)) ∗ restBut1 c) ∗ (∃ r, prngReg c r)) := by
  unfold Pipeline.ΦA; rw [scopedRest1_split]; simp only [scM1_0, owns_whole]; try rfl

end Cert.KernelIdeal.Hand

end
-- ==== Proof.KI.Reg1.RunA.lean ====
import proofs.«175587_j47510928228669_1_alg».proof.Proof.KI.Reg1.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run IN CASE A (the conditional taken: the second grid coordinate is zero). On whole staging
    memrefs — the inputs' at their contents, the output's and the scratch at anything — the body runs to the
    continuation holding the inputs' as they were, the scratch with the hidden layer's one store written and the
    output's buffer with its one store written; the pieces each ends with are the witnesses the run finds. The
    scratch is covered by the case's own store before it is read. -/
noncomputable def kernelRun1_A (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond1_0 i)
    (x0 : Vec F S512x512 .f32) (x1 : Vec F S512x1024 .bf16) (x2 : Vec F S1x1024 .f32) (x3 : Vec F S1024x2048 .bf16) (x4 : Vec F S1x2048 .f32) :
    Σ' (L5 : List (View.Piece (Elt F) S512x2048 .f32)), { LS0 : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__head_kernel i arg2 harg2 arg3 harg3 arg4 harg4 arg5 harg5 arg6 harg6 arg7 harg7 arg8 harg8) K } := by
  refine ⟨?_, ?_, fun E K => ?run⟩
  case run =>
    simp only [cc1__head_kernel_eq_skeleton]; unfold cc1__head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.Reg1.RunB.lean ====
import proofs.«175587_j47510928228669_1_alg».proof.Proof.KI.Reg1.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run IN CASE B (the conditional not taken: the second grid coordinate is not zero). On whole
    staging memrefs — the inputs' at their contents, the output's at anything, the scratch at the contents `xs0`
    the point before left — the body runs to the continuation holding the inputs' and the scratch as they were
    (nothing is stored into the scratch) and the output's buffer with its one store written; the pieces it ends
    with are the witness the run finds. -/
noncomputable def kernelRun1_B (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : ¬cond1_0 i)
    (x0 : Vec F S512x512 .f32) (x1 : Vec F S512x1024 .bf16) (x2 : Vec F S1x1024 .f32) (x3 : Vec F S1024x2048 .bf16) (x4 : Vec F S1x2048 .f32) (xs0 : Vec F S512x1024 .bf16) :
    { L5 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0) -∗ K ⟨⟩))
          ⊢ wp frame (wpE (defs₀ (F := F)) Variants.none c none) E (cc1__head_kernel i arg2 harg2 arg3 harg3 arg4 harg4 arg5 harg5 arg6 harg6 arg7 harg7 arg8 harg8) K } := by
  refine ⟨?_, fun E K => ?run⟩
  case run =>
    simp only [cc1__head_kernel_eq_skeleton]; unfold cc1__head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

end Cert.KernelIdeal.Hand

end
-- ==== Proof.KI.Reg1.lean ====
import proofs.«175587_j47510928228669_1_alg».proof.Proof.KI.Reg1.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what the output and the carried scratch hold, the proof data, the body obligation

## Per case -/

/-- Case A's pieces for output 5 tile its block (one store of the whole block), so they cover it. -/
theorem cover1_A_5 (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond1_0 i)
    (x0 : Vec F S512x512 .f32) (x1 : Vec F S512x1024 .bf16) (x2 : Vec F S1x1024 .f32) (x3 : Vec F S1024x2048 .bf16) (x4 : Vec F S1x2048 .f32) (y : S512x2048.Idx) :
    ∃ pc ∈ (kernelRun1_A c i arg2 harg2 arg3 harg3 arg4 harg4 arg5 harg5 arg6 harg6 arg7 harg7 arg8 harg8 hc0 x0 x1 x2 x3 x4).1, y ∈ pc.1.set :=
  View.cover_of_tiledL (kernelRun1_A c i arg2 harg2 arg3 harg3 arg4 harg4 arg5 harg5 arg6 harg6 arg7 harg7 arg8 harg8 hc0 x0 x1 x2 x3 x4).1 S512x2048.size (by sl_kernel_rfl) y

/-- What case A leaves in output 5's staging buffer: its pieces read back over junk. -/
def out1_A_5 (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond1_0 i)
    (x0 : Vec F S512x512 .f32) (x1 : Vec F S512x1024 .bf16) (x2 : Vec F S1x1024 .f32) (x3 : Vec F S1024x2048 .bf16) (x4 : Vec F S1x2048 .f32) : Vec F S512x2048 .f32 :=
  VO1_5.read (Elt F) (VO1_5.writes (Elt F) VO1_5.junk (kernelRun1_A c i arg2 harg2 arg3 harg3 arg4 harg4 arg5 harg5 arg6 harg6 arg7 harg7 arg8 harg8 hc0 x0 x1 x2 x3 x4).1)

/-- Case A's pieces for the scratch tile it (one store of the whole buffer), so they cover it. -/
theorem scover1_A_0 (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond1_0 i)
    (x0 : Vec F S512x512 .f32) (x1 : Vec F S512x1024 .bf16) (x2 : Vec F S1x1024 .f32) (x3 : Vec F S1024x2048 .bf16) (x4 : Vec F S1x2048 .f32) (y : S512x1024.Idx) :
    ∃ pc ∈ (kernelRun1_A c i arg2 harg2 arg3 harg3 arg4 harg4 arg5 harg5 arg6 harg6 arg7 harg7 arg8 harg8 hc0 x0 x1 x2 x3 x4).2.1, y ∈ pc.1.set :=
  View.cover_of_tiledL (kernelRun1_A c i arg2 harg2 arg3 harg3 arg4 harg4 arg5 harg5 arg6 harg6 arg7 harg7 arg8 harg8 hc0 x0 x1 x2 x3 x4).2.1 S512x1024.size (by sl_kernel_rfl) y

/-- What case A leaves in the scratch: its pieces read back over junk. -/
def sout1_A_0 (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond1_0 i)
    (x0 : Vec F S512x512 .f32) (x1 : Vec F S512x1024 .bf16) (x2 : Vec F S1x1024 .f32) (x3 : Vec F S1024x2048 .bf16) (x4 : Vec F S1x2048 .f32) : Vec F S512x1024 .bf16 :=
  VS1_0.read (Elt F) (VS1_0.writes (Elt F) VS1_0.junk (kernelRun1_A c i arg2 harg2 arg3 harg3 arg4 harg4 arg5 harg5 arg6 harg6 arg7 harg7 arg8 harg8 hc0 x0 x1 x2 x3 x4).2.1)

/-- Case B's pieces for output 5 tile its block (one store of the whole block), so they cover it. -/
theorem cover1_B_5 (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : ¬cond1_0 i)
    (x0 : Vec F S512x512 .f32) (x1 : Vec F S512x1024 .bf16) (x2 : Vec F S1x1024 .f32) (x3 : Vec F S1024x2048 .bf16) (x4 : Vec F S1x2048 .f32) (xs0 : Vec F S512x1024 .bf16) (y : S512x2048.Idx) :
    ∃ pc ∈ (kernelRun1_B c i arg2 harg2 arg3 harg3 arg4 harg4 arg5 harg5 arg6 harg6 arg7 harg7 arg8 harg8 hc0 x0 x1 x2 x3 x4 xs0).1, y ∈ pc.1.set :=
  View.cover_of_tiledL (kernelRun1_B c i arg2 harg2 arg3 harg3 arg4 harg4 arg5 harg5 arg6 harg6 arg7 harg7 arg8 harg8 hc0 x0 x1 x2 x3 x4 xs0).1 S512x2048.size (by sl_kernel_rfl) y

/-- What case B leaves in output 5's staging buffer: its pieces read back over junk. The scratch it leaves as
    it found it. -/
def out1_B_5 (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : ¬cond1_0 i)
    (x0 : Vec F S512x512 .f32) (x1 : Vec F S512x1024 .bf16) (x2 : Vec F S1x1024 .f32) (x3 : Vec F S1024x2048 .bf16) (x4 : Vec F S1x2048 .f32) (xs0 : Vec F S512x1024 .bf16) : Vec F S512x2048 .f32 :=
  VO1_5.read (Elt F) (VO1_5.writes (Elt F) VO1_5.junk (kernelRun1_B c i arg2 harg2 arg3 harg3 arg4 harg4 arg5 harg5 arg6 harg6 arg7 harg7 arg8 harg8 hc0 x0 x1 x2 x3 x4 xs0).1)

/-! ## What the output and the scratch hold after each point -/

/-- What output 5's staging buffer and the carried scratch hold after the body at position `n` (a pair: the
    output, then the scratch): at the points ≡ 0 (mod 10) case A's contents, from the point's input blocks alone;
    at the others case B's output over the scratch the point before left, and that scratch unchanged. -/
def outsAt1 (c : Dev nD) : (n : ℕ) → n < cfg1.N → Vec F S512x2048 .f32 × Vec F S512x1024 .bf16
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 10 = 0 then
      (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, (outsAt1 c n (Nat.lt_of_succ_lt hn)).2)

/-- `outsAt1` at a point of case A: that case's contents. -/
theorem outsAt1_A (c : Dev nD) (t : Fin cfg1.N) (h0 : t.val % 10 = 0) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans rfl

/-- `outsAt1` at a point of case B: that case's output over what the point before left in the scratch, and the
    scratch as the point before left it. -/
theorem outsAt1_B (c : Dev nD) (t : Fin cfg1.N) (h0 : ¬t.val % 10 = 0) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region invariant -/

/-- The region invariant before position `n`: before the first point the class's (every scoped buffer that is no
    staging buffer at some contents, the generator register at some state); afterwards the same with the carried
    scratch at what the point before left in it. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ restBut1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop(iprop(owns (c : Thread nD τ) scM1_0 fullShare ((outsAt1 V c n hn).2)) ∗ restBut1 c) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ restBut1 c) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 4800000 in
/-- The body at any point: the inputs' memrefs hold their blocks; the closed form of the condition says which case
    the point is in, and that case's run applies. The invariant hands the body the scratch — at anything where the
    case covers it before reading it (A), at what the point before left where it reads it first (B; never the
    first point) — and takes it back at this point's contents; the other scoped buffers, the generator register
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5]
  have hN : t.val < 40 := lt_of_lt_of_eq t.isLt (show cfg1.N = 40 from N_1)
  by_cases h0 : t.val % 10 = 0
  · rw [outsAt1_A V c t h0]
    unfold out1_A_5 sout1_A_0; (try dsimp only)
    have hrun := (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (iblk1 V c 0 t) (iblk1 V c 1 t) (iblk1 V c 2 t) (iblk1 V c 3 t) (iblk1 V c 4 t)).2.2 Set.univ
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply (hrun _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _ _)
    · rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply (hrun _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_A_5 c _ _ _ _ _ _ _ _ _ _ _ _ _ _ _ _ _ _ _ _ _)
  · rw [outsAt1_B V c t h0]
    unfold out1_B_5; (try dsimp only)
    have hz : t.val ≠ 0 := fun hz => h0 (by rw [hz])
    rw [PhiS1_castSucc V c t, PhiS1_pos V c _ _ hz]
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (iblk1 V c 0 t) (iblk1 V c 1 t) (iblk1 V c 2 t) (iblk1 V c 3 t) (iblk1 V c 4 t) _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0 Hrest Hg]
    · isplitl [HS0 Hrest]
      · isplitl [HS0]; · iexact HS0
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_B_5 c _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the carried scratch's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

/-- The same after the last point. -/
theorem hout1 (c : Dev nD) : (dat1 V c).Φ (Fin.last cfg1.N) ⊢ Pipeline.ΦA spec1 c :=
  Phi_out1 V c _ (by rw [Fin.val_last]; have : cfg1.N = 40 := N_1; omega)

end Cert.KernelIdeal.Hand

end
-- ==== Proof.KI.Reg2.Runs.lean ====
import proofs.«175587_j47510928228669_1_alg».proof.Proof.Gen.KernelIdeal.Launch
import proofs.«175587_j47510928228669_1_alg».proof.Proof.Gen.KernelIdeal.Skeleton
import proofs.«175587_j47510928228669_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: the head kernel on pipeline 2, at the entry contents `V`

## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds the window's block at every point, whether the pipeline
    fetched it there or not (an unfetched input's block index has not moved), for any proof data whose array
    is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds the window's block at every point, whether the pipeline
    fetched it there or not (an unfetched input's block index has not moved), for any proof data whose array
    is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds the window's block at every point, whether the pipeline
    fetched it there or not (an unfetched input's block index has not moved), for any proof data whose array
    is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds the window's block at every point, whether the pipeline
    fetched it there or not (an unfetched input's block index has not moved), for any proof data whose array
    is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds the window's block at every point, whether the pipeline
    fetched it there or not (an unfetched input's block index has not moved), for any proof data whose array
    is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch condition -/

/-- The condition of the body's one conditional, from the grid coordinates: the second coordinate is zero. -/
abbrev cond2_0 (i : grid2.Coords) : Prop := (Scalar.cmpi .ne (Scalar.extui (Scalar.cmpi .eq (BitVec.ofNat 32 (i 1).val) 0#32)) 0#32) = 1#1
/-- It holds exactly at the points ≡ 0 (mod 10): decided over the grid. -/
theorem hcond2_0 : ∀ t : Fin cfg2.N, cond2_0 (grid2.coords t) ↔ t.val % 10 = 0 :=
  (by decide +kernel : ∀ t : Fin grid2.N, cond2_0 (grid2.coords t) ↔ t.val % 10 = 0)

/-! ## The staging and scratch memrefs -/

/-- One staging buffer of output window 5, through which its contents are stated (the choice does not matter:
    the pieces cover the shape). -/
abbrev VO2_5 : View sig .tc .vmem S512x2048 .f32 := (Memref.whole cc2_stg5_0 : Memref sig .tc .vmem S512x2048 .f32).view
/-- Each window's current staging memref at point `t`, as the pipeline passes it to the body, and its wholeness. -/
abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x2048 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2048 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x2048 .f32 := win2_5.stage (cfg2.slots t 5)
abbrev hs2_5 (t : Fin cfg2.N) : (ms2_5 t).IsWhole := hstage2_5 ((cfg2.slots t 5).cast nbuf2_5)
/-- The scratch operand: a whole scoped buffer of the kernel's own, passed beside the windows. -/
abbrev scM2_0 : Memref sig .tc .vmem S512x1024 .bf16 := Memref.whole cc2_scratch0
/-- The scratch the kernel carries between points, as a view: what it holds is stated through it. -/
abbrev VS2_0 : View sig .tc .vmem S512x1024 .bf16 := scM2_0.view

/-- The other scoped buffers of the core (neither a staging buffer of this pipeline nor its scratch), each at
    some contents: carried along unopened. -/
abbrev restBut2 (c : Dev nD) : sProp 𝕄 :=
  Pipeline.scopedRestBut (Ix := Unit) (Name := ℕ) (U := UR sig nD τ) (Lvl := ℕ) (Val := Elt F) spec2 c [cc2_scratch0]

/-- The class invariant with the scratch operand split out as a memref owned at some contents. -/
theorem PhiA2_eq (c : Dev nD) :
    (Pipeline.ΦA spec2 c : sProp 𝕄)
      = iprop(iprop(iprop((∃ d, owns (c : Thread nD τ) scM2_0 fullShare d)) ∗ restBut2 c) ∗ (∃ r, prngReg c r)) := by
  unfold Pipeline.ΦA; rw [scopedRest2_split]; simp only [scM2_0, owns_whole]; try rfl

end Cert.KernelIdeal.Hand

end
-- ==== Proof.KI.Reg2.RunA.lean ====
import proofs.«175587_j47510928228669_1_alg».proof.Proof.KI.Reg2.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run IN CASE A (the conditional taken: the second grid coordinate is zero). On whole staging
    memrefs — the inputs' at their contents, the output's and the scratch at anything — the body runs to the
    continuation holding the inputs' as they were, the scratch with the hidden layer's one store written and the
    output's buffer with its one store written; the pieces each ends with are the witnesses the run finds. The
    scratch is covered by the case's own store before it is read. -/
noncomputable def kernelRun2_A (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond2_0 i)
    (x0 : Vec F S512x512 .f32) (x1 : Vec F S512x1024 .bf16) (x2 : Vec F S1x1024 .f32) (x3 : Vec F S1024x2048 .bf16) (x4 : Vec F S1x2048 .f32) :
    Σ' (L5 : List (View.Piece (Elt F) S512x2048 .f32)), { LS0 : List (View.Piece (Elt F) S512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc2__head_kernel i arg2 harg2 arg3 harg3 arg4 harg4 arg5 harg5 arg6 harg6 arg7 harg7 arg8 harg8) K } := by
  refine ⟨?_, ?_, fun E K => ?run⟩
  case run =>
    simp only [cc2__head_kernel_eq_skeleton]; unfold cc2__head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.Reg2.RunB.lean ====
import proofs.«175587_j47510928228669_1_alg».proof.Proof.KI.Reg2.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run IN CASE B (the conditional not taken: the second grid coordinate is not zero). On whole
    staging memrefs — the inputs' at their contents, the output's at anything, the scratch at the contents `xs0`
    the point before left — the body runs to the continuation holding the inputs' and the scratch as they were
    (nothing is stored into the scratch) and the output's buffer with its one store written; the pieces it ends
    with are the witness the run finds. -/
noncomputable def kernelRun2_B (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : ¬cond2_0 i)
    (x0 : Vec F S512x512 .f32) (x1 : Vec F S512x1024 .bf16) (x2 : Vec F S1x1024 .f32) (x3 : Vec F S1024x2048 .bf16) (x4 : Vec F S1x2048 .f32) (xs0 : Vec F S512x1024 .bf16) :
    { L5 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0) -∗ K ⟨⟩))
          ⊢ wp frame (wpE (defs₀ (F := F)) Variants.none c none) E (cc2__head_kernel i arg2 harg2 arg3 harg3 arg4 harg4 arg5 harg5 arg6 harg6 arg7 harg7 arg8 harg8) K } := by
  refine ⟨?_, fun E K => ?run⟩
  case run =>
    simp only [cc2__head_kernel_eq_skeleton]; unfold cc2__head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

end Cert.KernelIdeal.Hand

end
-- ==== Proof.KI.Reg2.lean ====
import proofs.«175587_j47510928228669_1_alg».proof.Proof.KI.Reg2.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: what the output and the carried scratch hold, the proof data, the body obligation

## Per case -/

/-- Case A's pieces for output 5 tile its block (one store of the whole block), so they cover it. -/
theorem cover2_A_5 (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond2_0 i)
    (x0 : Vec F S512x512 .f32) (x1 : Vec F S512x1024 .bf16) (x2 : Vec F S1x1024 .f32) (x3 : Vec F S1024x2048 .bf16) (x4 : Vec F S1x2048 .f32) (y : S512x2048.Idx) :
    ∃ pc ∈ (kernelRun2_A c i arg2 harg2 arg3 harg3 arg4 harg4 arg5 harg5 arg6 harg6 arg7 harg7 arg8 harg8 hc0 x0 x1 x2 x3 x4).1, y ∈ pc.1.set :=
  View.cover_of_tiledL (kernelRun2_A c i arg2 harg2 arg3 harg3 arg4 harg4 arg5 harg5 arg6 harg6 arg7 harg7 arg8 harg8 hc0 x0 x1 x2 x3 x4).1 S512x2048.size (by sl_kernel_rfl) y

/-- What case A leaves in output 5's staging buffer: its pieces read back over junk. -/
def out2_A_5 (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond2_0 i)
    (x0 : Vec F S512x512 .f32) (x1 : Vec F S512x1024 .bf16) (x2 : Vec F S1x1024 .f32) (x3 : Vec F S1024x2048 .bf16) (x4 : Vec F S1x2048 .f32) : Vec F S512x2048 .f32 :=
  VO2_5.read (Elt F) (VO2_5.writes (Elt F) VO2_5.junk (kernelRun2_A c i arg2 harg2 arg3 harg3 arg4 harg4 arg5 harg5 arg6 harg6 arg7 harg7 arg8 harg8 hc0 x0 x1 x2 x3 x4).1)

/-- Case A's pieces for the scratch tile it (one store of the whole buffer), so they cover it. -/
theorem scover2_A_0 (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond2_0 i)
    (x0 : Vec F S512x512 .f32) (x1 : Vec F S512x1024 .bf16) (x2 : Vec F S1x1024 .f32) (x3 : Vec F S1024x2048 .bf16) (x4 : Vec F S1x2048 .f32) (y : S512x1024.Idx) :
    ∃ pc ∈ (kernelRun2_A c i arg2 harg2 arg3 harg3 arg4 harg4 arg5 harg5 arg6 harg6 arg7 harg7 arg8 harg8 hc0 x0 x1 x2 x3 x4).2.1, y ∈ pc.1.set :=
  View.cover_of_tiledL (kernelRun2_A c i arg2 harg2 arg3 harg3 arg4 harg4 arg5 harg5 arg6 harg6 arg7 harg7 arg8 harg8 hc0 x0 x1 x2 x3 x4).2.1 S512x1024.size (by sl_kernel_rfl) y

/-- What case A leaves in the scratch: its pieces read back over junk. -/
def sout2_A_0 (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond2_0 i)
    (x0 : Vec F S512x512 .f32) (x1 : Vec F S512x1024 .bf16) (x2 : Vec F S1x1024 .f32) (x3 : Vec F S1024x2048 .bf16) (x4 : Vec F S1x2048 .f32) : Vec F S512x1024 .bf16 :=
  VS2_0.read (Elt F) (VS2_0.writes (Elt F) VS2_0.junk (kernelRun2_A c i arg2 harg2 arg3 harg3 arg4 harg4 arg5 harg5 arg6 harg6 arg7 harg7 arg8 harg8 hc0 x0 x1 x2 x3 x4).2.1)

/-- Case B's pieces for output 5 tile its block (one store of the whole block), so they cover it. -/
theorem cover2_B_5 (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : ¬cond2_0 i)
    (x0 : Vec F S512x512 .f32) (x1 : Vec F S512x1024 .bf16) (x2 : Vec F S1x1024 .f32) (x3 : Vec F S1024x2048 .bf16) (x4 : Vec F S1x2048 .f32) (xs0 : Vec F S512x1024 .bf16) (y : S512x2048.Idx) :
    ∃ pc ∈ (kernelRun2_B c i arg2 harg2 arg3 harg3 arg4 harg4 arg5 harg5 arg6 harg6 arg7 harg7 arg8 harg8 hc0 x0 x1 x2 x3 x4 xs0).1, y ∈ pc.1.set :=
  View.cover_of_tiledL (kernelRun2_B c i arg2 harg2 arg3 harg3 arg4 harg4 arg5 harg5 arg6 harg6 arg7 harg7 arg8 harg8 hc0 x0 x1 x2 x3 x4 xs0).1 S512x2048.size (by sl_kernel_rfl) y

/-- What case B leaves in output 5's staging buffer: its pieces read back over junk. The scratch it leaves as
    it found it. -/
def out2_B_5 (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : ¬cond2_0 i)
    (x0 : Vec F S512x512 .f32) (x1 : Vec F S512x1024 .bf16) (x2 : Vec F S1x1024 .f32) (x3 : Vec F S1024x2048 .bf16) (x4 : Vec F S1x2048 .f32) (xs0 : Vec F S512x1024 .bf16) : Vec F S512x2048 .f32 :=
  VO2_5.read (Elt F) (VO2_5.writes (Elt F) VO2_5.junk (kernelRun2_B c i arg2 harg2 arg3 harg3 arg4 harg4 arg5 harg5 arg6 harg6 arg7 harg7 arg8 harg8 hc0 x0 x1 x2 x3 x4 xs0).1)

/-! ## What the output and the scratch hold after each point -/

/-- What output 5's staging buffer and the carried scratch hold after the body at position `n` (a pair: the
    output, then the scratch): at the points ≡ 0 (mod 10) case A's contents, from the point's input blocks alone;
    at the others case B's output over the scratch the point before left, and that scratch unchanged. -/
def outsAt2 (c : Dev nD) : (n : ℕ) → n < cfg2.N → Vec F S512x2048 .f32 × Vec F S512x1024 .bf16
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 10 = 0 then
      (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, (outsAt2 c n (Nat.lt_of_succ_lt hn)).2)

/-- `outsAt2` at a point of case A: that case's contents. -/
theorem outsAt2_A (c : Dev nD) (t : Fin cfg2.N) (h0 : t.val % 10 = 0) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans rfl

/-- `outsAt2` at a point of case B: that case's output over what the point before left in the scratch, and the
    scratch as the point before left it. -/
theorem outsAt2_B (c : Dev nD) (t : Fin cfg2.N) (h0 : ¬t.val % 10 = 0) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region invariant -/

/-- The region invariant before position `n`: before the first point the class's (every scoped buffer that is no
    staging buffer at some contents, the generator register at some state); afterwards the same with the carried
    scratch at what the point before left in it. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2)) ∗ restBut2 c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop(iprop(owns (c : Thread nD τ) scM2_0 fullShare ((outsAt2 V c n hn).2)) ∗ restBut2 c) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2)) ∗ restBut2 c) ∗ (∃ r, prngReg c r)) := by
  cases n with
  | zero => exact absurd rfl hz
  | succ n => rfl

/-! ## The pipeline's proof data -/

/-- The proof data of pipeline 2 on core `c`: the arrays as the region finds them (`V`); after the body at point
    `t` each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 4800000 in
/-- The body at any point: the inputs' memrefs hold their blocks; the closed form of the condition says which case
    the point is in, and that case's run applies. The invariant hands the body the scratch — at anything where the
    case covers it before reading it (A), at what the point before left where it reads it first (B; never the
    first point) — and takes it back at this point's contents; the other scoped buffers, the generator register
    and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5]
  have hN : t.val < 40 := lt_of_lt_of_eq t.isLt (show cfg2.N = 40 from N_2)
  by_cases h0 : t.val % 10 = 0
  · rw [outsAt2_A V c t h0]
    unfold out2_A_5 sout2_A_0; (try dsimp only)
    have hrun := (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (iblk2 V c 0 t) (iblk2 V c 1 t) (iblk2 V c 2 t) (iblk2 V c 3 t) (iblk2 V c 4 t)).2.2 Set.univ
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply (hrun _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_A_5 c _ _ _ _ _ _ _ _ _ _ _ _ _ _ _ _ _ _ _ _ _)
    · rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply (hrun _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_A_5 c _ _ _ _ _ _ _ _ _ _ _ _ _ _ _ _ _ _ _ _ _)
  · rw [outsAt2_B V c t h0]
    unfold out2_B_5; (try dsimp only)
    have hz : t.val ≠ 0 := fun hz => h0 (by rw [hz])
    rw [PhiS2_castSucc V c t, PhiS2_pos V c _ _ hz]
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (iblk2 V c 0 t) (iblk2 V c 1 t) (iblk2 V c 2 t) (iblk2 V c 3 t) (iblk2 V c 4 t) _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0 Hrest Hg]
    · isplitl [HS0 Hrest]
      · isplitl [HS0]; · iexact HS0
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover2_B_5 c _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (the class invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the carried scratch's named
    contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

/-- The same after the last point. -/
theorem hout2 (c : Dev nD) : (dat2 V c).Φ (Fin.last cfg2.N) ⊢ Pipeline.ΦA spec2 c :=
  Phi_out2 V c _ (by rw [Fin.val_last]; have : cfg2.N = 40 := N_2; omega)

end Cert.KernelIdeal.Hand

end
-- ==== Proof.KI.Reg3.lean ====
import proofs.«175587_j47510928228669_1_alg».proof.Proof.Gen.KernelIdeal.Launch
import proofs.«175587_j47510928228669_1_alg».proof.Proof.Gen.KernelIdeal.Skeleton
import proofs.«175587_j47510928228669_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The similarity kernel's region (pipeline 3), at the contents `V` its arrays hold when it is entered

Grid 4 × 4. Windows 0 and 1 read row blocks of one array (the first by the outer coordinate, the second by the
inner one); window 2 is the output, one 512 × 512 block per point, written back at every point. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place. The window is fetched only when the outer coordinate moves;
    in between its block index stands still, so the buffer still holds the right block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point (it is fetched at every point). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The one rectangle the body loads and stores through: a whole 512 × 512 buffer. -/
abbrev r3_0 : Rect S512x512 := Rect.unit (s := S512x512) ![0, 0] S512x512.size inb_S512x512_S512x512_0_0

/-! ## What the body leaves in the output window's buffer -/

/-- Window 2's staging buffer after the body, from the two input blocks: its single store. The payload scales each
    row of either block by the reciprocal square root of its sum of squares (floored at about 1e-12), rounds both to
    bf16, multiplies the first by the transpose of the second accumulating in f32 from zero, and subtracts the
    product from zero. -/
def out3_2 (x0 x1 : Vec F S512x512 .f32) : Vec F S512x512 .f32 :=
  View.canon [⟨r3_0, k3_pay1 (View.ld x0 r3_0) (View.ld x1 r3_0)⟩]

/-- The store covers the buffer. -/
theorem cover3_2 (p0 : Vec F S512x512 .f32) (y : S512x512.Idx) :
    ∃ pc ∈ ([⟨r3_0, p0⟩] : List (View.Piece (Elt F) S512x512 .f32)), y ∈ pc.1.set :=
  View.cover_of_tiled [⟨r3_0, p0⟩] S512x512.size (by rfl) y

/-! ## The body's triple -/

set_option maxHeartbeats 1000000 in
/-- The kernel body on whole staging memrefs, the inputs' reading `x0`, `x1` and the output's anything, runs to the
    continuation holding the inputs' as they were and the output's at `out3_2 x0 x1`. -/
theorem sound_kernel3 (c : Dev nD) (E : Set ℕ) (i : grid3.Coords)
    (arg2 : Memref sig .tc .vmem S512x512 .f32) (harg2 : arg2.IsWhole)
    (arg3 : Memref sig .tc .vmem S512x512 .f32) (harg3 : arg3.IsWhole)
    (arg4 : Memref sig .tc .vmem S512x512 .f32) (harg4 : arg4.IsWhole)
    (x0 x1 : Vec F S512x512 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out3_2 x0 x1)) -∗ K ⟨⟩))
      ⊢ wp frame (wpE (defs₀ (F := F)) Variants.none c none) E (cc3__sim_kernel i arg2 harg2 arg3 harg3 arg4 harg4) K := by
  simp only [cc3__sim_kernel_eq_skeleton]; unfold cc3__sim_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them; after the body at point `t`
    each input's buffer still at its block and the output's at `out3_2` of the two input blocks; the invariant is
    the scoped rest and the generator register, untouched; nothing owed. The two input windows read one array: each
    holds it at one half of the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg3Seg.lean ====
import proofs.«175587_j47510928228669_1_alg».proof.Proof.Gen.KernelIdeal.Launch
import proofs.«175587_j47510928228669_1_alg».proof.Proof.Gen.KernelIdeal.Skeleton
import proofs.«175587_j47510928228669_1_alg».proof.Proof.Gen.KernelIdeal.Points
import proofs.«175587_j47510928228669_1_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The similarity kernel's region among the core's unscoped buffers

Windows 0 and 1 of pipeline 3 read ONE array, `main_v8`; window 2 writes `main_v25`. The core holds every unscoped
buffer whole at the full share. Entering the region, `main_v8`'s points-to is split along the share into its left
and right halves, one per input window; leaving it, the halves (both still at the entry contents: an input
window's array never changes) are joined back. -/

/-- The buffers behind pipeline 3's arrays: two, not three. -/
theorem arrImage3 : Finset.univ.image (Pipeline.arrRef spec3) = ([main_v8, main_v25] : List (Ref sig .tc)).toFinset := by decide

/-- The buffers behind the arrays, one by one. -/
theorem arrBufs3_eq (c : Dev nD) (Vc : (b : Ref sig .tc) → Buf (Elt F) ((c : Thread nD τ).loc b)) :
    (Pipeline.arrBufs spec3 c Vc : sProp 𝕄)
      = iprop((((c : Thread nD τ).loc main_v8) ↦{fullShare} Vc main_v8) ∗ (((c : Thread nD τ).loc main_v25) ↦{fullShare} Vc main_v25)) := by
  unfold Pipeline.arrBufs
  exact bigSep_eq_bigSepL_of_eq [main_v8, main_v25] arrImage3 (by decide) _

/-- The proof data's arrays, window by window: the two input windows hold `main_v8` at the two halves of the full
    share, the output window `main_v25` outright. -/
theorem arrays3_eq (c : Dev nD) (A : (w : Fin cfg3.W) → Buf (Elt F) ((cfg3.win w).arr.view.loc (c : Thread nD τ))) :
    ((dat3 V c).arrays A : sProp 𝕄)
      = iprop((((c : Thread nD τ).loc main_v8) ↦{fullShare.left} A 0) ∗ (((c : Thread nD τ).loc main_v8) ↦{fullShare.right} A 1)
          ∗ (((c : Thread nD τ).loc main_v25) ↦{fullShare} A 2)) := by
  unfold Dat.arrays
  rw [bigSep_W3]
  have s0 : (cfg3.win 0).arr.view.set = Finset.univ := (arr_whole3 0).set_eq_univ
  have s2 : (cfg3.win 2).arr.view.set = Finset.univ := (arr_whole3 2).set_eq_univ
  have q0 : (dat3 V c).share 0 = fullShare.left := rfl
  have q1 : (dat3 V c).share 1 = fullShare.right := rfl
  have q2 : (dat3 V c).share 2 = fullShare := rfl
  rw [s0, s2, q0, q1, q2]

/-- The core's unscoped buffers read at the TensorCore's references. -/
abbrev Vr3 (W : Dev nD → Valuation τ sig (Elt F)) : (c : Dev nD) → (b : Ref sig .tc) → Buf (Elt F) ((c : Thread nD τ).loc b) :=
  fun c b => W c (Proc.devRef .tc b)

/-- The core's unscoped buffers that are no array of pipeline 3, each whole at `W`'s contents. -/
def Z3 (W : Dev nD → Valuation τ sig (Elt F)) (c : Dev nD) : sProp 𝕄 :=
  Pipeline.unscopedRest (Ix := Unit) (Name := ℕ) (U := UR sig nD τ) (Lvl := ℕ) spec3 c (Vr3 W c)

/-- The core's unscoped buffers are the two buffers behind pipeline 3's arrays and the rest. -/
theorem unscopedBufs3_split (c : Dev nD) (Vc : (b : Ref sig .tc) → Buf (Elt F) ((c : Thread nD τ).loc b)) :
    (unscopedBufs c Vc : sProp 𝕄)
      = iprop(iprop((((c : Thread nD τ).loc main_v8) ↦{fullShare} Vc main_v8) ∗ (((c : Thread nD τ).loc main_v25) ↦{fullShare} Vc main_v25))
          ∗ Pipeline.unscopedRest spec3 c Vc) := by
  have h := Pipeline.unscopedBufs_split₀ (nD := nD) (τ := τ) (Val := Elt F) (Ix := Unit) (Name := ℕ) (U := UR sig nD τ) (Lvl := ℕ)
    (fun _ : Unit => cfg3) () winFacts₀3.arr_unscoped c Vc
  rw [← arrBufs3_eq]
  exact h

/-- ENTRY: every unscoped buffer held at `W c` gives pipeline 3's arrays at the proof data's entry contents —
    `main_v8` split into the two halves of its share, one per input window — beside the rest. -/
theorem entry3 (W : Dev nD → Valuation τ sig (Elt F)) (c : Dev nD) :
    StableHlo.held (c : Thread nD τ) (Pipeline.ucRefs τ sig) (W c)
      ⊢ (iprop((dat3 (Vr3 W) c).arrays ((dat3 (Vr3 W) c).arrAt · 0) ∗ Z3 W c) : sProp 𝕄) := by
  rw [← Pipeline.unscopedBufs_held (Ix := Unit) (Name := ℕ) (U := UR sig nD τ) (Lvl := ℕ) c (W c)]
  rw [unscopedBufs3_split c (Vr3 W c), arrays3_eq]
  unfold Z3
  iintro ⟨⟨H8, H25⟩, Hrest⟩
  ihave H8' := (pointsTo_share (PosShare.mem_left_op_right fullShare)).1 $$ H8
  icases H8' with ⟨H8l, H8r⟩
  isplitr [Hrest]
  · isplitl [H8l]; · iexact H8l
    isplitl [H8r]; · iexact H8r
    iexact H25
  iexact Hrest

/-- EXIT: pipeline 3's arrays at what the pipeline leaves — the two halves of `main_v8` still at the entry
    contents, `main_v25` at its write-backs folded — and the rest make every unscoped buffer held at `W c`
    updated at `main_v25`. -/
theorem exit3 (W : Dev nD → Valuation τ sig (Elt F)) (c : Dev nD) :
    (iprop((dat3 (Vr3 W) c).arrays ((dat3 (Vr3 W) c).arrAt · cfg3.N) ∗ Z3 W c) : sProp 𝕄)
      ⊢ StableHlo.held (c : Thread nD τ) (Pipeline.ucRefs τ sig)
          (Function.update (W c) main_v25 ((dat3 (Vr3 W) c).arrAt 2 cfg3.N)) := by
  have e0 : (dat3 (Vr3 W) c).arrAt 0 cfg3.N = Vr3 W c main_v8 :=
    ((dat3 (Vr3 W) c).arrAt_in 0 rfl _).trans (A_eq3 (Vr3 W) c 0)
  have e1 : (dat3 (Vr3 W) c).arrAt 1 cfg3.N = Vr3 W c main_v8 :=
    ((dat3 (Vr3 W) c).arrAt_in 1 rfl _).trans (A_eq3 (Vr3 W) c 1)
  generalize hY : (dat3 (Vr3 W) c).arrAt 2 cfg3.N = Y
  have h8 : Function.update (W c) main_v25 Y (Proc.devRef .tc main_v8) = W c (Proc.devRef .tc main_v8) :=
    Function.update_of_ne (StableHlo.devRef_ne_of_ne (by decide)) _ _
  have h25 : Function.update (W c) main_v25 Y (Proc.devRef .tc main_v25) = Y := Function.update_self _ _ _
  have hrest : (Pipeline.unscopedRest spec3 c (fun b => Function.update (W c) main_v25 Y (Proc.devRef .tc b)) : sProp 𝕄)
      = Pipeline.unscopedRest spec3 c (Vr3 W c) := by
    unfold Pipeline.unscopedRest
    refine bigSep_congr fun b hb => ?_
    have hb' : b ≠ main_v25 := fun e => (Finset.mem_sdiff.mp hb).2 (by rw [e, arrImage3]; decide)
    beta_reduce
    rw [Function.update_of_ne (StableHlo.devRef_ne_of_ne hb')]
  rw [← Pipeline.unscopedBufs_held (Ix := Unit) (Name := ℕ) (U := UR sig nD τ) (Lvl := ℕ) c (Function.update (W c) main_v25 Y)]
  rw [unscopedBufs3_split c (fun b => Function.update (W c) main_v25 Y (Proc.devRef .tc b)), arrays3_eq, hrest]
  unfold Z3
  beta_reduce
  rw [e0, e1, hY, h8, h25]
  iintro ⟨⟨H8l, H8r, H25⟩, Hrest⟩
  isplitr [Hrest]
  · isplitr [H25]
    · iapply (pointsTo_share (PosShare.mem_left_op_right fullShare)).2
      isplitl [H8l]; · iexact H8l
      iexact H8r
    iexact H25
  iexact Hrest

/-- What the region's record reads off the proof data by unfolding: nothing owed at any point, and the shares. -/
theorem owed3 (c : Dev nD) (t : Fin (cfg3.N + 1)) : (dat3 V c).owed t = 0 := rfl
theorem share3_0 (c : Dev nD) : (dat3 V c).share 0 = fullShare.left := rfl
theorem share3_1 (c : Dev nD) : (dat3 V c).share 1 = fullShare.right := rfl
theorem share3_2 (c : Dev nD) : (dat3 V c).share 2 = fullShare := rfl

end Cert.KernelIdeal.Hand

end
-- ==== Proof.KI.Reg4.Runs.lean ====
/- The column-mean kernel (pipeline 4, grid 10 × 4): what its three control cases share. A grid point is
   (column block, row block); the scratch row accumulates the column sums of the row blocks of one column block:
   it is zeroed at the first row block, added to at every row block, and at the last row block scaled into the
   output row. Here: the windows' blocks, the two branch conditions in closed form over the linear point index,
   where the output window is idle, and the staging and scratch memrefs. -/
import proofs.«175587_j47510928228669_1_alg».proof.Proof.Gen.KernelIdeal.Launch
import proofs.«175587_j47510928228669_1_alg».proof.Proof.Gen.KernelIdeal.Skeleton
import proofs.«175587_j47510928228669_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's current staging buffer holds its block at every point, for any proof data whose array is
    `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- "This is the first row block": the condition of the zeroing branch, from the grid coordinates. -/
abbrev cond4_0 (i : grid4.Coords) : Prop := (Scalar.cmpi .ne (Scalar.extui (Scalar.cmpi .eq (BitVec.ofNat 32 (i 1).val) 0#32)) 0#32) = 1#1
/-- It holds at the points ≡ 0 (mod 4). -/
theorem hcond4_0 : ∀ t : Fin cfg4.N, cond4_0 (grid4.coords t) ↔ t.val % 4 = 0 :=
  (by decide +kernel : ∀ t : Fin grid4.N, cond4_0 (grid4.coords t) ↔ t.val % 4 = 0)

/-- "This is the last row block": the condition of the scaling branch. -/
abbrev cond4_1 (i : grid4.Coords) : Prop := k4_cond2 i = 1#1
/-- It holds at the points ≡ 3 (mod 4). -/
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

theorem liveAt4_0 : ∀ t : Fin cfg4.N, cfg4.idle 0 (grid4.coords t) = false := by decide +kernel
theorem idleAt4_1_A : ∀ t : Fin cfg4.N, cond4_0 (grid4.coords t) → ¬cond4_1 (grid4.coords t) → cfg4.idle 1 (grid4.coords t) = true := by decide +kernel
theorem noFlush4_1_A : ∀ t : Fin cfg4.N, cond4_0 (grid4.coords t) → ¬cond4_1 (grid4.coords t) → (cfg4.win 1).flush t = false := by decide +kernel
theorem idleAt4_1_B : ∀ t : Fin cfg4.N, ¬cond4_0 (grid4.coords t) → ¬cond4_1 (grid4.coords t) → cfg4.idle 1 (grid4.coords t) = true := by decide +kernel
theorem noFlush4_1_B : ∀ t : Fin cfg4.N, ¬cond4_0 (grid4.coords t) → ¬cond4_1 (grid4.coords t) → (cfg4.win 1).flush t = false := by decide +kernel
theorem liveAt4_1_C : ∀ t : Fin cfg4.N, ¬cond4_0 (grid4.coords t) → cond4_1 (grid4.coords t) → cfg4.idle 1 (grid4.coords t) = false := by decide +kernel

/-! ## The memrefs the body is called on -/

/-- One staging buffer of the output window, through which its contents are stated. -/
abbrev VO4_1 : View sig .tc .vmem S1x2048 .f32 := (Memref.whole cc4_stg1_0 : Memref sig .tc .vmem S1x2048 .f32).view
abbrev ms4_0 (t : Fin cfg4.N) : Memref sig .tc .vmem S512x2048 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x2048 .f32 := win4_1.stage (cfg4.slots t 1)
abbrev hs4_1 (t : Fin cfg4.N) : (ms4_1 t).IsWhole := hstage4_1 ((cfg4.slots t 1).cast nbuf4_1)
/-- The accumulator row: a whole scoped buffer of the kernel's own. -/
abbrev scM4_0 : Memref sig .tc .vmem S1x2048 .f32 := Memref.whole cc4_scratch0
abbrev VS4_0 : View sig .tc .vmem S1x2048 .f32 := scM4_0.view

/-- The scoped buffers that are neither a staging buffer of this pipeline nor its accumulator: carried along unopened. -/
abbrev rest4 (c : Dev nD) : sProp 𝕄 :=
  Pipeline.scopedRestBut (Ix := Unit) (Name := ℕ) (U := UR sig nD τ) (Lvl := ℕ) (Val := Elt F) spec4 c [cc4_scratch0]

/-- The class's region invariant with the accumulator as a memref owned at some contents. -/
theorem PhiA4_eq (c : Dev nD) :
    (Pipeline.ΦA spec4 c : sProp 𝕄)
      = iprop(iprop(iprop((∃ d, owns (c : Thread nD τ) scM4_0 fullShare d)) ∗ rest4 c) ∗ (∃ r, prngReg c r)) := by
  unfold Pipeline.ΦA; rw [scopedRest4_split]; simp only [scM4_0, owns_whole]; try rfl

end Cert.KernelIdeal.Hand

end
-- ==== Proof.KI.Reg4.RunA.lean ====
/- The column-mean kernel at a FIRST row block (the zeroing branch taken, the scaling branch not): the accumulator is
   zeroed and the block's column sums added; the output row is not touched. -/
import proofs.«175587_j47510928228669_1_alg».proof.Proof.KI.Reg4.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run at a first row block: the input block and the idle output row handed back as they were, the
    accumulator (entered at anything) left with the pieces the two stores wrote, found by the symbolic run. -/
noncomputable def kernelRun4_A (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : cond4_0 i) (hc1 : ¬cond4_1 i)
    (x0 : Vec F S512x2048 .f32) :
    Σ' (L1 : List (View.Piece (Elt F) S1x2048 .f32)), { LS0 : List (View.Piece (Elt F) S1x2048 .f32) //
      ∀ (xi1 : Vec F S1x2048 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc4__popular_kernel i arg2 harg2 arg3 harg3 arg4 harg4) K } := by
  refine ⟨[], ?_, fun xi1 E K => ?run⟩
  case run =>
    simp only [cc4__popular_kernel_eq_skeleton]; unfold cc4__popular_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KI.Reg4.RunB.lean ====
/- The column-mean kernel at a MIDDLE row block (neither branch taken): the block's column sums are added to the
   accumulator; the output row is not touched. -/
import proofs.«175587_j47510928228669_1_alg».proof.Proof.KI.Reg4.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run at a middle row block: the accumulator entered at the contents `xs0` the point before left. -/
noncomputable def kernelRun4_B (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : ¬cond4_1 i)
    (x0 : Vec F S512x2048 .f32) (xs0 : Vec F S1x2048 .f32) :
    Σ' (L1 : List (View.Piece (Elt F) S1x2048 .f32)), { LS0 : List (View.Piece (Elt F) S1x2048 .f32) //
      ∀ (xi1 : Vec F S1x2048 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc4__popular_kernel i arg2 harg2 arg3 harg3 arg4 harg4) K } := by
  refine ⟨[], ?_, fun xi1 E K => ?run⟩
  case run =>
    simp only [cc4__popular_kernel_eq_skeleton]; unfold cc4__popular_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg4.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KI.Reg4.RunC.lean ====
/- The column-mean kernel at a LAST row block (the scaling branch taken, the zeroing branch not): the block's column
   sums are added to the accumulator, and the accumulator times the reciprocal of the row count is stored into the
   output row. -/
import proofs.«175587_j47510928228669_1_alg».proof.Proof.KI.Reg4.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body's run at a last row block: the output row (entered at anything) and the accumulator (entered at `xs0`) each
    left with the pieces the stores wrote. -/
noncomputable def kernelRun4_C (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : cond4_1 i)
    (x0 : Vec F S512x2048 .f32) (xs0 : Vec F S1x2048 .f32) :
    Σ' (L1 : List (View.Piece (Elt F) S1x2048 .f32)), { LS0 : List (View.Piece (Elt F) S1x2048 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc4__popular_kernel i arg2 harg2 arg3 harg3 arg4 harg4) K } := by
  refine ⟨?_, ?_, fun E K => ?run⟩
  case run =>
    simp only [cc4__popular_kernel_eq_skeleton]; unfold cc4__popular_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

end Cert.KernelIdeal.Hand

end
-- ==== Proof.KI.Reg4.lean ====
/- The column-mean kernel (pipeline 4): what its output row and its accumulator hold point by point, the pipeline's
   proof data at the entry contents `V`, and the body obligation. The accumulator after a row block is the
   accumulator before it plus the block's column sums (zero before the first row block of a column block); the output
   row is stored at the last row block only, as the accumulator times the reciprocal of the row count. -/
import proofs.«175587_j47510928228669_1_alg».proof.Proof.KI.Reg4.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first row block stores nothing into the output row: a placeholder nothing consults. -/
def out4_A_1 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : cond4_0 i) (hc1 : ¬cond4_1 i)
    (x0 : Vec F S512x2048 .f32) : Vec F S1x2048 .f32 :=
  VO4_1.read (Elt F) (VO4_1.writes (Elt F) VO4_1.junk (kernelRun4_A c i arg2 harg2 arg3 harg3 arg4 harg4 hc0 hc1 x0).1)

/-- At a first row block the stores into the accumulator cover it. -/
theorem scover4_A_0 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : cond4_0 i) (hc1 : ¬cond4_1 i)
    (x0 : Vec F S512x2048 .f32) (y : S1x2048.Idx) :
    ∃ pc ∈ (kernelRun4_A c i arg2 harg2 arg3 harg3 arg4 harg4 hc0 hc1 x0).2.1, y ∈ pc.1.set :=
  View.cover_of_tiledL (kernelRun4_A c i arg2 harg2 arg3 harg3 arg4 harg4 hc0 hc1 x0).2.1 S1x2048.size (by sl_kernel_rfl) y

/-- What a first row block leaves in the accumulator. -/
def sout4_A_0 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : cond4_0 i) (hc1 : ¬cond4_1 i)
    (x0 : Vec F S512x2048 .f32) : Vec F S1x2048 .f32 :=
  VS4_0.read (Elt F) (VS4_0.writes (Elt F) VS4_0.junk (kernelRun4_A c i arg2 harg2 arg3 harg3 arg4 harg4 hc0 hc1 x0).2.1)

/-- A middle row block stores nothing into the output row: a placeholder nothing consults. -/
def out4_B_1 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : ¬cond4_1 i)
    (x0 : Vec F S512x2048 .f32) (xs0 : Vec F S1x2048 .f32) : Vec F S1x2048 .f32 :=
  VO4_1.read (Elt F) (VO4_1.writes (Elt F) VO4_1.junk (kernelRun4_B c i arg2 harg2 arg3 harg3 arg4 harg4 hc0 hc1 x0 xs0).1)

theorem scover4_B_0 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : ¬cond4_1 i)
    (x0 : Vec F S512x2048 .f32) (xs0 : Vec F S1x2048 .f32) (y : S1x2048.Idx) :
    ∃ pc ∈ (kernelRun4_B c i arg2 harg2 arg3 harg3 arg4 harg4 hc0 hc1 x0 xs0).2.1, y ∈ pc.1.set :=
  View.cover_of_tiledL (kernelRun4_B c i arg2 harg2 arg3 harg3 arg4 harg4 hc0 hc1 x0 xs0).2.1 S1x2048.size (by sl_kernel_rfl) y

/-- What a middle row block leaves in the accumulator. -/
def sout4_B_0 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : ¬cond4_1 i)
    (x0 : Vec F S512x2048 .f32) (xs0 : Vec F S1x2048 .f32) : Vec F S1x2048 .f32 :=
  VS4_0.read (Elt F) (VS4_0.writes (Elt F) VS4_0.junk (kernelRun4_B c i arg2 harg2 arg3 harg3 arg4 harg4 hc0 hc1 x0 xs0).2.1)

/-- At a last row block the one store into the output row covers it. -/
theorem cover4_C_1 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : cond4_1 i)
    (x0 : Vec F S512x2048 .f32) (xs0 : Vec F S1x2048 .f32) (y : S1x2048.Idx) :
    ∃ pc ∈ (kernelRun4_C c i arg2 harg2 arg3 harg3 arg4 harg4 hc0 hc1 x0 xs0).1, y ∈ pc.1.set :=
  View.cover_of_tiledL (kernelRun4_C c i arg2 harg2 arg3 harg3 arg4 harg4 hc0 hc1 x0 xs0).1 S1x2048.size (by sl_kernel_rfl) y

/-- What a last row block leaves in the output row. -/
def out4_C_1 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : cond4_1 i)
    (x0 : Vec F S512x2048 .f32) (xs0 : Vec F S1x2048 .f32) : Vec F S1x2048 .f32 :=
  VO4_1.read (Elt F) (VO4_1.writes (Elt F) VO4_1.junk (kernelRun4_C c i arg2 harg2 arg3 harg3 arg4 harg4 hc0 hc1 x0 xs0).1)

theorem scover4_C_0 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : cond4_1 i)
    (x0 : Vec F S512x2048 .f32) (xs0 : Vec F S1x2048 .f32) (y : S1x2048.Idx) :
    ∃ pc ∈ (kernelRun4_C c i arg2 harg2 arg3 harg3 arg4 harg4 hc0 hc1 x0 xs0).2.1, y ∈ pc.1.set :=
  View.cover_of_tiledL (kernelRun4_C c i arg2 harg2 arg3 harg3 arg4 harg4 hc0 hc1 x0 xs0).2.1 S1x2048.size (by sl_kernel_rfl) y

/-- What a last row block leaves in the accumulator. -/
def sout4_C_0 (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : cond4_1 i)
    (x0 : Vec F S512x2048 .f32) (xs0 : Vec F S1x2048 .f32) : Vec F S1x2048 .f32 :=
  VS4_0.read (Elt F) (VS4_0.writes (Elt F) VS4_0.junk (kernelRun4_C c i arg2 harg2 arg3 harg3 arg4 harg4 hc0 hc1 x0 xs0).2.1)

/-! ## What the output row and the accumulator hold after each point -/

/-- After the body at position `n`: (the output row's staging buffer, the accumulator) — the case the closed forms select
    at `n`, run on the point's input block, the accumulator entered at what position `n - 1` left. -/
def outsAt4 (c : Dev nD) : (n : ℕ) → n < cfg4.N → Vec F S1x2048 .f32 × Vec F S1x2048 .f32
  | 0, hn => (out4_A_1 c (grid4.coords ⟨0, hn⟩) (ms4_0 ⟨0, hn⟩) (hs4_0 ⟨0, hn⟩) (ms4_1 ⟨0, hn⟩) (hs4_1 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩), sout4_A_0 c (grid4.coords ⟨0, hn⟩) (ms4_0 ⟨0, hn⟩) (hs4_0 ⟨0, hn⟩) (ms4_1 ⟨0, hn⟩) (hs4_1 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩))
  | n + 1, hn =>
    if h0 : (n + 1) % 4 = 0 then
      if h1 : (n + 1) % 4 = 3 then
        False.elim (by omega)
      else
        (out4_A_1 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩))
    else
      if h1 : (n + 1) % 4 = 3 then
        (out4_C_1 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (outsAt4 c n (Nat.lt_of_succ_lt hn)).2)
      else
        (out4_B_1 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (outsAt4 c n (Nat.lt_of_succ_lt hn)).2)

/-- At a first row block. -/
theorem outsAt4_A (c : Dev nD) (t : Fin cfg4.N) (h0 : t.val % 4 = 0) (h1 : ¬t.val % 4 = 3) :
    outsAt4 V c t.val t.isLt = (out4_A_1 c (grid4.coords t) (ms4_0 t) (hs4_0 t) (ms4_1 t) (hs4_1 t) scM4_0 (Memref.isWhole_whole _) ((hcond4_0 t).mpr h0) (fun h => h1 ((hcond4_1 t).mp h)) (iblk4 V c 0 t), sout4_A_0 c (grid4.coords t) (ms4_0 t) (hs4_0 t) (ms4_1 t) (hs4_1 t) scM4_0 (Memref.isWhole_whole _) ((hcond4_0 t).mpr h0) (fun h => h1 ((hcond4_1 t).mp h)) (iblk4 V c 0 t)) := by
  obtain ⟨n, hn⟩ := t
  cases n with
  | zero => exact rfl
  | succ n => exact (dif_pos h0).trans ((dif_neg h1).trans rfl)

/-- At a middle row block: over what the point before left. -/
theorem outsAt4_B (c : Dev nD) (t : Fin cfg4.N) (h0 : ¬t.val % 4 = 0) (h1 : ¬t.val % 4 = 3) :
    outsAt4 V c t.val t.isLt = (out4_B_1 c (grid4.coords t) (ms4_0 t) (hs4_0 t) (ms4_1 t) (hs4_1 t) scM4_0 (Memref.isWhole_whole _) (fun h => h0 ((hcond4_0 t).mp h)) (fun h => h1 ((hcond4_1 t).mp h)) (iblk4 V c 0 t) (outsAt4 V c (t.val - 1) (Nat.lt_of_le_of_lt (Nat.sub_le _ _) t.isLt)).2, sout4_B_0 c (grid4.coords t) (ms4_0 t) (hs4_0 t) (ms4_1 t) (hs4_1 t) scM4_0 (Memref.isWhole_whole _) (fun h => h0 ((hcond4_0 t).mp h)) (fun h => h1 ((hcond4_1 t).mp h)) (iblk4 V c 0 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last row block: over what the point before left. -/
theorem outsAt4_C (c : Dev nD) (t : Fin cfg4.N) (h0 : ¬t.val % 4 = 0) (h1 : t.val % 4 = 3) :
    outsAt4 V c t.val t.isLt = (out4_C_1 c (grid4.coords t) (ms4_0 t) (hs4_0 t) (ms4_1 t) (hs4_1 t) scM4_0 (Memref.isWhole_whole _) (fun h => h0 ((hcond4_0 t).mp h)) ((hcond4_1 t).mpr h1) (iblk4 V c 0 t) (outsAt4 V c (t.val - 1) (Nat.lt_of_le_of_lt (Nat.sub_le _ _) t.isLt)).2, sout4_C_0 c (grid4.coords t) (ms4_0 t) (hs4_0 t) (ms4_1 t) (hs4_1 t) scM4_0 (Memref.isWhole_whole _) (fun h => h0 ((hcond4_0 t).mp h)) ((hcond4_1 t).mpr h1) (iblk4 V c 0 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: at the first point the class's invariant (the accumulator at anything); afterwards the accumulator
    at what the point before left, the other scoped buffers unopened, the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ rest4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ rest4 c) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ rest4 c) ∗ (∃ r, prngReg c r)) := by
  cases n with
  | zero => exact absurd rfl hz
  | succ n => rfl

/-! ## The pipeline's proof data -/

/-- The proof data of pipeline 4 on core `c`: the arrays as the region finds them; after the body at point `t` the input's
    buffer at its block and the output row's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t)

set_option maxHeartbeats 4800000 in
/-- The body at any point: the closed forms say which case the point is in; the invariant hands the body the accumulator at
    what the point before left (at anything at the first point) and takes it back at this point's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) t.isLt from rfl, PhiS4_succ]
  have hN : t.val < 40 := lt_of_lt_of_eq t.isLt (show cfg4.N = 40 from N_4)
  by_cases h0 : t.val % 4 = 0
  · by_cases h1 : t.val % 4 = 3
    · exfalso; omega
    · rw [show (dat4 V c).leavesExact 0 t = owns (c : Thread nD τ) (ms4_0 t) fullShare ((dat4 V c).after 0 t) from by
      unfold Dat.leavesExact; rw [liveAt4_0 t], after4_0]
      rw [Dat.leavesExact_idle (dat4 V c) 1 t (idleAt4_1_A t ((hcond4_0 t).mpr h0) (fun h => h1 ((hcond4_1 t).mp h))) (noFlush4_1_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, Hr⟩, Hg⟩, Ho, ⟨%d0, H0⟩, ⟨%d1, H1⟩⟩
        iapply ((kernelRun4_A c (grid4.coords t) _ _ _ _ _ _ ((hcond4_0 t).mpr h0) (fun h => h1 ((hcond4_1 t).mp h)) (iblk4 V c 0 t)).2.2 _ Set.univ _)
        isplitl [H0]; · iexact H0
        isplitl [H1]; · iexact H1
        isplitl [HS0]; · iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _)
            iexact Hr
          iexact Hg
        isplitl [Ho]; · iexact Ho
        isplitl [H0]; · iexact H0
        iexists _; iexact H1
      · rw [PhiS4_castSucc V c t, PhiS4_pos V c _ _ hz]
        iintro ⟨⟨⟨HS0, Hr⟩, Hg⟩, Ho, ⟨%d0, H0⟩, ⟨%d1, H1⟩⟩
        iapply ((kernelRun4_A c (grid4.coords t) _ _ _ _ _ _ ((hcond4_0 t).mpr h0) (fun h => h1 ((hcond4_1 t).mp h)) (iblk4 V c 0 t)).2.2 _ Set.univ _)
        isplitl [H0]; · iexact H0
        isplitl [H1]; · iexact H1
        isplitl [HS0]; · iexists _; iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _)
            iexact Hr
          iexact Hg
        isplitl [Ho]; · iexact Ho
        isplitl [H0]; · iexact H0
        iexists _; iexact H1
  · by_cases h1 : t.val % 4 = 3
    · rw [show (dat4 V c).leavesExact 0 t = owns (c : Thread nD τ) (ms4_0 t) fullShare ((dat4 V c).after 0 t) from by
      unfold Dat.leavesExact; rw [liveAt4_0 t], after4_0]
      rw [show (dat4 V c).leavesExact 1 t = owns (c : Thread nD τ) (ms4_1 t) fullShare ((dat4 V c).after 1 t) from by
      unfold Dat.leavesExact; rw [liveAt4_1_C t (fun h => h0 ((hcond4_0 t).mp h)) ((hcond4_1 t).mpr h1)], after4_1]
      rw [outsAt4_C V c t h0 h1]
      unfold out4_C_1 sout4_C_0; (try dsimp only)
      by_cases hz : t.val = 0
      · exfalso; omega
      · rw [PhiS4_castSucc V c t, PhiS4_pos V c _ _ hz]
        iintro ⟨⟨⟨HS0, Hr⟩, Hg⟩, Ho, ⟨%d0, H0⟩, ⟨%d1, H1⟩⟩
        iapply ((kernelRun4_C c (grid4.coords t) _ _ _ _ _ _ (fun h => h0 ((hcond4_0 t).mp h)) ((hcond4_1 t).mpr h1) (iblk4 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_C_0 c _ _ _ _ _ _ _ _ _ _ _)
            iexact Hr
          iexact Hg
        isplitl [Ho]; · iexact Ho
        isplitl [H0]; · iexact H0
        unfold owns; iexists _; isplitr
        swap; · iexact H1
        ipureintro; exact View.read_writes_of_cover _ _ _ _ _ (cover4_C_1 c _ _ _ _ _ _ _ _ _ _ _)
    · rw [show (dat4 V c).leavesExact 0 t = owns (c : Thread nD τ) (ms4_0 t) fullShare ((dat4 V c).after 0 t) from by
      unfold Dat.leavesExact; rw [liveAt4_0 t], after4_0]
      rw [Dat.leavesExact_idle (dat4 V c) 1 t (idleAt4_1_B t (fun h => h0 ((hcond4_0 t).mp h)) (fun h => h1 ((hcond4_1 t).mp h))) (noFlush4_1_B t (fun h => h0 ((hcond4_0 t).mp h)) (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨⟨HS0, Hr⟩, Hg⟩, Ho, ⟨%d0, H0⟩, ⟨%d1, H1⟩⟩
        iapply ((kernelRun4_B c (grid4.coords t) _ _ _ _ _ _ (fun h => h0 ((hcond4_0 t).mp h)) (fun h => h1 ((hcond4_1 t).mp h)) (iblk4 V c 0 t) _).2.2 _ Set.univ _)
        isplitl [H0]; · iexact H0
        isplitl [H1]; · iexact H1
        isplitl [HS0]; · iexact HS0
        iintro ⟨H0, H1, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_B_0 c _ _ _ _ _ _ _ _ _ _ _)
            iexact Hr
          iexact Hg
        isplitl [Ho]; · iexact Ho
        isplitl [H0]; · iexact H0
        iexists _; iexact H1

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

theorem hout4 (c : Dev nD) : (dat4 V c).Φ (Fin.last cfg4.N) ⊢ Pipeline.ΦA spec4 c :=
  Phi_out4 V c _ (by rw [Fin.val_last]; have : cfg4.N = 40 := N_4; omega)

end Cert.KernelIdeal.Hand

end
-- ==== Proof.KI.Main.lean ====
/- The whole program as a list of segments: a host segment per stretch of host operations and a region per kernel, over the
   thread state "every unscoped buffer at the boundary's contents, the generator register at some state, nothing owed".
   The boundary contents `W0 … W22` are a fold from the launch memory: a host stretch applies its operations, a region
   replaces its output array by what its write-backs leave. The run: every weakly fair execution terminates with every
   unscoped buffer at `W22`; the frame claim and the results are read off it. -/
import proofs.«175587_j47510928228669_1_alg».proof.Proof.Gen.KernelIdeal.Regions
import proofs.«175587_j47510928228669_1_alg».proof.Proof.KI.Reg0
import proofs.«175587_j47510928228669_1_alg».proof.Proof.KI.Reg1
import proofs.«175587_j47510928228669_1_alg».proof.Proof.KI.Reg2
import proofs.«175587_j47510928228669_1_alg».proof.Proof.KI.Reg3Seg
import proofs.«175587_j47510928228669_1_alg».proof.Proof.KI.Reg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the TensorCore's references: what a region's proof data take. -/
abbrev Vr (W : Dev nD → Valuation τ sig (Elt F)) : (c : Dev nD) → (b : Ref sig .tc) → Buf (Elt F) ((c : Thread nD τ).loc b) := fun c b => W c b

/-! ## The buffers' contents between segments -/

/-- Core `c`'s unscoped buffers at launch. -/
abbrev W0 (c : Dev nD) : Valuation τ sig (Elt F) := fun b => m (c, b)
/-- After the host stretch `hostOps0`. -/
abbrev W1 (c : Dev nD) : Valuation τ sig (Elt F) := StableHlo.after hostOps0 (W0 m c)
/-- After the host stretch `hostOps0_1`. -/
abbrev W2 (c : Dev nD) : Valuation τ sig (Elt F) := StableHlo.after hostOps0_1 (W1 m c)
/-- After the host stretch `hostOps0_2`. -/
abbrev W3 (c : Dev nD) : Valuation τ sig (Elt F) := StableHlo.after hostOps0_2 (W2 m c)
/-- After the host stretch `hostOps0_3`. -/
abbrev W4 (c : Dev nD) : Valuation τ sig (Elt F) := StableHlo.after hostOps0_3 (W3 m c)
/-- After the host stretch `hostOps0_4`. -/
abbrev W5 (c : Dev nD) : Valuation τ sig (Elt F) := StableHlo.after hostOps0_4 (W4 m c)
/-- After the host stretch `hostOps0_5`. -/
abbrev W6 (c : Dev nD) : Valuation τ sig (Elt F) := StableHlo.after hostOps0_5 (W5 m c)
/-- After the host stretch `hostOps0_6`. -/
abbrev W7 (c : Dev nD) : Valuation τ sig (Elt F) := StableHlo.after hostOps0_6 (W6 m c)
/-- After region 0: its output array `main_v8` at what the pipeline's write-backs leave (the proof data's `arrAt` at the last point), every other buffer as the region was entered. -/
def W8 (c : Dev nD) : Valuation τ sig (Elt F) := Function.update (W7 m c) main_v8 ((dat0 (Vr (W7 m)) c).arrAt 6 cfg0.N)
/-- After the host stretch `hostOps1`. -/
abbrev W9 (c : Dev nD) : Valuation τ sig (Elt F) := StableHlo.after hostOps1 (W8 m c)
/-- After the host stretch `hostOps1_1`. -/
abbrev W10 (c : Dev nD) : Valuation τ sig (Elt F) := StableHlo.after hostOps1_1 (W9 m c)
/-- After the host stretch `hostOps1_2`. -/
abbrev W11 (c : Dev nD) : Valuation τ sig (Elt F) := StableHlo.after hostOps1_2 (W10 m c)
/-- After the host stretch `hostOps1_3`. -/
abbrev W12 (c : Dev nD) : Valuation τ sig (Elt F) := StableHlo.after hostOps1_3 (W11 m c)
/-- After region 1: its output array `main_v15` at what the pipeline's write-backs leave (the proof data's `arrAt` at the last point), every other buffer as the region was entered. -/
def W13 (c : Dev nD) : Valuation τ sig (Elt F) := Function.update (W12 m c) main_v15 ((dat1 (Vr (W12 m)) c).arrAt 5 cfg1.N)
/-- After the host stretch `hostOps2`. -/
abbrev W14 (c : Dev nD) : Valuation τ sig (Elt F) := StableHlo.after hostOps2 (W13 m c)
/-- After the host stretch `hostOps2_1`. -/
abbrev W15 (c : Dev nD) : Valuation τ sig (Elt F) := StableHlo.after hostOps2_1 (W14 m c)
/-- After the host stretch `hostOps2_2`. -/
abbrev W16 (c : Dev nD) : Valuation τ sig (Elt F) := StableHlo.after hostOps2_2 (W15 m c)
/-- After the host stretch `hostOps2_3`. -/
abbrev W17 (c : Dev nD) : Valuation τ sig (Elt F) := StableHlo.after hostOps2_3 (W16 m c)
/-- After region 2: its output array `main_v23` at what the pipeline's write-backs leave (the proof data's `arrAt` at the last point), every other buffer as the region was entered. -/
def W18 (c : Dev nD) : Valuation τ sig (Elt F) := Function.update (W17 m c) main_v23 ((dat2 (Vr (W17 m)) c).arrAt 5 cfg2.N)
/-- After the host stretch `hostOps3`. -/
abbrev W19 (c : Dev nD) : Valuation τ sig (Elt F) := StableHlo.after hostOps3 (W18 m c)
/-- After region 3: its output array `main_v25` at what the pipeline's write-backs leave (the proof data's `arrAt` at the last point), every other buffer as the region was entered. -/
def W20 (c : Dev nD) : Valuation τ sig (Elt F) := Function.update (W19 m c) main_v25 ((dat3 (Vr3 (W19 m)) c).arrAt 2 cfg3.N)
/-- After region 4: its output array `main_v26` at what the pipeline's write-backs leave (the proof data's `arrAt` at the last point), every other buffer as the region was entered. -/
def W21 (c : Dev nD) : Valuation τ sig (Elt F) := Function.update (W20 m c) main_v26 ((dat4 (Vr (W20 m)) c).arrAt 1 cfg4.N)
/-- After the host stretch `hostOps5`. -/
abbrev W22 (c : Dev nD) : Valuation τ sig (Elt F) := StableHlo.after hostOps5 (W21 m c)

/-- Region 0 changes `main_v8` only. -/
theorem W8_of_ne (c : Dev nD) (b : Ref sig .tc) (h : b ≠ main_v8) : W8 m c b = W7 m c b := by
  unfold W8; exact Function.update_of_ne (StableHlo.devRef_ne_of_ne h) _ _
theorem W8_out (c : Dev nD) : W8 m c main_v8 = (dat0 (Vr (W7 m)) c).arrAt 6 cfg0.N := by
  unfold W8; exact Function.update_self _ _ _

/-- Region 1 changes `main_v15` only. -/
theorem W13_of_ne (c : Dev nD) (b : Ref sig .tc) (h : b ≠ main_v15) : W13 m c b = W12 m c b := by
  unfold W13; exact Function.update_of_ne (StableHlo.devRef_ne_of_ne h) _ _
theorem W13_out (c : Dev nD) : W13 m c main_v15 = (dat1 (Vr (W12 m)) c).arrAt 5 cfg1.N := by
  unfold W13; exact Function.update_self _ _ _

/-- Region 2 changes `main_v23` only. -/
theorem W18_of_ne (c : Dev nD) (b : Ref sig .tc) (h : b ≠ main_v23) : W18 m c b = W17 m c b := by
  unfold W18; exact Function.update_of_ne (StableHlo.devRef_ne_of_ne h) _ _
theorem W18_out (c : Dev nD) : W18 m c main_v23 = (dat2 (Vr (W17 m)) c).arrAt 5 cfg2.N := by
  unfold W18; exact Function.update_self _ _ _

/-- Region 3 changes `main_v25` only. -/
theorem W20_of_ne (c : Dev nD) (b : Ref sig .tc) (h : b ≠ main_v25) : W20 m c b = W19 m c b := by
  unfold W20; exact Function.update_of_ne (StableHlo.devRef_ne_of_ne h) _ _
theorem W20_out (c : Dev nD) : W20 m c main_v25 = (dat3 (Vr3 (W19 m)) c).arrAt 2 cfg3.N := by
  unfold W20; exact Function.update_self _ _ _

/-- Region 4 changes `main_v26` only. -/
theorem W21_of_ne (c : Dev nD) (b : Ref sig .tc) (h : b ≠ main_v26) : W21 m c b = W20 m c b := by
  unfold W21; exact Function.update_of_ne (StableHlo.devRef_ne_of_ne h) _ _
theorem W21_out (c : Dev nD) : W21 m c main_v26 = (dat4 (Vr (W20 m)) c).arrAt 1 cfg4.N := by
  unfold W21; exact Function.update_self _ _ _

/-! ## The proof data family and the thread state -/

/-- Every pipeline's proof data, each at its region's entry contents. -/
def pdats : (p : Fin 5) → (c : Dev nD) → Dat τ (Elt F) Unit ℕ (UR sig nD τ) ℕ (Pipeline.pin (pcfgs (F := F)) Gen.adm p) c
  | ⟨0, _⟩ => fun c => dat0 (Vr (W7 m)) c
  | ⟨1, _⟩ => fun c => dat1 (Vr (W12 m)) c
  | ⟨2, _⟩ => fun c => dat2 (Vr (W17 m)) c
  | ⟨3, _⟩ => fun c => dat3 (Vr3 (W19 m)) c
  | ⟨4, _⟩ => fun c => dat4 (Vr (W20 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W22 m c) ∗ ∃ r, prngReg c r)

/-! ## Region 0 -/

/-- At region 0's exit each of its arrays holds what the pipeline leaves: the output `main_v8` its write-backs folded, an
    input its entry contents (an input window's array is never written). -/
theorem hF0 (c : Dev nD) (w : Fin cfg0.W) : (dat0 (Vr (W7 m)) c).arrAt w cfg0.N = Vr (W8 m) c (Pipeline.arrRef spec0 w) := by
  match w with
  | ⟨0, _⟩ => exact ((dat0 (Vr (W7 m)) c).arrAt_in ⟨0, by decide⟩ rfl _).trans ((A_eq0 (Vr (W7 m)) c ⟨0, by decide⟩).trans (W8_of_ne m c _ (by decide)).symm)
  | ⟨1, _⟩ => exact ((dat0 (Vr (W7 m)) c).arrAt_in ⟨1, by decide⟩ rfl _).trans ((A_eq0 (Vr (W7 m)) c ⟨1, by decide⟩).trans (W8_of_ne m c _ (by decide)).symm)
  | ⟨2, _⟩ => exact ((dat0 (Vr (W7 m)) c).arrAt_in ⟨2, by decide⟩ rfl _).trans ((A_eq0 (Vr (W7 m)) c ⟨2, by decide⟩).trans (W8_of_ne m c _ (by decide)).symm)
  | ⟨3, _⟩ => exact ((dat0 (Vr (W7 m)) c).arrAt_in ⟨3, by decide⟩ rfl _).trans ((A_eq0 (Vr (W7 m)) c ⟨3, by decide⟩).trans (W8_of_ne m c _ (by decide)).symm)
  | ⟨4, _⟩ => exact ((dat0 (Vr (W7 m)) c).arrAt_in ⟨4, by decide⟩ rfl _).trans ((A_eq0 (Vr (W7 m)) c ⟨4, by decide⟩).trans (W8_of_ne m c _ (by decide)).symm)
  | ⟨5, _⟩ => exact ((dat0 (Vr (W7 m)) c).arrAt_in ⟨5, by decide⟩ rfl _).trans ((A_eq0 (Vr (W7 m)) c ⟨5, by decide⟩).trans (W8_of_ne m c _ (by decide)).symm)
  | ⟨6, _⟩ => exact (W8_out m c).symm
/-- Every other buffer holds what it held at entry. -/
theorem hrest0 (c : Dev nD) : ∀ b, b ∉ Finset.univ.image (Pipeline.arrRef spec0) → Vr (W8 m) c b = Vr (W7 m) c b :=
  fun b hb => W8_of_ne m c b fun e => hb (Finset.mem_image.mpr ⟨⟨6, by decide⟩, Finset.mem_univ _, (by rw [e])⟩)

set_option backward.isDefEq.respectTransparency.types false in
/-- Region 0 over the thread state: entered from every unscoped buffer at `W7`, left at `W8`. Its arrays are split out of
    the unscoped buffers and put back at the exit contents; the generator register goes into the region invariant and comes
    back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr (W7 m)) c).loose
  hwaits := Pipeline.hwaits_of_owed_zero _ _ _ _ L lv 0 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (Vr (W7 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vr (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec0 c : sProp 𝕄) ⊢ (pdats m 0 c).Φ 0 := hin0 (Vr (W7 m)) c
    iintro ⟨Hp, -, Hr⟩
    iapply h
    unfold Pipeline.ΦA
    isplitl [Hr]; · iexact Hr
    iexact Hp
  hout c := by
    rw [Pipeline.ownSems0_none]
    have h : (pdats m 0 c).Φ (Fin.last (Pipeline.pin (pcfgs (F := F)) Gen.adm 0).N) ⊢ (Pipeline.ΦA spec0 c : sProp 𝕄) := hout0 (Vr (W7 m)) c
    iintro H
    ihave H2 := h $$ H
    unfold Pipeline.ΦA
    icases H2 with ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vr (W7 m) c) (Vr (W8 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

/-- At region 1's exit each of its arrays holds what the pipeline leaves: the output `main_v15` its write-backs folded, an
    input its entry contents (an input window's array is never written). -/
theorem hF1 (c : Dev nD) (w : Fin cfg1.W) : (dat1 (Vr (W12 m)) c).arrAt w cfg1.N = Vr (W13 m) c (Pipeline.arrRef spec1 w) := by
  match w with
  | ⟨0, _⟩ => exact ((dat1 (Vr (W12 m)) c).arrAt_in ⟨0, by decide⟩ rfl _).trans ((A_eq1 (Vr (W12 m)) c ⟨0, by decide⟩).trans (W13_of_ne m c _ (by decide)).symm)
  | ⟨1, _⟩ => exact ((dat1 (Vr (W12 m)) c).arrAt_in ⟨1, by decide⟩ rfl _).trans ((A_eq1 (Vr (W12 m)) c ⟨1, by decide⟩).trans (W13_of_ne m c _ (by decide)).symm)
  | ⟨2, _⟩ => exact ((dat1 (Vr (W12 m)) c).arrAt_in ⟨2, by decide⟩ rfl _).trans ((A_eq1 (Vr (W12 m)) c ⟨2, by decide⟩).trans (W13_of_ne m c _ (by decide)).symm)
  | ⟨3, _⟩ => exact ((dat1 (Vr (W12 m)) c).arrAt_in ⟨3, by decide⟩ rfl _).trans ((A_eq1 (Vr (W12 m)) c ⟨3, by decide⟩).trans (W13_of_ne m c _ (by decide)).symm)
  | ⟨4, _⟩ => exact ((dat1 (Vr (W12 m)) c).arrAt_in ⟨4, by decide⟩ rfl _).trans ((A_eq1 (Vr (W12 m)) c ⟨4, by decide⟩).trans (W13_of_ne m c _ (by decide)).symm)
  | ⟨5, _⟩ => exact (W13_out m c).symm
/-- Every other buffer holds what it held at entry. -/
theorem hrest1 (c : Dev nD) : ∀ b, b ∉ Finset.univ.image (Pipeline.arrRef spec1) → Vr (W13 m) c b = Vr (W12 m) c b :=
  fun b hb => W13_of_ne m c b fun e => hb (Finset.mem_image.mpr ⟨⟨5, by decide⟩, Finset.mem_univ _, (by rw [e])⟩)

set_option backward.isDefEq.respectTransparency.types false in
/-- Region 1 over the thread state: entered from every unscoped buffer at `W12`, left at `W13`. Its arrays are split out of
    the unscoped buffers and put back at the exit contents; the generator register goes into the region invariant and comes
    back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr (W12 m)) c).loose
  hwaits := Pipeline.hwaits_of_owed_zero _ _ _ _ L lv 1 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec1 c (Vr (W12 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (Vr (W12 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec1 c : sProp 𝕄) ⊢ (pdats m 1 c).Φ 0 := hin1 (Vr (W12 m)) c
    iintro ⟨Hp, -, Hr⟩
    iapply h
    unfold Pipeline.ΦA
    isplitl [Hr]; · iexact Hr
    iexact Hp
  hout c := by
    rw [Pipeline.ownSems0_none]
    have h : (pdats m 1 c).Φ (Fin.last (Pipeline.pin (pcfgs (F := F)) Gen.adm 1).N) ⊢ (Pipeline.ΦA spec1 c : sProp 𝕄) := hout1 (Vr (W12 m)) c
    iintro H
    ihave H2 := h $$ H
    unfold Pipeline.ΦA
    icases H2 with ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (Vr (W12 m) c) (Vr (W13 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

/-- At region 2's exit each of its arrays holds what the pipeline leaves: the output `main_v23` its write-backs folded, an
    input its entry contents (an input window's array is never written). -/
theorem hF2 (c : Dev nD) (w : Fin cfg2.W) : (dat2 (Vr (W17 m)) c).arrAt w cfg2.N = Vr (W18 m) c (Pipeline.arrRef spec2 w) := by
  match w with
  | ⟨0, _⟩ => exact ((dat2 (Vr (W17 m)) c).arrAt_in ⟨0, by decide⟩ rfl _).trans ((A_eq2 (Vr (W17 m)) c ⟨0, by decide⟩).trans (W18_of_ne m c _ (by decide)).symm)
  | ⟨1, _⟩ => exact ((dat2 (Vr (W17 m)) c).arrAt_in ⟨1, by decide⟩ rfl _).trans ((A_eq2 (Vr (W17 m)) c ⟨1, by decide⟩).trans (W18_of_ne m c _ (by decide)).symm)
  | ⟨2, _⟩ => exact ((dat2 (Vr (W17 m)) c).arrAt_in ⟨2, by decide⟩ rfl _).trans ((A_eq2 (Vr (W17 m)) c ⟨2, by decide⟩).trans (W18_of_ne m c _ (by decide)).symm)
  | ⟨3, _⟩ => exact ((dat2 (Vr (W17 m)) c).arrAt_in ⟨3, by decide⟩ rfl _).trans ((A_eq2 (Vr (W17 m)) c ⟨3, by decide⟩).trans (W18_of_ne m c _ (by decide)).symm)
  | ⟨4, _⟩ => exact ((dat2 (Vr (W17 m)) c).arrAt_in ⟨4, by decide⟩ rfl _).trans ((A_eq2 (Vr (W17 m)) c ⟨4, by decide⟩).trans (W18_of_ne m c _ (by decide)).symm)
  | ⟨5, _⟩ => exact (W18_out m c).symm
/-- Every other buffer holds what it held at entry. -/
theorem hrest2 (c : Dev nD) : ∀ b, b ∉ Finset.univ.image (Pipeline.arrRef spec2) → Vr (W18 m) c b = Vr (W17 m) c b :=
  fun b hb => W18_of_ne m c b fun e => hb (Finset.mem_image.mpr ⟨⟨5, by decide⟩, Finset.mem_univ _, (by rw [e])⟩)

set_option backward.isDefEq.respectTransparency.types false in
/-- Region 2 over the thread state: entered from every unscoped buffer at `W17`, left at `W18`. Its arrays are split out of
    the unscoped buffers and put back at the exit contents; the generator register goes into the region invariant and comes
    back; nothing is owed; the kernel has no semaphore of its own. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr (W17 m)) c).loose
  hwaits := Pipeline.hwaits_of_owed_zero _ _ _ _ L lv 2 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec2 c (Vr (W17 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (Vr (W17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec2 c : sProp 𝕄) ⊢ (pdats m 2 c).Φ 0 := hin2 (Vr (W17 m)) c
    iintro ⟨Hp, -, Hr⟩
    iapply h
    unfold Pipeline.ΦA
    isplitl [Hr]; · iexact Hr
    iexact Hp
  hout c := by
    rw [Pipeline.ownSems0_none]
    have h : (pdats m 2 c).Φ (Fin.last (Pipeline.pin (pcfgs (F := F)) Gen.adm 2).N) ⊢ (Pipeline.ΦA spec2 c : sProp 𝕄) := hout2 (Vr (W17 m)) c
    iintro H
    ihave H2 := h $$ H
    unfold Pipeline.ΦA
    icases H2 with ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (Vr (W17 m) c) (Vr (W18 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

/-- At region 4's exit each of its arrays holds what the pipeline leaves: the output `main_v26` its write-backs folded, an
    input its entry contents (an input window's array is never written). -/
theorem hF4 (c : Dev nD) (w : Fin cfg4.W) : (dat4 (Vr (W20 m)) c).arrAt w cfg4.N = Vr (W21 m) c (Pipeline.arrRef spec4 w) := by
  match w with
  | ⟨0, _⟩ => exact ((dat4 (Vr (W20 m)) c).arrAt_in ⟨0, by decide⟩ rfl _).trans ((A_eq4 (Vr (W20 m)) c ⟨0, by decide⟩).trans (W21_of_ne m c _ (by decide)).symm)
  | ⟨1, _⟩ => exact (W21_out m c).symm
/-- Every other buffer holds what it held at entry. -/
theorem hrest4 (c : Dev nD) : ∀ b, b ∉ Finset.univ.image (Pipeline.arrRef spec4) → Vr (W21 m) c b = Vr (W20 m) c b :=
  fun b hb => W21_of_ne m c b fun e => hb (Finset.mem_image.mpr ⟨⟨1, by decide⟩, Finset.mem_univ _, (by rw [e])⟩)

set_option backward.isDefEq.respectTransparency.types false in
/-- Region 4 over the thread state: entered from every unscoped buffer at `W20`, left at `W21`. Its arrays are split out of
    the unscoped buffers and put back at the exit contents; the generator register goes into the region invariant and comes
    back; nothing is owed; the kernel has no semaphore of its own. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vr (W20 m)) c).loose
  hwaits := Pipeline.hwaits_of_owed_zero _ _ _ _ L lv 4 fun _ _ => rfl
  pre c := iprop(StableHlo.held (c : Thread nD τ) (Pipeline.ucRefs τ sig) (W20 m c) ∗ R c)
  post c := iprop(StableHlo.held (c : Thread nD τ) (Pipeline.ucRefs τ sig) (W21 m c) ∗ R c)
  X c := iprop(∃ r, prngReg c r)
  Y c := iprop(∃ r, prngReg c r)
  Z c := Pipeline.unscopedRest (Ix := Unit) (Name := ℕ) (U := UR sig nD τ) (Lvl := ℕ) spec4 c (Vr (W20 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (Vr (W20 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (Pipeline.ΦA spec4 c : sProp 𝕄) ⊢ (pdats m 4 c).Φ 0 := hin4 (Vr (W20 m)) c
    iintro ⟨Hp, -, Hr⟩
    iapply h
    unfold Pipeline.ΦA
    isplitl [Hr]; · iexact Hr
    iexact Hp
  hout c := by
    rw [Pipeline.ownSems0_none]
    have h : (pdats m 4 c).Φ (Fin.last (Pipeline.pin (pcfgs (F := F)) Gen.adm 4).N) ⊢ (Pipeline.ΦA spec4 c : sProp 𝕄) := hout4 (Vr (W20 m)) c
    iintro H
    ihave H2 := h $$ H
    unfold Pipeline.ΦA
    icases H2 with ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (Vr (W20 m) c) (Vr (W21 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 (two windows on one array) -/

set_option backward.isDefEq.respectTransparency.types false in
/-- Region 3 over the thread state: entered from `W19`, left at `W20`. Its two input windows read ONE array, each holding
    half of its share; the split of the unscoped buffers and its inverse are `entry3` / `exit3`. -/
def reg3 : Pipeline.RegionSeg (pcfgs (F := F)) Gen.adm (pdats m) () defs₀ 𝒱₀ L lv 3 where
  win := winFacts₀3
  block_pos := block_pos3
  stage_whole := stage_whole3
  K := PEmpty
  osem k := k.elim
  ho := Pipeline.OwnSemFacts.none _
  hbody c := (body_obligation3 (Vr3 (W19 m)) c).loose
  hwaits := Pipeline.hwaits_of_owed_zero _ _ _ _ L lv 3 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Z3 (W19 m) c
  hentry c := by
    rw [Pipeline.ownSems0_none]
    iintro ⟨⟨Hub, Hp, HO⟩, -, -⟩
    ihave H := (entry3 (W19 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    change (Pipeline.ΦA spec3 c : sProp 𝕄) ⊢ _
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · unfold W20
      iapply (exit3 (W19 m) c)
      isplitl [Ha]
      · iexact Ha
      iexact Hrest
    isplitl [HY]; · iexact HY
    unfold Pipeline.Dat.owesAt Pipeline.owesWithin
    icases HO with ⟨%W, -, HO⟩; iexists W; iexact HO

/-! ## The program as segments, and the run -/

/-- The program's 22 segments in order. -/
abbrev psegs : List (Pipeline.Seg (pcfgs (F := F)) Gen.adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .region (reg0 m),
    .host (hseg hostOps1 hostOps1_sub hostOps1_fresh (W8 m)),
    .host (hseg hostOps1_1 hostOps1_1_sub hostOps1_1_fresh (W9 m)),
    .host (hseg hostOps1_2 hostOps1_2_sub hostOps1_2_fresh (W10 m)),
    .host (hseg hostOps1_3 hostOps1_3_sub hostOps1_3_fresh (W11 m)),
    .region (reg1 m),
    .host (hseg hostOps2 hostOps2_sub hostOps2_fresh (W13 m)),
    .host (hseg hostOps2_1 hostOps2_1_sub hostOps2_1_fresh (W14 m)),
    .host (hseg hostOps2_2 hostOps2_2_sub hostOps2_2_fresh (W15 m)),
    .host (hseg hostOps2_3 hostOps2_3_sub hostOps2_3_fresh (W16 m)),
    .region (reg2 m),
    .host (hseg hostOps3 hostOps3_sub hostOps3_fresh (W18 m)),
    .region (reg3 m),
    .region (reg4 m),
    .host (hseg hostOps5 hostOps5_sub hostOps5_fresh (W21 m)) ]

/-- The program IS the run of the segments. -/
theorem main_run (c : Dev nD) : main (F := F) c = Pipeline.Seg.run (psegs m) := (main_chain c).trans (by chain_rfl)

set_option backward.isDefEq.respectTransparency.types false in
/-- THE RUN: from any memory with zero counters, every weakly fair execution of the program on the TensorCores terminates,
    nothing faulting, and in every final state every unscoped buffer holds the last boundary's contents `W22`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W22 m c b) :=
  Pipeline.θ_run_regions_kit (pcfgs (F := F)) Gen.adm (pdats m) () cellOf_inj emb₁ defs₀ 𝒱₀ L lv m ρ main (psegs m)
    (fun c Q => by rw [main_run m c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W22 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m c b)
    (hfin := fun c s' => by
      iintro ⟨⟨Hh, -⟩, HSI⟩
      unfold StableHlo.held
      imodintro
      iapply (pointsTo_read_all (Pipeline.ucRefs τ sig) (fun b => (((c : Thread nD τ)).1, b)) (W22 m c) s')
      isplitl [Hh] <;> iassumption)
    (hQ := fun s h c => h c)

/-! ## What no segment writes ends as launched -/

/-- A buffer that no host stretch writes and that is no region's output holds its launch contents at the end. -/
theorem W22_keep (c : Dev nD) (b : Ref sig .tc) (h0 : b ∉ hostOps0_W) (h1 : b ∉ hostOps0_1_W) (h2 : b ∉ hostOps0_2_W) (h3 : b ∉ hostOps0_3_W) (h4 : b ∉ hostOps0_4_W) (h5 : b ∉ hostOps0_5_W) (h6 : b ∉ hostOps0_6_W) (h8 : b ∉ hostOps1_W) (h9 : b ∉ hostOps1_1_W) (h10 : b ∉ hostOps1_2_W) (h11 : b ∉ hostOps1_3_W) (h13 : b ∉ hostOps2_W) (h14 : b ∉ hostOps2_1_W) (h15 : b ∉ hostOps2_2_W) (h16 : b ∉ hostOps2_3_W) (h18 : b ∉ hostOps3_W) (h21 : b ∉ hostOps5_W) (r0 : b ≠ main_v8) (r1 : b ≠ main_v15) (r2 : b ≠ main_v23) (r3 : b ≠ main_v25) (r4 : b ≠ main_v26) :
    W22 m c b = m ((c : Thread nD τ).loc b) :=
  (StableHlo.after_of_writes_sub hostOps5 _ hostOps5_writes h21).trans <|
  (W21_of_ne m c b r4).trans <|
  (W20_of_ne m c b r3).trans <|
  (StableHlo.after_of_writes_sub hostOps3 _ hostOps3_writes h18).trans <|
  (W18_of_ne m c b r2).trans <|
  (StableHlo.after_of_writes_sub hostOps2_3 _ hostOps2_3_writes h16).trans <|
  (StableHlo.after_of_writes_sub hostOps2_2 _ hostOps2_2_writes h15).trans <|
  (StableHlo.after_of_writes_sub hostOps2_1 _ hostOps2_1_writes h14).trans <|
  (StableHlo.after_of_writes_sub hostOps2 _ hostOps2_writes h13).trans <|
  (W13_of_ne m c b r1).trans <|
  (StableHlo.after_of_writes_sub hostOps1_3 _ hostOps1_3_writes h11).trans <|
  (StableHlo.after_of_writes_sub hostOps1_2 _ hostOps1_2_writes h10).trans <|
  (StableHlo.after_of_writes_sub hostOps1_1 _ hostOps1_1_writes h9).trans <|
  (StableHlo.after_of_writes_sub hostOps1 _ hostOps1_writes h8).trans <|
  (W8_of_ne m c b r0).trans <|
  (StableHlo.after_of_writes_sub hostOps0_6 _ hostOps0_6_writes h6).trans <|
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans <|
  rfl

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_arg0 (by decide))).trans (W22_keep m c main_arg0 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg1 (by decide))).trans (W22_keep m c main_arg1 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg2 (by decide))).trans (W22_keep m c main_arg2 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg3 (by decide))).trans (W22_keep m c main_arg3 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg4 (by decide))).trans (W22_keep m c main_arg4 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg5 (by decide))).trans (W22_keep m c main_arg5 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg6 (by decide))).trans (W22_keep m c main_arg6 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg7 (by decide))).trans (W22_keep m c main_arg7 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg8 (by decide))).trans (W22_keep m c main_arg8 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg9 (by decide))).trans (W22_keep m c main_arg9 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg10 (by decide))).trans (W22_keep m c main_arg10 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg11 (by decide))).trans (W22_keep m c main_arg11 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg12 (by decide))).trans (W22_keep m c main_arg12 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg13 (by decide))).trans (W22_keep m c main_arg13 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg14 (by decide))).trans (W22_keep m c main_arg14 (by decide) (by decide) (by decide) (by decide) (by decide) (by decide) (by decide) (by decide) (by decide) (by decide) (by decide) (by decide) (by decide) (by decide) (by decide) (by decide) (by decide) (by decide) (by decide) (by decide) (by decide) (by decide))⟩) (run_all m ρ)

end Cert.KernelIdeal.Hand

end
-- ==== Proof.KI.Host0.lean ====
/- The host operations in front of the encoder kernel, read at an index at the exact-real instance: a zero pad is the
   operand inside its extent and zero outside, a reshape [n] → [1, n] and a change of float format are the identity on
   entries, the mask becomes the float 0 or 1. Also the arguments' launch contents as plain arrays. -/
import proofs.«175587_j47510928228669_1_alg».proof.Proof.KI.Main
import Idealize.ShloMosaic.Lib.KernelVsHost
import Idealize.ShloMosaic.Lib.Pipeline.Value
import Idealize.ShloMosaic.Lib.ValueLayout
import Idealize.ShloMosaic.Lib.ValueIdx
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.ValueIdx
open Idealize.ShloMosaic.Pipeline (Dat)

variable (m : (ℓ : Loc nD τ sig) → Buf (Elt Ideal) ℓ)

/-! ## The arguments as arrays -/

def argLikes (c : Dev nD) : S2048x20000.Idx → EReal := m ((c : Thread nD τ).loc main_arg1)
def argMask (c : Dev nD) : S2048x20000.Idx → BitVec 1 := m ((c : Thread nD τ).loc main_arg2)
def argW1 (c : Dev nD) : S20000x1024.Idx → EReal := m ((c : Thread nD τ).loc main_arg3)
def argB1 (c : Dev nD) : S1024.Idx → EReal := m ((c : Thread nD τ).loc main_arg4)
def argW2 (c : Dev nD) : S1024x512.Idx → EReal := m ((c : Thread nD τ).loc main_arg5)
def argB2 (c : Dev nD) : S512.Idx → EReal := m ((c : Thread nD τ).loc main_arg6)
def argLW1 (c : Dev nD) : S512x1024.Idx → EReal := m ((c : Thread nD τ).loc main_arg7)
def argLB1 (c : Dev nD) : S1024.Idx → EReal := m ((c : Thread nD τ).loc main_arg8)
def argLW2 (c : Dev nD) : S1024x20000.Idx → EReal := m ((c : Thread nD τ).loc main_arg9)
def argLB2 (c : Dev nD) : S20000.Idx → EReal := m ((c : Thread nD τ).loc main_arg10)
def argRW1 (c : Dev nD) : S512x1024.Idx → EReal := m ((c : Thread nD τ).loc main_arg11)
def argRB1 (c : Dev nD) : S1024.Idx → EReal := m ((c : Thread nD τ).loc main_arg12)
def argRW2 (c : Dev nD) : S1024x20000.Idx → EReal := m ((c : Thread nD τ).loc main_arg13)
def argRB2 (c : Dev nD) : S20000.Idx → EReal := m ((c : Thread nD τ).loc main_arg14)

/-- The padding value of every pad here: the integer 0 converted to a float is the real 0. -/
theorem padval_zero (i : S_.Idx) : (sitofp (F := Ideal) .f32 (constantI S_ 32 0#32)) i = 0 := by
  show (((0#32 : BitVec 32).toInt : ℝ) : EReal) = 0
  simp

/-! ## The encoder's inputs -/

/-- The input matrix padded with zero columns. -/
theorem W7_v1_apply (c : Dev nD) (i : Fin 2048) (k : Fin 20480) :
    (W7 (F := Ideal) m c main_v1 : S2048x20480.Idx → EReal) (ix2 i k) = if h : k.val < 20000 then argLikes m c (ix2 i ⟨k.val, h⟩) else 0 := by
  have e : (W7 (F := Ideal) m c main_v1 : S2048x20480.Idx → EReal)
      = pad S2048x20480 ![0, 0] ![0, 480] ![0, 0] (argLikes m c) (sitofp (F := Ideal) .f32 (constantI S_ 32 0#32)) pads_S2048x20000_S2048x20480_000_04800 h_S_ := by
    show StableHlo.after hostOps0_6 (W6 m c) main_v1 = _
    after_results
    rfl
  rw [e]
  split_ifs with h
  ·
    refine pad_apply_of_inside _ _ _ _ _ _ _ (ix2 i k) (ix2 i ⟨k.val, h⟩) fun a => ?_
    match a with
    | ⟨0, _⟩ => simp
    | ⟨1, _⟩ => simp
  ·
    refine (pad_apply_of_not_inside _ _ _ _ _ _ _ (ix2 i k) ⟨1, by decide⟩ ?_).trans (padval_zero _)
    intro hh; apply h; have := hh.2.2; simpa using this

/-- The mask as a float matrix (0 or 1), padded with zero columns. -/
theorem W7_v2_apply (c : Dev nD) (i : Fin 2048) (k : Fin 20480) :
    (W7 (F := Ideal) m c main_v2 : S2048x20480.Idx → EReal) (ix2 i k) = if h : k.val < 20000 then FloatOps.uitofp (F := Ideal) .f32 (argMask m c (ix2 i ⟨k.val, h⟩)) else 0 := by
  have e : (W7 (F := Ideal) m c main_v2 : S2048x20480.Idx → EReal)
      = pad S2048x20480 ![0, 0] ![0, 480] ![0, 0] (uitofp (F := Ideal) .f32 (argMask m c)) (sitofp (F := Ideal) .f32 (constantI S_ 32 0#32)) pads_S2048x20000_S2048x20480_000_04800 h_S_ := by
    show StableHlo.after hostOps0_6 (W6 m c) main_v2 = _
    after_results
    rfl
  rw [e]
  split_ifs with h
  · refine (pad_apply_of_inside _ _ _ _ _ _ _ (ix2 i k) (ix2 i ⟨k.val, h⟩) fun a => ?_).trans rfl
    match a with
    | ⟨0, _⟩ => simp
    | ⟨1, _⟩ => simp
  ·
    refine (pad_apply_of_not_inside _ _ _ _ _ _ _ (ix2 i k) ⟨1, by decide⟩ ?_).trans (padval_zero _)
    intro hh; apply h; have := hh.2.2; simpa using this

/-- The first weight matrix padded with zero rows (its change of format is the identity). -/
theorem W7_v4_apply (c : Dev nD) (k : Fin 20480) (j : Fin 1024) :
    (W7 (F := Ideal) m c main_v4 : S20480x1024.Idx → EReal) (ix2 k j) = if h : k.val < 20000 then argW1 m c (ix2 ⟨k.val, h⟩ j) else 0 := by
  have e : (W7 (F := Ideal) m c main_v4 : S20480x1024.Idx → EReal)
      = truncf (F := Ideal) .bf16 (pad S20480x1024 ![0, 0] ![480, 0] ![0, 0] (argW1 m c) (sitofp (F := Ideal) .f32 (constantI S_ 32 0#32)) pads_S20000x1024_S20480x1024_04800_000 h_S_) bitsLt_bf16_f32 := by
    show StableHlo.after hostOps0_6 (W6 m c) main_v4 = _
    after_results
    rfl
  rw [e, truncf_apply]
  split_ifs with h
  ·
    refine pad_apply_of_inside _ _ _ _ _ _ _ (ix2 k j) (ix2 ⟨k.val, h⟩ j) fun a => ?_
    match a with
    | ⟨0, _⟩ => simp
    | ⟨1, _⟩ => simp
  ·
    refine (pad_apply_of_not_inside _ _ _ _ _ _ _ (ix2 k j) ⟨0, by decide⟩ ?_).trans (padval_zero _)
    intro hh; apply h; have := hh.2.2; simpa using this

/-- The second weight matrix (its change of format is the identity). -/
theorem W7_v5_apply (c : Dev nD) (j : Fin 1024) (d : Fin 512) :
    (W7 (F := Ideal) m c main_v5 : S1024x512.Idx → EReal) (ix2 j d) = argW2 m c (ix2 j d) := by
  have e : (W7 (F := Ideal) m c main_v5 : S1024x512.Idx → EReal) = truncf (F := Ideal) .bf16 (argW2 m c) bitsLt_bf16_f32 := by
    show StableHlo.after hostOps0_6 (W6 m c) main_v5 = _
    after_results
    rfl
  rw [e, truncf_apply]

/-- The first bias as a row. -/
theorem W7_v6_apply (c : Dev nD) (j : Fin 1024) :
    (W7 (F := Ideal) m c main_v6 : S1x1024.Idx → EReal) (ix2 (0 : Fin 1) j) = argB1 m c (ix1 j) := by
  have e : (W7 (F := Ideal) m c main_v6 : S1x1024.Idx → EReal) = shapeCast S1x1024 (argB1 m c) shapeCasts_S1024_S1x1024 := by
    show StableHlo.after hostOps0_6 (W6 m c) main_v6 = _
    after_results
    rfl
  rw [e]
  refine (shapeCast_addUnit_apply ![1024] _ _ (ix2 (0 : Fin 1) j)).trans ?_
  exact congrArg _ (funext fun a => by match a with | ⟨0, _⟩ => rfl)

/-- The second bias as a row. -/
theorem W7_v7_apply (c : Dev nD) (d : Fin 512) :
    (W7 (F := Ideal) m c main_v7 : S1x512.Idx → EReal) (ix2 (0 : Fin 1) d) = argB2 m c (ix1 d) := by
  have e : (W7 (F := Ideal) m c main_v7 : S1x512.Idx → EReal) = shapeCast S1x512 (argB2 m c) shapeCasts_S512_S1x512 := by
    show StableHlo.after hostOps0_6 (W6 m c) main_v7 = _
    after_results
    rfl
  rw [e]
  refine (shapeCast_addUnit_apply ![512] _ _ (ix2 (0 : Fin 1) d)).trans ?_
  exact congrArg _ (funext fun a => by match a with | ⟨0, _⟩ => rfl)

end Cert.KernelIdeal.Hand

end
-- ==== Proof.Spec.lean ====
/-
  The four results of the recommender forward pass, written index by index as functions of the argument arrays
  over the extended reals (a float an extended real, every operation exact).  No program is imported: this is
  plain mathematics over literal shapes.

  With `likes`, `mask : [2048, 20000]`, an encoder `w1 : [20000, 1024]`, `b1 : [1024]`, `w2 : [1024, 512]`,
  `b2 : [512]`, and a head `hw1 : [512, 1024]`, `hb1 : [1024]`, `hw2 : [1024, 20000]`, `hb2 : [20000]`:

    noisy i k  = 0 where mask i k is set, else likes i k
    hid i j    = max (∑ k, noisy i k · w1 k j + b1 j) 0
    embed i d  = max (∑ j, hid i j · w2 j d + b2 d) 0
    head i n   = 1 / (1 + exp (-(∑ j, max (∑ d, embed i d · hw1 d j + hb1 j) 0 · hw2 j n + hb2 n)))
    normed i d = embed i d · rsqrt (max (∑ d', embed i d' · embed i d') ε)          (ε the f32 nearest 1e-12)
    sim i i'   = -(∑ d, normed i d · normed i' d)
    popular n  = (∑ i, likes i n) / 2048

  The float literals 1.0, ε and 2048.0 stay the extended reals their f32 words denote (`Ideal.ofBits .f32 …`),
  never evaluated; only the zero word is written `0`.
-/
import Idealize.ShloMosaic.PureOps.Ideal
import Idealize.ShloMosaic.Lib.ValueIdx

noncomputable section

open scoped BigOperators

namespace Cert.RefSpec.Spec

open Idealize.ShloMosaic Idealize.ShloMosaic.ValueIdx

/-- The f32 word of `1.0`, as the extended real it denotes. -/
abbrev one : EReal := Ideal.ofBits .f32 0x3F800000#32
/-- The f32 word nearest `1e-12` (the normalisation's floor), as the extended real it denotes. -/
abbrev eps : EReal := Ideal.ofBits .f32 0x2B8CBCCC#32
/-- The f32 word of `2048.0` (the batch size), as the extended real it denotes. -/
abbrev batch : EReal := Ideal.ofBits .f32 0x45000000#32

/-- The denoised likes: an entry whose mask bit is set is dropped to `0`. -/
def noisy (likes : (⟨2, ![2048, 20000]⟩ : Shape).Idx → EReal) (mask : (⟨2, ![2048, 20000]⟩ : Shape).Idx → BitVec 1)
    (i : Fin 2048) (k : Fin 20000) : EReal :=
  Scalar.select (mask (ix2 i k)) 0 (likes (ix2 i k))

/-- The encoder's hidden layer: `relu (noisy · w1 + b1)`. -/
def hid (likes : (⟨2, ![2048, 20000]⟩ : Shape).Idx → EReal) (mask : (⟨2, ![2048, 20000]⟩ : Shape).Idx → BitVec 1)
    (w1 : (⟨2, ![20000, 1024]⟩ : Shape).Idx → EReal) (b1 : (⟨1, ![1024]⟩ : Shape).Idx → EReal)
    (i : Fin 2048) (j : Fin 1024) : EReal :=
  max (∑ k : Fin 20000, noisy likes mask i k * w1 (ix2 k j) + b1 (ix1 j)) 0

/-- The user embedding: `relu (hid · w2 + b2)`. -/
def embed (likes : (⟨2, ![2048, 20000]⟩ : Shape).Idx → EReal) (mask : (⟨2, ![2048, 20000]⟩ : Shape).Idx → BitVec 1)
    (w1 : (⟨2, ![20000, 1024]⟩ : Shape).Idx → EReal) (b1 : (⟨1, ![1024]⟩ : Shape).Idx → EReal)
    (w2 : (⟨2, ![1024, 512]⟩ : Shape).Idx → EReal) (b2 : (⟨1, ![512]⟩ : Shape).Idx → EReal)
    (i : Fin 2048) (d : Fin 512) : EReal :=
  max (∑ j : Fin 1024, hid likes mask w1 b1 i j * w2 (ix2 j d) + b2 (ix1 d)) 0

/-- An estimator head over an embedding `e : [2048, 512]`: `sigmoid (relu (e · hw1 + hb1) · hw2 + hb2)`, the sigmoid
    in the form `1 / (1 + exp (-x))`. -/
def head (e : Fin 2048 → Fin 512 → EReal)
    (hw1 : (⟨2, ![512, 1024]⟩ : Shape).Idx → EReal) (hb1 : (⟨1, ![1024]⟩ : Shape).Idx → EReal)
    (hw2 : (⟨2, ![1024, 20000]⟩ : Shape).Idx → EReal) (hb2 : (⟨1, ![20000]⟩ : Shape).Idx → EReal)
    (i : Fin 2048) (n : Fin 20000) : EReal :=
  Ideal.div one (one + Ideal.exp (-(∑ j : Fin 1024, max (∑ d : Fin 512, e i d * hw1 (ix2 d j) + hb1 (ix1 j)) 0 * hw2 (ix2 j n)
    + hb2 (ix1 n))))

/-- A row of an embedding scaled by the reciprocal root of its squared length, the length floored at `eps`. -/
def normed (e : Fin 2048 → Fin 512 → EReal) (i : Fin 2048) (d : Fin 512) : EReal :=
  e i d * Ideal.rsqrt (max (∑ d' : Fin 512, e i d' * e i d') eps)

/-- The negated Gram matrix of the normalised rows: minus the cosine similarity of users `i` and `i'`. -/
def sim (e : Fin 2048 → Fin 512 → EReal) (i i' : Fin 2048) : EReal :=
  -(∑ d : Fin 512, normed e i d * normed e i' d)

/-- The mean of an item's column of likes over the batch. -/
def popular (likes : (⟨2, ![2048, 20000]⟩ : Shape).Idx → EReal) (n : Fin 20000) : EReal :=
  Ideal.div (∑ i : Fin 2048, likes (ix2 i n)) batch

end Cert.RefSpec.Spec

end
-- ==== Proof.SumLaws.lean ====
/-
  Pure laws over the extended reals that join a padded, blocked computation to the plain one:
  a sum over a padded range whose padding contributes nothing is the sum over the true range; a sum over a range
  cut into equal blocks is the double sum over blocks and positions in a block; multiplying by the f32 word of
  `2^-11` is dividing by the f32 word of `2048` (at the infinities too); and multiplying a like by
  `1 - mask`, the mask bit read as `0` or `1`, is dropping the like to `0` where the bit is set (`x * 0 = 0` for
  every extended real, the infinities included).
-/
import Idealize.ShloMosaic.PureOps.Ideal

noncomputable section

open scoped BigOperators

namespace Cert.RefSpec

open Idealize.ShloMosaic

/-! ## A padded sum -/

/-- A sum over `Fin m` of a function that vanishes from `n` on is the sum of its first `n` terms. -/
theorem sum_fin_of_zero_tail {M : Type*} [AddCommMonoid M] {n m : ℕ} (h : n ≤ m) (f : Fin m → M)
    (hf : ∀ k : Fin m, n ≤ k.val → f k = 0) :
    ∑ k : Fin m, f k = ∑ k : Fin n, f ⟨k.val, lt_of_lt_of_le k.isLt h⟩ := by
  have e : ∑ k : Fin n, f ⟨k.val, lt_of_lt_of_le k.isLt h⟩ = ∑ k ∈ Finset.univ.map (Fin.castLEEmb h), f k := by
    rw [Finset.sum_map]; rfl
  rw [e]
  refine (Finset.sum_subset (Finset.subset_univ _) fun k _ hk => hf k ?_).symm
  by_contra hlt
  exact hk (Finset.mem_map.mpr ⟨⟨k.val, Nat.lt_of_not_le hlt⟩, Finset.mem_univ _, Fin.ext rfl⟩)

/-- The 20000 items padded to 20480: padding that contributes `0` drops out of the sum. -/
theorem sum_20480_of_zero_tail (f : Fin 20480 → EReal) (hf : ∀ k : Fin 20480, 20000 ≤ k.val → f k = 0) :
    ∑ k : Fin 20480, f k = ∑ k : Fin 20000, f ⟨k.val, lt_of_lt_of_le k.isLt (by norm_num)⟩ :=
  sum_fin_of_zero_tail (by norm_num) f hf

/-! ## A blocked sum -/

/-- Position `r` of block `b`, of `a` blocks of length `n`, is below `a * n`. -/
theorem blk_lt {a n : ℕ} (b : Fin a) (r : Fin n) : n * b.val + r.val < a * n := by
  have hb := b.isLt
  have hr := r.isLt
  calc n * b.val + r.val < n * b.val + n := by omega
    _ = n * (b.val + 1) := by ring
    _ ≤ n * a := Nat.mul_le_mul_left _ hb
    _ = a * n := Nat.mul_comm _ _

/-- A sum over `a * n` terms is the sum over the `a` blocks of the sums over the `n` positions of a block. -/
theorem sum_fin_blocks {M : Type*} [AddCommMonoid M] (a n : ℕ) (f : Fin (a * n) → M) :
    ∑ k : Fin (a * n), f k = ∑ b : Fin a, ∑ r : Fin n, f ⟨n * b.val + r.val, blk_lt b r⟩ := by
  rw [← Equiv.sum_comp finProdFinEquiv f, Fintype.sum_prod_type]
  refine Finset.sum_congr rfl fun b _ => Finset.sum_congr rfl fun r _ => congrArg f (Fin.ext ?_)
  show r.val + n * b.val = n * b.val + r.val
  exact Nat.add_comm _ _

/-- The padded item range, ten blocks of 2048. -/
theorem sum_20480_blocks (f : Fin 20480 → EReal) :
    ∑ k : Fin 20480, f k = ∑ b : Fin 10, ∑ r : Fin 2048, f ⟨2048 * b.val + r.val, blk_lt (a := 10) b r⟩ :=
  sum_fin_blocks 10 2048 f

/-- The batch, four blocks of 512. -/
theorem sum_2048_blocks (f : Fin 2048 → EReal) :
    ∑ k : Fin 2048, f k = ∑ b : Fin 4, ∑ r : Fin 512, f ⟨512 * b.val + r.val, blk_lt (a := 4) b r⟩ :=
  sum_fin_blocks 4 512 f

/-! ## The literals -/

/-- The f32 word `0x45000000` denotes `2048`. -/
theorem ofBits_2048 : Ideal.ofBits .f32 0x45000000#32 = ((2048 : ℝ) : EReal) := by
  simp [Ideal.ofBits, Ideal.ieee, -EReal.coe_mul]; norm_num

/-- The f32 word `0x3A000000` denotes `2^-11 = 1/2048`. -/
theorem ofBits_inv_2048 : Ideal.ofBits .f32 0x3A000000#32 = ((1 / 2048 : ℝ) : EReal) := by
  simp [Ideal.ofBits, Ideal.ieee, -EReal.coe_mul]; norm_num

/-- The f32 word `0x3F800000` denotes `1`. -/
theorem ofBits_one : Ideal.ofBits .f32 0x3F800000#32 = 1 := by
  simp [Ideal.ofBits, Ideal.ieee, -EReal.coe_mul]; norm_num

/-- Scaling by the word of `1/2048` is dividing by the word of `2048`, for every extended real. -/
theorem mul_inv_batch (x : EReal) :
    x * Ideal.ofBits .f32 0x3A000000#32 = Ideal.div x (Ideal.ofBits .f32 0x45000000#32) := by
  rw [ofBits_2048, ofBits_inv_2048, Ideal.div_coe (by norm_num)]

/-! ## The mask -/

/-- An unsigned integer read as a float is, exactly, its value. -/
theorem uitofp_def {φ : FTy} {w : ℕ} (b : BitVec w) : FloatOps.uitofp (F := Ideal) φ b = ((b.toNat : ℝ) : EReal) := rfl

/-- A like times `1 - mask`, the mask bit read as `0` or `1`, is the like where the bit is clear and `0` where it is
    set: on the extended reals `l * 0 = 0` whatever `l` is. -/
theorem mul_one_sub_mask (l : EReal) (b : BitVec 1) :
    l * (Ideal.ofBits .f32 0x3F800000#32 - FloatOps.uitofp (F := Ideal) .f32 b) = Scalar.select b 0 l := by
  rw [ofBits_one, uitofp_def]
  obtain rfl | rfl : b = 0#1 ∨ b = 1#1 := by
    revert b; decide
  · simp [Scalar.select]
  · have h : ((((1#1 : BitVec 1).toNat : ℝ)) : EReal) = ((1 : ℝ) : EReal) := by simp
    rw [h, ← EReal.coe_one, ← EReal.coe_sub, sub_self, EReal.coe_zero, mul_zero]
    simp [Scalar.select]

end Cert.RefSpec

end
-- ==== Proof.BridgeLaws.lean ====
/-
  The laws that turn a padded, tiled computation's formulas into the specification's functions.  The item axis is
  padded from 20000 to 20480 with zeros; the mask enters as a float factor `1 - mask`; a bias row `[n]` is carried
  as a `[1, n]` array; the sigmoid is one function; the mean is a product with `2^-11`.  Each law is stated over
  abstract arrays on literal shapes, the padding facts as hypotheses: a padded array agrees with the true one below
  20000 and is `0` from there on.  Padding drops out of a contraction because a product with `0` is `0` for every
  extended real, the infinities included.
-/
import proofs.«175587_j47510928228669_1_alg».proof.Proof.Spec
import proofs.«175587_j47510928228669_1_alg».proof.Proof.SumLaws

noncomputable section

open scoped BigOperators

namespace Cert.RefSpec

open Idealize.ShloMosaic Idealize.ShloMosaic.ValueIdx

/-! ## The popularity -/

/-- The column sum of the padded likes at a true item, scaled by `2^-11`, is the mean over the batch. -/
theorem popular_bridge (likes : (⟨2, ![2048, 20000]⟩ : Shape).Idx → EReal) (lp : (⟨2, ![2048, 20480]⟩ : Shape).Idx → EReal)
    (hlp : ∀ (i : Fin 2048) (k : Fin 20480), lp (ix2 i k) = if h : k.val < 20000 then likes (ix2 i ⟨k.val, h⟩) else 0)
    (n : Fin 20000) :
    (∑ i : Fin 2048, lp (ix2 i ⟨n.val, by omega⟩)) * Ideal.ofBits .f32 0x3A000000#32 = Spec.popular likes n := by
  rw [mul_inv_batch]
  unfold Spec.popular
  refine congrArg (fun s => Ideal.div s Spec.batch) (Finset.sum_congr rfl fun i _ => ?_)
  rw [hlp i ⟨n.val, by omega⟩, dif_pos n.isLt]

/-! ## An estimator head -/

/-- A head computed with its first bias as a `[1, 1024]` row, its output weights and bias padded along the items, and
    the sigmoid as one function, read at a true item `n`, is the specification's head. -/
theorem head_bridge (e : Fin 2048 → Fin 512 → EReal) (hw1 : (⟨2, ![512, 1024]⟩ : Shape).Idx → EReal) (hb1 : (⟨1, ![1024]⟩ : Shape).Idx → EReal)
    (hw2 : (⟨2, ![1024, 20000]⟩ : Shape).Idx → EReal) (hb2 : (⟨1, ![20000]⟩ : Shape).Idx → EReal)
    (hb1r : (⟨2, ![1, 1024]⟩ : Shape).Idx → EReal) (hw2p : (⟨2, ![1024, 20480]⟩ : Shape).Idx → EReal) (hb2p : (⟨2, ![1, 20480]⟩ : Shape).Idx → EReal)
    (h1 : ∀ j : Fin 1024, hb1r (ix2 (0 : Fin 1) j) = hb1 (ix1 j))
    (h2 : ∀ (j : Fin 1024) (n : Fin 20480), hw2p (ix2 j n) = if h : n.val < 20000 then hw2 (ix2 j ⟨n.val, h⟩) else 0)
    (h3 : ∀ n : Fin 20480, hb2p (ix2 (0 : Fin 1) n) = if h : n.val < 20000 then hb2 (ix1 ⟨n.val, h⟩) else 0)
    (i : Fin 2048) (n : Fin 20000) :
    Ideal.logistic ((∑ j : Fin 1024, max ((∑ d : Fin 512, e i d * hw1 (ix2 d j)) + hb1r (ix2 (0 : Fin 1) j)) 0
        * hw2p (ix2 j ⟨n.val, by omega⟩)) + hb2p (ix2 (0 : Fin 1) ⟨n.val, by omega⟩))
      = Spec.head e hw1 hb1 hw2 hb2 i n := by
  unfold Spec.head Ideal.logistic Spec.one
  rw [ofBits_one, h3 ⟨n.val, by omega⟩, dif_pos n.isLt]
  refine congrArg (fun s => Ideal.div 1 (1 + Ideal.exp (-(s + hb2 (ix1 n))))) (Finset.sum_congr rfl fun j _ => ?_)
  rw [h1 j, h2 j ⟨n.val, by omega⟩, dif_pos n.isLt]

/-! ## The similarity matrix -/

/-- On the extended reals `0 - x` is `-x` for every `x`, the infinities included: subtraction is addition of the
    negative, and `0` is neutral for addition. -/
theorem zero_sub_ereal (x : EReal) : 0 - x = -x := by
  rw [sub_eq_add_neg, zero_add]

/-- The Gram entry of the normalised rows subtracted from `0` is the specification's similarity. -/
theorem sim_bridge (e : Fin 2048 → Fin 512 → EReal) (i i' : Fin 2048) :
    0 - ∑ d : Fin 512, Spec.normed e i d * Spec.normed e i' d = Spec.sim e i i' :=
  zero_sub_ereal _

/-- The same with the normalisation written out: each row scaled by the reciprocal root of its squared length
    floored at the word nearest `1e-12`. -/
theorem sim_bridge' (e : Fin 2048 → Fin 512 → EReal) (i i' : Fin 2048) :
    0 - ∑ d : Fin 512,
        (e i d * Ideal.rsqrt (max (∑ d' : Fin 512, e i d' * e i d') (Ideal.ofBits .f32 0x2B8CBCCC#32)))
          * (e i' d * Ideal.rsqrt (max (∑ d' : Fin 512, e i' d' * e i' d') (Ideal.ofBits .f32 0x2B8CBCCC#32)))
      = Spec.sim e i i' :=
  zero_sub_ereal _

/-! ## The encoder -/

/-- The hidden layer over padded items, the mask a float factor: the padded part of the contraction is a product
    with a zero weight, and below 20000 the factor `1 - mask` drops a masked like to `0`. -/
theorem hid_bridge (likes : (⟨2, ![2048, 20000]⟩ : Shape).Idx → EReal) (mask : (⟨2, ![2048, 20000]⟩ : Shape).Idx → BitVec 1)
    (w1 : (⟨2, ![20000, 1024]⟩ : Shape).Idx → EReal) (b1 : (⟨1, ![1024]⟩ : Shape).Idx → EReal)
    (lp mp : (⟨2, ![2048, 20480]⟩ : Shape).Idx → EReal) (w1p : (⟨2, ![20480, 1024]⟩ : Shape).Idx → EReal) (b1r : (⟨2, ![1, 1024]⟩ : Shape).Idx → EReal)
    (hlp : ∀ (i : Fin 2048) (k : Fin 20480), lp (ix2 i k) = if h : k.val < 20000 then likes (ix2 i ⟨k.val, h⟩) else 0)
    (hmp : ∀ (i : Fin 2048) (k : Fin 20480),
      mp (ix2 i k) = if h : k.val < 20000 then FloatOps.uitofp (F := Ideal) .f32 (mask (ix2 i ⟨k.val, h⟩)) else 0)
    (hw1p : ∀ (k : Fin 20480) (j : Fin 1024), w1p (ix2 k j) = if h : k.val < 20000 then w1 (ix2 ⟨k.val, h⟩ j) else 0)
    (hb1r : ∀ j : Fin 1024, b1r (ix2 (0 : Fin 1) j) = b1 (ix1 j))
    (i : Fin 2048) (j : Fin 1024) :
    max ((∑ k : Fin 20480, (lp (ix2 i k) * (Ideal.ofBits .f32 0x3F800000#32 - mp (ix2 i k))) * w1p (ix2 k j))
        + b1r (ix2 (0 : Fin 1) j)) 0
      = Spec.hid likes mask w1 b1 i j := by
  unfold Spec.hid
  rw [hb1r j, sum_20480_of_zero_tail _ (fun k hk => by rw [hw1p k j, dif_neg (by omega), mul_zero])]
  refine congrArg (fun s => max (s + b1 (ix1 j)) 0) (Finset.sum_congr rfl fun k _ => ?_)
  rw [hlp i ⟨k.val, _⟩, hmp i ⟨k.val, _⟩, hw1p ⟨k.val, _⟩ j, dif_pos k.isLt, dif_pos k.isLt, dif_pos k.isLt,
    mul_one_sub_mask]
  rfl

/-- The embedding over padded items, the mask a float factor and the two biases carried as rows, is the
    specification's embedding. -/
theorem embed_bridge (likes : (⟨2, ![2048, 20000]⟩ : Shape).Idx → EReal) (mask : (⟨2, ![2048, 20000]⟩ : Shape).Idx → BitVec 1)
    (w1 : (⟨2, ![20000, 1024]⟩ : Shape).Idx → EReal) (b1 : (⟨1, ![1024]⟩ : Shape).Idx → EReal)
    (w2 : (⟨2, ![1024, 512]⟩ : Shape).Idx → EReal) (b2 : (⟨1, ![512]⟩ : Shape).Idx → EReal)
    (lp mp : (⟨2, ![2048, 20480]⟩ : Shape).Idx → EReal) (w1p : (⟨2, ![20480, 1024]⟩ : Shape).Idx → EReal) (b1r : (⟨2, ![1, 1024]⟩ : Shape).Idx → EReal)
    (b2r : (⟨2, ![1, 512]⟩ : Shape).Idx → EReal)
    (hlp : ∀ (i : Fin 2048) (k : Fin 20480), lp (ix2 i k) = if h : k.val < 20000 then likes (ix2 i ⟨k.val, h⟩) else 0)
    (hmp : ∀ (i : Fin 2048) (k : Fin 20480),
      mp (ix2 i k) = if h : k.val < 20000 then FloatOps.uitofp (F := Ideal) .f32 (mask (ix2 i ⟨k.val, h⟩)) else 0)
    (hw1p : ∀ (k : Fin 20480) (j : Fin 1024), w1p (ix2 k j) = if h : k.val < 20000 then w1 (ix2 ⟨k.val, h⟩ j) else 0)
    (hb1r : ∀ j : Fin 1024, b1r (ix2 (0 : Fin 1) j) = b1 (ix1 j))
    (hb2r : ∀ d : Fin 512, b2r (ix2 (0 : Fin 1) d) = b2 (ix1 d))
    (i : Fin 2048) (d : Fin 512) :
    max ((∑ j : Fin 1024,
          max ((∑ k : Fin 20480, (lp (ix2 i k) * (Ideal.ofBits .f32 0x3F800000#32 - mp (ix2 i k))) * w1p (ix2 k j))
            + b1r (ix2 (0 : Fin 1) j)) 0 * w2 (ix2 j d))
        + b2r (ix2 (0 : Fin 1) d)) 0
      = Spec.embed likes mask w1 b1 w2 b2 i d := by
  unfold Spec.embed
  rw [hb2r d]
  refine congrArg (fun s => max (s + b2 (ix1 d)) 0) (Finset.sum_congr rfl fun j _ => ?_)
  rw [hid_bridge likes mask w1 b1 lp mp w1p b1r hlp hmp hw1p hb1r i j]

end Cert.RefSpec

end
-- ==== Proof.KI.Val0.Pieces.lean ====
import proofs.«175587_j47510928228669_1_alg».proof.Proof.KI.Reg0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what each control case's stores leave, as the payloads of the input blocks -/

/-- The zero offset of a two-axis block. -/
theorem hz2 : (![0, 0] : Fin 2 → Nat) = fun _ => 0 := funext fun a => by fin_cases a <;> rfl

/-- CASE A leaves in the accumulator the reset value plus this point's product: the zero block is stored, read back,
    and the product of the masked `x` block with the `w` block is added to it. -/
theorem sout0_A_0_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : cond0_0 i) (hc1 : ¬cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) :
    sout0_A_0 c i arg2 harg2 arg3 harg3 arg4 harg4 arg5 harg5 arg6 harg6 arg7 harg7 arg8 harg8 arg9 harg9 hc0 hc1 x0 x1 x2 x3 x4 x5 = k0_pay2 x0 x1 x2 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S512x1024) hz2, View.readCov_unit_zero (S := S512x1024) _ hz2]
  simp only [View.readAt_eq_ld, harg2.read_unread, harg3.read_unread, harg4.read_unread, View.ld_unit_zero (S := S512x2048) hz2, View.ld_unit_zero (S := S2048x1024) hz2]

/-- CASE B leaves in the accumulator what it held plus this point's product. -/
theorem sout0_B_0_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : ¬cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) :
    sout0_B_0 c i arg2 harg2 arg3 harg3 arg4 harg4 arg5 harg5 arg6 harg6 arg7 harg7 arg8 harg8 arg9 harg9 hc0 hc1 x0 x1 x2 x3 x4 x5 xs0 = k0_pay2 x0 x1 x2 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  try sl_unfold_words
  rw [View.canon_unit_zero (S := S512x1024) hz2]
  simp only [View.readAt_eq_ld, harg2.read_unread, harg3.read_unread, harg4.read_unread, harg9.read_unread, View.ld_unit_zero (S := S512x2048) hz2, View.ld_unit_zero (S := S2048x1024) hz2,
    View.ld_unit_zero (S := S512x1024) hz2]

/-- CASE C leaves in the accumulator what it held plus this point's product, -/
theorem sout0_C_0_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) :
    sout0_C_0 c i arg2 harg2 arg3 harg3 arg4 harg4 arg5 harg5 arg6 harg6 arg7 harg7 arg8 harg8 arg9 harg9 hc0 hc1 x0 x1 x2 x3 x4 x5 xs0 = k0_pay2 x0 x1 x2 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  try sl_unfold_words
  rw [View.canon_unit_zero (S := S512x1024) hz2]
  simp only [View.readAt_eq_ld, harg2.read_unread, harg3.read_unread, harg4.read_unread, harg9.read_unread, View.ld_unit_zero (S := S512x2048) hz2, View.ld_unit_zero (S := S2048x1024) hz2,
    View.ld_unit_zero (S := S512x1024) hz2]

/-- and in the output's buffer the second layer applied to that accumulator. -/
theorem out0_C_6_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S1x512 .f32) (harg7 : arg7.IsWhole) (arg8 : Memref sig .tc .vmem S512x512 .f32) (harg8 : arg8.IsWhole) (arg9 : Memref sig .tc .vmem S512x1024 .f32) (harg9 : arg9.IsWhole) (hc0 : ¬cond0_0 i) (hc1 : cond0_1 i)
    (x0 : Vec F S512x2048 .f32) (x1 : Vec F S512x2048 .f32) (x2 : Vec F S2048x1024 .bf16) (x3 : Vec F S1x1024 .f32) (x4 : Vec F S1024x512 .bf16) (x5 : Vec F S1x512 .f32) (xs0 : Vec F S512x1024 .f32) :
    out0_C_6 c i arg2 harg2 arg3 harg3 arg4 harg4 arg5 harg5 arg6 harg6 arg7 harg7 arg8 harg8 arg9 harg9 hc0 hc1 x0 x1 x2 x3 x4 x5 xs0 = k0_pay3 (k0_pay2 x0 x1 x2 xs0) x3 x4 x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero (S := S512x512) hz2, View.readCov_unit_zero (S := S512x1024) _ hz2]
  simp only [View.readAt_eq_ld, harg2.read_unread, harg3.read_unread, harg4.read_unread, harg5.read_unread, harg6.read_unread,
    harg7.read_unread, harg9.read_unread, View.ld_unit_zero (S := S512x2048) hz2, View.ld_unit_zero (S := S2048x1024) hz2, View.ld_unit_zero (S := S512x1024) hz2,
    View.ld_unit_zero (S := S1x1024) hz2, View.ld_unit_zero (S := S1024x512) hz2, View.ld_unit_zero (S := S1x512) hz2]

end Cert.KernelIdeal.Hand

end
-- ==== Proof.KI.Val0.Sums.lean ====
import Idealize.ShloMosaic.PureOps.Ideal.Laws
import Idealize.ShloMosaic.Lib.ValueIdx

noncomputable section

namespace Cert.KernelIdeal.Hand

open scoped BigOperators

/-! # Rows and columns of the padded arrays by block, and a sum over all columns as a sum block by block -/

/-- Row `r` of row block `b` (512 rows each) of a 2048-row array; total in `b`, and the row `512 b + r` for `b < 4`. -/
def rowIx (b : ℕ) (r : Fin 512) : Fin 2048 := ⟨(512 * b + r.val) % 2048, Nat.mod_lt _ (by decide)⟩
/-- Column `q` of column block `s` (2048 columns each) of a 20480-column array; total in `s`, and the column
    `2048 s + q` for `s < 10`. -/
def colIx (s : ℕ) (q : Fin 2048) : Fin 20480 := ⟨(2048 * s + q.val) % 20480, Nat.mod_lt _ (by decide)⟩

theorem rowIx_val (b : ℕ) (hb : b < 4) (r : Fin 512) : (rowIx b r).val = 512 * b + r.val := by
  have := r.isLt; show (512 * b + r.val) % 2048 = _; omega
theorem colIx_val (s : ℕ) (hs : s < 10) (q : Fin 2048) : (colIx s q).val = 2048 * s + q.val := by
  have := q.isLt; show (2048 * s + q.val) % 20480 = _; omega

/-- A sum over the 20480 columns is the sum over the ten column blocks of the sums over each block's 2048 columns. -/
theorem sum_colBlocks {M : Type} [AddCommMonoid M] (f : Fin 20480 → M) :
    ∑ s ∈ Finset.range 10, ∑ q : Fin 2048, f (colIx s q) = ∑ k : Fin 20480, f k := by
  rw [Finset.sum_range]
  refine (Fintype.sum_prod_type' (fun (s : Fin 10) (q : Fin 2048) => f (colIx s.val q))).symm.trans ?_
  refine Fintype.sum_equiv (finProdFinEquiv (m := 10) (n := 2048)) _ _ fun x => ?_
  refine congrArg f (Fin.ext ?_)
  show (2048 * x.1.val + x.2.val) % 20480 = x.2.val + 2048 * x.1.val
  have h1 := x.1.isLt; have h2 := x.2.isLt; omega

end Cert.KernelIdeal.Hand

end
-- ==== Proof.KI.Val0.Blocks.lean ====
import proofs.«175587_j47510928228669_1_alg».proof.Proof.KI.Val0.Pieces
import proofs.«175587_j47510928228669_1_alg».proof.Proof.KI.Val0.Sums
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-! # Region 0 at the exact reals: the input blocks as the argument arrays at explicit coordinates -/

/-! ## The six arrays the region reads, as functions on their literal shapes -/

/-- `x` padded to 20480 columns, -/
abbrev arrX (c : Dev nD) : S2048x20480.Idx → Ideal .f32 := V c main_v1
/-- the mask padded likewise, -/
abbrev arrM (c : Dev nD) : S2048x20480.Idx → Ideal .f32 := V c main_v2
/-- the first weight padded to 20480 rows, -/
abbrev arrW1 (c : Dev nD) : S20480x1024.Idx → Ideal .bf16 := V c main_v4
/-- the first bias as a row, -/
abbrev arrB1 (c : Dev nD) : S1x1024.Idx → Ideal .f32 := V c main_v6
/-- the second weight, -/
abbrev arrW2 (c : Dev nD) : S1024x512.Idx → Ideal .bf16 := V c main_v5
/-- and the second bias as a row. -/
abbrev arrB2 (c : Dev nD) : S1x512.Idx → Ideal .f32 := V c main_v7

/-! ## The printed index maps over the grid -/

/-- At point `t = 10 b + s` of the 4×10 grid: `x` and the mask are at block `(b, s)`, the first weight at block `(s, 0)`,
    the biases and the second weight at block `(0, 0)`, the output at block `(b, 0)`. -/
theorem idx_facts0 : ∀ t : Fin cfg0.N,
    win0_0.index t (0 : Fin 2) = t.val / 10 ∧ win0_0.index t (1 : Fin 2) = t.val % 10
    ∧ win0_1.index t (0 : Fin 2) = t.val / 10 ∧ win0_1.index t (1 : Fin 2) = t.val % 10
    ∧ win0_2.index t (0 : Fin 2) = t.val % 10 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val / 10 ∧ win0_6.index t (1 : Fin 2) = 0 :=
  (by decide +kernel : ∀ t : Fin grid0.N, _)

/-! ## The blocks, read at coordinates -/

/-- `x`'s block at point `t`, at `(r, q)`: row `r` of row block `t / 10`, column `q` of column block `t % 10`. -/
theorem blk0_0 (c : Dev nD) (t : Fin cfg0.N) (r : Fin 512) (q : Fin 2048) :
    (iblk0 V c 0 t : Vec Ideal S512x2048 .f32) (ix2 r q) = arrX V c (ix2 (rowIx (t.val / 10) r) (colIx (t.val % 10) q)) := by
  have hN : t.val < 40 := lt_of_lt_of_eq t.isLt (show cfg0.N = 40 from N_0)
  have hf := idx_facts0 t
  unfold iblk0
  rw [View.read_apply]
  refine congrArg (V c _) (funext fun a => Fin.ext ?_)
  match a with
  | ⟨0, _⟩ =>
    show win0_0.index t (0 : Fin 2) * 512 + 1 * (r : Fin _).val = (512 * (t.val / 10) + r.val) % 2048
    rw [hf.1]; omega
  | ⟨1, _⟩ =>
    show win0_0.index t (1 : Fin 2) * 2048 + 1 * (q : Fin _).val = (2048 * (t.val % 10) + q.val) % 20480
    rw [hf.2.1]; omega

/-- The mask's block, likewise. -/
theorem blk0_1 (c : Dev nD) (t : Fin cfg0.N) (r : Fin 512) (q : Fin 2048) :
    (iblk0 V c 1 t : Vec Ideal S512x2048 .f32) (ix2 r q) = arrM V c (ix2 (rowIx (t.val / 10) r) (colIx (t.val % 10) q)) := by
  have hN : t.val < 40 := lt_of_lt_of_eq t.isLt (show cfg0.N = 40 from N_0)
  have hf := idx_facts0 t
  unfold iblk0
  rw [View.read_apply]
  refine congrArg (V c _) (funext fun a => Fin.ext ?_)
  match a with
  | ⟨0, _⟩ =>
    show win0_1.index t (0 : Fin 2) * 512 + 1 * (r : Fin _).val = (512 * (t.val / 10) + r.val) % 2048
    rw [hf.2.2.1]; omega
  | ⟨1, _⟩ =>
    show win0_1.index t (1 : Fin 2) * 2048 + 1 * (q : Fin _).val = (2048 * (t.val % 10) + q.val) % 20480
    rw [hf.2.2.2.1]; omega

/-- The first weight's block at `(q, j)`: row `q` of row block `t % 10`, column `j`. -/
theorem blk0_2 (c : Dev nD) (t : Fin cfg0.N) (q : Fin 2048) (j : Fin 1024) :
    (iblk0 V c 2 t : Vec Ideal S2048x1024 .bf16) (ix2 q j) = arrW1 V c (ix2 (colIx (t.val % 10) q) j) := by
  have hN : t.val < 40 := lt_of_lt_of_eq t.isLt (show cfg0.N = 40 from N_0)
  have hf := idx_facts0 t
  unfold iblk0
  rw [View.read_apply]
  refine congrArg (V c _) (funext fun a => Fin.ext ?_)
  match a with
  | ⟨0, _⟩ =>
    show win0_2.index t (0 : Fin 2) * 2048 + 1 * (q : Fin _).val = (2048 * (t.val % 10) + q.val) % 20480
    rw [hf.2.2.2.2.1]; omega
  | ⟨1, _⟩ =>
    show win0_2.index t (1 : Fin 2) * 1024 + 1 * (j : Fin _).val = j.val
    rw [hf.2.2.2.2.2.1]; omega

/-- The first bias's block is the whole row. -/
theorem blk0_3 (c : Dev nD) (t : Fin cfg0.N) (z : Fin 1) (j : Fin 1024) :
    (iblk0 V c 3 t : Vec Ideal S1x1024 .f32) (ix2 z j) = arrB1 V c (ix2 z j) := by
  have hN : t.val < 40 := lt_of_lt_of_eq t.isLt (show cfg0.N = 40 from N_0)
  have hf := idx_facts0 t
  unfold iblk0
  rw [View.read_apply]
  refine congrArg (V c _) (funext fun a => Fin.ext ?_)
  match a with
  | ⟨0, _⟩ =>
    show win0_3.index t (0 : Fin 2) * 1 + 1 * (z : Fin _).val = z.val
    rw [hf.2.2.2.2.2.2.1]; omega
  | ⟨1, _⟩ =>
    show win0_3.index t (1 : Fin 2) * 1024 + 1 * (j : Fin _).val = j.val
    rw [hf.2.2.2.2.2.2.2.1]; omega

/-- The second weight's block is the whole array. -/
theorem blk0_4 (c : Dev nD) (t : Fin cfg0.N) (j : Fin 1024) (d : Fin 512) :
    (iblk0 V c 4 t : Vec Ideal S1024x512 .bf16) (ix2 j d) = arrW2 V c (ix2 j d) := by
  have hN : t.val < 40 := lt_of_lt_of_eq t.isLt (show cfg0.N = 40 from N_0)
  have hf := idx_facts0 t
  unfold iblk0
  rw [View.read_apply]
  refine congrArg (V c _) (funext fun a => Fin.ext ?_)
  match a with
  | ⟨0, _⟩ =>
    show win0_4.index t (0 : Fin 2) * 1024 + 1 * (j : Fin _).val = j.val
    rw [hf.2.2.2.2.2.2.2.2.1]; omega
  | ⟨1, _⟩ =>
    show win0_4.index t (1 : Fin 2) * 512 + 1 * (d : Fin _).val = d.val
    rw [hf.2.2.2.2.2.2.2.2.2.1]; omega

/-- The second bias's block is the whole row. -/
theorem blk0_5 (c : Dev nD) (t : Fin cfg0.N) (z : Fin 1) (d : Fin 512) :
    (iblk0 V c 5 t : Vec Ideal S1x512 .f32) (ix2 z d) = arrB2 V c (ix2 z d) := by
  have hN : t.val < 40 := lt_of_lt_of_eq t.isLt (show cfg0.N = 40 from N_0)
  have hf := idx_facts0 t
  unfold iblk0
  rw [View.read_apply]
  refine congrArg (V c _) (funext fun a => Fin.ext ?_)
  match a with
  | ⟨0, _⟩ =>
    show win0_5.index t (0 : Fin 2) * 1 + 1 * (z : Fin _).val = z.val
    rw [hf.2.2.2.2.2.2.2.2.2.2.1]; omega
  | ⟨1, _⟩ =>
    show win0_5.index t (1 : Fin 2) * 512 + 1 * (d : Fin _).val = d.val
    rw [hf.2.2.2.2.2.2.2.2.2.2.2.1]; omega

end Cert.KernelIdeal.Hand

end
-- ==== Proof.KI.Val0.Pay.lean ====
import proofs.«175587_j47510928228669_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx
open scoped BigOperators

/-! # Region 0 at the exact reals: the kernel's three payloads read at an index -/

/-- Matmul 1's operand indices at an output index and a contraction index: the left operand's row is the output's row and
    its column the contraction index; the right operand's row is the contraction index and its column the output's. -/
theorem lhsM1_0 (i : S512x1024.Idx) (q : dot_S512x2048_S2048x1024_S512x1024_1_0_0_1_n_n.contr.Idx) : (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhsM1_1 (i : S512x1024.Idx) (q : dot_S512x2048_S2048x1024_S512x1024_1_0_0_1_n_n.contr.Idx) : (dot_S512x2048_S2048x1024_S512x1024_1_0_0_1_n_n.lhsIdx i q 1).val = (q ⟨0, by decide⟩).val :=
  dot_S512x2048_S2048x1024_S512x1024_1_0_0_1_n_n.lhsIdx_val_of_single rfl i q
theorem rhsM1_0 (i : S512x1024.Idx) (q : dot_S512x2048_S2048x1024_S512x1024_1_0_0_1_n_n.contr.Idx) : (dot_S512x2048_S2048x1024_S512x1024_1_0_0_1_n_n.rhsIdx i q 0).val = (q ⟨0, by decide⟩).val :=
  dot_S512x2048_S2048x1024_S512x1024_1_0_0_1_n_n.rhsIdx_val_of_single rfl i q
theorem rhsM1_1 (i : S512x1024.Idx) (q : dot_S512x2048_S2048x1024_S512x1024_1_0_0_1_n_n.contr.Idx) : (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- Matmul 1 into the zero splat, read at `(r, j)`: the sum over the 2048 contraction coordinates of the products. -/
theorem matmul1_apply (lhs : FVec Ideal S512x2048 .bf16) (rhs : FVec Ideal S2048x1024 .bf16) (r : Fin 512) (j : Fin 1024) :
    matmul dot_S512x2048_S2048x1024_S512x1024_1_0_0_1_n_n none lhs rhs (constant (F := Ideal) S512x1024 .f32 0x00000000#32) (ix2 r j)
      = ∑ q : Fin 2048, lhs (ix2 r q) * rhs (ix2 q j) := by
  refine (Ideal.matmul_constant_zero_apply dot_S512x2048_S2048x1024_S512x1024_1_0_0_1_n_n none lhs rhs (ix2 r j)).trans ?_
  rw [← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 r j) ((contrEquiv1 dot_S512x2048_S2048x1024_S512x1024_1_0_0_1_n_n 2048 rfl rfl).symm k) = ix2 r k := funext fun a => Fin.ext (by
    match a with
    | ⟨0, _⟩ => exact lhsM1_0 _ _
    | ⟨1, _⟩ => exact (lhsM1_1 _ _).trans hk)
  have er : dot_S512x2048_S2048x1024_S512x1024_1_0_0_1_n_n.rhsIdx (ix2 r j) ((contrEquiv1 dot_S512x2048_S2048x1024_S512x1024_1_0_0_1_n_n 2048 rfl rfl).symm k) = ix2 k j := funext fun a => Fin.ext (by
    match a with
    | ⟨0, _⟩ => exact (rhsM1_0 _ _).trans hk
    | ⟨1, _⟩ => exact rhsM1_1 _ _)
  rw [el, er]

/-- Matmul 2's operand indices at an output index and a contraction index: the left operand's row is the output's row and
    its column the contraction index; the right operand's row is the contraction index and its column the output's. -/
theorem lhsM2_0 (i : S512x512.Idx) (q : dot_S512x1024_S1024x512_S512x512_1_0_0_1_n_n.contr.Idx) : (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhsM2_1 (i : S512x512.Idx) (q : dot_S512x1024_S1024x512_S512x512_1_0_0_1_n_n.contr.Idx) : (dot_S512x1024_S1024x512_S512x512_1_0_0_1_n_n.lhsIdx i q 1).val = (q ⟨0, by decide⟩).val :=
  dot_S512x1024_S1024x512_S512x512_1_0_0_1_n_n.lhsIdx_val_of_single rfl i q
theorem rhsM2_0 (i : S512x512.Idx) (q : dot_S512x1024_S1024x512_S512x512_1_0_0_1_n_n.contr.Idx) : (dot_S512x1024_S1024x512_S512x512_1_0_0_1_n_n.rhsIdx i q 0).val = (q ⟨0, by decide⟩).val :=
  dot_S512x1024_S1024x512_S512x512_1_0_0_1_n_n.rhsIdx_val_of_single rfl i q
theorem rhsM2_1 (i : S512x512.Idx) (q : dot_S512x1024_S1024x512_S512x512_1_0_0_1_n_n.contr.Idx) : (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- Matmul 2 into the zero splat, read at `(r, j)`: the sum over the 1024 contraction coordinates of the products. -/
theorem matmul2_apply (lhs : FVec Ideal S512x1024 .bf16) (rhs : FVec Ideal S1024x512 .bf16) (r : Fin 512) (j : Fin 512) :
    matmul dot_S512x1024_S1024x512_S512x512_1_0_0_1_n_n none lhs rhs (constant (F := Ideal) S512x512 .f32 0x00000000#32) (ix2 r j)
      = ∑ q : Fin 1024, lhs (ix2 r q) * rhs (ix2 q j) := by
  refine (Ideal.matmul_constant_zero_apply dot_S512x1024_S1024x512_S512x512_1_0_0_1_n_n none lhs rhs (ix2 r j)).trans ?_
  rw [← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 r j) ((contrEquiv1 dot_S512x1024_S1024x512_S512x512_1_0_0_1_n_n 1024 rfl rfl).symm k) = ix2 r k := funext fun a => Fin.ext (by
    match a with
    | ⟨0, _⟩ => exact lhsM2_0 _ _
    | ⟨1, _⟩ => exact (lhsM2_1 _ _).trans hk)
  have er : dot_S512x1024_S1024x512_S512x512_1_0_0_1_n_n.rhsIdx (ix2 r j) ((contrEquiv1 dot_S512x1024_S1024x512_S512x512_1_0_0_1_n_n 1024 rfl rfl).symm k) = ix2 k j := funext fun a => Fin.ext (by
    match a with
    | ⟨0, _⟩ => exact (rhsM2_0 _ _).trans hk
    | ⟨1, _⟩ => exact rhsM2_1 _ _)
  rw [el, er]

/-- The reset value is zero everywhere. -/
theorem k0_pay1_apply (r : Fin 512) (j : Fin 1024) : k0_pay1 (F := Ideal) (ix2 r j) = 0 := by
  unfold k0_pay1
  simp only [shapeCast_self]
  exact Ideal.ofBits_zero_f32

/-- The accumulation step at `(r, j)`: what the accumulator held there plus the sum over the 2048 columns `q` of the block
    of `x(r, q) · (1 − mask(r, q)) · w(q, j)` (the format changes are the identity on the exact reals). -/
theorem k0_pay2_apply (v3 v5 : Vec Ideal S512x2048 .f32) (v11 : Vec Ideal S2048x1024 .bf16) (v13 : Vec Ideal S512x1024 .f32)
    (r : Fin 512) (j : Fin 1024) :
    k0_pay2 (F := Ideal) v3 v5 v11 v13 (ix2 r j)
      = v13 (ix2 r j) + ∑ q : Fin 2048, (v3 (ix2 r q) * (Ideal.ofBits .f32 0x3F800000#32 - v5 (ix2 r q))) * v11 (ix2 q j) := by
  unfold k0_pay2
  simp only [shapeCast_self]
  refine (addf_apply _ _ _).trans ?_
  refine congrArg (v13 (ix2 r j) + ·) ?_
  refine (matmul1_apply _ _ r j).trans ?_
  exact Finset.sum_congr rfl fun q _ => rfl

/-- The second layer at `(r, d)`: the rectified accumulator plus the first bias, times the second weight, summed over
    the 1024 hidden coordinates, plus the second bias, rectified. -/
theorem k0_pay3_apply (v22 : Vec Ideal S512x1024 .f32) (v23 : Vec Ideal S1x1024 .f32) (v30 : Vec Ideal S1024x512 .bf16)
    (v33 : Vec Ideal S1x512 .f32) (r : Fin 512) (d : Fin 512) :
    k0_pay3 (F := Ideal) v22 v23 v30 v33 (ix2 r d)
      = max ((∑ j : Fin 1024, max (v22 (ix2 r j) + v23 (ix2 (0 : Fin 1) j)) 0 * v30 (ix2 j d)) + v33 (ix2 (0 : Fin 1) d)) 0 := by
  unfold k0_pay3
  simp only [shapeCast_self]
  refine (maximumf_apply _ _ _).trans ?_
  refine congrArg₂ max ?_ Ideal.ofBits_zero_f32
  refine (addf_apply _ _ _).trans ?_
  refine congrArg₂ (· + ·) ?_ (broadcastTo_1b_ab_apply v33 _ r d)
  refine (matmul2_apply _ _ r d).trans ?_
  refine Finset.sum_congr rfl fun j _ => ?_
  refine congrArg (· * v30 (ix2 j d)) ?_
  refine (truncf_apply (ψ := .bf16) _ bitsLt_bf16_f32 (ix2 r j)).trans ?_
  refine (maximumf_apply _ _ _).trans ?_
  refine congrArg₂ max ?_ Ideal.ofBits_zero_f32
  refine (addf_apply _ _ _).trans ?_
  exact congrArg (v22 (ix2 r j) + ·) (broadcastTo_1b_ab_apply v23 _ r j)

end Cert.KernelIdeal.Hand

end
-- ==== Proof.KI.Val0.Acc.lean ====
import proofs.«175587_j47510928228669_1_alg».proof.Proof.KI.Val0.Blocks
import proofs.«175587_j47510928228669_1_alg».proof.Proof.KI.Val0.Pay

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-! # Region 0 at the exact reals: the accumulator after each point, and the output block at the end of a grid row -/

/-- The summand of the first layer at row `i`, hidden coordinate `j`, column `k`: `x(i,k) · (1 − mask(i,k)) · w₁(k,j)`. -/
def termR (c : Dev nD) (i : Fin 2048) (j : Fin 1024) (k : Fin 20480) : EReal :=
  (arrX V c (ix2 i k) * (Ideal.ofBits .f32 0x3F800000#32 - arrM V c (ix2 i k))) * arrW1 V c (ix2 k j)

/-- The output at row `i`, coordinate `d`: the second layer over the rectified first layer. -/
def outAt (c : Dev nD) (i : Fin 2048) (d : Fin 512) : EReal :=
  max ((∑ j : Fin 1024, max ((∑ k : Fin 20480, termR V c i j k) + arrB1 V c (ix2 (0 : Fin 1) j)) 0 * arrW2 V c (ix2 j d))
    + arrB2 V c (ix2 (0 : Fin 1) d)) 0

/-- ONE POINT'S STEP at `(r, j)`: the accumulation payload over the point's blocks adds, to what the accumulator held,
    the summands of row `r` of the point's row block over the point's column block. -/
theorem step_pay2 (c : Dev nD) (t : Fin cfg0.N) (xs : Vec Ideal S512x1024 .f32) (r : Fin 512) (j : Fin 1024) :
    k0_pay2 (F := Ideal) (iblk0 V c 0 t) (iblk0 V c 1 t) (iblk0 V c 2 t) xs (ix2 r j)
      = xs (ix2 r j) + ∑ q : Fin 2048, termR V c (rowIx (t.val / 10) r) j (colIx (t.val % 10) q) := by
  refine (k0_pay2_apply (iblk0 V c 0 t) (iblk0 V c 1 t) (iblk0 V c 2 t) xs r j).trans ?_
  refine congrArg (xs (ix2 r j) + ·) (Finset.sum_congr rfl fun q _ => ?_)
  rw [blk0_0 V c t r q, blk0_1 V c t r q, blk0_2 V c t q j]
  rfl

/-- At the first point of a grid row the accumulator is reset: it holds the first column block's sums. -/
theorem acc_A (c : Dev nD) (t : Fin cfg0.N) (h0 : t.val % 10 = 0) (r : Fin 512) (j : Fin 1024) :
    (outsAt0 V c t.val t.isLt).2 (ix2 r j)
      = ∑ s ∈ Finset.range (t.val % 10 + 1), ∑ q : Fin 2048, termR V c (rowIx (t.val / 10) r) j (colIx s q) := by
  have h1 : ¬t.val % 10 = 9 := by omega
  rw [outsAt0_A V c t h0 h1]
  dsimp only
  rw [sout0_A_0_eq]
  refine (step_pay2 V c t (k0_pay1 (F := Ideal)) r j).trans ?_
  rw [k0_pay1_apply, zero_add, h0, Nat.zero_add, Finset.sum_range_one]

/-- At a later point of a grid row it holds one more column block's sums than after the point before. -/
theorem acc_BC (c : Dev nD) (t : Fin cfg0.N) (h0 : ¬t.val % 10 = 0) (r : Fin 512) (j : Fin 1024)
    (ih : (outsAt0 V c (t.val - 1) (Nat.lt_of_le_of_lt (Nat.sub_le _ _) t.isLt)).2 (ix2 r j)
      = ∑ s ∈ Finset.range ((t.val - 1) % 10 + 1), ∑ q : Fin 2048, termR V c (rowIx ((t.val - 1) / 10) r) j (colIx s q)) :
    (outsAt0 V c t.val t.isLt).2 (ix2 r j)
      = ∑ s ∈ Finset.range (t.val % 10 + 1), ∑ q : Fin 2048, termR V c (rowIx (t.val / 10) r) j (colIx s q) := by
  have e1 : (t.val - 1) % 10 + 1 = t.val % 10 := by omega
  have e2 : (t.val - 1) / 10 = t.val / 10 := by omega
  rw [e1, e2] at ih
  by_cases h1 : t.val % 10 = 9
  · rw [outsAt0_C V c t h0 h1]
    dsimp only
    rw [sout0_C_0_eq]
    refine (step_pay2 V c t _ r j).trans ?_
    rw [ih, Finset.sum_range_succ]
  · rw [outsAt0_B V c t h0 h1]
    dsimp only
    rw [sout0_B_0_eq]
    refine (step_pay2 V c t _ r j).trans ?_
    rw [ih, Finset.sum_range_succ]

/-- THE ACCUMULATOR after position `n = 10 b + s`, at `(r, j)`: the sums of row `r` of row block `b` over the column blocks
    `0 … s` — by induction on the point. -/
theorem acc_eq (c : Dev nD) : ∀ (n : ℕ) (hn : n < cfg0.N) (r : Fin 512) (j : Fin 1024),
    (outsAt0 V c n hn).2 (ix2 r j)
      = ∑ s ∈ Finset.range (n % 10 + 1), ∑ q : Fin 2048, termR V c (rowIx (n / 10) r) j (colIx s q)
  | 0, hn, r, j => acc_A V c ⟨0, hn⟩ rfl r j
  | n + 1, hn, r, j => by
    by_cases h0 : (n + 1) % 10 = 0
    · exact acc_A V c ⟨n + 1, hn⟩ h0 r j
    · exact acc_BC V c ⟨n + 1, hn⟩ h0 r j (acc_eq c n (Nat.lt_of_succ_lt hn) r j)

/-- At the last point of a grid row the accumulation payload is the whole first layer: the sum over all 20480 columns. -/
theorem acc_full (c : Dev nD) (t : Fin cfg0.N) (h0 : ¬t.val % 10 = 0) (h1 : t.val % 10 = 9) (r : Fin 512) (j : Fin 1024) :
    k0_pay2 (F := Ideal) (iblk0 V c 0 t) (iblk0 V c 1 t) (iblk0 V c 2 t) (outsAt0 V c (t.val - 1) (Nat.lt_of_le_of_lt (Nat.sub_le _ _) t.isLt)).2 (ix2 r j)
      = ∑ k : Fin 20480, termR V c (rowIx (t.val / 10) r) j k := by
  have h := acc_eq V c t.val t.isLt r j
  rw [outsAt0_C V c t h0 h1] at h
  dsimp only at h
  rw [sout0_C_0_eq] at h
  rw [h, h1]
  exact sum_colBlocks (fun k => termR V c (rowIx (t.val / 10) r) j k)

/-- THE OUTPUT BLOCK stored at the last point of a grid row, at `(r, d)`: the output at row `r` of the row block. -/
theorem out_C (c : Dev nD) (t : Fin cfg0.N) (h1 : t.val % 10 = 9) (r : Fin 512) (d : Fin 512) :
    (outsAt0 V c t.val t.isLt).1 (ix2 r d) = outAt V c (rowIx (t.val / 10) r) d := by
  have h0 : ¬t.val % 10 = 0 := by omega
  rw [outsAt0_C V c t h0 h1]
  dsimp only
  rw [out0_C_6_eq]
  refine (k0_pay3_apply (k0_pay2 (F := Ideal) (iblk0 V c 0 t) (iblk0 V c 1 t) (iblk0 V c 2 t) (outsAt0 V c (t.val - 1) (Nat.lt_of_le_of_lt (Nat.sub_le _ _) t.isLt)).2)
    (iblk0 V c 3 t) (iblk0 V c 4 t) (iblk0 V c 5 t) r d).trans ?_
  unfold outAt
  refine congrArg₂ max (congrArg₂ (· + ·) (Finset.sum_congr rfl fun j _ => ?_) (blk0_5 V c t 0 d)) rfl
  exact congrArg₂ (· * ·) (congrArg₂ max (congrArg₂ (· + ·) (acc_full V c t h0 h1 r j) (blk0_3 V c t 0 j)) rfl) (blk0_4 V c t j d)

end Cert.KernelIdeal.Hand

end
-- ==== Proof.KI.Val0.lean ====
import proofs.«175587_j47510928228669_1_alg».proof.Proof.KI.Val0.Acc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (V : (c : Dev nD) → (b : Ref sig .tc) → Buf (Elt Ideal) ((c : Thread nD τ).loc b))

/-! # Region 0 at the exact reals: the output array after the region -/

/-- The output array as one function of the argument arrays, index by index. -/
def outG (c : Dev nD) : S2048x512.Idx → Ideal .f32 :=
  fun i => outAt V c ⟨(i 0).val, (i 0).isLt⟩ ⟨(i 1).val, (i 1).isLt⟩

/-- WHAT A FLUSHING POINT WRITES BACK (the last point of a grid row) is its block of `outG`: row `p` of the block is row
    `512 b + p` of the array, the columns are the array's. -/
theorem flushed6_eq (c : Dev nD) (t : Fin cfg0.N) (hf : (cfg0.win 6).flush t = true) :
    (dat0 V c).flushed 6 t = ((cfg0.win 6).blk t).view.read (Elt Ideal) (outG V c) := by
  have hN : t.val < 40 := lt_of_lt_of_eq t.isLt (show cfg0.N = 40 from N_0)
  have h1 : t.val % 10 = 9 := (flush0_6 t).mp hf
  have hx := idx_facts0 t
  show (cfg0.win 6).cut (grid0.coords t) ((dat0 V c).after 6 t) = _
  rw [after0_6]
  refine funext fun (y : S512x512.Idx) => ?_
  show (outsAt0 V c t.val t.isLt).1 y = outG V c (((cfg0.win 6).blk t).view.emb y)
  obtain ⟨p, d, rfl⟩ : ∃ (p : Fin 512) (d : Fin 512), y = ix2 p d := ⟨y 0, y 1, eq_ix2 y⟩
  rw [out_C V c t h1 p d]
  unfold outG
  refine congrArg₂ (outAt V c) (Fin.ext ?_) (Fin.ext ?_)
  · show (512 * (t.val / 10) + p.val) % 2048 = win0_6.index t (0 : Fin 2) * 512 + 1 * p.val
    rw [hx.2.2.2.2.2.2.2.2.2.2.2.2.1]; omega
  · show d.val = win0_6.index t (1 : Fin 2) * 512 + 1 * d.val
    rw [hx.2.2.2.2.2.2.2.2.2.2.2.2.2]; omega

/-- An index of the output array is in point `t`'s block iff each coordinate is in the block's range on its axis. -/
theorem mem_blk6 (t : Fin cfg0.N) (i : S2048x512.Idx) :
    i ∈ ((cfg0.win 6).blk t).view.set ↔ ∀ a : Fin 2, win0_6.index t a * S512x512.size a ≤ (i a).val
      ∧ (i a).val < win0_6.index t a * S512x512.size a + S512x512.size a := by
  show i ∈ ((View.whole main_v8).slice (win0_6.rect t)).set ↔ _
  rw [View.set_slice_whole, Rect.mem_set_unit]
  exact Iff.rfl

/-- Every index of the output array is written back: row `i` by the last point of grid row `i / 512`. -/
theorem cover6 (i : S2048x512.Idx) :
    ∃ t : Fin cfg0.N, (cfg0.win 6).flush t = true ∧ i ∈ ((cfg0.win 6).blk t).view.set := by
  have hi0 : (i 0).val < 2048 := (i 0).isLt
  have hi1 : (i 1).val < 512 := (i 1).isLt
  have hN : cfg0.N = 40 := N_0
  obtain ⟨t, ht⟩ : ∃ t : Fin cfg0.N, t.val = 10 * ((i 0).val / 512) + 9 := ⟨⟨10 * ((i 0).val / 512) + 9, by rw [hN]; omega⟩, rfl⟩
  have hx := idx_facts0 t
  refine ⟨t, (flush0_6 t).mpr (by omega), ?_⟩
  rw [mem_blk6]
  intro a
  match a with
  | ⟨0, _⟩ =>
    show win0_6.index t (0 : Fin 2) * 512 ≤ (i 0).val ∧ (i 0).val < win0_6.index t (0 : Fin 2) * 512 + 512
    rw [hx.2.2.2.2.2.2.2.2.2.2.2.2.1]; omega
  | ⟨1, _⟩ =>
    show win0_6.index t (1 : Fin 2) * 512 ≤ (i 1).val ∧ (i 1).val < win0_6.index t (1 : Fin 2) * 512 + 512
    rw [hx.2.2.2.2.2.2.2.2.2.2.2.2.2]; omega

/-- THE OUTPUT ARRAY after the region is `outG` of the argument arrays as the region finds them. -/
theorem arrAt0_eq (c : Dev nD) : (dat0 (F := Ideal) V c).arrAt 6 cfg0.N = outG V c :=
  (dat0 V c).arrAt_eq_of_cover 6 (outG V c) (flushed6_eq V c) cover6

/-- Index by index: at row `i`, coordinate `d`, the rectified second layer over the rectified first layer, the first
    layer's sum running over all 20480 (padded) columns. -/
theorem arrAt0_out_arr (c : Dev nD) (i : Fin 2048) (d : Fin 512) :
    (dat0 (F := Ideal) V c).arrAt 6 cfg0.N (ix2 i d)
      = max ((∑ j : Fin 1024, max ((∑ k : Fin 20480, (arrX V c (ix2 i k) * (Ideal.ofBits .f32 0x3F800000#32 - arrM V c (ix2 i k))) * arrW1 V c (ix2 k j)) + arrB1 V c (ix2 (0 : Fin 1) j)) 0 * arrW2 V c (ix2 j d)) + arrB2 V c (ix2 (0 : Fin 1) d)) 0 := by
  rw [arrAt0_eq]
  rfl

/-! ## The same over plain-typed names for the six arrays -/

/-- The six arrays the region reads, as functions into the extended reals on their literal shapes: `x` padded, -/
def in0_1 (c : Dev nD) : S2048x20480.Idx → EReal := V c main_v1
/-- the mask padded, -/
def in0_2 (c : Dev nD) : S2048x20480.Idx → EReal := V c main_v2
/-- the first weight padded, -/
def in0_4 (c : Dev nD) : S20480x1024.Idx → EReal := V c main_v4
/-- the first bias as a row, -/
def in0_6 (c : Dev nD) : S1x1024.Idx → EReal := V c main_v6
/-- the second weight, -/
def in0_5 (c : Dev nD) : S1024x512.Idx → EReal := V c main_v5
/-- the second bias as a row. -/
def in0_7 (c : Dev nD) : S1x512.Idx → EReal := V c main_v7

theorem in0_1_eq (c : Dev nD) : in0_1 V c = V c main_v1 := rfl
theorem in0_2_eq (c : Dev nD) : in0_2 V c = V c main_v2 := rfl
theorem in0_4_eq (c : Dev nD) : in0_4 V c = V c main_v4 := rfl
theorem in0_6_eq (c : Dev nD) : in0_6 V c = V c main_v6 := rfl
theorem in0_5_eq (c : Dev nD) : in0_5 V c = V c main_v5 := rfl
theorem in0_7_eq (c : Dev nD) : in0_7 V c = V c main_v7 := rfl

/-- THE OUTPUT ARRAY after the region, index by index: at row `i`, coordinate `d`, the rectified second layer over the
    rectified first layer, the first layer's sum running over all 20480 (padded) columns. -/
theorem arrAt0_out (c : Dev nD) (i : Fin 2048) (d : Fin 512) :
    (dat0 (F := Ideal) V c).arrAt 6 cfg0.N (ix2 i d)
      = max ((∑ j : Fin 1024, max ((∑ k : Fin 20480, (in0_1 V c (ix2 i k) * (Ideal.ofBits .f32 0x3F800000#32 - in0_2 V c (ix2 i k))) * in0_4 V c (ix2 k j)) + in0_6 V c (ix2 (0 : Fin 1) j)) 0 * in0_5 V c (ix2 j d)) + in0_7 V c (ix2 (0 : Fin 1) d)) 0 :=
  arrAt0_out_arr V c i d

end Cert.KernelIdeal.Hand

end
-- ==== Proof.KI.Embed.lean ====
/- The embedding: region 0's output array, read off the encoder kernel's value and the host operations in front of it, is
   the specification's embedding of the arguments — the contraction over the zero-padded, blocked axis is the plain one. -/
import proofs.«175587_j47510928228669_1_alg».proof.Proof.KI.Host0
import proofs.«175587_j47510928228669_1_alg».proof.Proof.Spec
import proofs.«175587_j47510928228669_1_alg».proof.Proof.BridgeLaws
import proofs.«175587_j47510928228669_1_alg».proof.Proof.KI.Val0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.ValueIdx
open Idealize.ShloMosaic.Pipeline (Dat)

variable (m : (ℓ : Loc nD τ sig) → Buf (Elt Ideal) ℓ)

/-- The embedding as the specification's function of the arguments. -/
def embedOf (c : Dev nD) : Fin 2048 → Fin 512 → EReal :=
  Cert.RefSpec.Spec.embed (argLikes m c) (argMask m c) (argW1 m c) (argB1 m c) (argW2 m c) (argB2 m c)

/-- The encoder's input arrays when the region is entered, as plain arrays. -/
def enc1 (c : Dev nD) : S2048x20480.Idx → EReal := W7 (F := Ideal) m c main_v1
def enc2 (c : Dev nD) : S2048x20480.Idx → EReal := W7 (F := Ideal) m c main_v2
def enc4 (c : Dev nD) : S20480x1024.Idx → EReal := W7 (F := Ideal) m c main_v4
def enc5 (c : Dev nD) : S1024x512.Idx → EReal := W7 (F := Ideal) m c main_v5
def enc6 (c : Dev nD) : S1x1024.Idx → EReal := W7 (F := Ideal) m c main_v6
def enc7 (c : Dev nD) : S1x512.Idx → EReal := W7 (F := Ideal) m c main_v7

/-- Region 0's output is the embedding. -/
theorem W8_v8_embed (c : Dev nD) (i : Fin 2048) (d : Fin 512) :
    (W8 (F := Ideal) m c main_v8 : S2048x512.Idx → EReal) (ix2 i d) = embedOf m c i d := by
  have hV : (dat0 (F := Ideal) (Vr (W7 m)) c).arrAt 6 cfg0.N (ix2 i d)
      = max ((∑ j : Fin 1024, max ((∑ k : Fin 20480, (enc1 m c (ix2 i k) * (Ideal.ofBits .f32 0x3F800000#32 - enc2 m c (ix2 i k))) * enc4 m c (ix2 k j)) + enc6 m c (ix2 (0 : Fin 1) j)) 0 * enc5 m c (ix2 j d)) + enc7 m c (ix2 (0 : Fin 1) d)) 0 :=
    by
      have h := arrAt0_out (Vr (W7 m)) c i d
      exact h
  rw [W8_out, hV]
  have h5 : ∀ (j : Fin 1024), enc5 m c (ix2 j d) = argW2 m c (ix2 j d) := fun j => W7_v5_apply m c j d
  simp only [h5]
  exact Cert.RefSpec.embed_bridge (argLikes m c) (argMask m c) (argW1 m c) (argB1 m c) (argW2 m c) (argB2 m c)
    (enc1 m c) (enc2 m c) (enc4 m c) (enc6 m c) (enc7 m c)
    (fun i k => W7_v1_apply m c i k) (fun i k => W7_v2_apply m c i k) (fun k j => W7_v4_apply m c k j)
    (fun j => W7_v6_apply m c j) (fun d => W7_v7_apply m c d) i d

end Cert.KernelIdeal.Hand

end
-- ==== Proof.KI.Host1.lean ====
import proofs.«175587_j47510928228669_1_alg».proof.Proof.KI.Host0
import proofs.«175587_j47510928228669_1_alg».proof.Proof.BridgeLaws
import Idealize.ShloMosaic.Lib.KernelVsHost
import Idealize.ShloMosaic.Lib.Pipeline.Value
import Idealize.ShloMosaic.Lib.ValueLayout
import Idealize.ShloMosaic.Lib.ValueIdx
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.ValueIdx
open Idealize.ShloMosaic.Pipeline (Dat)
open scoped BigOperators

variable (m : (ℓ : Loc nD τ sig) → Buf (Elt Ideal) ℓ)

/-! # The host operations around the first estimator head, read at an index on the extended reals -/

/-- No host operation between the encoder and the first head writes the embedding. -/
theorem W12_v8 (c : Dev nD) : W12 (F := Ideal) m c main_v8 = W8 m c main_v8 := by
  show StableHlo.after hostOps1_3 (W11 m c) main_v8 = _
  after_results

/-- The head's first weight matrix (its change of format is the identity). -/
theorem W12_main_v9_apply (c : Dev nD) (d : Fin 512) (j : Fin 1024) :
    (W12 (F := Ideal) m c main_v9 : S512x1024.Idx → EReal) (ix2 d j) = argLW1 m c (ix2 d j) := by
  have e : (W12 (F := Ideal) m c main_v9 : S512x1024.Idx → EReal) = truncf (F := Ideal) .bf16 (argLW1 m c) bitsLt_bf16_f32 := by
    show StableHlo.after hostOps1_3 (W11 m c) main_v9 = _
    after_results
    rw [W8_of_ne m c main_arg7 (by decide)]
    show truncf (F := Ideal) .bf16 (StableHlo.after hostOps0_6 (W6 m c) main_arg7) bitsLt_bf16_f32 = _
    after_results
    rfl
  rw [e, truncf_apply]

/-- The head's first bias as a row. -/
theorem W12_main_v12_apply (c : Dev nD) (j : Fin 1024) :
    (W12 (F := Ideal) m c main_v12 : S1x1024.Idx → EReal) (ix2 (0 : Fin 1) j) = argLB1 m c (ix1 j) := by
  have e : (W12 (F := Ideal) m c main_v12 : S1x1024.Idx → EReal) = shapeCast S1x1024 (argLB1 m c) shapeCasts_S1024_S1x1024 := by
    show StableHlo.after hostOps1_3 (W11 m c) main_v12 = _
    after_results
    rw [W8_of_ne m c main_arg8 (by decide)]
    show (fun i => shapeCast S1x1024 (StableHlo.after hostOps0_6 (W6 m c) main_arg8) shapeCasts_S1024_S1x1024 i) = _
    after_results
    rfl
  rw [e]
  refine (shapeCast_addUnit_apply ![1024] _ _ (ix2 (0 : Fin 1) j)).trans ?_
  exact congrArg _ (funext fun a => by match a with | ⟨0, _⟩ => rfl)

/-- The head's output weight matrix padded with zero columns (its change of format is the identity). -/
theorem W12_main_v11_apply (c : Dev nD) (j : Fin 1024) (n : Fin 20480) :
    (W12 (F := Ideal) m c main_v11 : S1024x20480.Idx → EReal) (ix2 j n) = if h : n.val < 20000 then argLW2 m c (ix2 j ⟨n.val, h⟩) else 0 := by
  have e : (W12 (F := Ideal) m c main_v11 : S1024x20480.Idx → EReal)
      = truncf (F := Ideal) .bf16 (pad S1024x20480 ![0, 0] ![0, 480] ![0, 0] (argLW2 m c) (sitofp (F := Ideal) .f32 (constantI S_ 32 0#32)) pads_S1024x20000_S1024x20480_000_04800 h_S_) bitsLt_bf16_f32 := by
    have hW : (W8 (F := Ideal) m c (Proc.devRef .tc main_arg9) : S1024x20000.Idx → EReal) = argLW2 m c := by
      rw [W8_of_ne m c main_arg9 (by decide)]
      show StableHlo.after hostOps0_6 (W6 m c) main_arg9 = _
      after_results
      rfl
    show StableHlo.after hostOps1_3 (W11 m c) main_v11 = _
    after_results
    show truncf (F := Ideal) .bf16 (pad S1024x20480 ![0, 0] ![0, 480] ![0, 0]
        (W8 (F := Ideal) m c (Proc.devRef .tc main_arg9) : S1024x20000.Idx → EReal)
        (sitofp (F := Ideal) .f32 (constantI S_ 32 0#32)) pads_S1024x20000_S1024x20480_000_04800 h_S_) bitsLt_bf16_f32 = _
    rw [hW]
  rw [e, truncf_apply]
  split_ifs with h
  · refine pad_apply_of_inside _ _ _ _ _ _ _ (ix2 j n) (ix2 j ⟨n.val, h⟩) fun a => ?_
    match a with
    | ⟨0, _⟩ => simp
    | ⟨1, _⟩ => simp
  · refine (pad_apply_of_not_inside _ _ _ _ _ _ _ (ix2 j n) ⟨1, by decide⟩ ?_).trans (padval_zero _)
    intro hh; apply h; have := hh.2.2; simpa using this

/-- The head's output bias as a row padded with zero columns. -/
theorem W12_main_v14_apply (c : Dev nD) (n : Fin 20480) :
    (W12 (F := Ideal) m c main_v14 : S1x20480.Idx → EReal) (ix2 (0 : Fin 1) n) = if h : n.val < 20000 then argLB2 m c (ix1 ⟨n.val, h⟩) else 0 := by
  have e : (W12 (F := Ideal) m c main_v14 : S1x20480.Idx → EReal)
      = pad S1x20480 ![0, 0] ![0, 480] ![0, 0] (shapeCast S1x20000 (argLB2 m c) shapeCasts_S20000_S1x20000) (sitofp (F := Ideal) .f32 (constantI S_ 32 0#32)) pads_S1x20000_S1x20480_000_04800 h_S_ := by
    have hW : (W8 (F := Ideal) m c (Proc.devRef .tc main_arg10) : S20000.Idx → EReal) = argLB2 m c := by
      rw [W8_of_ne m c main_arg10 (by decide)]
      show StableHlo.after hostOps0_6 (W6 m c) main_arg10 = _
      after_results
      rfl
    show StableHlo.after hostOps1_3 (W11 m c) main_v14 = _
    after_results
    show pad S1x20480 ![0, 0] ![0, 480] ![0, 0]
        (shapeCast S1x20000 (W8 (F := Ideal) m c (Proc.devRef .tc main_arg10) : S20000.Idx → EReal) shapeCasts_S20000_S1x20000)
        (sitofp (F := Ideal) .f32 (constantI S_ 32 0#32)) pads_S1x20000_S1x20480_000_04800 h_S_ = _
    rw [hW]
  rw [e]
  split_ifs with h
  · refine (pad_apply_of_inside _ _ _ _ _ _ _ (ix2 (0 : Fin 1) n) (ix2 (0 : Fin 1) ⟨n.val, h⟩) fun a => ?_).trans ?_
    · match a with
      | ⟨0, _⟩ => simp
      | ⟨1, _⟩ => simp
    · refine (shapeCast_addUnit_apply ![20000] _ _ (ix2 (0 : Fin 1) ⟨n.val, h⟩)).trans ?_
      exact congrArg _ (funext fun a => by match a with | ⟨0, _⟩ => rfl)
  · refine (pad_apply_of_not_inside _ _ _ _ _ _ _ (ix2 (0 : Fin 1) n) ⟨1, by decide⟩ ?_).trans (padval_zero _)
    intro hh; apply h; have := hh.2.2; simpa using this

/-! ## The first head's region: its input arrays as it is entered and its output array as it is left, as plain arrays -/

/-- The embedding as the encoder's region leaves it. -/
def embW8 (c : Dev nD) : S2048x512.Idx → EReal := W8 (F := Ideal) m c main_v8
/-- The first head's region's input arrays as the region is entered: the embedding, -/
def r1_emb (c : Dev nD) : S2048x512.Idx → EReal := W12 (F := Ideal) m c main_v8
/-- the first weight matrix, -/
def r1_w1 (c : Dev nD) : S512x1024.Idx → EReal := W12 (F := Ideal) m c main_v9
/-- the first bias as a row, -/
def r1_b1 (c : Dev nD) : S1x1024.Idx → EReal := W12 (F := Ideal) m c main_v12
/-- the padded output weight matrix, -/
def r1_w2 (c : Dev nD) : S1024x20480.Idx → EReal := W12 (F := Ideal) m c main_v11
/-- the padded output bias as a row; -/
def r1_b2 (c : Dev nD) : S1x20480.Idx → EReal := W12 (F := Ideal) m c main_v14
/-- and its output array as the region is left. -/
def r1_out (c : Dev nD) : S2048x20480.Idx → EReal := (dat1 (F := Ideal) (Vr (W12 m)) c).arrAt 5 cfg1.N

/-- The first head's result: the first 20000 columns of what its region leaves. -/
theorem W22_main_v16_apply (c : Dev nD) (i : Fin 2048) (n : Fin 20000) :
    (W22 (F := Ideal) m c main_v16 : S2048x20000.Idx → EReal) (ix2 i n) = r1_out m c (ix2 i ⟨n.val, by omega⟩) := by
  have e : (W22 (F := Ideal) m c main_v16 : S2048x20000.Idx → EReal)
      = extractStridedSlice S2048x20000 ![0, 0] (r1_out m c) slices_S2048x20480_S2048x20000_0_0 := by
    show StableHlo.after hostOps5 (W21 m c) main_v16 = _
    after_results
    rw [W21_of_ne m c main_v16 (by decide), W20_of_ne m c main_v16 (by decide)]
    show StableHlo.after hostOps3 (W18 m c) main_v16 = _
    after_results
    rw [W18_of_ne m c main_v16 (by decide)]
    show StableHlo.after hostOps2_3 (W16 m c) main_v16 = _
    after_results
    rw [W13_out]
    rfl
  rw [e]
  refine extractStridedSlice_apply _ _ _ (ix2 i n) (ix2 i ⟨n.val, by omega⟩) fun a => ?_
  match a with
  | ⟨0, _⟩ => simp
  | ⟨1, _⟩ => simp

/-- THE FIRST HEAD'S RESULT is the specification's head of the embedding and the head's four parameter arrays, given
    the embedding entry by entry (`hE`) and what the head's region leaves in terms of its input arrays (`hV`). -/
theorem W22_main_v16_spec (c : Dev nD) (E : Fin 2048 → Fin 512 → EReal)
    (hE : ∀ (i : Fin 2048) (d : Fin 512), embW8 m c (ix2 i d) = E i d)
    (hV : ∀ (i : Fin 2048) (n : Fin 20480), r1_out m c (ix2 i n)
      = Ideal.logistic ((∑ j : Fin 1024, max ((∑ d : Fin 512, r1_emb m c (ix2 i d) * r1_w1 m c (ix2 d j))
          + r1_b1 m c (ix2 (0 : Fin 1) j)) 0 * r1_w2 m c (ix2 j n)) + r1_b2 m c (ix2 (0 : Fin 1) n)))
    (i : Fin 2048) (n : Fin 20000) :
    (W22 (F := Ideal) m c main_v16 : S2048x20000.Idx → EReal) (ix2 i n)
      = Cert.RefSpec.Spec.head E (argLW1 m c) (argLB1 m c) (argLW2 m c) (argLB2 m c) i n := by
  rw [W22_main_v16_apply, hV]
  have h8 : ∀ d : Fin 512, r1_emb m c (ix2 i d) = E i d := fun d =>
    (congrFun (W12_v8 m c) (ix2 i d)).trans (hE i d)
  have h9 : ∀ (d : Fin 512) (j : Fin 1024), r1_w1 m c (ix2 d j) = argLW1 m c (ix2 d j) := W12_main_v9_apply m c
  simp only [h8, h9]
  exact Cert.RefSpec.head_bridge E (argLW1 m c) (argLB1 m c) (argLW2 m c) (argLB2 m c)
    (r1_b1 m c) (r1_w2 m c) (r1_b2 m c)
    (W12_main_v12_apply m c) (W12_main_v11_apply m c) (W12_main_v14_apply m c) i n

end Cert.KernelIdeal.Hand

end
-- ==== Proof.KI.Host2.lean ====
/- The host operations around the second estimator head, read at an index at the exact-real instance.  Before the
   kernel: the embedding is the encoder's output, untouched since; the head's first weight matrix changes format only;
   its first bias becomes a row; its output weights are padded with 480 zero columns and change format; its output
   bias becomes a row padded with 480 zeros.  After the kernel: the result is the kernel's output array cut back to
   the 20000 true items.  Together with the kernel's value at an index this gives the result as the specification's
   head of the embedding. -/
import proofs.«175587_j47510928228669_1_alg».proof.Proof.KI.Host0
import proofs.«175587_j47510928228669_1_alg».proof.Proof.BridgeLaws
import Idealize.ShloMosaic.Lib.KernelVsHost
import Idealize.ShloMosaic.Lib.Pipeline.Value
import Idealize.ShloMosaic.Lib.ValueLayout
import Idealize.ShloMosaic.Lib.ValueIdx
import Idealize.ShloMosaic.Lib.StableHlo.Run
import Idealize.ShloMosaic.PureOps.Ideal

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.ValueIdx
open Idealize.ShloMosaic.Pipeline (Dat)

variable (m : (ℓ : Loc nD τ sig) → Buf (Elt Ideal) ℓ)

/-! ## Buffers the host stretches leave alone -/

/-- A buffer none of the seven stretches before the encoder writes holds its launch contents when the encoder starts. -/
theorem W7_of_W0 (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) :
    W7 (F := Ideal) m c r = W0 m c r :=
  (StableHlo.after_of_writes_sub hostOps0_6 _ hostOps0_6_writes h6).trans <|
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  StableHlo.after_of_writes_sub hostOps0 _ hostOps0_writes h0

/-- A buffer none of the four stretches between the encoder and the first head writes is carried across them. -/
theorem W12_of_W8 (c : Dev nD) (r : Ref sig .tc) (h0 : r ∉ hostOps1_W) (h1 : r ∉ hostOps1_1_W) (h2 : r ∉ hostOps1_2_W)
    (h3 : r ∉ hostOps1_3_W) : W12 (F := Ideal) m c r = W8 m c r :=
  (StableHlo.after_of_writes_sub hostOps1_3 _ hostOps1_3_writes h3).trans <|
  (StableHlo.after_of_writes_sub hostOps1_2 _ hostOps1_2_writes h2).trans <|
  (StableHlo.after_of_writes_sub hostOps1_1 _ hostOps1_1_writes h1).trans <|
  StableHlo.after_of_writes_sub hostOps1 _ hostOps1_writes h0

/-- A buffer none of the four stretches between the two heads writes is carried across them. -/
theorem W17_of_W13 (c : Dev nD) (r : Ref sig .tc) (h0 : r ∉ hostOps2_W) (h1 : r ∉ hostOps2_1_W) (h2 : r ∉ hostOps2_2_W)
    (h3 : r ∉ hostOps2_3_W) : W17 (F := Ideal) m c r = W13 m c r :=
  (StableHlo.after_of_writes_sub hostOps2_3 _ hostOps2_3_writes h3).trans <|
  (StableHlo.after_of_writes_sub hostOps2_2 _ hostOps2_2_writes h2).trans <|
  (StableHlo.after_of_writes_sub hostOps2_1 _ hostOps2_1_writes h1).trans <|
  StableHlo.after_of_writes_sub hostOps2 _ hostOps2_writes h0

/-- The embedding the second head reads is the encoder's output: nothing in between writes it. -/
theorem W17_v8 (c : Dev nD) : W17 (F := Ideal) m c main_v8 = W8 m c main_v8 :=
  (W17_of_W13 m c main_v8 (by decide) (by decide) (by decide) (by decide)).trans <|
  (W13_of_ne m c main_v8 (by decide)).trans <|
  W12_of_W8 m c main_v8 (by decide) (by decide) (by decide) (by decide)

/-- A buffer written by nothing up to the first head's exit holds its launch contents there. -/
theorem W13_of_W0 (c : Dev nD) (r : Ref sig .tc) (a1 : r ≠ main_v15) (b0 : r ∉ hostOps1_W) (b1 : r ∉ hostOps1_1_W)
    (b2 : r ∉ hostOps1_2_W) (b3 : r ∉ hostOps1_3_W) (a0 : r ≠ main_v8) (h0 : r ∉ hostOps0_W) (h1 : r ∉ hostOps0_1_W)
    (h2 : r ∉ hostOps0_2_W) (h3 : r ∉ hostOps0_3_W) (h4 : r ∉ hostOps0_4_W) (h5 : r ∉ hostOps0_5_W) (h6 : r ∉ hostOps0_6_W) :
    W13 (F := Ideal) m c r = W0 m c r :=
  (W13_of_ne m c r a1).trans <| (W12_of_W8 m c r b0 b1 b2 b3).trans <| (W8_of_ne m c r a0).trans <|
    W7_of_W0 m c r h0 h1 h2 h3 h4 h5 h6

/-- The second head's four arguments still hold their launch contents when its host stretches begin. -/
theorem W13_arg11 (c : Dev nD) : (W13 (F := Ideal) m c main_arg11 : S512x1024.Idx → EReal) = argRW1 m c :=
  W13_of_W0 m c main_arg11 (by decide) (by decide) (by decide) (by decide) (by decide) (by decide) (by decide) (by decide) (by decide) (by decide) (by decide) (by decide) (by decide)
theorem W13_arg12 (c : Dev nD) : (W13 (F := Ideal) m c main_arg12 : S1024.Idx → EReal) = argRB1 m c :=
  W13_of_W0 m c main_arg12 (by decide) (by decide) (by decide) (by decide) (by decide) (by decide) (by decide) (by decide) (by decide) (by decide) (by decide) (by decide) (by decide)
theorem W13_arg13 (c : Dev nD) : (W13 (F := Ideal) m c main_arg13 : S1024x20000.Idx → EReal) = argRW2 m c :=
  W13_of_W0 m c main_arg13 (by decide) (by decide) (by decide) (by decide) (by decide) (by decide) (by decide) (by decide) (by decide) (by decide) (by decide) (by decide) (by decide)
theorem W13_arg14 (c : Dev nD) : (W13 (F := Ideal) m c main_arg14 : S20000.Idx → EReal) = argRB2 m c :=
  W13_of_W0 m c main_arg14 (by decide) (by decide) (by decide) (by decide) (by decide) (by decide) (by decide) (by decide) (by decide) (by decide) (by decide) (by decide) (by decide)

/-! ## The second head's arrays as plain arrays -/

/-- The arrays the second head's kernel is handed, and the array it leaves, with plain function types (so that sums
    and products over their entries are the extended reals'). -/
def r2Emb (c : Dev nD) : S2048x512.Idx → EReal := W17 (F := Ideal) m c main_v8
def r2W1 (c : Dev nD) : S512x1024.Idx → EReal := W17 (F := Ideal) m c main_v17
def r2B1 (c : Dev nD) : S1x1024.Idx → EReal := W17 (F := Ideal) m c main_v20
def r2W2 (c : Dev nD) : S1024x20480.Idx → EReal := W17 (F := Ideal) m c main_v19
def r2B2 (c : Dev nD) : S1x20480.Idx → EReal := W17 (F := Ideal) m c main_v22
def r2Out (c : Dev nD) : S2048x20480.Idx → EReal := (dat2 (F := Ideal) (Vr (W17 m)) c).arrAt 5 cfg2.N

/-! ## The second head's inputs -/

/-- Its first weight matrix (the change of format is the identity). -/
theorem W17_main_v17_apply (c : Dev nD) (d : Fin 512) (j : Fin 1024) :
    (W17 (F := Ideal) m c main_v17 : S512x1024.Idx → EReal) (ix2 d j) = argRW1 m c (ix2 d j) := by
  have e : (W17 (F := Ideal) m c main_v17 : S512x1024.Idx → EReal)
      = truncf (F := Ideal) .bf16 (argRW1 m c) bitsLt_bf16_f32 := by
    show StableHlo.after hostOps2_3 (W16 m c) main_v17 = _
    after_results
    rw [W13_arg11] <;> rfl
  rw [e, truncf_apply]

/-- Its first bias as a row. -/
theorem W17_main_v20_apply (c : Dev nD) (j : Fin 1024) :
    (W17 (F := Ideal) m c main_v20 : S1x1024.Idx → EReal) (ix2 (0 : Fin 1) j) = argRB1 m c (ix1 j) := by
  have e : (W17 (F := Ideal) m c main_v20 : S1x1024.Idx → EReal)
      = shapeCast S1x1024 (argRB1 m c) shapeCasts_S1024_S1x1024 := by
    show StableHlo.after hostOps2_3 (W16 m c) main_v20 = _
    after_results
    rw [W13_arg12] <;> rfl
  rw [e]
  refine (shapeCast_addUnit_apply ![1024] _ _ (ix2 (0 : Fin 1) j)).trans ?_
  exact congrArg _ (funext fun a => by match a with | ⟨0, _⟩ => rfl)

/-- Its output weights padded with zero columns (the change of format is the identity). -/
theorem W17_main_v19_apply (c : Dev nD) (j : Fin 1024) (n : Fin 20480) :
    (W17 (F := Ideal) m c main_v19 : S1024x20480.Idx → EReal) (ix2 j n)
      = if h : n.val < 20000 then argRW2 m c (ix2 j ⟨n.val, h⟩) else 0 := by
  have e : (W17 (F := Ideal) m c main_v19 : S1024x20480.Idx → EReal)
      = truncf (F := Ideal) .bf16 (pad S1024x20480 ![0, 0] ![0, 480] ![0, 0] (argRW2 m c)
          (sitofp (F := Ideal) .f32 (constantI S_ 32 0#32)) pads_S1024x20000_S1024x20480_000_04800 h_S_) bitsLt_bf16_f32 := by
    show StableHlo.after hostOps2_3 (W16 m c) main_v19 = _
    after_results
    rw [W13_arg13] <;> rfl
  rw [e, truncf_apply]
  split_ifs with h
  · refine pad_apply_of_inside _ _ _ _ _ _ _ (ix2 j n) (ix2 j ⟨n.val, h⟩) fun a => ?_
    match a with
    | ⟨0, _⟩ => simp
    | ⟨1, _⟩ => simp
  · refine (pad_apply_of_not_inside _ _ _ _ _ _ _ (ix2 j n) ⟨1, by decide⟩ ?_).trans (padval_zero _)
    intro hh; apply h; have := hh.2.2; simpa using this

/-- Its output bias as a row padded with zeros. -/
theorem W17_main_v22_apply (c : Dev nD) (n : Fin 20480) :
    (W17 (F := Ideal) m c main_v22 : S1x20480.Idx → EReal) (ix2 (0 : Fin 1) n)
      = if h : n.val < 20000 then argRB2 m c (ix1 ⟨n.val, h⟩) else 0 := by
  have e : (W17 (F := Ideal) m c main_v22 : S1x20480.Idx → EReal)
      = pad S1x20480 ![0, 0] ![0, 480] ![0, 0]
          (shapeCast S1x20000 (argRB2 m c) shapeCasts_S20000_S1x20000)
          (sitofp (F := Ideal) .f32 (constantI S_ 32 0#32)) pads_S1x20000_S1x20480_000_04800 h_S_ := by
    show StableHlo.after hostOps2_3 (W16 m c) main_v22 = _
    after_results
    rw [W13_arg14] <;> rfl
  rw [e]
  split_ifs with h
  · refine (pad_apply_of_inside _ _ _ _ _ _ _ (ix2 (0 : Fin 1) n) (ix2 (0 : Fin 1) ⟨n.val, h⟩) fun a => ?_).trans ?_
    · match a with
      | ⟨0, _⟩ => simp
      | ⟨1, _⟩ => simp
    · refine (shapeCast_addUnit_apply ![20000] _ _ (ix2 (0 : Fin 1) ⟨n.val, h⟩)).trans ?_
      exact congrArg _ (funext fun a => by match a with | ⟨0, _⟩ => rfl)
  · refine (pad_apply_of_not_inside _ _ _ _ _ _ _ (ix2 (0 : Fin 1) n) ⟨1, by decide⟩ ?_).trans (padval_zero _)
    intro hh; apply h; have := hh.2.2; simpa using this

/-! ## The second head's result -/

/-- The result is the kernel's output array cut back to the true items; nothing later writes it. -/
theorem W22_main_v24_apply (c : Dev nD) (i : Fin 2048) (n : Fin 20000) :
    (W22 (F := Ideal) m c main_v24 : S2048x20000.Idx → EReal) (ix2 i n)
      = (dat2 (F := Ideal) (Vr (W17 m)) c).arrAt 5 cfg2.N (ix2 i ⟨n.val, by omega⟩) := by
  have e : (W22 (F := Ideal) m c main_v24 : S2048x20000.Idx → EReal)
      = extractStridedSlice S2048x20000 ![0, 0] ((dat2 (F := Ideal) (Vr (W17 m)) c).arrAt 5 cfg2.N)
          slices_S2048x20480_S2048x20000_0_0 := by
    have h1 : W22 (F := Ideal) m c main_v24 = W21 m c main_v24 :=
      StableHlo.after_of_writes_sub hostOps5 _ hostOps5_writes (by decide)
    rw [h1, W21_of_ne m c main_v24 (by decide), W20_of_ne m c main_v24 (by decide)]
    show StableHlo.after hostOps3 (W18 m c) main_v24 = _
    after_results
    rw [W18_out]
  rw [e]
  exact extractStridedSlice_apply _ _ _ (ix2 i n) (ix2 i ⟨n.val, by omega⟩) fun a => by
    match a with
    | ⟨0, _⟩ => simp
    | ⟨1, _⟩ => simp

/-- Given the embedding `E` the encoder leaves and the kernel's value at an index — the sigmoid of the two-layer head
    over the padded arrays it is handed — the second head's result is the specification's head of `E` over the head's
    own weights. -/
theorem W22_main_v24_spec (c : Dev nD) (E : Fin 2048 → Fin 512 → EReal)
    (hE : ∀ (i : Fin 2048) (d : Fin 512), (W8 (F := Ideal) m c main_v8 : S2048x512.Idx → EReal) (ix2 i d) = E i d)
    (hV : ∀ (i : Fin 2048) (n : Fin 20480), r2Out m c (ix2 i n)
      = Ideal.logistic ((∑ j : Fin 1024, max ((∑ d : Fin 512, r2Emb m c (ix2 i d) * r2W1 m c (ix2 d j))
          + r2B1 m c (ix2 (0 : Fin 1) j)) 0 * r2W2 m c (ix2 j n)) + r2B2 m c (ix2 (0 : Fin 1) n)))
    (i : Fin 2048) (n : Fin 20000) :
    (W22 (F := Ideal) m c main_v24 : S2048x20000.Idx → EReal) (ix2 i n)
      = Cert.RefSpec.Spec.head E (argRW1 m c) (argRB1 m c) (argRW2 m c) (argRB2 m c) i n := by
  have h8 : ∀ (i : Fin 2048) (d : Fin 512), (W17 (F := Ideal) m c main_v8 : S2048x512.Idx → EReal) (ix2 i d) = E i d :=
    fun i d => by rw [W17_v8]; exact hE i d
  rw [W22_main_v24_apply]
  refine (hV i ⟨n.val, by omega⟩).trans ?_
  unfold r2Emb r2W1 r2B1 r2W2 r2B2
  simp only [h8, W17_main_v17_apply]
  exact Cert.RefSpec.head_bridge E (argRW1 m c) (argRB1 m c) (argRW2 m c) (argRB2 m c)
    (W17 (F := Ideal) m c main_v20 : S1x1024.Idx → EReal) (W17 (F := Ideal) m c main_v19 : S1024x20480.Idx → EReal)
    (W17 (F := Ideal) m c main_v22 : S1x20480.Idx → EReal)
    (W17_main_v20_apply m c) (W17_main_v19_apply m c) (W17_main_v22_apply m c) i n

end Cert.KernelIdeal.Hand

end
-- ==== Proof.KI.Val3.Pay.lean ====
import proofs.«175587_j47510928228669_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! # The similarity kernel's payload at an index, on the extended reals -/

/-- The floor under a row's sum of squares (about 1e-12). -/
abbrev eps3 : EReal := Ideal.ofBits .f32 0x2B8CBCCC#32

/-- Row `r` of `x` scaled to unit length: each entry times the reciprocal square root of the row's sum of squares,
    floored at `eps3`. -/
def rowNorm {n : ℕ} (x : (⟨2, ![n, 512]⟩ : Shape).Idx → EReal) (r : Fin n) (d : Fin 512) : EReal :=
  x (ix2 r d) * Ideal.rsqrt (max (∑ d' : Fin 512, x (ix2 r d') * x (ix2 r d')) eps3)

/-! ## The layout operations and the two contractions, each read at an index -/

/-- A sum along the rows of a 512 × 512 block, read at row `r`. -/
theorem rowSum_apply (src : FVec Ideal S512x512 .f32) (h : S512x512.Reduces [1] S512) (hφ : FKind.Formats .f32)
    (hacc : (0x00000000#32 : BitVec 32) = 0x00000000#32) (r : Fin 512) :
    multiReduction .add [1] S512 src 0x00000000#32 h hφ hacc (ix1 r) = ∑ k : Fin 512, src (ix2 r k) := by
  refine (Ideal.multiReduction_add_single src 0x00000000#32 h hφ hacc (ix1 r)).trans ?_
  exact Finset.sum_congr rfl fun k _ => congrArg src (funext fun a => Fin.ext (by
    match a with
    | ⟨0, _⟩ => rfl
    | ⟨1, _⟩ => rfl))

/-- A length-512 vector viewed as a column reads, at `(r, 0)`, the vector at `r`. -/
theorem col_apply {α : Type} (v : S512.Idx → α) (h : S512.ShapeCasts S512x1) (r : Fin 512) (u : Fin 1) :
    shapeCast S512x1 v h (ix2 r u) = v (ix1 r) :=
  shapeCast_apply v h _ _ (by
    have hu : u.val = 0 := by omega
    rw [Shape.rowMajor_val_one, Shape.rowMajor_val_two]
    show r.val = r.val * 1 + u.val
    omega)

/-- A column broadcast along the rows reads, at `(p, c)`, the column at `p`. -/
theorem bcol_apply {α : Type} (v : S512x1.Idx → α) (h : S512x1.Broadcasts S512x512) (p c : Fin 512) :
    broadcastTo S512x512 v h (ix2 p c) = v (ix2 p (0 : Fin 1)) := by
  refine broadcastTo_apply v h (ix2 p c) (ix2 p (0 : Fin 1)) fun ax => ?_
  match ax with
  | ⟨0, _⟩ =>
    show p.val = if (512 : ℕ) = 1 then 0 else p.val
    rw [if_neg (by decide)]
  | ⟨1, _⟩ => rfl

/-- The matrix unit's dimension numbers: rows times columns, one contracted axis of 512. -/
abbrev D3 : DotDims S512x512 S512x512 S512x512 := dot_S512x512_S512x512_S512x512_1_0_0_1_n_n

theorem lhs3_0 (i : S512x512.Idx) (q : D3.contr.Idx) : (D3.lhsIdx i q 0).val = (i 0).val := by
  unfold DotDims.lhsIdx
  rw [dif_neg (show ¬(0 : Fin S512x512.rank) ∈ D3.lhsBatch by decide), dif_pos (show (0 : Fin S512x512.rank) ∈ D3.lhsNonContracting by decide)]
  rfl
theorem lhs3_1 (i : S512x512.Idx) (q : D3.contr.Idx) : (D3.lhsIdx i q 1).val = (q ⟨0, by decide⟩).val :=
  D3.lhsIdx_val_of_single rfl i q
theorem rhs3_0 (i : S512x512.Idx) (q : D3.contr.Idx) : (D3.rhsIdx i q 0).val = (q ⟨0, by decide⟩).val :=
  D3.rhsIdx_val_of_single rfl i q
theorem rhs3_1 (i : S512x512.Idx) (q : D3.contr.Idx) : (D3.rhsIdx i q 1).val = (i 1).val := by
  unfold DotDims.rhsIdx
  rw [dif_neg (show ¬(1 : Fin S512x512.rank) ∈ D3.rhsBatch by decide), dif_pos (show (1 : Fin S512x512.rank) ∈ D3.rhsNonContracting by decide)]
  rfl

/-- The product into a zero accumulator, read at `(p, q)`: row `p` of the left factor against column `q` of the right. -/
theorem mm_apply {φ₁ φ₂ : FTy} (lhs : FVec Ideal S512x512 φ₁) (rhs : FVec Ideal S512x512 φ₂) (p q : Fin 512) :
    matmul D3 none lhs rhs (constant (F := Ideal) S512x512 .f32 0x00000000#32) (ix2 p q)
      = ∑ k : Fin 512, lhs (ix2 p k) * rhs (ix2 k q) := by
  simp only [matmul]
  rw [Ideal.matmul_constant_zero_apply, ← Equiv.sum_comp (contrEquiv1 D3 512 rfl rfl).symm]
  refine Finset.sum_congr rfl fun k _ => ?_
  have hk := contrEquiv1_symm_val D3 512 rfl rfl k
  have el : D3.lhsIdx (ix2 p q) ((contrEquiv1 D3 512 rfl rfl).symm k) = ix2 p k := funext fun a => Fin.ext (by
    match a with
    | ⟨0, _⟩ => exact lhs3_0 _ _
    | ⟨1, _⟩ => exact (lhs3_1 _ _).trans hk)
  have er : D3.rhsIdx (ix2 p q) ((contrEquiv1 D3 512 rfl rfl).symm k) = ix2 k q := funext fun a => Fin.ext (by
    match a with
    | ⟨0, _⟩ => exact (rhs3_0 _ _).trans hk
    | ⟨1, _⟩ => exact rhs3_1 _ _)
  rw [el, er]

theorem rsqrt_apply3 {s : Shape} {φ : FTy} (a : FVec Ideal s φ) (i : s.Idx) : rsqrt a i = Ideal.rsqrt (a i) := rfl

/-! ## The payload -/

set_option maxHeartbeats 1000000 in
/-- THE PAYLOAD AT `(p, q)`: zero minus the inner product of row `p` of the first block and row `q` of the second,
    each scaled to unit length (the roundings to bf16 are the identity on the extended reals, the transpose swaps the
    second factor's coordinates, and the product's accumulator starts at zero). -/
theorem k3_pay1_apply (x0 x1 : Vec Ideal S512x512 .f32) (p q : Fin 512) :
    k3_pay1 (F := Ideal) x0 x1 (ix2 p q) = 0 - ∑ k : Fin 512, rowNorm x0 p k * rowNorm x1 q k := by
  unfold k3_pay1
  simp only [shapeCast_self]
  rw [subf_apply, broadcast_apply, mm_apply]
  show Ideal.ofBits .f32 0x00000000#32 - _ = _
  rw [Ideal.ofBits_zero_f32]
  refine congrArg (0 - ·) (Finset.sum_congr rfl fun k _ => ?_)
  rw [truncf_apply, transpose_ix2_apply, truncf_apply, mulf_apply, mulf_apply, bcol_apply, bcol_apply, rsqrt_apply3, rsqrt_apply3,
    maximumf_apply, maximumf_apply, broadcast_apply, broadcast_apply, col_apply, col_apply, rowSum_apply, rowSum_apply]
  rfl

/-- The same at an index given whole. -/
theorem k3_pay1_apply' (x0 x1 : Vec Ideal S512x512 .f32) (j : S512x512.Idx) :
    k3_pay1 (F := Ideal) x0 x1 j = 0 - ∑ k : Fin 512, rowNorm x0 (j 0) k * rowNorm x1 (j 1) k :=
  (congrArg (k3_pay1 (F := Ideal) x0 x1) (eq_ix2 j)).trans (k3_pay1_apply x0 x1 (j 0) (j 1))

/-- Two rows that agree entry by entry have the same normalisation. -/
theorem rowNorm_congr {n m : ℕ} (x : (⟨2, ![n, 512]⟩ : Shape).Idx → EReal) (y : (⟨2, ![m, 512]⟩ : Shape).Idx → EReal)
    (r : Fin n) (R : Fin m) (h : ∀ d : Fin 512, x (ix2 r d) = y (ix2 R d)) (d : Fin 512) : rowNorm x r d = rowNorm y R d := by
  unfold rowNorm
  simp only [h]

end Cert.KernelIdeal.Hand

end
-- ==== Proof.KI.Val3.lean ====
import proofs.«175587_j47510928228669_1_alg».proof.Proof.KI.Reg3
import proofs.«175587_j47510928228669_1_alg».proof.Proof.KI.Val3.Pay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

/-! # What the similarity kernel's region leaves in its output array, on the extended reals -/

theorem hz3 : (![0, 0] : Fin 2 → Nat) = fun _ => 0 := funext fun a => by fin_cases a <;> rfl

/-- The 2048 × 2048 result as one function of the 2048 × 512 operand `e`: entry `(i, i')` is zero minus the inner
    product of rows `i` and `i'` of `e`, each scaled to unit length. -/
def G3 (e : S2048x512.Idx → EReal) : S2048x2048.Idx → EReal :=
  fun i => 0 - ∑ d : Fin 512, rowNorm e (i 0) d * rowNorm e (i 1) d

/-- The printed index maps, decided over the grid: the first input window follows the output's block row, the second
    the output's block column, both at block column zero; the output's block indices stay below four. -/
theorem idx_facts3 : ∀ t : Fin cfg3.N,
    win3_0.index t (0 : Fin 2) = win3_2.index t (0 : Fin 2) ∧ win3_0.index t (1 : Fin 2) = 0
    ∧ win3_1.index t (0 : Fin 2) = win3_2.index t (1 : Fin 2) ∧ win3_1.index t (1 : Fin 2) = 0
    ∧ win3_2.index t (0 : Fin 2) ≤ 3 ∧ win3_2.index t (1 : Fin 2) ≤ 3 :=
  (by decide +kernel : ∀ t : Fin grid3.N, _)

/-- Every block of the output is some point's. -/
theorem idx_onto3 : ∀ (q0 q1 : Fin 4), ∃ t : Fin cfg3.N, win3_2.index t = ![q0.val, q1.val] :=
  (by decide +kernel : ∀ (q0 q1 : Fin 4), ∃ t : Fin grid3.N, win3_2.index t = ![q0.val, q1.val])

/-- WHAT POINT `t` WRITES BACK is block `t` of `G3` of the operand as the region finds it. -/
theorem flushed3_eq (c : Dev nD) (t : Fin cfg3.N) :
    (dat3 (F := Ideal) V c).flushed 2 t = ((cfg3.win 2).blk t).view.read (Elt Ideal) (G3 (V c main_v8)) := by
  show (cfg3.win 2).cut (grid3.coords t) ((dat3 (F := Ideal) V c).after 2 t) = _
  rw [after3_2]
  unfold out3_2
  rw [View.canon_unit_zero hz3]
  simp only [View.ld_unit_zero (S := S512x512) hz3]
  obtain ⟨e0, e1, e2, e3, e4, e5⟩ := idx_facts3 t
  funext j
  refine (k3_pay1_apply' _ _ j).trans ?_
  show _ = G3 (V c main_v8) (((cfg3.win 2).blk t).view.emb j)
  unfold G3
  refine congrArg (0 - ·) (Finset.sum_congr rfl fun d _ => ?_)
  have h0 : ∀ d : Fin 512, iblk3 V c 0 t (ix2 (j 0) d) = V c main_v8 (ix2 ((((cfg3.win 2).blk t).view.emb j) 0) d) := fun d => by
    show V c main_v8 (((cfg3.win 0).blk t).view.emb (ix2 (j 0) d)) = _
    refine congrArg (V c main_v8) (funext fun a => Fin.ext ?_)
    match a with
    | ⟨0, _⟩ =>
      show win3_0.index t (0 : Fin 2) * 512 + 1 * (j 0).val = win3_2.index t (0 : Fin 2) * 512 + 1 * (j 0).val
      rw [e0]
    | ⟨1, _⟩ =>
      show win3_0.index t (1 : Fin 2) * 512 + 1 * d.val = d.val
      rw [e1]; omega
  have h1 : ∀ d : Fin 512, iblk3 V c 1 t (ix2 (j 1) d) = V c main_v8 (ix2 ((((cfg3.win 2).blk t).view.emb j) 1) d) := fun d => by
    show V c main_v8 (((cfg3.win 1).blk t).view.emb (ix2 (j 1) d)) = _
    refine congrArg (V c main_v8) (funext fun a => Fin.ext ?_)
    match a with
    | ⟨0, _⟩ =>
      show win3_1.index t (0 : Fin 2) * 512 + 1 * (j 1).val = win3_2.index t (1 : Fin 2) * 512 + 1 * (j 1).val
      rw [e2]
    | ⟨1, _⟩ =>
      show win3_1.index t (1 : Fin 2) * 512 + 1 * d.val = d.val
      rw [e3]; omega
  rw [rowNorm_congr _ _ _ _ h0 d, rowNorm_congr _ _ _ _ h1 d]

/-- An index of the array is in point `t`'s block iff each coordinate is in the block's range on its axis. -/
theorem mem_blk3 (t : Fin cfg3.N) (i : S2048x2048.Idx) :
    i ∈ ((cfg3.win 2).blk t).view.set ↔ ∀ a : Fin 2, win3_2.index t a * S512x512.size a ≤ (i a).val ∧ (i a).val < win3_2.index t a * S512x512.size a + S512x512.size a := by
  show i ∈ ((View.whole main_v25).slice (win3_2.rect t)).set ↔ _
  rw [View.set_slice_whole, Rect.mem_set_unit]
  exact Iff.rfl

/-- The output's blocks cover the array: entry `(r, r')` is in the block of the point with block row `r / 512` and block
    column `r' / 512`. -/
theorem cover3 (i : S2048x2048.Idx) :
    ∃ t : Fin cfg3.N, (cfg3.win 2).flush t = true ∧ i ∈ ((cfg3.win 2).blk t).view.set := by
  have hi0 : (i 0).val < 2048 := (i 0).isLt
  have hi1 : (i 1).val < 2048 := (i 1).isLt
  obtain ⟨t, ht⟩ := idx_onto3 ⟨(i 0).val / 512, by omega⟩ ⟨(i 1).val / 512, by omega⟩
  have q0 : win3_2.index t (0 : Fin 2) = (i 0).val / 512 := congrFun ht 0
  have q1 : win3_2.index t (1 : Fin 2) = (i 1).val / 512 := congrFun ht 1
  refine ⟨t, flush3_2 t, ?_⟩
  rw [mem_blk3]
  intro a
  match a with
  | ⟨0, _⟩ => show win3_2.index t (0 : Fin 2) * 512 ≤ (i 0).val ∧ (i 0).val < win3_2.index t (0 : Fin 2) * 512 + 512; omega
  | ⟨1, _⟩ => show win3_2.index t (1 : Fin 2) * 512 ≤ (i 1).val ∧ (i 1).val < win3_2.index t (1 : Fin 2) * 512 + 512; omega

/-- THE OUTPUT ARRAY after the region: `G3` of the operand. -/
theorem arrAt3_eq (c : Dev nD) : (dat3 (F := Ideal) V c).arrAt 2 cfg3.N = G3 (V c main_v8) :=
  (dat3 (F := Ideal) V c).arrAt_eq_of_cover 2 (G3 (V c main_v8)) (fun t _ => flushed3_eq V c t) cover3

/-- The same entry by entry: zero minus the inner product of the two unit-length rows. -/
theorem arrAt3_out (c : Dev nD) (i i' : Fin 2048) :
    (dat3 (F := Ideal) V c).arrAt 2 cfg3.N (ix2 i i')
      = 0 - ∑ d : Fin 512, rowNorm (V c main_v8) i d * rowNorm (V c main_v8) i' d := by
  rw [arrAt3_eq]
  rfl

end Cert.KernelIdeal.Hand

end
-- ==== Proof.KI.Val4.Pieces.lean ====
/- The column-mean kernel: what each control case leaves in the accumulator row and in the output row, as the
   kernel's payloads applied to the input block and to the accumulator's contents on entry. -/
import proofs.«175587_j47510928228669_1_alg».proof.Proof.KI.Reg4
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer access. -/
theorem hz4 : (![0, 0] : Fin 2 → Nat) = fun _ => 0 := funext fun a => by fin_cases a <;> rfl

/-- A first row block leaves in the accumulator the block's column sums added to the zero row it has just stored. -/
theorem sout4_A_0_eq (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : cond4_0 i) (hc1 : ¬cond4_1 i)
    (x0 : Vec F S512x2048 .f32) :
    sout4_A_0 c i arg2 harg2 arg3 harg3 arg4 harg4 hc0 hc1 x0 = k4_pay2 k4_pay1 x0 := by
  unfold sout4_A_0
  rw [View.read_writes_eq_canon _ _ _ (scover4_A_0 c i arg2 harg2 arg3 harg3 arg4 harg4 hc0 hc1 x0)]
  unfold kernelRun4_A
  dsimp only
  sl_unfold_words
  rw [View.canon_cons_unit_zero (S := S1x2048) hz4, View.readCov_unit_zero (S := S1x2048) _ hz4]
  simp only [View.readAt_eq_ld, harg2.read_unread, View.ld_unit_zero (S := S512x2048) hz4, View.ld_unit_zero (S := S1x2048) hz4]

/-- A middle row block leaves in the accumulator the block's column sums added to what it held. -/
theorem sout4_B_0_eq (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : ¬cond4_1 i)
    (x0 : Vec F S512x2048 .f32) (xs0 : Vec F S1x2048 .f32) :
    sout4_B_0 c i arg2 harg2 arg3 harg3 arg4 harg4 hc0 hc1 x0 xs0 = k4_pay2 xs0 x0 := by
  unfold sout4_B_0
  rw [View.read_writes_eq_canon _ _ _ (scover4_B_0 c i arg2 harg2 arg3 harg3 arg4 harg4 hc0 hc1 x0 xs0)]
  unfold kernelRun4_B
  dsimp only
  rw [View.canon_unit_zero hz4]
  simp only [View.readAt_eq_ld, harg2.read_unread, harg4.read_unread, View.ld_unit_zero (S := S512x2048) hz4, View.ld_unit_zero (S := S1x2048) hz4]

/-- A last row block leaves in the accumulator the block's column sums added to what it held, -/
theorem sout4_C_0_eq (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : cond4_1 i)
    (x0 : Vec F S512x2048 .f32) (xs0 : Vec F S1x2048 .f32) :
    sout4_C_0 c i arg2 harg2 arg3 harg3 arg4 harg4 hc0 hc1 x0 xs0 = k4_pay2 xs0 x0 := by
  unfold sout4_C_0
  rw [View.read_writes_eq_canon _ _ _ (scover4_C_0 c i arg2 harg2 arg3 harg3 arg4 harg4 hc0 hc1 x0 xs0)]
  unfold kernelRun4_C
  dsimp only
  sl_unfold_words
  rw [View.canon_unit_zero hz4]
  simp only [View.readAt_eq_ld, harg2.read_unread, harg4.read_unread, View.ld_unit_zero (S := S512x2048) hz4, View.ld_unit_zero (S := S1x2048) hz4]

/-- and in the output row that accumulator scaled. -/
theorem out4_C_1_eq (c : Dev nD) (i : grid4.Coords) (arg2 : Memref sig .tc .vmem S512x2048 .f32) (harg2 : arg2.IsWhole) (arg3 : Memref sig .tc .vmem S1x2048 .f32) (harg3 : arg3.IsWhole) (arg4 : Memref sig .tc .vmem S1x2048 .f32) (harg4 : arg4.IsWhole) (hc0 : ¬cond4_0 i) (hc1 : cond4_1 i)
    (x0 : Vec F S512x2048 .f32) (xs0 : Vec F S1x2048 .f32) :
    out4_C_1 c i arg2 harg2 arg3 harg3 arg4 harg4 hc0 hc1 x0 xs0 = k4_pay3 (k4_pay2 xs0 x0) := by
  unfold out4_C_1
  rw [View.read_writes_eq_canon _ _ _ (cover4_C_1 c i arg2 harg2 arg3 harg3 arg4 harg4 hc0 hc1 x0 xs0)]
  unfold kernelRun4_C
  dsimp only
  sl_unfold_words
  rw [View.canon_unit_zero hz4, View.readCov_unit_zero (S := S1x2048) _ hz4]
  simp only [View.readAt_eq_ld, harg2.read_unread, harg4.read_unread, View.ld_unit_zero (S := S512x2048) hz4, View.ld_unit_zero (S := S1x2048) hz4]

end Cert.KernelIdeal.Hand

end
-- ==== Proof.KI.Val4.lean ====
/- The value of the column-mean kernel (pipeline 4) over the extended reals: after its region the output array's entry at
   column n is the sum of the input array's column n over all 2048 rows, times the constant the kernel scales by.
   The accumulator row after the point (column block b, row block r) holds, column by column, the sum over the rows of
   row blocks 0 … r (induction on the point); the last row block of each column block writes that row, scaled, into
   the output array's column block, and these blocks cover the array. -/
import proofs.«175587_j47510928228669_1_alg».proof.Proof.KI.Val4.Pieces
import Idealize.ShloMosaic.PureOps.Ideal.Laws
import Idealize.ShloMosaic.Lib.ValueIdx
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The three payloads at an index, over the extended reals -/

/-- The zero row, at an index. -/
theorem k4_pay1_apply (j : Fin 2048) : k4_pay1 (F := Ideal) (ix2 (0 : Fin 1) j) = 0 := by
  unfold k4_pay1
  show shapeCast S1x2048 (broadcast S1x2048 (Scalar.ofBits (F := Ideal) .f32 0x00000000#32)) shapeCasts_S1x2048_S1x2048 (ix2 (0 : Fin 1) j) = 0
  rw [shapeCast_self]
  exact Ideal.ofBits_zero_f32

/-- The accumulating store's row, at an index: the accumulator's entry plus the column's sum over the block's rows. -/
theorem k4_pay2_apply (xs : FVec Ideal S1x2048 .f32) (x : FVec Ideal S512x2048 .f32) (j : Fin 2048) :
    k4_pay2 (F := Ideal) xs x (ix2 (0 : Fin 1) j) = xs (ix2 (0 : Fin 1) j) + ∑ r : Fin 512, x (ix2 r j) := by
  unfold k4_pay2
  show shapeCast S1x2048 (addf xs (shapeCast S1x2048 (multiReduction .add [0] S2048 (shapeCast S512x2048 x shapeCasts_S512x2048_S512x2048) 0x00000000#32 reduces_S512x2048_S2048 (.inl rfl) rfl) shapeCasts_S2048_S1x2048)) shapeCasts_S1x2048_S1x2048 (ix2 (0 : Fin 1) j) = _
  rw [shapeCast_self, shapeCast_self]
  show xs (ix2 (0 : Fin 1) j) + shapeCast S1x2048 (multiReduction .add [0] S2048 x 0x00000000#32 reduces_S512x2048_S2048 (.inl rfl) rfl) shapeCasts_S2048_S1x2048 (ix2 (0 : Fin 1) j) = _
  congr 1
  refine (shapeCast_addUnit_apply ![2048] _ _ (ix2 (0 : Fin 1) j)).trans ?_
  refine (Ideal.multiReduction_add_single x 0x00000000#32 reduces_S512x2048_S2048 (.inl rfl) rfl _).trans ?_
  refine Finset.sum_congr rfl fun k _ => congrArg x (funext fun a => Fin.ext ?_)
  match a with
  | ⟨0, _⟩ => rfl
  | ⟨1, _⟩ => rfl

/-- The scaled row, at an index. -/
theorem k4_pay3_apply (a : FVec Ideal S1x2048 .f32) (j : Fin 2048) :
    k4_pay3 (F := Ideal) a (ix2 (0 : Fin 1) j) = a (ix2 (0 : Fin 1) j) * Ideal.ofBits .f32 0x3A000000#32 := rfl

/-! ## The accumulator from one point to the next, for any float values -/

section Steps

variable {F : FTy → Type} [FloatOps F]
variable (V : (c : Dev nD) → (b : Ref sig .tc) → Buf (Elt F) ((c : Thread nD τ).loc b))

/-- The input window's block at point `t`, as a 512 × 2048 vector. -/
def blk4 (c : Dev nD) (t : Fin cfg4.N) : Vec F S512x2048 .f32 := iblk4 V c 0 t

/-- At a first row block the accumulator is left at the block's column sums added to the zero row. -/
theorem acc4_first (c : Dev nD) (t : Fin cfg4.N) (h0 : t.val % 4 = 0) :
    (outsAt4 V c t.val t.isLt).2 = k4_pay2 k4_pay1 (blk4 V c t) := by
  have h1 : ¬t.val % 4 = 3 := by omega
  unfold blk4
  rw [outsAt4_A V c t h0 h1]
  dsimp only
  rw [sout4_A_0_eq]

/-- At any other row block it is left at the block's column sums added to what the point before left. -/
theorem acc4_next (c : Dev nD) (t : Fin cfg4.N) (h0 : ¬t.val % 4 = 0) :
    (outsAt4 V c t.val t.isLt).2
      = k4_pay2 (outsAt4 V c (t.val - 1) (Nat.lt_of_le_of_lt (Nat.sub_le _ _) t.isLt)).2 (blk4 V c t) := by
  unfold blk4
  by_cases h1 : t.val % 4 = 3
  · rw [outsAt4_C V c t h0 h1]
    dsimp only
    rw [sout4_C_0_eq]
  · rw [outsAt4_B V c t h0 h1]
    dsimp only
    rw [sout4_B_0_eq]

/-- At a last row block the output row is left at the accumulator, as this point leaves it, scaled. -/
theorem out4_last (c : Dev nD) (t : Fin cfg4.N) (h1 : t.val % 4 = 3) :
    (outsAt4 V c t.val t.isLt).1 = k4_pay3 (outsAt4 V c t.val t.isLt).2 := by
  have h0 : ¬t.val % 4 = 0 := by omega
  rw [outsAt4_C V c t h0 h1]
  dsimp only
  rw [out4_C_1_eq, sout4_C_0_eq]

end Steps

/-! ## The windows' block indices over the grid -/

/-- The input window's block at linear point `t` is (row block `t % 4`, column block `t / 4`). -/
theorem idx4_0 : ∀ t : Fin cfg4.N, win4_0.index t (0 : Fin 2) = t.val % 4 ∧ win4_0.index t (1 : Fin 2) = t.val / 4 :=
  (by decide +kernel : ∀ t : Fin grid4.N, _)

/-- The output window's block at linear point `t` is column block `t / 4` of the one row. -/
theorem idx4_1 : ∀ t : Fin cfg4.N, win4_1.index t (0 : Fin 2) = 0 ∧ win4_1.index t (1 : Fin 2) = t.val / 4 :=
  (by decide +kernel : ∀ t : Fin grid4.N, _)

/-- Consecutive blocks of `m` summed one after another are the sum over the whole range. -/
theorem sum_range_blocks4 {M : Type*} [AddCommMonoid M] (f : ℕ → M) (m : ℕ) : ∀ k : ℕ,
    ∑ s ∈ Finset.range k, ∑ q ∈ Finset.range m, f (m * s + q) = ∑ p ∈ Finset.range (m * k), f p
  | 0 => by simp
  | k + 1 => by rw [Finset.sum_range_succ, sum_range_blocks4 f m k, Nat.mul_succ, Finset.sum_range_add]

/-- Four row blocks of 512 rows are the 2048 rows. -/
theorem sum_blocks4 {M : Type*} [AddCommMonoid M] (f : ℕ → M) :
    ∑ s ∈ Finset.range 4, ∑ q : Fin 512, f (512 * s + q.val) = ∑ p : Fin 2048, f p.val := by
  rw [Fin.sum_univ_eq_sum_range f 2048, show (2048 : ℕ) = 512 * 4 from rfl, ← sum_range_blocks4 f 512 4]
  exact Finset.sum_congr rfl fun s _ => Fin.sum_univ_eq_sum_range (fun q => f (512 * s + q)) 512

/-! ## The column sums -/

section AtIdeal

variable (V : (c : Dev nD) → (b : Ref sig .tc) → Buf (Elt Ideal) ((c : Thread nD τ).loc b))

/-- The input array as the region finds it. -/
def A4 (c : Dev nD) : S2048x20480.Idx → Ideal .f32 := V c main_v1

theorem A4_eq (c : Dev nD) : A4 V c = V c main_v1 := rfl

/-- The same by natural coordinates (zero outside its extent). -/
def X4 (c : Dev nD) (p q : ℕ) : Ideal .f32 :=
  if h : p < 2048 ∧ q < 20480 then A4 V c (ix2 ⟨p, h.1⟩ ⟨q, h.2⟩) else 0

/-- The input window's block at point `t`, entry (r, j), is the array's entry (512 (t % 4) + r, 2048 (t / 4) + j). -/
theorem blk4_apply (c : Dev nD) (t : Fin cfg4.N) (r : Fin 512) (j : Fin 2048) :
    blk4 V c t (ix2 r j) = X4 V c (512 * (t.val % 4) + r.val) (2048 * (t.val / 4) + j.val) := by
  obtain ⟨e0, e1⟩ := idx4_0 t
  have hN : t.val < 40 := lt_of_lt_of_eq t.isLt (show cfg4.N = 40 from N_4)
  have hp : 512 * (t.val % 4) + r.val < 2048 ∧ 2048 * (t.val / 4) + j.val < 20480 := by
    have := r.isLt; have := j.isLt; omega
  unfold X4
  rw [dif_pos hp]
  unfold blk4 iblk4
  rw [View.read_apply]
  unfold A4
  show V c main_v1 _ = V c main_v1 _
  congr 1
  funext a
  apply Fin.ext
  match a with
  | ⟨0, _⟩ => show win4_0.index t (0 : Fin 2) * 512 + 1 * r.val = 512 * (t.val % 4) + r.val; rw [e0]; omega
  | ⟨1, _⟩ => show win4_0.index t (1 : Fin 2) * 2048 + 1 * j.val = 2048 * (t.val / 4) + j.val; rw [e1]; omega

/-- After a first row block the accumulator holds that block's column sums. -/
theorem acc4_eq_first (c : Dev nD) (t : Fin cfg4.N) (h0 : t.val % 4 = 0) (j : Fin 2048) :
    (outsAt4 V c t.val t.isLt).2 (ix2 (0 : Fin 1) j) = ∑ q : Fin 512, X4 V c (512 * 0 + q.val) (2048 * (t.val / 4) + j.val) := by
  refine (congrFun (acc4_first V c t h0) (ix2 (0 : Fin 1) j)).trans ?_
  refine (k4_pay2_apply k4_pay1 (blk4 V c t) j).trans ?_
  rw [k4_pay1_apply, zero_add]
  refine Finset.sum_congr rfl fun q _ => ?_
  rw [blk4_apply V c t q j, h0]

/-- After the point (column block b, row block r) the accumulator holds, column by column, the sum of the array's entries
    over the rows of the row blocks 0 … r. -/
theorem acc4_eq (c : Dev nD) : ∀ (n : ℕ) (h : n < cfg4.N) (j : Fin 2048),
    (outsAt4 V c n h).2 (ix2 (0 : Fin 1) j)
      = ∑ s ∈ Finset.range (n % 4 + 1), ∑ q : Fin 512, X4 V c (512 * s + q.val) (2048 * (n / 4) + j.val) := by
  intro n
  induction n with
  | zero =>
    intro h j
    show _ = ∑ s ∈ Finset.range 1, ∑ q : Fin 512, X4 V c (512 * s + q.val) (2048 * (0 / 4) + j.val)
    rw [Finset.sum_range_one]
    exact acc4_eq_first V c ⟨0, h⟩ rfl j
  | succ m ih =>
    intro h j
    by_cases h0 : (m + 1) % 4 = 0
    · rw [h0, Nat.zero_add, Finset.sum_range_one]
      exact acc4_eq_first V c ⟨m + 1, h⟩ h0 j
    · have e1 : (m + 1) % 4 = m % 4 + 1 := by omega
      have e2 : (m + 1) / 4 = m / 4 := by omega
      rw [e1, e2, Finset.sum_range_succ, ← ih (Nat.lt_of_succ_lt h) j]
      refine (congrFun (acc4_next V c ⟨m + 1, h⟩ h0) (ix2 (0 : Fin 1) j)).trans ?_
      refine (k4_pay2_apply _ (blk4 V c ⟨m + 1, h⟩) j).trans ?_
      congr 1
      refine Finset.sum_congr rfl fun q _ => ?_
      rw [blk4_apply V c ⟨m + 1, h⟩ q j]
      show X4 V c (512 * ((m + 1) % 4) + q.val) (2048 * ((m + 1) / 4) + j.val) = _
      rw [e1, e2]

/-! ## The output array -/

/-- The column sums over all 2048 rows, scaled: what the output array ends holding. -/
def G4 (c : Dev nD) : S1x20480.Idx → Ideal .f32 :=
  fun i => (∑ p : Fin 2048, X4 V c p.val (i 1).val) * Ideal.ofBits .f32 0x3A000000#32

/-- What a last row block writes back is its block of those scaled column sums. -/
theorem flushed4_eq (c : Dev nD) (t : Fin cfg4.N) (hf : (cfg4.win 1).flush t = true) :
    (dat4 V c).flushed 1 t = ((cfg4.win 1).blk t).view.read (Elt Ideal) (G4 V c) := by
  have h3 : t.val % 4 = 3 := (flush4_1 t).mp hf
  obtain ⟨e0, e1⟩ := idx4_1 t
  show (cfg4.win 1).cut (grid4.coords t) ((dat4 V c).after 1 t) = _
  rw [after4_1]
  refine funext fun (y : S1x2048.Idx) => ?_
  obtain ⟨a, j, rfl⟩ : ∃ (a : Fin 1) (j : Fin 2048), y = ix2 a j := ⟨y 0, y 1, eq_ix2 y⟩
  obtain rfl : a = 0 := Subsingleton.elim _ _
  rw [View.read_apply]
  show (outsAt4 V c t.val t.isLt).1 (ix2 (0 : Fin 1) j) = G4 V c _
  rw [out4_last V c t h3]
  refine (k4_pay3_apply _ j).trans ?_
  rw [acc4_eq V c t.val t.isLt j, h3]
  unfold G4
  congr 1
  rw [sum_blocks4 (fun p => X4 V c p (2048 * (t.val / 4) + j.val))]
  refine Finset.sum_congr rfl fun p _ => ?_
  congr 1
  show 2048 * (t.val / 4) + j.val = win4_1.index t (1 : Fin 2) * 2048 + 1 * j.val
  rw [e1]; omega

/-- An index of the output array is in point `t`'s block iff each coordinate is in the block's range on its axis. -/
theorem mem_blk4_1 (t : Fin cfg4.N) (i : S1x20480.Idx) :
    i ∈ ((cfg4.win 1).blk t).view.set ↔ ∀ a : Fin 2, win4_1.index t a * S1x2048.size a ≤ (i a).val ∧ (i a).val < win4_1.index t a * S1x2048.size a + S1x2048.size a := by
  show i ∈ ((View.whole main_v26).slice (win4_1.rect t)).set ↔ _
  rw [View.set_slice_whole, Rect.mem_set_unit]
  exact Iff.rfl

/-- The output array after the region: the last row block of column block `n / 2048` covers column `n`. -/
theorem arrAt4_eq (c : Dev nD) : (dat4 V c).arrAt 1 cfg4.N = G4 V c :=
  (dat4 V c).arrAt_eq_of_cover 1 (G4 V c) (flushed4_eq V c) fun (i : S1x20480.Idx) => by
    have hi0 : (i 0).val < 1 := idx2_lt0 i
    have hi1 : (i 1).val < 20480 := idx2_lt1 i
    have ht : 4 * ((i 1).val / 2048) + 3 < cfg4.N := by rw [show cfg4.N = 40 from N_4]; omega
    refine ⟨⟨4 * ((i 1).val / 2048) + 3, ht⟩, (flush4_1 _).mpr (by show (4 * ((i 1).val / 2048) + 3) % 4 = 3; omega), ?_⟩
    rw [mem_blk4_1]
    obtain ⟨e0, e1⟩ := idx4_1 ⟨4 * ((i 1).val / 2048) + 3, ht⟩
    intro a
    match a with
    | ⟨0, _⟩ =>
      show win4_1.index ⟨4 * ((i 1).val / 2048) + 3, ht⟩ (0 : Fin 2) * 1 ≤ (i 0).val ∧ (i 0).val < win4_1.index ⟨4 * ((i 1).val / 2048) + 3, ht⟩ (0 : Fin 2) * 1 + 1
      rw [e0]; omega
    | ⟨1, _⟩ =>
      show win4_1.index ⟨4 * ((i 1).val / 2048) + 3, ht⟩ (1 : Fin 2) * 2048 ≤ (i 1).val ∧ (i 1).val < win4_1.index ⟨4 * ((i 1).val / 2048) + 3, ht⟩ (1 : Fin 2) * 2048 + 2048
      rw [e1]; dsimp only; omega

/-- The value of region 4: the output array's entry at column `n` is the sum of the input array's column `n` over its 2048
    rows, times the constant the kernel scales by. -/
theorem G4_apply (c : Dev nD) (n : Fin 20480) :
    G4 V c (ix2 (0 : Fin 1) n) = (∑ i : Fin 2048, A4 V c (ix2 i n)) * Ideal.ofBits .f32 0x3A000000#32 := by
  unfold G4
  congr 1
  refine Finset.sum_congr rfl fun p _ => ?_
  unfold X4
  rw [dif_pos ⟨p.isLt, n.isLt⟩]

theorem arrAt4_out (c : Dev nD) (n : Fin 20480) :
    (dat4 V c).arrAt 1 cfg4.N (ix2 (0 : Fin 1) n) = (∑ i : Fin 2048, A4 V c (ix2 i n)) * Ideal.ofBits .f32 0x3A000000#32 :=
  (congrFun (arrAt4_eq V c) (ix2 (0 : Fin 1) n)).trans (G4_apply V c n)

end AtIdeal

end Cert.KernelIdeal.Hand

end
-- ==== Proof.KI.Host34.lean ====
/- The two remaining results at the exact-real instance, tied to the arguments and to the specification: the popularity
   is the column-mean region's output row, sliced to the true items and its unit axis dropped, and that row is the
   scaled column sums of the padded input matrix, whose padding is zero; the similarity matrix is the similarity region's
   output array, zero minus the inner products of the unit-length rows of the embedding. Between the regions no segment
   writes the arrays these regions read. -/
import proofs.«175587_j47510928228669_1_alg».proof.Proof.KI.Host0
import proofs.«175587_j47510928228669_1_alg».proof.Proof.KI.Val3
import proofs.«175587_j47510928228669_1_alg».proof.Proof.KI.Val4
import proofs.«175587_j47510928228669_1_alg».proof.Proof.BridgeLaws
import Idealize.ShloMosaic.Lib.KernelVsHost
import Idealize.ShloMosaic.Lib.Pipeline.Value
import Idealize.ShloMosaic.Lib.ValueLayout
import Idealize.ShloMosaic.Lib.ValueIdx
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.ValueIdx
open Idealize.ShloMosaic.Pipeline (Dat)

variable (m : (ℓ : Loc nD τ sig) → Buf (Elt Ideal) ℓ)

/-! ## The popularity -/

/-- No segment between the encoder's region and the column-mean region writes the padded input matrix. -/
theorem W20_v1 (c : Dev nD) : W20 (F := Ideal) m c main_v1 = W7 m c main_v1 :=
  (W20_of_ne m c main_v1 (by decide)).trans <|
  (StableHlo.after_of_writes_sub hostOps3 _ hostOps3_writes (by decide)).trans <|
  (W18_of_ne m c main_v1 (by decide)).trans <|
  (StableHlo.after_of_writes_sub hostOps2_3 _ hostOps2_3_writes (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W13_of_ne m c main_v1 (by decide)).trans <|
  (StableHlo.after_of_writes_sub hostOps1_3 _ hostOps1_3_writes (by decide)).trans <|
  (StableHlo.after_of_writes_sub hostOps1_2 _ hostOps1_2_writes (by decide)).trans <|
  (StableHlo.after_of_writes_sub hostOps1_1 _ hostOps1_1_writes (by decide)).trans <|
  (StableHlo.after_of_writes_sub hostOps1 _ hostOps1_writes (by decide)).trans <|
  (W8_of_ne m c main_v1 (by decide))

/-- The popularity result at item `n` is the column-mean region's output row at column `n`: the host slices the row's
    first 20000 columns and drops the unit axis. -/
theorem W22_v28_apply (c : Dev nD) (n : Fin 20000) :
    (W22 (F := Ideal) m c main_v28 : S20000.Idx → EReal) (ix1 n)
      = (dat4 (F := Ideal) (Vr (W20 m)) c).arrAt 1 cfg4.N (ix2 (0 : Fin 1) ⟨n.val, by omega⟩) := by
  have e : (W22 (F := Ideal) m c main_v28 : S20000.Idx → EReal)
      = shapeCast S20000 (extractStridedSlice S1x20000 ![0, 0] (W21 (F := Ideal) m c main_v26 : S1x20480.Idx → EReal) slices_S1x20480_S1x20000_0_0) shapeCasts_S1x20000_S20000 := by
    show StableHlo.after hostOps5 (W21 m c) main_v28 = _
    after_results
    rfl
  rw [e]
  refine (shapeCast_dropUnit_apply ![20000] _ _ (ix1 n)).trans ?_
  refine (extractStridedSlice_apply ![0, 0] _ slices_S1x20480_S1x20000_0_0 _ (ix2 (0 : Fin 1) ⟨n.val, by omega⟩) fun a => ?_).trans ?_
  · match a with
    | ⟨0, _⟩ => rfl
    | ⟨1, _⟩ => exact (Nat.zero_add n.val).symm
  · exact congrFun (W21_out m c) _

/-- The popularity result at item `n` is the specification's: the mean of the item's column of likes over the batch. -/
theorem W22_v28_spec (c : Dev nD) (n : Fin 20000) :
    (W22 (F := Ideal) m c main_v28 : S20000.Idx → EReal) (ix1 n) = Cert.RefSpec.Spec.popular (argLikes m c) n := by
  rw [W22_v28_apply]
  refine (arrAt4_out (Vr (W20 (F := Ideal) m)) c ⟨n.val, by omega⟩).trans ?_
  have hA : A4 (Vr (W20 (F := Ideal) m)) c = (W7 (F := Ideal) m c main_v1 : S2048x20480.Idx → EReal) := W20_v1 m c
  rw [hA]
  exact Cert.RefSpec.popular_bridge (argLikes m c) (W7 (F := Ideal) m c main_v1 : S2048x20480.Idx → EReal) (W7_v1_apply m c) n

theorem W22_v28_eq (c : Dev nD) :
    (W22 (F := Ideal) m c main_v28 : S20000.Idx → EReal) = fun i => Cert.RefSpec.Spec.popular (argLikes m c) (i 0) := by
  funext i
  obtain ⟨a, rfl⟩ : ∃ a : Fin 20000, i = ix1 a := ⟨i 0, eq_ix1 i⟩
  exact W22_v28_spec m c a

/-! ## The similarity matrix -/

/-- No segment between the encoder's region and the similarity region writes the embedding. -/
theorem W19_v8 (c : Dev nD) : W19 (F := Ideal) m c main_v8 = W8 m c main_v8 :=
  (StableHlo.after_of_writes_sub hostOps3 _ hostOps3_writes (by decide)).trans <|
  (W18_of_ne m c main_v8 (by decide)).trans <|
  (StableHlo.after_of_writes_sub hostOps2_3 _ hostOps2_3_writes (by decide)).trans <|
  (StableHlo.after_of_writes_sub hostOps2_2 _ hostOps2_2_writes (by decide)).trans <|
  (StableHlo.after_of_writes_sub hostOps2_1 _ hostOps2_1_writes (by decide)).trans <|
  (StableHlo.after_of_writes_sub hostOps2 _ hostOps2_writes (by decide)).trans <|
  (W13_of_ne m c main_v8 (by decide)).trans <|
  (StableHlo.after_of_writes_sub hostOps1_3 _ hostOps1_3_writes (by decide)).trans <|
  (StableHlo.after_of_writes_sub hostOps1_2 _ hostOps1_2_writes (by decide)).trans <|
  (StableHlo.after_of_writes_sub hostOps1_1 _ hostOps1_1_writes (by decide)).trans <|
  (StableHlo.after_of_writes_sub hostOps1 _ hostOps1_writes (by decide))

/-- The similarity result is the similarity region's output array: nothing after that region writes it. -/
theorem W22_v25_out (c : Dev nD) : W22 (F := Ideal) m c main_v25 = (dat3 (F := Ideal) (Vr3 (W19 m)) c).arrAt 2 cfg3.N :=
  (StableHlo.after_of_writes_sub hostOps5 _ hostOps5_writes (by decide)).trans <|
  (W21_of_ne m c main_v25 (by decide)).trans (W20_out m c)

theorem W22_v25_apply (c : Dev nD) (i i' : Fin 2048) :
    (W22 (F := Ideal) m c main_v25 : S2048x2048.Idx → EReal) (ix2 i i') = (dat3 (F := Ideal) (Vr3 (W19 m)) c).arrAt 2 cfg3.N (ix2 i i') :=
  congrFun (W22_v25_out m c) (ix2 i i')

/-- The similarity result at `(i, i')` is the specification's similarity of any matrix `E` the embedding array holds. -/
theorem W22_v25_spec (c : Dev nD) (E : Fin 2048 → Fin 512 → EReal)
    (hE : ∀ (i : Fin 2048) (d : Fin 512), (W8 (F := Ideal) m c main_v8 : S2048x512.Idx → EReal) (ix2 i d) = E i d) (i i' : Fin 2048) :
    (W22 (F := Ideal) m c main_v25 : S2048x2048.Idx → EReal) (ix2 i i') = Cert.RefSpec.Spec.sim E i i' := by
  rw [W22_v25_apply]
  refine (arrAt3_out (Vr3 (W19 (F := Ideal) m)) c i i').trans ?_
  have hV : ∀ (r : Fin 2048) (d : Fin 512), (Vr3 (W19 (F := Ideal) m) c main_v8 : S2048x512.Idx → EReal) (ix2 r d) = E r d := fun r d => by
    rw [← hE r d]; exact congrFun (W19_v8 m c) (ix2 r d)
  refine Eq.trans ?_ (Cert.RefSpec.sim_bridge' E i i')
  refine congrArg (fun s => 0 - s) (Finset.sum_congr rfl fun d _ => ?_)
  unfold rowNorm
  simp only [hV]

theorem W22_v25_eq (c : Dev nD) (E : Fin 2048 → Fin 512 → EReal)
    (hE : ∀ (i : Fin 2048) (d : Fin 512), (W8 (F := Ideal) m c main_v8 : S2048x512.Idx → EReal) (ix2 i d) = E i d) :
    (W22 (F := Ideal) m c main_v25 : S2048x2048.Idx → EReal) = fun i => Cert.RefSpec.Spec.sim E (i 0) (i 1) := by
  funext i
  obtain ⟨a, b, rfl⟩ : ∃ (a b : Fin 2048), i = ix2 a b := ⟨i 0, i 1, eq_ix2 i⟩
  exact W22_v25_spec m c E hE a b

end Cert.KernelIdeal.Hand

end
-- ==== Proof.KI.Val1.Pieces.lean ====
import proofs.«175587_j47510928228669_1_alg».proof.Proof.KI.Reg1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what each control case's stores leave, as the payloads of the input blocks -/

/-- The zero offset of a two-axis block. -/
theorem hzero1 : (![0, 0] : Fin 2 → Nat) = fun _ => 0 := funext fun a => by fin_cases a <;> rfl

/-- CASE A leaves in the scratch the hidden layer of the point's first three input blocks. -/
theorem sout1_A_0_eq (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond1_0 i)
    (x0 : Vec F S512x512 .f32) (x1 : Vec F S512x1024 .bf16) (x2 : Vec F S1x1024 .f32) (x3 : Vec F S1024x2048 .bf16) (x4 : Vec F S1x2048 .f32) :
    sout1_A_0 c i arg2 harg2 arg3 harg3 arg4 harg4 arg5 harg5 arg6 harg6 arg7 harg7 arg8 harg8 hc0 x0 x1 x2 x3 x4 = k1_pay1 x0 x1 x2 := by
  unfold sout1_A_0
  rw [View.read_writes_eq_canon _ _ _ (scover1_A_0 c i arg2 harg2 arg3 harg3 arg4 harg4 arg5 harg5 arg6 harg6 arg7 harg7 arg8 harg8 hc0 x0 x1 x2 x3 x4)]
  unfold kernelRun1_A
  dsimp only
  sl_unfold_words
  rw [View.canon_unit_zero (S := S512x1024) hzero1]
  simp only [View.readAt_eq_ld, harg2.read_unread, harg3.read_unread, harg4.read_unread, View.ld_unit_zero (S := S512x512) hzero1, View.ld_unit_zero (S := S512x1024) hzero1, View.ld_unit_zero (S := S1x1024) hzero1]

/-- CASE A leaves in the output's buffer the second layer applied to that hidden layer (stored into the scratch and
    read back) and the last two input blocks. -/
theorem out1_A_5_eq (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond1_0 i)
    (x0 : Vec F S512x512 .f32) (x1 : Vec F S512x1024 .bf16) (x2 : Vec F S1x1024 .f32) (x3 : Vec F S1024x2048 .bf16) (x4 : Vec F S1x2048 .f32) :
    out1_A_5 c i arg2 harg2 arg3 harg3 arg4 harg4 arg5 harg5 arg6 harg6 arg7 harg7 arg8 harg8 hc0 x0 x1 x2 x3 x4 = k1_pay2 (k1_pay1 x0 x1 x2) x3 x4 := by
  unfold out1_A_5
  rw [View.read_writes_eq_canon _ _ _ (cover1_A_5 c i arg2 harg2 arg3 harg3 arg4 harg4 arg5 harg5 arg6 harg6 arg7 harg7 arg8 harg8 hc0 x0 x1 x2 x3 x4)]
  unfold kernelRun1_A
  dsimp only
  sl_unfold_words
  rw [View.canon_unit_zero (S := S512x2048) hzero1, View.readCov_unit_zero (S := S512x1024) _ hzero1]
  simp only [View.readAt_eq_ld, harg2.read_unread, harg3.read_unread, harg4.read_unread, harg5.read_unread, harg6.read_unread, View.ld_unit_zero (S := S512x512) hzero1, View.ld_unit_zero (S := S512x1024) hzero1, View.ld_unit_zero (S := S1x1024) hzero1, View.ld_unit_zero (S := S1024x2048) hzero1, View.ld_unit_zero (S := S1x2048) hzero1]

/-- CASE B leaves in the output's buffer the second layer applied to the scratch as found and the last two input blocks. -/
theorem out1_B_5_eq (c : Dev nD) (i : grid1.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : ¬cond1_0 i)
    (x0 : Vec F S512x512 .f32) (x1 : Vec F S512x1024 .bf16) (x2 : Vec F S1x1024 .f32) (x3 : Vec F S1024x2048 .bf16) (x4 : Vec F S1x2048 .f32) (xs0 : Vec F S512x1024 .bf16) :
    out1_B_5 c i arg2 harg2 arg3 harg3 arg4 harg4 arg5 harg5 arg6 harg6 arg7 harg7 arg8 harg8 hc0 x0 x1 x2 x3 x4 xs0 = k1_pay2 xs0 x3 x4 := by
  unfold out1_B_5
  rw [View.read_writes_eq_canon _ _ _ (cover1_B_5 c i arg2 harg2 arg3 harg3 arg4 harg4 arg5 harg5 arg6 harg6 arg7 harg7 arg8 harg8 hc0 x0 x1 x2 x3 x4 xs0)]
  unfold kernelRun1_B
  dsimp only
  try sl_unfold_words
  rw [View.canon_unit_zero (S := S512x2048) hzero1]
  simp only [View.readAt_eq_ld, harg5.read_unread, harg6.read_unread, harg8.read_unread, View.ld_unit_zero (S := S512x1024) hzero1, View.ld_unit_zero (S := S1024x2048) hzero1, View.ld_unit_zero (S := S1x2048) hzero1]

/-- At every point the output's buffer ends as the second layer applied to what the scratch ends holding and the
    point's last two input blocks; where the second grid coordinate is zero the scratch ends as the hidden layer of the
    point's first three input blocks, elsewhere as the point before left it. -/
theorem outsAt1_fst (c : Dev nD) (t : Fin cfg1.N) :
    (outsAt1 V c t.val t.isLt).1 = k1_pay2 (outsAt1 V c t.val t.isLt).2 (iblk1 V c 3 t) (iblk1 V c 4 t) := by
  by_cases h0 : t.val % 10 = 0
  · rw [outsAt1_A V c t h0]
    dsimp only
    rw [out1_A_5_eq, sout1_A_0_eq]
  · rw [outsAt1_B V c t h0]
    dsimp only
    rw [out1_B_5_eq]

theorem outsAt1_snd_A (c : Dev nD) (t : Fin cfg1.N) (h0 : t.val % 10 = 0) :
    (outsAt1 V c t.val t.isLt).2 = k1_pay1 (iblk1 V c 0 t) (iblk1 V c 1 t) (iblk1 V c 2 t) := by
  rw [outsAt1_A V c t h0]
  dsimp only
  rw [sout1_A_0_eq]

theorem outsAt1_snd_B (c : Dev nD) (t : Fin cfg1.N) (h0 : ¬t.val % 10 = 0) :
    (outsAt1 V c t.val t.isLt).2 = (outsAt1 V c (t.val - 1) (Nat.lt_of_le_of_lt (Nat.sub_le _ _) t.isLt)).2 := by
  rw [outsAt1_B V c t h0]

end Cert.KernelIdeal.Hand

end
-- ==== Proof.KI.Val1.Pay.lean ====
import proofs.«175587_j47510928228669_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! # The head kernel's two payloads read at an index, over the extended reals

Over the extended reals every float operation is exact and a change of float format is the identity, so the hidden
layer at row `r`, column `j` is `max (∑ d, x r d · w d j + b j) 0` and the output at row `r`, column `q` is the
logistic of `∑ j, h r j · w' j q + b' q`. -/

theorem mmA1_lhs0 (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem mmA1_lhs1 (i : S512x1024.Idx) (q : dot_S512x512_S512x1024_S512x1024_1_0_0_1_n_n.contr.Idx) : (dot_S512x512_S512x1024_S512x1024_1_0_0_1_n_n.lhsIdx i q 1).val = (q ⟨0, by decide⟩).val :=
  dot_S512x512_S512x1024_S512x1024_1_0_0_1_n_n.lhsIdx_val_of_single rfl i q
theorem mmA1_rhs0 (i : S512x1024.Idx) (q : dot_S512x512_S512x1024_S512x1024_1_0_0_1_n_n.contr.Idx) : (dot_S512x512_S512x1024_S512x1024_1_0_0_1_n_n.rhsIdx i q 0).val = (q ⟨0, by decide⟩).val :=
  dot_S512x512_S512x1024_S512x1024_1_0_0_1_n_n.rhsIdx_val_of_single rfl i q
theorem mmA1_rhs1 (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The matrix product into the zero accumulator, read at row `r` and column `q`: the sum over the contracted axis of
    the products of the left operand's row and the right operand's column. -/
theorem mmA1_apply (a : FVec Ideal S512x512 .bf16) (b : FVec Ideal S512x1024 .bf16) (r : Fin 512) (q : Fin 1024) :
    matmul dot_S512x512_S512x1024_S512x1024_1_0_0_1_n_n none a b (constant S512x1024 .f32 0x00000000#32) (ix2 r q) = ∑ k : Fin 512, a (ix2 r k) * b (ix2 k q) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r q) ((contrEquiv1 dot_S512x512_S512x1024_S512x1024_1_0_0_1_n_n 512 rfl rfl).symm k) = ix2 r k := funext fun a => Fin.ext (by
    match a with
    | ⟨0, _⟩ => exact mmA1_lhs0 _ _
    | ⟨1, _⟩ => exact (mmA1_lhs1 _ _).trans hk)
  have er : dot_S512x512_S512x1024_S512x1024_1_0_0_1_n_n.rhsIdx (ix2 r q) ((contrEquiv1 dot_S512x512_S512x1024_S512x1024_1_0_0_1_n_n 512 rfl rfl).symm k) = ix2 k q := funext fun a => Fin.ext (by
    match a with
    | ⟨0, _⟩ => exact (mmA1_rhs0 _ _).trans hk
    | ⟨1, _⟩ => exact mmA1_rhs1 _ _)
  rw [el, er]

theorem mmB1_lhs0 (i : S512x2048.Idx) (q : dot_S512x1024_S1024x2048_S512x2048_1_0_0_1_n_n.contr.Idx) : (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem mmB1_lhs1 (i : S512x2048.Idx) (q : dot_S512x1024_S1024x2048_S512x2048_1_0_0_1_n_n.contr.Idx) : (dot_S512x1024_S1024x2048_S512x2048_1_0_0_1_n_n.lhsIdx i q 1).val = (q ⟨0, by decide⟩).val :=
  dot_S512x1024_S1024x2048_S512x2048_1_0_0_1_n_n.lhsIdx_val_of_single rfl i q
theorem mmB1_rhs0 (i : S512x2048.Idx) (q : dot_S512x1024_S1024x2048_S512x2048_1_0_0_1_n_n.contr.Idx) : (dot_S512x1024_S1024x2048_S512x2048_1_0_0_1_n_n.rhsIdx i q 0).val = (q ⟨0, by decide⟩).val :=
  dot_S512x1024_S1024x2048_S512x2048_1_0_0_1_n_n.rhsIdx_val_of_single rfl i q
theorem mmB1_rhs1 (i : S512x2048.Idx) (q : dot_S512x1024_S1024x2048_S512x2048_1_0_0_1_n_n.contr.Idx) : (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- The matrix product into the zero accumulator, read at row `r` and column `q`: the sum over the contracted axis of
    the products of the left operand's row and the right operand's column. -/
theorem mmB1_apply (a : FVec Ideal S512x1024 .bf16) (b : FVec Ideal S1024x2048 .bf16) (r : Fin 512) (q : Fin 2048) :
    matmul dot_S512x1024_S1024x2048_S512x2048_1_0_0_1_n_n none a b (constant S512x2048 .f32 0x00000000#32) (ix2 r q) = ∑ k : Fin 1024, a (ix2 r k) * b (ix2 k q) := by
  simp only [matmul]
  rw [Ideal.matmul_constant_zero_apply, ← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 r q) ((contrEquiv1 dot_S512x1024_S1024x2048_S512x2048_1_0_0_1_n_n 1024 rfl rfl).symm k) = ix2 r k := funext fun a => Fin.ext (by
    match a with
    | ⟨0, _⟩ => exact mmB1_lhs0 _ _
    | ⟨1, _⟩ => exact (mmB1_lhs1 _ _).trans hk)
  have er : dot_S512x1024_S1024x2048_S512x2048_1_0_0_1_n_n.rhsIdx (ix2 r q) ((contrEquiv1 dot_S512x1024_S1024x2048_S512x2048_1_0_0_1_n_n 1024 rfl rfl).symm k) = ix2 k q := funext fun a => Fin.ext (by
    match a with
    | ⟨0, _⟩ => exact (mmB1_rhs0 _ _).trans hk
    | ⟨1, _⟩ => exact mmB1_rhs1 _ _)
  rw [el, er]

/-- A row vector broadcast down the rows reads, at row `r` and column `j`, its entry `j`. -/
theorem rowA1_apply (x : Vec Ideal S1x1024 .f32) (r : Fin 512) (j : Fin 1024) :
    broadcastTo S512x1024 x broadcasts_S1x1024_S512x1024 (ix2 r j) = x (ix2 (0 : Fin 1) j) :=
  broadcastTo_apply x _ (ix2 r j) (ix2 (0 : Fin 1) j) (fun a => by
    match a with
    | ⟨0, _⟩ => rfl
    | ⟨1, _⟩ => rfl)

theorem rowB1_apply (x : Vec Ideal S1x2048 .f32) (r : Fin 512) (q : Fin 2048) :
    broadcastTo S512x2048 x broadcasts_S1x2048_S512x2048 (ix2 r q) = x (ix2 (0 : Fin 1) q) :=
  broadcastTo_apply x _ (ix2 r q) (ix2 (0 : Fin 1) q) (fun a => by
    match a with
    | ⟨0, _⟩ => rfl
    | ⟨1, _⟩ => rfl)

/-- The hidden layer at row `r`, column `j`. -/
theorem payH_apply1 (x0 : Vec Ideal S512x512 .f32) (x1 : Vec Ideal S512x1024 .bf16) (x2 : Vec Ideal S1x1024 .f32) (r : Fin 512) (j : Fin 1024) :
    k1_pay1 (F := Ideal) x0 x1 x2 (ix2 r j) = max ((∑ d : Fin 512, x0 (ix2 r d) * x1 (ix2 d j)) + x2 (ix2 (0 : Fin 1) j)) 0 := by
  unfold k1_pay1
  simp only [shapeCast_self]
  exact congrArg₂ max (congrArg₂ (· + ·) (mmA1_apply _ _ r j) (rowA1_apply x2 r j)) Ideal.ofBits_zero_f32

/-- The output at row `r`, column `q`, from the hidden layer `s`. -/
theorem payO_apply1 (s : Vec Ideal S512x1024 .bf16) (x3 : Vec Ideal S1024x2048 .bf16) (x4 : Vec Ideal S1x2048 .f32) (r : Fin 512) (q : Fin 2048) :
    k1_pay2 (F := Ideal) s x3 x4 (ix2 r q) = Ideal.logistic ((∑ j : Fin 1024, s (ix2 r j) * x3 (ix2 j q)) + x4 (ix2 (0 : Fin 1) q)) := by
  unfold k1_pay2
  simp only [shapeCast_self]
  exact congrArg Ideal.logistic (congrArg₂ (· + ·) (mmB1_apply _ _ r q) (rowB1_apply x4 r q))

end Cert.KernelIdeal.Hand

end
-- ==== Proof.KI.Val1.lean ====
import proofs.«175587_j47510928228669_1_alg».proof.Proof.KI.Val1.Pieces
import proofs.«175587_j47510928228669_1_alg».proof.Proof.KI.Val1.Pay

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-! # Region 1 over the extended reals: the array the head kernel writes

The grid is 4 row blocks by 10 column blocks, point `t = 10 b + s`. At `s = 0` the scratch becomes the hidden layer
of row block `b`, `h i j = max (∑ d, e i d · w d j + β j) 0`, and it stays so through the row of the grid; every
point writes back the block `(b, s)` of `logistic (∑ j, h i j · w' j n + β' n)`. The blocks tile the array. -/

/-- The region's five input arrays as the region finds them, as functions of literal index types. -/
abbrev arr1_0 (c : Dev nD) : S2048x512.Idx → EReal := V c main_v8
abbrev arr1_1 (c : Dev nD) : S512x1024.Idx → EReal := V c main_v9
abbrev arr1_2 (c : Dev nD) : S1x1024.Idx → EReal := V c main_v12
abbrev arr1_3 (c : Dev nD) : S1024x20480.Idx → EReal := V c main_v11
abbrev arr1_4 (c : Dev nD) : S1x20480.Idx → EReal := V c main_v14

/-- The hidden layer at row `i`, column `j`, from the region's input arrays. -/
def hid1 (c : Dev nD) (i : Fin 2048) (j : Fin 1024) : EReal :=
  max ((∑ d : Fin 512, arr1_0 V c (ix2 i d) * arr1_1 V c (ix2 d j)) + arr1_2 V c (ix2 (0 : Fin 1) j)) 0

/-- The output at row `i`, column `n`. -/
def out1 (c : Dev nD) (i : Fin 2048) (n : Fin 20480) : EReal :=
  Ideal.logistic ((∑ j : Fin 1024, hid1 V c i j * arr1_3 V c (ix2 j n)) + arr1_4 V c (ix2 (0 : Fin 1) n))

/-- The output array as one function of its index. -/
def G1 (c : Dev nD) : S2048x20480.Idx → EReal := fun y => out1 V c ⟨(y 0).val, (y 0).isLt⟩ ⟨(y 1).val, (y 1).isLt⟩

/-- The windows' block indices at point `t`: the row block is `t / 10`, the column block `t % 10` — decided over the grid. -/
theorem idx_facts1 : ∀ t : Fin cfg1.N,
    win1_0.index t (0 : Fin 2) = t.val / 10 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = t.val % 10
    ∧ win1_4.index t (0 : Fin 2) = 0 ∧ win1_4.index t (1 : Fin 2) = t.val % 10
    ∧ win1_5.index t (0 : Fin 2) = t.val / 10 ∧ win1_5.index t (1 : Fin 2) = t.val % 10 :=
  (by decide +kernel : ∀ t : Fin grid1.N, _)

/-! ## The input blocks as entries of the arrays -/

/-- Window 0's block at `t` is rows `512 (t / 10) …` of the first array. -/
theorem iblk1_0_apply (c : Dev nD) (t : Fin cfg1.N) (r : Fin 512) (d : Fin 512) (k : Fin 2048) (hk : k.val = 512 * (t.val / 10) + r.val) :
    (iblk1 V c 0 t : Vec Ideal S512x512 .f32) (ix2 r d) = arr1_0 V c (ix2 k d) := by
  obtain ⟨e00, e01, e10, e11, e20, e21, e30, e31, e40, e41, e50, e51⟩ := idx_facts1 t
  unfold iblk1
  rw [View.read_apply]
  show V c main_v8 _ = V c main_v8 _
  congr 1
  funext a
  apply Fin.ext
  match a with
  | ⟨0, _⟩ => show win1_0.index t 0 * 512 + 1 * r.val = k.val; rw [e00, hk]; omega
  | ⟨1, _⟩ => show win1_0.index t 1 * 512 + 1 * d.val = d.val; rw [e01]; omega

/-- Window 1's block is the whole second array. -/
theorem iblk1_1_apply (c : Dev nD) (t : Fin cfg1.N) (d : Fin 512) (j : Fin 1024) :
    (iblk1 V c 1 t : Vec Ideal S512x1024 .bf16) (ix2 d j) = arr1_1 V c (ix2 d j) := by
  obtain ⟨e00, e01, e10, e11, e20, e21, e30, e31, e40, e41, e50, e51⟩ := idx_facts1 t
  unfold iblk1
  rw [View.read_apply]
  show V c main_v9 _ = V c main_v9 _
  congr 1
  funext a
  apply Fin.ext
  match a with
  | ⟨0, _⟩ => show win1_1.index t 0 * 512 + 1 * d.val = d.val; rw [e10]; omega
  | ⟨1, _⟩ => show win1_1.index t 1 * 1024 + 1 * j.val = j.val; rw [e11]; omega

/-- Window 2's block is the whole third array. -/
theorem iblk1_2_apply (c : Dev nD) (t : Fin cfg1.N) (j : Fin 1024) :
    (iblk1 V c 2 t : Vec Ideal S1x1024 .f32) (ix2 (0 : Fin 1) j) = arr1_2 V c (ix2 (0 : Fin 1) j) := by
  obtain ⟨e00, e01, e10, e11, e20, e21, e30, e31, e40, e41, e50, e51⟩ := idx_facts1 t
  unfold iblk1
  rw [View.read_apply]
  show V c main_v12 _ = V c main_v12 _
  congr 1
  funext a
  apply Fin.ext
  match a with
  | ⟨0, _⟩ => show win1_2.index t 0 * 1 + 1 * 0 = 0; rw [e20]
  | ⟨1, _⟩ => show win1_2.index t 1 * 1024 + 1 * j.val = j.val; rw [e21]; omega

/-- Window 3's block at `t` is columns `2048 (t % 10) …` of the fourth array. -/
theorem iblk1_3_apply (c : Dev nD) (t : Fin cfg1.N) (j : Fin 1024) (q : Fin 2048) (l : Fin 20480) (hl : l.val = 2048 * (t.val % 10) + q.val) :
    (iblk1 V c 3 t : Vec Ideal S1024x2048 .bf16) (ix2 j q) = arr1_3 V c (ix2 j l) := by
  obtain ⟨e00, e01, e10, e11, e20, e21, e30, e31, e40, e41, e50, e51⟩ := idx_facts1 t
  unfold iblk1
  rw [View.read_apply]
  show V c main_v11 _ = V c main_v11 _
  congr 1
  funext a
  apply Fin.ext
  match a with
  | ⟨0, _⟩ => show win1_3.index t 0 * 1024 + 1 * j.val = j.val; rw [e30]; omega
  | ⟨1, _⟩ => show win1_3.index t 1 * 2048 + 1 * q.val = l.val; rw [e31, hl]; omega

/-- Window 4's block at `t` is columns `2048 (t % 10) …` of the fifth array. -/
theorem iblk1_4_apply (c : Dev nD) (t : Fin cfg1.N) (q : Fin 2048) (l : Fin 20480) (hl : l.val = 2048 * (t.val % 10) + q.val) :
    (iblk1 V c 4 t : Vec Ideal S1x2048 .f32) (ix2 (0 : Fin 1) q) = arr1_4 V c (ix2 (0 : Fin 1) l) := by
  obtain ⟨e00, e01, e10, e11, e20, e21, e30, e31, e40, e41, e50, e51⟩ := idx_facts1 t
  unfold iblk1
  rw [View.read_apply]
  show V c main_v14 _ = V c main_v14 _
  congr 1
  funext a
  apply Fin.ext
  match a with
  | ⟨0, _⟩ => show win1_4.index t 0 * 1 + 1 * 0 = 0; rw [e40]
  | ⟨1, _⟩ => show win1_4.index t 1 * 2048 + 1 * q.val = l.val; rw [e41, hl]; omega

/-! ## The scratch through a row of the grid -/

/-- At a point whose column block is the first, the scratch ends as the hidden layer of the point's row block. -/
theorem scratch1_A (c : Dev nD) (t : Fin cfg1.N) (h0 : t.val % 10 = 0) (r : Fin 512) (j : Fin 1024) (k : Fin 2048)
    (hk : k.val = 512 * (t.val / 10) + r.val) : (outsAt1 V c t.val t.isLt).2 (ix2 r j) = hid1 V c k j := by
  rw [outsAt1_snd_A V c t h0]
  refine (payH_apply1 _ _ _ r j).trans ?_
  unfold hid1
  refine congrArg₂ max (congrArg₂ (· + ·) (Finset.sum_congr rfl fun d _ => ?_) ?_) rfl
  · rw [iblk1_0_apply V c t r d k hk, iblk1_1_apply V c t d j]
  · exact iblk1_2_apply V c t j

/-- After every point the scratch holds the hidden layer of the point's row block: set at the row's first point, kept
    through the row. -/
theorem scratch1_eq (c : Dev nD) : ∀ (n : ℕ) (hn : n < cfg1.N) (r : Fin 512) (j : Fin 1024) (k : Fin 2048),
    k.val = 512 * (n / 10) + r.val → (outsAt1 V c n hn).2 (ix2 r j) = hid1 V c k j
  | 0, hn, r, j, k, hk => scratch1_A V c ⟨0, hn⟩ (Nat.zero_mod _) r j k hk
  | n + 1, hn, r, j, k, hk => by
    by_cases h0 : (n + 1) % 10 = 0
    · exact scratch1_A V c ⟨n + 1, hn⟩ h0 r j k hk
    · rw [outsAt1_snd_B V c ⟨n + 1, hn⟩ h0]
      exact scratch1_eq c n _ r j k (by rw [hk]; omega)

/-! ## The block a point writes back -/

/-- What the output's buffer holds after point `t`, at row `r` and column `q` of the block: the output at row
    `512 (t / 10) + r`, column `2048 (t % 10) + q`. -/
theorem outblk1_eq (c : Dev nD) (t : Fin cfg1.N) (r : Fin 512) (q : Fin 2048) (k : Fin 2048) (l : Fin 20480)
    (hk : k.val = 512 * (t.val / 10) + r.val) (hl : l.val = 2048 * (t.val % 10) + q.val) :
    (outsAt1 V c t.val t.isLt).1 (ix2 r q) = out1 V c k l := by
  rw [outsAt1_fst V c t]
  refine (payO_apply1 _ _ _ r q).trans ?_
  unfold out1
  refine congrArg Ideal.logistic (congrArg₂ (· + ·) (Finset.sum_congr rfl fun j _ => ?_) ?_)
  · rw [scratch1_eq V c t.val t.isLt r j k hk, iblk1_3_apply V c t j q l hl]
  · exact iblk1_4_apply V c t q l hl

/-- What point `t` writes back is block `t` of the output array's function. -/
theorem flushed1_eq (c : Dev nD) (t : Fin cfg1.N) :
    (dat1 V c).flushed 5 t = ((cfg1.win 5).blk t).view.read (Elt Ideal) (G1 V c) := by
  obtain ⟨e00, e01, e10, e11, e20, e21, e30, e31, e40, e41, e50, e51⟩ := idx_facts1 t
  show (cfg1.win 5).cut (grid1.coords t) ((dat1 V c).after 5 t) = _
  rw [after1_5]
  funext y
  obtain ⟨r, q, rfl⟩ : ∃ (r : Fin 512) (q : Fin 2048), y = ix2 r q := ⟨y 0, y 1, eq_ix2 y⟩
  rw [View.read_apply]
  show (outsAt1 V c t.val t.isLt).1 (ix2 r q) = out1 V c ⟨_, _⟩ ⟨_, _⟩
  refine outblk1_eq V c t r q _ _ ?_ ?_
  · show win1_5.index t 0 * 512 + 1 * r.val = 512 * (t.val / 10) + r.val; rw [e50]; omega
  · show win1_5.index t 1 * 2048 + 1 * q.val = 2048 * (t.val % 10) + q.val; rw [e51]; omega

/-! ## The blocks tile the array -/

/-- An index of the array is in point `t`'s block iff each coordinate is in the block's range on its axis. -/
theorem mem_blk1 (t : Fin cfg1.N) (i : S2048x20480.Idx) :
    i ∈ ((cfg1.win 5).blk t).view.set ↔ ∀ a : Fin 2, win1_5.index t a * S512x2048.size a ≤ (i a).val ∧ (i a).val < win1_5.index t a * S512x2048.size a + S512x2048.size a := by
  show i ∈ ((View.whole main_v15).slice (win1_5.rect t)).set ↔ _
  rw [View.set_slice_whole, Rect.mem_set_unit]
  exact Iff.rfl

/-- Every index is in the block of the point `10 (i₀ / 512) + i₁ / 2048`, which writes it back. -/
theorem cover1 (i : S2048x20480.Idx) : ∃ t : Fin cfg1.N, (cfg1.win 5).flush t = true ∧ i ∈ ((cfg1.win 5).blk t).view.set := by
  have hi0 : (i 0).val < 2048 := (i 0).isLt
  have hi1 : (i 1).val < 20480 := (i 1).isLt
  have hN : cfg1.N = 40 := N_1
  have ht : 10 * ((i 0).val / 512) + (i 1).val / 2048 < cfg1.N := by rw [hN]; omega
  obtain ⟨e00, e01, e10, e11, e20, e21, e30, e31, e40, e41, e50, e51⟩ := idx_facts1 ⟨10 * ((i 0).val / 512) + (i 1).val / 2048, ht⟩
  have q0 : (10 * ((i 0).val / 512) + (i 1).val / 2048) / 10 = (i 0).val / 512 := by omega
  have q1 : (10 * ((i 0).val / 512) + (i 1).val / 2048) % 10 = (i 1).val / 2048 := by omega
  refine ⟨⟨10 * ((i 0).val / 512) + (i 1).val / 2048, ht⟩, flush1_5 _, ?_⟩
  rw [mem_blk1]
  intro a
  match a with
  | ⟨0, _⟩ =>
    show win1_5.index ⟨10 * ((i 0).val / 512) + (i 1).val / 2048, ht⟩ 0 * 512 ≤ (i 0).val ∧ (i 0).val < win1_5.index ⟨10 * ((i 0).val / 512) + (i 1).val / 2048, ht⟩ 0 * 512 + 512
    rw [e50]; dsimp only; rw [q0]; omega
  | ⟨1, _⟩ =>
    show win1_5.index ⟨10 * ((i 0).val / 512) + (i 1).val / 2048, ht⟩ 1 * 2048 ≤ (i 1).val ∧ (i 1).val < win1_5.index ⟨10 * ((i 0).val / 512) + (i 1).val / 2048, ht⟩ 1 * 2048 + 2048
    rw [e51]; dsimp only; rw [q1]; omega

/-- The array after the region is the output's function. -/
theorem final1 (c : Dev nD) : (dat1 V c).arrAt 5 cfg1.N = G1 V c :=
  (dat1 V c).arrAt_eq_of_cover 5 (G1 V c) (fun t _ => flushed1_eq V c t) cover1

/-- The array the region writes, entry by entry: the logistic of the second layer applied to the hidden layer of the
    first. -/
theorem arrAt1_out (c : Dev nD) (i : Fin 2048) (n : Fin 20480) :
    ((dat1 V c).arrAt 5 cfg1.N : S2048x20480.Idx → EReal) (ix2 i n)
      = Ideal.logistic ((∑ j : Fin 1024, max ((∑ d : Fin 512, arr1_0 V c (ix2 i d) * arr1_1 V c (ix2 d j)) + arr1_2 V c (ix2 (0 : Fin 1) j)) 0 * arr1_3 V c (ix2 j n)) + arr1_4 V c (ix2 (0 : Fin 1) n)) := by
  refine (congrFun (final1 V c) (ix2 i n)).trans ?_
  rfl

end Cert.KernelIdeal.Hand

end
-- ==== Proof.KI.Val2.Pieces.lean ====
import proofs.«175587_j47510928228669_1_alg».proof.Proof.KI.Reg2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: what each control case's stores leave, as the payloads of the input blocks -/

/-- The zero offset of a two-axis block. -/
theorem hzero2 : (![0, 0] : Fin 2 → Nat) = fun _ => 0 := funext fun a => by fin_cases a <;> rfl

/-- CASE A leaves in the scratch the hidden layer of the point's first three input blocks. -/
theorem sout2_A_0_eq (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond2_0 i)
    (x0 : Vec F S512x512 .f32) (x1 : Vec F S512x1024 .bf16) (x2 : Vec F S1x1024 .f32) (x3 : Vec F S1024x2048 .bf16) (x4 : Vec F S1x2048 .f32) :
    sout2_A_0 c i arg2 harg2 arg3 harg3 arg4 harg4 arg5 harg5 arg6 harg6 arg7 harg7 arg8 harg8 hc0 x0 x1 x2 x3 x4 = k2_pay1 x0 x1 x2 := by
  unfold sout2_A_0
  rw [View.read_writes_eq_canon _ _ _ (scover2_A_0 c i arg2 harg2 arg3 harg3 arg4 harg4 arg5 harg5 arg6 harg6 arg7 harg7 arg8 harg8 hc0 x0 x1 x2 x3 x4)]
  unfold kernelRun2_A
  dsimp only
  sl_unfold_words
  rw [View.canon_unit_zero (S := S512x1024) hzero2]
  simp only [View.readAt_eq_ld, harg2.read_unread, harg3.read_unread, harg4.read_unread, View.ld_unit_zero (S := S512x512) hzero2, View.ld_unit_zero (S := S512x1024) hzero2, View.ld_unit_zero (S := S1x1024) hzero2]

/-- CASE A leaves in the output's buffer the second layer applied to that hidden layer (stored into the scratch and
    read back) and the last two input blocks. -/
theorem out2_A_5_eq (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : cond2_0 i)
    (x0 : Vec F S512x512 .f32) (x1 : Vec F S512x1024 .bf16) (x2 : Vec F S1x1024 .f32) (x3 : Vec F S1024x2048 .bf16) (x4 : Vec F S1x2048 .f32) :
    out2_A_5 c i arg2 harg2 arg3 harg3 arg4 harg4 arg5 harg5 arg6 harg6 arg7 harg7 arg8 harg8 hc0 x0 x1 x2 x3 x4 = k2_pay2 (k2_pay1 x0 x1 x2) x3 x4 := by
  unfold out2_A_5
  rw [View.read_writes_eq_canon _ _ _ (cover2_A_5 c i arg2 harg2 arg3 harg3 arg4 harg4 arg5 harg5 arg6 harg6 arg7 harg7 arg8 harg8 hc0 x0 x1 x2 x3 x4)]
  unfold kernelRun2_A
  dsimp only
  sl_unfold_words
  rw [View.canon_unit_zero (S := S512x2048) hzero2, View.readCov_unit_zero (S := S512x1024) _ hzero2]
  simp only [View.readAt_eq_ld, harg2.read_unread, harg3.read_unread, harg4.read_unread, harg5.read_unread, harg6.read_unread, View.ld_unit_zero (S := S512x512) hzero2, View.ld_unit_zero (S := S512x1024) hzero2, View.ld_unit_zero (S := S1x1024) hzero2, View.ld_unit_zero (S := S1024x2048) hzero2, View.ld_unit_zero (S := S1x2048) hzero2]

/-- CASE B leaves in the output's buffer the second layer applied to the scratch as found and the last two input blocks. -/
theorem out2_B_5_eq (c : Dev nD) (i : grid2.Coords) (arg2 : Memref sig .tc .vmem S512x512 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x1024 .bf16) (harg8 : arg8.IsWhole) (hc0 : ¬cond2_0 i)
    (x0 : Vec F S512x512 .f32) (x1 : Vec F S512x1024 .bf16) (x2 : Vec F S1x1024 .f32) (x3 : Vec F S1024x2048 .bf16) (x4 : Vec F S1x2048 .f32) (xs0 : Vec F S512x1024 .bf16) :
    out2_B_5 c i arg2 harg2 arg3 harg3 arg4 harg4 arg5 harg5 arg6 harg6 arg7 harg7 arg8 harg8 hc0 x0 x1 x2 x3 x4 xs0 = k2_pay2 xs0 x3 x4 := by
  unfold out2_B_5
  rw [View.read_writes_eq_canon _ _ _ (cover2_B_5 c i arg2 harg2 arg3 harg3 arg4 harg4 arg5 harg5 arg6 harg6 arg7 harg7 arg8 harg8 hc0 x0 x1 x2 x3 x4 xs0)]
  unfold kernelRun2_B
  dsimp only
  try sl_unfold_words
  rw [View.canon_unit_zero (S := S512x2048) hzero2]
  simp only [View.readAt_eq_ld, harg5.read_unread, harg6.read_unread, harg8.read_unread, View.ld_unit_zero (S := S512x1024) hzero2, View.ld_unit_zero (S := S1024x2048) hzero2, View.ld_unit_zero (S := S1x2048) hzero2]

/-- At every point the output's buffer ends as the second layer applied to what the scratch ends holding and the
    point's last two input blocks; where the second grid coordinate is zero the scratch ends as the hidden layer of the
    point's first three input blocks, elsewhere as the point before left it. -/
theorem outsAt2_fst (c : Dev nD) (t : Fin cfg2.N) :
    (outsAt2 V c t.val t.isLt).1 = k2_pay2 (outsAt2 V c t.val t.isLt).2 (iblk2 V c 3 t) (iblk2 V c 4 t) := by
  by_cases h0 : t.val % 10 = 0
  · rw [outsAt2_A V c t h0]
    dsimp only
    rw [out2_A_5_eq, sout2_A_0_eq]
  · rw [outsAt2_B V c t h0]
    dsimp only
    rw [out2_B_5_eq]

theorem outsAt2_snd_A (c : Dev nD) (t : Fin cfg2.N) (h0 : t.val % 10 = 0) :
    (outsAt2 V c t.val t.isLt).2 = k2_pay1 (iblk2 V c 0 t) (iblk2 V c 1 t) (iblk2 V c 2 t) := by
  rw [outsAt2_A V c t h0]
  dsimp only
  rw [sout2_A_0_eq]

theorem outsAt2_snd_B (c : Dev nD) (t : Fin cfg2.N) (h0 : ¬t.val % 10 = 0) :
    (outsAt2 V c t.val t.isLt).2 = (outsAt2 V c (t.val - 1) (Nat.lt_of_le_of_lt (Nat.sub_le _ _) t.isLt)).2 := by
  rw [outsAt2_B V c t h0]

end Cert.KernelIdeal.Hand

end
-- ==== Proof.KI.Val2.Pay.lean ====
import proofs.«175587_j47510928228669_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-! # The head kernel's two payloads read at an index, over the extended reals

Over the extended reals every float operation is exact and a change of float format is the identity, so the hidden
layer at row `r`, column `j` is `max (∑ d, x r d · w d j + b j) 0` and the output at row `r`, column `q` is the
logistic of `∑ j, h r j · w' j q + b' q`. -/

theorem mmA2_lhs0 (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem mmA2_lhs1 (i : S512x1024.Idx) (q : dot_S512x512_S512x1024_S512x1024_1_0_0_1_n_n.contr.Idx) : (dot_S512x512_S512x1024_S512x1024_1_0_0_1_n_n.lhsIdx i q 1).val = (q ⟨0, by decide⟩).val :=
  dot_S512x512_S512x1024_S512x1024_1_0_0_1_n_n.lhsIdx_val_of_single rfl i q
theorem mmA2_rhs0 (i : S512x1024.Idx) (q : dot_S512x512_S512x1024_S512x1024_1_0_0_1_n_n.contr.Idx) : (dot_S512x512_S512x1024_S512x1024_1_0_0_1_n_n.rhsIdx i q 0).val = (q ⟨0, by decide⟩).val :=
  dot_S512x512_S512x1024_S512x1024_1_0_0_1_n_n.rhsIdx_val_of_single rfl i q
theorem mmA2_rhs1 (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The matrix product into the zero accumulator, read at row `r` and column `q`: the sum over the contracted axis of
    the products of the left operand's row and the right operand's column. -/
theorem mmA2_apply (a : FVec Ideal S512x512 .bf16) (b : FVec Ideal S512x1024 .bf16) (r : Fin 512) (q : Fin 1024) :
    matmul dot_S512x512_S512x1024_S512x1024_1_0_0_1_n_n none a b (constant S512x1024 .f32 0x00000000#32) (ix2 r q) = ∑ k : Fin 512, a (ix2 r k) * b (ix2 k q) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r q) ((contrEquiv1 dot_S512x512_S512x1024_S512x1024_1_0_0_1_n_n 512 rfl rfl).symm k) = ix2 r k := funext fun a => Fin.ext (by
    match a with
    | ⟨0, _⟩ => exact mmA2_lhs0 _ _
    | ⟨1, _⟩ => exact (mmA2_lhs1 _ _).trans hk)
  have er : dot_S512x512_S512x1024_S512x1024_1_0_0_1_n_n.rhsIdx (ix2 r q) ((contrEquiv1 dot_S512x512_S512x1024_S512x1024_1_0_0_1_n_n 512 rfl rfl).symm k) = ix2 k q := funext fun a => Fin.ext (by
    match a with
    | ⟨0, _⟩ => exact (mmA2_rhs0 _ _).trans hk
    | ⟨1, _⟩ => exact mmA2_rhs1 _ _)
  rw [el, er]

theorem mmB2_lhs0 (i : S512x2048.Idx) (q : dot_S512x1024_S1024x2048_S512x2048_1_0_0_1_n_n.contr.Idx) : (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem mmB2_lhs1 (i : S512x2048.Idx) (q : dot_S512x1024_S1024x2048_S512x2048_1_0_0_1_n_n.contr.Idx) : (dot_S512x1024_S1024x2048_S512x2048_1_0_0_1_n_n.lhsIdx i q 1).val = (q ⟨0, by decide⟩).val :=
  dot_S512x1024_S1024x2048_S512x2048_1_0_0_1_n_n.lhsIdx_val_of_single rfl i q
theorem mmB2_rhs0 (i : S512x2048.Idx) (q : dot_S512x1024_S1024x2048_S512x2048_1_0_0_1_n_n.contr.Idx) : (dot_S512x1024_S1024x2048_S512x2048_1_0_0_1_n_n.rhsIdx i q 0).val = (q ⟨0, by decide⟩).val :=
  dot_S512x1024_S1024x2048_S512x2048_1_0_0_1_n_n.rhsIdx_val_of_single rfl i q
theorem mmB2_rhs1 (i : S512x2048.Idx) (q : dot_S512x1024_S1024x2048_S512x2048_1_0_0_1_n_n.contr.Idx) : (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-- The matrix product into the zero accumulator, read at row `r` and column `q`: the sum over the contracted axis of
    the products of the left operand's row and the right operand's column. -/
theorem mmB2_apply (a : FVec Ideal S512x1024 .bf16) (b : FVec Ideal S1024x2048 .bf16) (r : Fin 512) (q : Fin 2048) :
    matmul dot_S512x1024_S1024x2048_S512x2048_1_0_0_1_n_n none a b (constant S512x2048 .f32 0x00000000#32) (ix2 r q) = ∑ k : Fin 1024, a (ix2 r k) * b (ix2 k q) := by
  simp only [matmul]
  rw [Ideal.matmul_constant_zero_apply, ← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 r q) ((contrEquiv1 dot_S512x1024_S1024x2048_S512x2048_1_0_0_1_n_n 1024 rfl rfl).symm k) = ix2 r k := funext fun a => Fin.ext (by
    match a with
    | ⟨0, _⟩ => exact mmB2_lhs0 _ _
    | ⟨1, _⟩ => exact (mmB2_lhs1 _ _).trans hk)
  have er : dot_S512x1024_S1024x2048_S512x2048_1_0_0_1_n_n.rhsIdx (ix2 r q) ((contrEquiv1 dot_S512x1024_S1024x2048_S512x2048_1_0_0_1_n_n 1024 rfl rfl).symm k) = ix2 k q := funext fun a => Fin.ext (by
    match a with
    | ⟨0, _⟩ => exact (mmB2_rhs0 _ _).trans hk
    | ⟨1, _⟩ => exact mmB2_rhs1 _ _)
  rw [el, er]

/-- A row vector broadcast down the rows reads, at row `r` and column `j`, its entry `j`. -/
theorem rowA2_apply (x : Vec Ideal S1x1024 .f32) (r : Fin 512) (j : Fin 1024) :
    broadcastTo S512x1024 x broadcasts_S1x1024_S512x1024 (ix2 r j) = x (ix2 (0 : Fin 1) j) :=
  broadcastTo_apply x _ (ix2 r j) (ix2 (0 : Fin 1) j) (fun a => by
    match a with
    | ⟨0, _⟩ => rfl
    | ⟨1, _⟩ => rfl)

theorem rowB2_apply (x : Vec Ideal S1x2048 .f32) (r : Fin 512) (q : Fin 2048) :
    broadcastTo S512x2048 x broadcasts_S1x2048_S512x2048 (ix2 r q) = x (ix2 (0 : Fin 1) q) :=
  broadcastTo_apply x _ (ix2 r q) (ix2 (0 : Fin 1) q) (fun a => by
    match a with
    | ⟨0, _⟩ => rfl
    | ⟨1, _⟩ => rfl)

/-- The hidden layer at row `r`, column `j`. -/
theorem payH_apply2 (x0 : Vec Ideal S512x512 .f32) (x1 : Vec Ideal S512x1024 .bf16) (x2 : Vec Ideal S1x1024 .f32) (r : Fin 512) (j : Fin 1024) :
    k2_pay1 (F := Ideal) x0 x1 x2 (ix2 r j) = max ((∑ d : Fin 512, x0 (ix2 r d) * x1 (ix2 d j)) + x2 (ix2 (0 : Fin 1) j)) 0 := by
  unfold k2_pay1
  simp only [shapeCast_self]
  exact congrArg₂ max (congrArg₂ (· + ·) (mmA2_apply _ _ r j) (rowA2_apply x2 r j)) Ideal.ofBits_zero_f32

/-- The output at row `r`, column `q`, from the hidden layer `s`. -/
theorem payO_apply2 (s : Vec Ideal S512x1024 .bf16) (x3 : Vec Ideal S1024x2048 .bf16) (x4 : Vec Ideal S1x2048 .f32) (r : Fin 512) (q : Fin 2048) :
    k2_pay2 (F := Ideal) s x3 x4 (ix2 r q) = Ideal.logistic ((∑ j : Fin 1024, s (ix2 r j) * x3 (ix2 j q)) + x4 (ix2 (0 : Fin 1) q)) := by
  unfold k2_pay2
  simp only [shapeCast_self]
  exact congrArg Ideal.logistic (congrArg₂ (· + ·) (mmB2_apply _ _ r q) (rowB2_apply x4 r q))

end Cert.KernelIdeal.Hand

end
-- ==== Proof.KI.Val2.lean ====
import proofs.«175587_j47510928228669_1_alg».proof.Proof.KI.Val2.Pieces
import proofs.«175587_j47510928228669_1_alg».proof.Proof.KI.Val2.Pay

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-! # Region 2 over the extended reals: the array the head kernel writes

The grid is 4 row blocks by 10 column blocks, point `t = 10 b + s`. At `s = 0` the scratch becomes the hidden layer
of row block `b`, `h i j = max (∑ d, e i d · w d j + β j) 0`, and it stays so through the row of the grid; every
point writes back the block `(b, s)` of `logistic (∑ j, h i j · w' j n + β' n)`. The blocks tile the array. -/

/-- The region's five input arrays as the region finds them, as functions of literal index types. -/
abbrev arr2_0 (c : Dev nD) : S2048x512.Idx → EReal := V c main_v8
abbrev arr2_1 (c : Dev nD) : S512x1024.Idx → EReal := V c main_v17
abbrev arr2_2 (c : Dev nD) : S1x1024.Idx → EReal := V c main_v20
abbrev arr2_3 (c : Dev nD) : S1024x20480.Idx → EReal := V c main_v19
abbrev arr2_4 (c : Dev nD) : S1x20480.Idx → EReal := V c main_v22

/-- The hidden layer at row `i`, column `j`, from the region's input arrays. -/
def hid2 (c : Dev nD) (i : Fin 2048) (j : Fin 1024) : EReal :=
  max ((∑ d : Fin 512, arr2_0 V c (ix2 i d) * arr2_1 V c (ix2 d j)) + arr2_2 V c (ix2 (0 : Fin 1) j)) 0

/-- The output at row `i`, column `n`. -/
def out2 (c : Dev nD) (i : Fin 2048) (n : Fin 20480) : EReal :=
  Ideal.logistic ((∑ j : Fin 1024, hid2 V c i j * arr2_3 V c (ix2 j n)) + arr2_4 V c (ix2 (0 : Fin 1) n))

/-- The output array as one function of its index. -/
def G2 (c : Dev nD) : S2048x20480.Idx → EReal := fun y => out2 V c ⟨(y 0).val, (y 0).isLt⟩ ⟨(y 1).val, (y 1).isLt⟩

/-- The windows' block indices at point `t`: the row block is `t / 10`, the column block `t % 10` — decided over the grid. -/
theorem idx_facts2 : ∀ t : Fin cfg2.N,
    win2_0.index t (0 : Fin 2) = t.val / 10 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = t.val % 10
    ∧ win2_4.index t (0 : Fin 2) = 0 ∧ win2_4.index t (1 : Fin 2) = t.val % 10
    ∧ win2_5.index t (0 : Fin 2) = t.val / 10 ∧ win2_5.index t (1 : Fin 2) = t.val % 10 :=
  (by decide +kernel : ∀ t : Fin grid2.N, _)

/-! ## The input blocks as entries of the arrays -/

/-- Window 0's block at `t` is rows `512 (t / 10) …` of the first array. -/
theorem iblk2_0_apply (c : Dev nD) (t : Fin cfg2.N) (r : Fin 512) (d : Fin 512) (k : Fin 2048) (hk : k.val = 512 * (t.val / 10) + r.val) :
    (iblk2 V c 0 t : Vec Ideal S512x512 .f32) (ix2 r d) = arr2_0 V c (ix2 k d) := by
  obtain ⟨e00, e01, e10, e11, e20, e21, e30, e31, e40, e41, e50, e51⟩ := idx_facts2 t
  unfold iblk2
  rw [View.read_apply]
  show V c main_v8 _ = V c main_v8 _
  congr 1
  funext a
  apply Fin.ext
  match a with
  | ⟨0, _⟩ => show win2_0.index t 0 * 512 + 1 * r.val = k.val; rw [e00, hk]; omega
  | ⟨1, _⟩ => show win2_0.index t 1 * 512 + 1 * d.val = d.val; rw [e01]; omega

/-- Window 1's block is the whole second array. -/
theorem iblk2_1_apply (c : Dev nD) (t : Fin cfg2.N) (d : Fin 512) (j : Fin 1024) :
    (iblk2 V c 1 t : Vec Ideal S512x1024 .bf16) (ix2 d j) = arr2_1 V c (ix2 d j) := by
  obtain ⟨e00, e01, e10, e11, e20, e21, e30, e31, e40, e41, e50, e51⟩ := idx_facts2 t
  unfold iblk2
  rw [View.read_apply]
  show V c main_v17 _ = V c main_v17 _
  congr 1
  funext a
  apply Fin.ext
  match a with
  | ⟨0, _⟩ => show win2_1.index t 0 * 512 + 1 * d.val = d.val; rw [e10]; omega
  | ⟨1, _⟩ => show win2_1.index t 1 * 1024 + 1 * j.val = j.val; rw [e11]; omega

/-- Window 2's block is the whole third array. -/
theorem iblk2_2_apply (c : Dev nD) (t : Fin cfg2.N) (j : Fin 1024) :
    (iblk2 V c 2 t : Vec Ideal S1x1024 .f32) (ix2 (0 : Fin 1) j) = arr2_2 V c (ix2 (0 : Fin 1) j) := by
  obtain ⟨e00, e01, e10, e11, e20, e21, e30, e31, e40, e41, e50, e51⟩ := idx_facts2 t
  unfold iblk2
  rw [View.read_apply]
  show V c main_v20 _ = V c main_v20 _
  congr 1
  funext a
  apply Fin.ext
  match a with
  | ⟨0, _⟩ => show win2_2.index t 0 * 1 + 1 * 0 = 0; rw [e20]
  | ⟨1, _⟩ => show win2_2.index t 1 * 1024 + 1 * j.val = j.val; rw [e21]; omega

/-- Window 3's block at `t` is columns `2048 (t % 10) …` of the fourth array. -/
theorem iblk2_3_apply (c : Dev nD) (t : Fin cfg2.N) (j : Fin 1024) (q : Fin 2048) (l : Fin 20480) (hl : l.val = 2048 * (t.val % 10) + q.val) :
    (iblk2 V c 3 t : Vec Ideal S1024x2048 .bf16) (ix2 j q) = arr2_3 V c (ix2 j l) := by
  obtain ⟨e00, e01, e10, e11, e20, e21, e30, e31, e40, e41, e50, e51⟩ := idx_facts2 t
  unfold iblk2
  rw [View.read_apply]
  show V c main_v19 _ = V c main_v19 _
  congr 1
  funext a
  apply Fin.ext
  match a with
  | ⟨0, _⟩ => show win2_3.index t 0 * 1024 + 1 * j.val = j.val; rw [e30]; omega
  | ⟨1, _⟩ => show win2_3.index t 1 * 2048 + 1 * q.val = l.val; rw [e31, hl]; omega

/-- Window 4's block at `t` is columns `2048 (t % 10) …` of the fifth array. -/
theorem iblk2_4_apply (c : Dev nD) (t : Fin cfg2.N) (q : Fin 2048) (l : Fin 20480) (hl : l.val = 2048 * (t.val % 10) + q.val) :
    (iblk2 V c 4 t : Vec Ideal S1x2048 .f32) (ix2 (0 : Fin 1) q) = arr2_4 V c (ix2 (0 : Fin 1) l) := by
  obtain ⟨e00, e01, e10, e11, e20, e21, e30, e31, e40, e41, e50, e51⟩ := idx_facts2 t
  unfold iblk2
  rw [View.read_apply]
  show V c main_v22 _ = V c main_v22 _
  congr 1
  funext a
  apply Fin.ext
  match a with
  | ⟨0, _⟩ => show win2_4.index t 0 * 1 + 1 * 0 = 0; rw [e40]
  | ⟨1, _⟩ => show win2_4.index t 1 * 2048 + 1 * q.val = l.val; rw [e41, hl]; omega

/-! ## The scratch through a row of the grid -/

/-- At a point whose column block is the first, the scratch ends as the hidden layer of the point's row block. -/
theorem scratch2_A (c : Dev nD) (t : Fin cfg2.N) (h0 : t.val % 10 = 0) (r : Fin 512) (j : Fin 1024) (k : Fin 2048)
    (hk : k.val = 512 * (t.val / 10) + r.val) : (outsAt2 V c t.val t.isLt).2 (ix2 r j) = hid2 V c k j := by
  rw [outsAt2_snd_A V c t h0]
  refine (payH_apply2 _ _ _ r j).trans ?_
  unfold hid2
  refine congrArg₂ max (congrArg₂ (· + ·) (Finset.sum_congr rfl fun d _ => ?_) ?_) rfl
  · rw [iblk2_0_apply V c t r d k hk, iblk2_1_apply V c t d j]
  · exact iblk2_2_apply V c t j

/-- After every point the scratch holds the hidden layer of the point's row block: set at the row's first point, kept
    through the row. -/
theorem scratch2_eq (c : Dev nD) : ∀ (n : ℕ) (hn : n < cfg2.N) (r : Fin 512) (j : Fin 1024) (k : Fin 2048),
    k.val = 512 * (n / 10) + r.val → (outsAt2 V c n hn).2 (ix2 r j) = hid2 V c k j
  | 0, hn, r, j, k, hk => scratch2_A V c ⟨0, hn⟩ (Nat.zero_mod _) r j k hk
  | n + 1, hn, r, j, k, hk => by
    by_cases h0 : (n + 1) % 10 = 0
    · exact scratch2_A V c ⟨n + 1, hn⟩ h0 r j k hk
    · rw [outsAt2_snd_B V c ⟨n + 1, hn⟩ h0]
      exact scratch2_eq c n _ r j k (by rw [hk]; omega)

/-! ## The block a point writes back -/

/-- What the output's buffer holds after point `t`, at row `r` and column `q` of the block: the output at row
    `512 (t / 10) + r`, column `2048 (t % 10) + q`. -/
theorem outblk2_eq (c : Dev nD) (t : Fin cfg2.N) (r : Fin 512) (q : Fin 2048) (k : Fin 2048) (l : Fin 20480)
    (hk : k.val = 512 * (t.val / 10) + r.val) (hl : l.val = 2048 * (t.val % 10) + q.val) :
    (outsAt2 V c t.val t.isLt).1 (ix2 r q) = out2 V c k l := by
  rw [outsAt2_fst V c t]
  refine (payO_apply2 _ _ _ r q).trans ?_
  unfold out2
  refine congrArg Ideal.logistic (congrArg₂ (· + ·) (Finset.sum_congr rfl fun j _ => ?_) ?_)
  · rw [scratch2_eq V c t.val t.isLt r j k hk, iblk2_3_apply V c t j q l hl]
  · exact iblk2_4_apply V c t q l hl

/-- What point `t` writes back is block `t` of the output array's function. -/
theorem flushed2_eq (c : Dev nD) (t : Fin cfg2.N) :
    (dat2 V c).flushed 5 t = ((cfg2.win 5).blk t).view.read (Elt Ideal) (G2 V c) := by
  obtain ⟨e00, e01, e10, e11, e20, e21, e30, e31, e40, e41, e50, e51⟩ := idx_facts2 t
  show (cfg2.win 5).cut (grid2.coords t) ((dat2 V c).after 5 t) = _
  rw [after2_5]
  funext y
  obtain ⟨r, q, rfl⟩ : ∃ (r : Fin 512) (q : Fin 2048), y = ix2 r q := ⟨y 0, y 1, eq_ix2 y⟩
  rw [View.read_apply]
  show (outsAt2 V c t.val t.isLt).1 (ix2 r q) = out2 V c ⟨_, _⟩ ⟨_, _⟩
  refine outblk2_eq V c t r q _ _ ?_ ?_
  · show win2_5.index t 0 * 512 + 1 * r.val = 512 * (t.val / 10) + r.val; rw [e50]; omega
  · show win2_5.index t 1 * 2048 + 1 * q.val = 2048 * (t.val % 10) + q.val; rw [e51]; omega

/-! ## The blocks tile the array -/

/-- An index of the array is in point `t`'s block iff each coordinate is in the block's range on its axis. -/
theorem mem_blk2 (t : Fin cfg2.N) (i : S2048x20480.Idx) :
    i ∈ ((cfg2.win 5).blk t).view.set ↔ ∀ a : Fin 2, win2_5.index t a * S512x2048.size a ≤ (i a).val ∧ (i a).val < win2_5.index t a * S512x2048.size a + S512x2048.size a := by
  show i ∈ ((View.whole main_v23).slice (win2_5.rect t)).set ↔ _
  rw [View.set_slice_whole, Rect.mem_set_unit]
  exact Iff.rfl

/-- Every index is in the block of the point `10 (i₀ / 512) + i₁ / 2048`, which writes it back. -/
theorem cover2 (i : S2048x20480.Idx) : ∃ t : Fin cfg2.N, (cfg2.win 5).flush t = true ∧ i ∈ ((cfg2.win 5).blk t).view.set := by
  have hi0 : (i 0).val < 2048 := (i 0).isLt
  have hi1 : (i 1).val < 20480 := (i 1).isLt
  have hN : cfg2.N = 40 := N_2
  have ht : 10 * ((i 0).val / 512) + (i 1).val / 2048 < cfg2.N := by rw [hN]; omega
  obtain ⟨e00, e01, e10, e11, e20, e21, e30, e31, e40, e41, e50, e51⟩ := idx_facts2 ⟨10 * ((i 0).val / 512) + (i 1).val / 2048, ht⟩
  have q0 : (10 * ((i 0).val / 512) + (i 1).val / 2048) / 10 = (i 0).val / 512 := by omega
  have q1 : (10 * ((i 0).val / 512) + (i 1).val / 2048) % 10 = (i 1).val / 2048 := by omega
  refine ⟨⟨10 * ((i 0).val / 512) + (i 1).val / 2048, ht⟩, flush2_5 _, ?_⟩
  rw [mem_blk2]
  intro a
  match a with
  | ⟨0, _⟩ =>
    show win2_5.index ⟨10 * ((i 0).val / 512) + (i 1).val / 2048, ht⟩ 0 * 512 ≤ (i 0).val ∧ (i 0).val < win2_5.index ⟨10 * ((i 0).val / 512) + (i 1).val / 2048, ht⟩ 0 * 512 + 512
    rw [e50]; dsimp only; rw [q0]; omega
  | ⟨1, _⟩ =>
    show win2_5.index ⟨10 * ((i 0).val / 512) + (i 1).val / 2048, ht⟩ 1 * 2048 ≤ (i 1).val ∧ (i 1).val < win2_5.index ⟨10 * ((i 0).val / 512) + (i 1).val / 2048, ht⟩ 1 * 2048 + 2048
    rw [e51]; dsimp only; rw [q1]; omega

/-- The array after the region is the output's function. -/
theorem final2 (c : Dev nD) : (dat2 V c).arrAt 5 cfg2.N = G2 V c :=
  (dat2 V c).arrAt_eq_of_cover 5 (G2 V c) (fun t _ => flushed2_eq V c t) cover2

/-- The array the region writes, entry by entry: the logistic of the second layer applied to the hidden layer of the
    first. -/
theorem arrAt2_out (c : Dev nD) (i : Fin 2048) (n : Fin 20480) :
    ((dat2 V c).arrAt 5 cfg2.N : S2048x20480.Idx → EReal) (ix2 i n)
      = Ideal.logistic ((∑ j : Fin 1024, max ((∑ d : Fin 512, arr2_0 V c (ix2 i d) * arr2_1 V c (ix2 d j)) + arr2_2 V c (ix2 (0 : Fin 1) j)) 0 * arr2_3 V c (ix2 j n)) + arr2_4 V c (ix2 (0 : Fin 1) n)) := by
  refine (congrFun (final2 V c) (ix2 i n)).trans ?_
  rfl

end Cert.KernelIdeal.Hand

end
-- ==== Proof.KI.Bridge.lean ====
/- The kernel program's run at the exact-real instance with its four results named: each is the specification's function of
   the argument arrays (two heads over the embedding, the negated cosine Gram matrix of the embedding, the column means). -/
import proofs.«175587_j47510928228669_1_alg».proof.Proof.KI.Embed
import proofs.«175587_j47510928228669_1_alg».proof.Proof.KI.Host1
import proofs.«175587_j47510928228669_1_alg».proof.Proof.KI.Host2
import proofs.«175587_j47510928228669_1_alg».proof.Proof.KI.Host34
import proofs.«175587_j47510928228669_1_alg».proof.Proof.KI.Val1
import proofs.«175587_j47510928228669_1_alg».proof.Proof.KI.Val2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.ValueIdx
open Idealize.ShloMosaic.Pipeline (Dat)

variable (m : (ℓ : Loc nD τ sig) → Buf (Elt Ideal) ℓ)

/-- The first head's result as a function. -/
theorem W22_v16_eq (c : Dev nD) : (W22 (F := Ideal) m c main_v16 : S2048x20000.Idx → EReal)
    = fun i => Cert.RefSpec.Spec.head (embedOf m c) (argLW1 m c) (argLB1 m c) (argLW2 m c) (argLB2 m c) (i 0) (i 1) := by
  funext i
  rw [eq_ix2 i]
  exact W22_main_v16_spec m c (embedOf m c) (W8_v8_embed m c) (fun i n => arrAt1_out (Vr (W12 m)) c i n) (i 0) (i 1)

/-- The second head's result as a function. -/
theorem W22_v24_eq (c : Dev nD) : (W22 (F := Ideal) m c main_v24 : S2048x20000.Idx → EReal)
    = fun i => Cert.RefSpec.Spec.head (embedOf m c) (argRW1 m c) (argRB1 m c) (argRW2 m c) (argRB2 m c) (i 0) (i 1) := by
  funext i
  rw [eq_ix2 i]
  exact W22_main_v24_spec m c (embedOf m c) (W8_v8_embed m c) (fun i n => arrAt2_out (Vr (W17 m)) c i n) (i 0) (i 1)

/-- THE VALUE RUN: every weakly fair execution terminates, nothing faulting, with the four results at the specification's
    functions of the arguments and the arguments unchanged. -/
theorem run_spec (ρ : Dev nD → PrngReg) : θ_run defs (onTc (τ := τ) (main (F := Ideal))) ⟨m, fun _ => 0, ρ⟩ (fun r => ∀ c : Dev nD,
      r.2.mem ((c.tc : Thread nD τ).loc main_v16) = (fun i => Cert.RefSpec.Spec.head (embedOf m c) (argLW1 m c) (argLB1 m c) (argLW2 m c) (argLB2 m c) (i 0) (i 1))
      ∧ r.2.mem ((c.tc : Thread nD τ).loc main_v25) = (fun i => Cert.RefSpec.Spec.sim (embedOf m c) (i 0) (i 1))
      ∧ r.2.mem ((c.tc : Thread nD τ).loc main_v24) = (fun i => Cert.RefSpec.Spec.head (embedOf m c) (argRW1 m c) (argRB1 m c) (argRW2 m c) (argRB2 m c) (i 0) (i 1))
      ∧ r.2.mem ((c.tc : Thread nD τ).loc main_v28) = (fun i => Cert.RefSpec.Spec.popular (argLikes m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c _ (mem_uc main_v16 (by decide))).trans (W22_v16_eq m c),
     (h c _ (mem_uc main_v25 (by decide))).trans (W22_v25_eq m c (embedOf m c) (W8_v8_embed m c)),
     (h c _ (mem_uc main_v24 (by decide))).trans (W22_v24_eq m c),
     (h c _ (mem_uc main_v28 (by decide))).trans (W22_v28_eq m c),
     (h c _ (mem_uc main_arg0 (by decide))).trans (W22_keep m c main_arg0 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg1 (by decide))).trans (W22_keep m c main_arg1 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg2 (by decide))).trans (W22_keep m c main_arg2 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg3 (by decide))).trans (W22_keep m c main_arg3 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg4 (by decide))).trans (W22_keep m c main_arg4 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg5 (by decide))).trans (W22_keep m c main_arg5 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg6 (by decide))).trans (W22_keep m c main_arg6 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg7 (by decide))).trans (W22_keep m c main_arg7 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg8 (by decide))).trans (W22_keep m c main_arg8 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg9 (by decide))).trans (W22_keep m c main_arg9 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg10 (by decide))).trans (W22_keep m c main_arg10 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg11 (by decide))).trans (W22_keep m c main_arg11 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg12 (by decide))).trans (W22_keep m c main_arg12 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg13 (by decide))).trans (W22_keep m c main_arg13 (by decide) (by decide) (by decide) (by decide) (by decide) (by decide) (by decide) (by decide) (by decide) (by decide) (by decide) (by decide) (by decide) (by decide) (by decide) (by decide) (by decide) (by decide) (by decide) (by decide) (by decide) (by decide)),
     (h c _ (mem_uc main_arg14 (by decide))).trans (W22_keep m c main_arg14 (by decide) (by decide) (by decide) (by decide) (by decide) (by decide) (by decide) (by decide) (by decide) (by decide) (by decide) (by decide) (by decide) (by decide) (by decide) (by decide) (by decide) (by decide) (by decide) (by decide) (by decide) (by decide))⟩) (run_all m ρ)

end Cert.KernelIdeal.Hand

end
-- ==== Proof.RefSpec.lean ====
/-
  The reference program at the exact-real instance computes the specification: each of its four results, as the
  run states it, is the specification's function of the argument arrays, index by index.  Each operation is read
  at an index (a contraction as a sum over the contracted coordinate, a float reduction as its initial value plus
  a sum, a broadcast or a transpose as a change of index), the composed index functions are identified with the
  coordinate constructors, and the zero words of the relus and of the reductions are the extended real `0`.  The
  encoder's embedding is read once and shared by the two heads and the similarity matrix; the second head is the
  first head's operations applied to its own weights.
-/
import proofs.«175587_j47510928228669_1_alg».proof.Proof.Spec
import proofs.«175587_j47510928228669_1_alg».proof.Proof.Gen.ReferenceIdeal.Run
import proofs.«175587_j47510928228669_1_alg».proof.Proof.Gen.ReferenceIdeal.Read

noncomputable section

open scoped BigOperators

namespace Cert.RefSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The item popularity -/

/-- The reference's last result, read at an item `n`: the sum of the item's column of likes over the batch (the
    reduction's initial value is the zero word, which adds nothing) divided by the batch size. -/
theorem popular_apply (x1 : (⟨S2048x20000, .f32⟩ : BufTy).Contents (Elt Ideal)) (n : Fin 20000) :
    val_main_v54 (F := Ideal) x1 (ix1 n) = Spec.popular x1 n := by
  rw [val_main_v54_apply, val_main_v52_apply, val_main_v53_apply, val_main_cst_7_apply, val_main_cst_6_apply]
  have hi : ∀ k : Fin 2048, idx_main_v52 (ix1 n) k = ix2 k n := fun k =>
    funext fun a => Fin.ext (by match a with | ⟨0, _⟩ => rfl | ⟨1, _⟩ => rfl)
  simp only [hi, Ideal.hostDivf_def, Ideal.ofBits_def, Ideal.ofBits_zero_f32, zero_add]
  rfl

/-- The reference's last result is the popularity, as a function of the item. -/
theorem popular_eq (x1 : (⟨S2048x20000, .f32⟩ : BufTy).Contents (Elt Ideal)) :
    val_main_v54 (F := Ideal) x1 = fun i => Spec.popular x1 (i 0) := by
  funext i
  obtain ⟨n, rfl⟩ : ∃ n : Fin 20000, i = ix1 n := ⟨i 0, eq_ix1 i⟩
  exact popular_apply x1 n

/-- The term the reference's run states for its fourth result, of a memory `m` on a device `c`. -/
theorem out3_eq (m : (ℓ : Loc nD τ sig) → Buf (Elt Ideal) ℓ) (c : Dev nD) :
    Host.divf (F := Ideal) (Host.reduceAdd (F := Ideal) (m ((c.tc : Thread nD τ).loc main_arg1)) (constant (F := Ideal) S_ .f32 0x00000000#32)
        reducesTo_S2048x20000_S20000_d0 h_S_) (broadcastInDim S20000 ![] bcast_S_S20000 (constant (F := Ideal) S_ .f32 0x45000000#32))
      = fun i => Spec.popular (m ((c.tc : Thread nD τ).loc main_arg1)) (i 0) :=
  (val_main_v54_eq _).trans (popular_eq _)

/-! ## The encoder -/

/-- The reference's denoised likes at `(i, k)`: the zero word where the mask bit is set, else the like. -/
theorem noisy_apply (x1 : (⟨S2048x20000, .f32⟩ : BufTy).Contents (Elt Ideal)) (x2 : (⟨S2048x20000, .i1⟩ : BufTy).Contents (Elt Ideal))
    (i : Fin 2048) (k : Fin 20000) :
    val_main_v0 (F := Ideal) x1 x2 (ix2 i k) = Spec.noisy x1 x2 i k := by
  rw [val_main_v0_apply, val_main_call0_v1_apply, val_main_call0_v0_apply, val_main_cst_apply]
  simp only [Ideal.ofBits_def, Ideal.ofBits_zero_f32]
  rfl

/-- The reference's hidden layer at `(i, j)`: the contraction over the 20000 items, the bias row broadcast down the
    batch, the relu against the zero word. -/
theorem hid_apply (x1 : (⟨S2048x20000, .f32⟩ : BufTy).Contents (Elt Ideal)) (x2 : (⟨S2048x20000, .i1⟩ : BufTy).Contents (Elt Ideal))
    (x3 : (⟨S20000x1024, .f32⟩ : BufTy).Contents (Elt Ideal)) (x4 : (⟨S1024, .f32⟩ : BufTy).Contents (Elt Ideal))
    (i : Fin 2048) (j : Fin 1024) :
    val_main_v5 (F := Ideal) x1 x2 x3 x4 (ix2 i j) = Spec.hid x1 x2 x3 x4 i j := by
  rw [val_main_v5_apply, val_main_v4_apply, val_main_v1_apply, val_main_v3_apply, val_main_v2_apply,
    val_main_call1_v0_apply, val_main_call1_cst_apply]
  have hl : ∀ k : Fin 20000, lidx_main_v1 (ix2 i j) k = ix2 i k := fun k =>
    funext fun a => Fin.ext (by match a with | ⟨0, _⟩ => rfl | ⟨1, _⟩ => rfl)
  have hr : ∀ k : Fin 20000, ridx_main_v1 (ix2 i j) k = ix2 k j := fun k =>
    funext fun a => Fin.ext (by match a with | ⟨0, _⟩ => rfl | ⟨1, _⟩ => rfl)
  have hb : idx_main_v2 (idx_main_v3 (ix2 i j)) = ix1 j :=
    funext fun a => Fin.ext (by match a with | ⟨0, _⟩ => rfl)
  simp only [hl, hr, hb, noisy_apply, Ideal.maximumf_def, Ideal.addf_def, Ideal.ofBits_def, Ideal.ofBits_zero_f32]
  rfl

/-- The reference's embedding at `(i, d)`: the contraction over the 1024 hidden units, the bias, the relu. -/
theorem embed_apply (x1 : (⟨S2048x20000, .f32⟩ : BufTy).Contents (Elt Ideal)) (x2 : (⟨S2048x20000, .i1⟩ : BufTy).Contents (Elt Ideal))
    (x3 : (⟨S20000x1024, .f32⟩ : BufTy).Contents (Elt Ideal)) (x4 : (⟨S1024, .f32⟩ : BufTy).Contents (Elt Ideal))
    (x5 : (⟨S1024x512, .f32⟩ : BufTy).Contents (Elt Ideal)) (x6 : (⟨S512, .f32⟩ : BufTy).Contents (Elt Ideal))
    (i : Fin 2048) (d : Fin 512) :
    val_main_v10 (F := Ideal) x1 x2 x3 x4 x5 x6 (ix2 i d) = Spec.embed x1 x2 x3 x4 x5 x6 i d := by
  rw [val_main_v10_apply, val_main_v9_apply, val_main_v6_apply, val_main_v8_apply, val_main_v7_apply,
    val_main_call2_v0_apply, val_main_call2_cst_apply]
  have hl : ∀ k : Fin 1024, lidx_main_v6 (ix2 i d) k = ix2 i k := fun k =>
    funext fun a => Fin.ext (by match a with | ⟨0, _⟩ => rfl | ⟨1, _⟩ => rfl)
  have hr : ∀ k : Fin 1024, ridx_main_v6 (ix2 i d) k = ix2 k d := fun k =>
    funext fun a => Fin.ext (by match a with | ⟨0, _⟩ => rfl | ⟨1, _⟩ => rfl)
  have hb : idx_main_v7 (idx_main_v8 (ix2 i d)) = ix1 d :=
    funext fun a => Fin.ext (by match a with | ⟨0, _⟩ => rfl)
  simp only [hl, hr, hb, hid_apply, Ideal.maximumf_def, Ideal.addf_def, Ideal.ofBits_def, Ideal.ofBits_zero_f32]
  rfl

/-! ## The two estimator heads -/

/-- The first head's hidden layer at `(i, j)`: the contraction of the embedding over its 512 coordinates, the bias,
    the relu. -/
theorem headhid_apply (x1 : (⟨S2048x20000, .f32⟩ : BufTy).Contents (Elt Ideal)) (x2 : (⟨S2048x20000, .i1⟩ : BufTy).Contents (Elt Ideal))
    (x3 : (⟨S20000x1024, .f32⟩ : BufTy).Contents (Elt Ideal)) (x4 : (⟨S1024, .f32⟩ : BufTy).Contents (Elt Ideal))
    (x5 : (⟨S1024x512, .f32⟩ : BufTy).Contents (Elt Ideal)) (x6 : (⟨S512, .f32⟩ : BufTy).Contents (Elt Ideal))
    (x7 : (⟨S512x1024, .f32⟩ : BufTy).Contents (Elt Ideal)) (x8 : (⟨S1024, .f32⟩ : BufTy).Contents (Elt Ideal)) (i : Fin 2048) (j : Fin 1024) :
    val_main_v15 (F := Ideal) x1 x2 x3 x4 x5 x6 x7 x8 (ix2 i j)
      = max (∑ d : Fin 512, Spec.embed x1 x2 x3 x4 x5 x6 i d * x7 (ix2 d j) + x8 (ix1 j)) 0 := by
  rw [val_main_v15_apply, val_main_v14_apply, val_main_v11_apply, val_main_v13_apply, val_main_v12_apply,
    val_main_call3_v0_apply, val_main_call3_cst_apply]
  have hl : ∀ k : Fin 512, lidx_main_v11 (ix2 i j) k = ix2 i k := fun k =>
    funext fun a => Fin.ext (by match a with | ⟨0, _⟩ => rfl | ⟨1, _⟩ => rfl)
  have hr : ∀ k : Fin 512, ridx_main_v11 (ix2 i j) k = ix2 k j := fun k =>
    funext fun a => Fin.ext (by match a with | ⟨0, _⟩ => rfl | ⟨1, _⟩ => rfl)
  have hb : idx_main_v12 (idx_main_v13 (ix2 i j)) = ix1 j :=
    funext fun a => Fin.ext (by match a with | ⟨0, _⟩ => rfl)
  simp only [hl, hr, hb, embed_apply, Ideal.maximumf_def, Ideal.addf_def, Ideal.ofBits_def, Ideal.ofBits_zero_f32]

/-- The first head at `(i, n)`: the contraction of its hidden layer over the 1024 units, the bias, and the sigmoid in
    the reference's own form `1 / (1 + exp (-x))`, the two ones the word of `1.0`. -/
theorem head_apply (x1 : (⟨S2048x20000, .f32⟩ : BufTy).Contents (Elt Ideal)) (x2 : (⟨S2048x20000, .i1⟩ : BufTy).Contents (Elt Ideal))
    (x3 : (⟨S20000x1024, .f32⟩ : BufTy).Contents (Elt Ideal)) (x4 : (⟨S1024, .f32⟩ : BufTy).Contents (Elt Ideal))
    (x5 : (⟨S1024x512, .f32⟩ : BufTy).Contents (Elt Ideal)) (x6 : (⟨S512, .f32⟩ : BufTy).Contents (Elt Ideal))
    (x7 : (⟨S512x1024, .f32⟩ : BufTy).Contents (Elt Ideal)) (x8 : (⟨S1024, .f32⟩ : BufTy).Contents (Elt Ideal))
    (x9 : (⟨S1024x20000, .f32⟩ : BufTy).Contents (Elt Ideal)) (x10 : (⟨S20000, .f32⟩ : BufTy).Contents (Elt Ideal)) (i : Fin 2048) (n : Fin 20000) :
    val_main_v25 (F := Ideal) x1 x2 x3 x4 x5 x6 x7 x8 x9 x10 (ix2 i n)
      = Spec.head (Spec.embed x1 x2 x3 x4 x5 x6) x7 x8 x9 x10 i n := by
  rw [val_main_v25_apply, val_main_v24_apply, val_main_cst_1_apply, val_main_v23_apply, val_main_v22_apply,
    val_main_cst_0_apply, val_main_v21_apply, val_main_v20_apply, val_main_v19_apply, val_main_v16_apply,
    val_main_v18_apply, val_main_v17_apply]
  have hl : ∀ k : Fin 1024, lidx_main_v16 (ix2 i n) k = ix2 i k := fun k =>
    funext fun a => Fin.ext (by match a with | ⟨0, _⟩ => rfl | ⟨1, _⟩ => rfl)
  have hr : ∀ k : Fin 1024, ridx_main_v16 (ix2 i n) k = ix2 k n := fun k =>
    funext fun a => Fin.ext (by match a with | ⟨0, _⟩ => rfl | ⟨1, _⟩ => rfl)
  have hb : idx_main_v17 (idx_main_v18 (ix2 i n)) = ix1 n :=
    funext fun a => Fin.ext (by match a with | ⟨0, _⟩ => rfl)
  simp only [hl, hr, hb, headhid_apply, Ideal.hostDivf_def, Ideal.addf_def, Ideal.hostUnary_exp_def, Ideal.hostNegf_def,
    Ideal.negf_def, Ideal.ofBits_def]
  rfl

/-- The first head, as a function of the index. -/
theorem head_eq (x1 : (⟨S2048x20000, .f32⟩ : BufTy).Contents (Elt Ideal)) (x2 : (⟨S2048x20000, .i1⟩ : BufTy).Contents (Elt Ideal))
    (x3 : (⟨S20000x1024, .f32⟩ : BufTy).Contents (Elt Ideal)) (x4 : (⟨S1024, .f32⟩ : BufTy).Contents (Elt Ideal))
    (x5 : (⟨S1024x512, .f32⟩ : BufTy).Contents (Elt Ideal)) (x6 : (⟨S512, .f32⟩ : BufTy).Contents (Elt Ideal))
    (x7 : (⟨S512x1024, .f32⟩ : BufTy).Contents (Elt Ideal)) (x8 : (⟨S1024, .f32⟩ : BufTy).Contents (Elt Ideal))
    (x9 : (⟨S1024x20000, .f32⟩ : BufTy).Contents (Elt Ideal)) (x10 : (⟨S20000, .f32⟩ : BufTy).Contents (Elt Ideal)) :
    val_main_v25 (F := Ideal) x1 x2 x3 x4 x5 x6 x7 x8 x9 x10
      = fun i => Spec.head (Spec.embed x1 x2 x3 x4 x5 x6) x7 x8 x9 x10 (i 0) (i 1) := by
  funext i
  obtain ⟨p, q, rfl⟩ : ∃ (p : Fin 2048) (q : Fin 20000), i = ix2 p q := ⟨i 0, i 1, eq_ix2 i⟩
  exact head_apply x1 x2 x3 x4 x5 x6 x7 x8 x9 x10 p q

/-- The second head is the first head's operations, one for one, applied to its own weights. -/
theorem head2_stage (x1 : (⟨S2048x20000, .f32⟩ : BufTy).Contents (Elt Ideal)) (x2 : (⟨S2048x20000, .i1⟩ : BufTy).Contents (Elt Ideal))
    (x3 : (⟨S20000x1024, .f32⟩ : BufTy).Contents (Elt Ideal)) (x4 : (⟨S1024, .f32⟩ : BufTy).Contents (Elt Ideal))
    (x5 : (⟨S1024x512, .f32⟩ : BufTy).Contents (Elt Ideal)) (x6 : (⟨S512, .f32⟩ : BufTy).Contents (Elt Ideal))
    (x11 : (⟨S512x1024, .f32⟩ : BufTy).Contents (Elt Ideal)) (x12 : (⟨S1024, .f32⟩ : BufTy).Contents (Elt Ideal))
    (x13 : (⟨S1024x20000, .f32⟩ : BufTy).Contents (Elt Ideal)) (x14 : (⟨S20000, .f32⟩ : BufTy).Contents (Elt Ideal)) :
    val_main_v40 (F := Ideal) x1 x2 x3 x4 x5 x6 x11 x12 x13 x14 = val_main_v25 (F := Ideal) x1 x2 x3 x4 x5 x6 x11 x12 x13 x14 := rfl

/-- The term the reference's run states for its first result (the likes estimator). -/
theorem out0_eq (m : (ℓ : Loc nD τ sig) → Buf (Elt Ideal) ℓ) (c : Dev nD) :
    val_main_v25 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      = fun i => Spec.head (Spec.embed (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
          (m ((c.tc : Thread nD τ).loc main_arg7)) (m ((c.tc : Thread nD τ).loc main_arg8)) (m ((c.tc : Thread nD τ).loc main_arg9)) (m ((c.tc : Thread nD τ).loc main_arg10)) (i 0) (i 1) :=
  head_eq _ _ _ _ _ _ _ _ _ _

/-- The term the reference's run states for its third result (the recommendation estimator). -/
theorem out2_eq (m : (ℓ : Loc nD τ sig) → Buf (Elt Ideal) ℓ) (c : Dev nD) :
    val_main_v40 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg11)) (m ((c.tc : Thread nD τ).loc main_arg12)) (m ((c.tc : Thread nD τ).loc main_arg13)) (m ((c.tc : Thread nD τ).loc main_arg14))
      = fun i => Spec.head (Spec.embed (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
          (m ((c.tc : Thread nD τ).loc main_arg11)) (m ((c.tc : Thread nD τ).loc main_arg12)) (m ((c.tc : Thread nD τ).loc main_arg13)) (m ((c.tc : Thread nD τ).loc main_arg14)) (i 0) (i 1) :=
  (head2_stage _ _ _ _ _ _ _ _ _ _).trans (head_eq _ _ _ _ _ _ _ _ _ _)

/-! ## The similarity matrix -/

/-- The reference's normalised embedding at `(i, d)`: the row's squared length (the reduction starts from the zero word)
    floored at `eps`, its reciprocal root broadcast along the row, times the entry. -/
theorem normed_apply (x1 : (⟨S2048x20000, .f32⟩ : BufTy).Contents (Elt Ideal)) (x2 : (⟨S2048x20000, .i1⟩ : BufTy).Contents (Elt Ideal))
    (x3 : (⟨S20000x1024, .f32⟩ : BufTy).Contents (Elt Ideal)) (x4 : (⟨S1024, .f32⟩ : BufTy).Contents (Elt Ideal))
    (x5 : (⟨S1024x512, .f32⟩ : BufTy).Contents (Elt Ideal)) (x6 : (⟨S512, .f32⟩ : BufTy).Contents (Elt Ideal))
    (i : Fin 2048) (d : Fin 512) :
    val_main_v48 (F := Ideal) x1 x2 x3 x4 x5 x6 (ix2 i d) = Spec.normed (Spec.embed x1 x2 x3 x4 x5 x6) i d := by
  rw [val_main_v48_apply, val_main_v47_apply, val_main_v46_apply, val_main_v45_apply, val_main_v43_apply,
    val_main_v42_apply, val_main_v44_apply, val_main_cst_5_apply, val_main_cst_4_apply]
  have hq : ∀ k : Fin 512, idx_main_v42 (idx_main_v43 (idx_main_v47 (ix2 i d))) k = ix2 i k := fun k =>
    funext fun a => Fin.ext (by match a with | ⟨0, _⟩ => rfl | ⟨1, _⟩ => rfl)
  simp only [hq, val_main_v41_apply, embed_apply, Ideal.mulf_def, Ideal.maximumf_def, Ideal.hostUnary_rsqrt_def,
    Ideal.ofBits_def, Ideal.ofBits_zero_f32, zero_add]
  rfl

/-- The reference's similarity at `(i, i')`: minus the contraction of the normalised rows `i` and `i'` (the second
    operand is the transpose, read back at `(i', d)`). -/
theorem sim_apply (x1 : (⟨S2048x20000, .f32⟩ : BufTy).Contents (Elt Ideal)) (x2 : (⟨S2048x20000, .i1⟩ : BufTy).Contents (Elt Ideal))
    (x3 : (⟨S20000x1024, .f32⟩ : BufTy).Contents (Elt Ideal)) (x4 : (⟨S1024, .f32⟩ : BufTy).Contents (Elt Ideal))
    (x5 : (⟨S1024x512, .f32⟩ : BufTy).Contents (Elt Ideal)) (x6 : (⟨S512, .f32⟩ : BufTy).Contents (Elt Ideal))
    (i i' : Fin 2048) :
    val_main_v51 (F := Ideal) x1 x2 x3 x4 x5 x6 (ix2 i i') = Spec.sim (Spec.embed x1 x2 x3 x4 x5 x6) i i' := by
  rw [val_main_v51_apply, val_main_v50_apply]
  have hl : ∀ k : Fin 512, lidx_main_v50 (ix2 i i') k = ix2 i k := fun k =>
    funext fun a => Fin.ext (by match a with | ⟨0, _⟩ => rfl | ⟨1, _⟩ => rfl)
  have hr : ∀ k : Fin 512, idx_main_v49 (ridx_main_v50 (ix2 i i') k) = ix2 i' k := fun k =>
    funext fun a => Fin.ext (by match a with | ⟨0, _⟩ => rfl | ⟨1, _⟩ => rfl)
  simp only [val_main_v49_apply, hl, hr, normed_apply, Ideal.hostNegf_def, Ideal.negf_def]
  rfl

/-- The similarity matrix, as a function of the index. -/
theorem sim_eq (x1 : (⟨S2048x20000, .f32⟩ : BufTy).Contents (Elt Ideal)) (x2 : (⟨S2048x20000, .i1⟩ : BufTy).Contents (Elt Ideal))
    (x3 : (⟨S20000x1024, .f32⟩ : BufTy).Contents (Elt Ideal)) (x4 : (⟨S1024, .f32⟩ : BufTy).Contents (Elt Ideal))
    (x5 : (⟨S1024x512, .f32⟩ : BufTy).Contents (Elt Ideal)) (x6 : (⟨S512, .f32⟩ : BufTy).Contents (Elt Ideal)) :
    val_main_v51 (F := Ideal) x1 x2 x3 x4 x5 x6
      = fun i => Spec.sim (Spec.embed x1 x2 x3 x4 x5 x6) (i 0) (i 1) := by
  funext i
  obtain ⟨p, q, rfl⟩ : ∃ (p : Fin 2048) (q : Fin 2048), i = ix2 p q := ⟨i 0, i 1, eq_ix2 i⟩
  exact sim_apply x1 x2 x3 x4 x5 x6 p q

/-- The term the reference's run names for its second result. -/
theorem out1_eq (m : (ℓ : Loc nD τ sig) → Buf (Elt Ideal) ℓ) (c : Dev nD) :
    Cert.ReferenceIdeal.Value.res_out1 m c
      = fun i => Spec.sim (Spec.embed (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (i 0) (i 1) :=
  (val_main_v51_eq m c).trans (sim_eq _ _ _ _ _ _)

/-! ## The reference's run, its results the specification's functions -/

/-- Every weakly fair execution of the reference terminates with its four results the specification's functions of
    the argument arrays — the two heads over the one embedding, the similarity matrix, the popularity — and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v25) = (fun i => Spec.head (Spec.embed (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
          (m ((c.tc : Thread nD τ).loc main_arg7)) (m ((c.tc : Thread nD τ).loc main_arg8)) (m ((c.tc : Thread nD τ).loc main_arg9)) (m ((c.tc : Thread nD τ).loc main_arg10)) (i 0) (i 1))
      ∧ r.2.mem ((c.tc : Thread nD τ).loc main_v51) = (fun i => Spec.sim (Spec.embed (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (i 0) (i 1))
      ∧ r.2.mem ((c.tc : Thread nD τ).loc main_v40) = (fun i => Spec.head (Spec.embed (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
          (m ((c.tc : Thread nD τ).loc main_arg11)) (m ((c.tc : Thread nD τ).loc main_arg12)) (m ((c.tc : Thread nD τ).loc main_arg13)) (m ((c.tc : Thread nD τ).loc main_arg14)) (i 0) (i 1))
      ∧ r.2.mem ((c.tc : Thread nD τ).loc main_v54) = (fun i => Spec.popular (m ((c.tc : Thread nD τ).loc main_arg1)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c).1.trans (out0_eq m c), (h c).2.1.trans (out1_eq m c),
      (h c).2.2.1.trans (out2_eq m c), (h c).2.2.2.1.trans (out3_eq m c), (h c).2.2.2.2⟩)
    (Cert.ReferenceIdeal.Value.run (F := Ideal) m ρ)

end Cert.RefSpec

end
-- ==== Proof.lean ====
/- The certificate of the recommender forward pass: an encoder (two dense layers over a masked input), two heads (a dense
   layer and a sigmoid output layer each), the negated cosine Gram matrix of the embeddings and the column means of the
   input — five kernels among host operations — against the plain array program.
   Frames: each program runs to the end, faults nowhere and leaves its arguments unchanged — the kernel program's from the
   run of its 22 segments (a region record per kernel), at the word-level and at the exact-real instance; the reference's
   from its run. The idealization rewrote nothing. At the exact-real instance the two programs' results agree index by
   index: both are the same functions of the argument arrays (sums over zero-padded or blocked ranges are the plain sums). -/
import proofs.«175587_j47510928228669_1_alg».proof.Defs
import proofs.«175587_j47510928228669_1_alg».proof.Proof.Gen.Kernel
import proofs.«175587_j47510928228669_1_alg».proof.Proof.Gen.KernelIdeal
import proofs.«175587_j47510928228669_1_alg».proof.Proof.Gen.ReferenceIdeal
import proofs.«175587_j47510928228669_1_alg».proof.Proof.Gen.ReferenceIdeal.Run
import proofs.«175587_j47510928228669_1_alg».proof.Proof.Gen.ReferenceIdeal.Read
import proofs.«175587_j47510928228669_1_alg».proof.Proof.Gen.Pre_finite_inputs
import proofs.«175587_j47510928228669_1_alg».proof.Proof.K.Main
import proofs.«175587_j47510928228669_1_alg».proof.Proof.KI.Main
import proofs.«175587_j47510928228669_1_alg».proof.Proof.KI.Bridge
import proofs.«175587_j47510928228669_1_alg».proof.Proof.RefSpec
import Idealize.ShloMosaic.Adequacy
import Idealize.ShloMosaic.Init

noncomputable section

namespace Cert.Proof

open Idealize.ShloMosaic Idealize.SL.Sem

/-- The word-level program's frame: the run of its segments. -/
theorem frame_k : Cert.frame_Kernel (hKernel := Cert.Kernel.Gen.facts) (hPre_finite_inputs := Cert.Pre_finite_inputs.Gen.facts) :=
  fun m ρ _ => Cert.Kernel.Hand.frame (F := Bits) m ρ
/-- The same at the exact-real instance. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ
/-- The reference's frame: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.Value.run (F := Ideal) m ρ)
/-- The idealization rewrote no operation. -/
theorem preserves : Cert.preserves_Kernel_KernelIdeal := trivial

/-- At the exact-real instance both programs end with the four results at ONE function of the argument arrays each: the
    kernel program by its run read against the specification (the encoder's blocked, zero-padded contraction is the plain
    one; a head's sigmoid of a padded contraction is the plain one inside the extent; the mean is the scaled column sum),
    the reference by its generated run read against the same specification; the arguments agree by hypothesis. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => (fun i => Cert.RefSpec.Spec.head (Cert.KernelIdeal.Hand.embedOf m c) (Cert.KernelIdeal.Hand.argLW1 m c) (Cert.KernelIdeal.Hand.argLB1 m c) (Cert.KernelIdeal.Hand.argLW2 m c) (Cert.KernelIdeal.Hand.argLB2 m c) (i 0) (i 1)), fun c => (fun i => Cert.RefSpec.Spec.sim (Cert.KernelIdeal.Hand.embedOf m c) (i 0) (i 1)),
    fun c => (fun i => Cert.RefSpec.Spec.head (Cert.KernelIdeal.Hand.embedOf m c) (Cert.KernelIdeal.Hand.argRW1 m c) (Cert.KernelIdeal.Hand.argRB1 m c) (Cert.KernelIdeal.Hand.argRW2 m c) (Cert.KernelIdeal.Hand.argRB2 m c) (i 0) (i 1)), fun c => (fun i => Cert.RefSpec.Spec.popular (Cert.KernelIdeal.Hand.argLikes m c) (i 0)),
    Cert.KernelIdeal.Hand.run_spec m ρ, ?_⟩
  refine (θ_run Cert.ReferenceIdeal.defs _ _).mono (fun r h c => ?_) (Cert.RefSpec.run m' ρ')
  have ha := hagree c
  obtain ⟨h0, h1, h2, h3, hargs⟩ := h c
  refine ⟨h0.trans ?_, h1.trans ?_, h2.trans ?_, h3.trans ?_, hargs⟩
  all_goals
    simp only [Cert.KernelIdeal.Hand.embedOf, Cert.KernelIdeal.Hand.argLikes, Cert.KernelIdeal.Hand.argMask, Cert.KernelIdeal.Hand.argW1, Cert.KernelIdeal.Hand.argB1, Cert.KernelIdeal.Hand.argW2, Cert.KernelIdeal.Hand.argB2, Cert.KernelIdeal.Hand.argLW1, Cert.KernelIdeal.Hand.argLB1, Cert.KernelIdeal.Hand.argLW2, Cert.KernelIdeal.Hand.argLB2, Cert.KernelIdeal.Hand.argRW1, Cert.KernelIdeal.Hand.argRB1, Cert.KernelIdeal.Hand.argRW2, Cert.KernelIdeal.Hand.argRB2]
    simp only [ha.2.1, ha.2.2.1, ha.2.2.2.1, ha.2.2.2.2.1, ha.2.2.2.2.2.1, ha.2.2.2.2.2.2.1, ha.2.2.2.2.2.2.2.1, ha.2.2.2.2.2.2.2.2.1, ha.2.2.2.2.2.2.2.2.2.1, ha.2.2.2.2.2.2.2.2.2.2.1, ha.2.2.2.2.2.2.2.2.2.2.2.1, ha.2.2.2.2.2.2.2.2.2.2.2.2.1, ha.2.2.2.2.2.2.2.2.2.2.2.2.2.1, ha.2.2.2.2.2.2.2.2.2.2.2.2.2.2]
    try rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
